-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2016 : Shape := ⟨2, ![32768, 2016]⟩
abbrev S_ : Shape := ⟨0, ![]⟩

class Facts : Prop where
  bcast_S_S32768x2016 : S_.BroadcastsInDim S32768x2016 (![] : Fin 0 → Fin S32768x2016.rank)
  reducesTo_S32768x2016_S_d0_1 : S32768x2016.ReducesTo [0, 1] S_
  h_S_ : 0 < S_.numel

variable [Facts]

def fn {F : FTy → Type} [FloatOps F] (main_arg0 : FVec F S32768x2016 .f32) : IVec S_ 1 :=
  let main_v0 : FVec F S32768x2016 .f32 := Host.absf main_arg0
  let main_cst : FVec F S_ .f32 := constant S_ .f32 0x7F800000#32
  let main_v1 : FVec F S32768x2016 .f32 := broadcastInDim S32768x2016 ![] bcast_S_S32768x2016 main_cst
  let main_v2 : IVec S32768x2016 1 := cmpf .olt main_v0 main_v1
  let main_c : IVec S_ 1 := constantI S_ 1 1#1
  let main_v3 : IVec S_ 1 := (fun x v => Host.reduce IntOp.andi x v reducesTo_S32768x2016_S_d0_1 h_S_) main_v2 main_c
  main_v3
-- ==== Kernel.lean ====
abbrev S32768x2016 : Shape := ⟨2, ![32768, 2016]⟩
abbrev S32768x64x64 : Shape := ⟨3, ![32768, 64, 64]⟩
abbrev S256x2016 : Shape := ⟨2, ![256, 2016]⟩
abbrev S256x64x64 : Shape := ⟨3, ![256, 64, 64]⟩
abbrev S256x1 : Shape := ⟨2, ![256, 1]⟩
abbrev S256x1x1 : Shape := ⟨3, ![256, 1, 1]⟩
abbrev S256x2 : Shape := ⟨2, ![256, 2]⟩
abbrev S256x1x2 : Shape := ⟨3, ![256, 1, 2]⟩
abbrev S256x3 : Shape := ⟨2, ![256, 3]⟩
abbrev S256x1x3 : Shape := ⟨3, ![256, 1, 3]⟩
abbrev S256x4 : Shape := ⟨2, ![256, 4]⟩
abbrev S256x1x4 : Shape := ⟨3, ![256, 1, 4]⟩
abbrev S256x5 : Shape := ⟨2, ![256, 5]⟩
abbrev S256x1x5 : Shape := ⟨3, ![256, 1, 5]⟩
abbrev S256x6 : Shape := ⟨2, ![256, 6]⟩
abbrev S256x1x6 : Shape := ⟨3, ![256, 1, 6]⟩
abbrev S256x7 : Shape := ⟨2, ![256, 7]⟩
abbrev S256x1x7 : Shape := ⟨3, ![256, 1, 7]⟩
abbrev S256x8 : Shape := ⟨2, ![256, 8]⟩
abbrev S256x1x8 : Shape := ⟨3, ![256, 1, 8]⟩
abbrev S256x9 : Shape := ⟨2, ![256, 9]⟩
abbrev S256x1x9 : Shape := ⟨3, ![256, 1, 9]⟩
abbrev S256x10 : Shape := ⟨2, ![256, 10]⟩
abbrev S256x1x10 : Shape := ⟨3, ![256, 1, 10]⟩
abbrev S256x11 : Shape := ⟨2, ![256, 11]⟩
abbrev S256x1x11 : Shape := ⟨3, ![256, 1, 11]⟩
abbrev S256x12 : Shape := ⟨2, ![256, 12]⟩
abbrev S256x1x12 : Shape := ⟨3, ![256, 1, 12]⟩
abbrev S256x13 : Shape := ⟨2, ![256, 13]⟩
abbrev S256x1x13 : Shape := ⟨3, ![256, 1, 13]⟩
abbrev S256x14 : Shape := ⟨2, ![256, 14]⟩
abbrev S256x1x14 : Shape := ⟨3, ![256, 1, 14]⟩
abbrev S256x15 : Shape := ⟨2, ![256, 15]⟩
abbrev S256x1x15 : Shape := ⟨3, ![256, 1, 15]⟩
abbrev S256x16 : Shape := ⟨2, ![256, 16]⟩
abbrev S256x1x16 : Shape := ⟨3, ![256, 1, 16]⟩
abbrev S256x17 : Shape := ⟨2, ![256, 17]⟩
abbrev S256x1x17 : Shape := ⟨3, ![256, 1, 17]⟩
abbrev S256x18 : Shape := ⟨2, ![256, 18]⟩
abbrev S256x1x18 : Shape := ⟨3, ![256, 1, 18]⟩
abbrev S256x19 : Shape := ⟨2, ![256, 19]⟩
abbrev S256x1x19 : Shape := ⟨3, ![256, 1, 19]⟩
abbrev S256x20 : Shape := ⟨2, ![256, 20]⟩
abbrev S256x1x20 : Shape := ⟨3, ![256, 1, 20]⟩
abbrev S256x21 : Shape := ⟨2, ![256, 21]⟩
abbrev S256x1x21 : Shape := ⟨3, ![256, 1, 21]⟩
abbrev S256x22 : Shape := ⟨2, ![256, 22]⟩
abbrev S256x1x22 : Shape := ⟨3, ![256, 1, 22]⟩
abbrev S256x23 : Shape := ⟨2, ![256, 23]⟩
abbrev S256x1x23 : Shape := ⟨3, ![256, 1, 23]⟩
abbrev S256x24 : Shape := ⟨2, ![256, 24]⟩
abbrev S256x1x24 : Shape := ⟨3, ![256, 1, 24]⟩
abbrev S256x25 : Shape := ⟨2, ![256, 25]⟩
abbrev S256x1x25 : Shape := ⟨3, ![256, 1, 25]⟩
abbrev S256x26 : Shape := ⟨2, ![256, 26]⟩
abbrev S256x1x26 : Shape := ⟨3, ![256, 1, 26]⟩
abbrev S256x27 : Shape := ⟨2, ![256, 27]⟩
abbrev S256x1x27 : Shape := ⟨3, ![256, 1, 27]⟩
abbrev S256x28 : Shape := ⟨2, ![256, 28]⟩
abbrev S256x1x28 : Shape := ⟨3, ![256, 1, 28]⟩
abbrev S256x29 : Shape := ⟨2, ![256, 29]⟩
abbrev S256x1x29 : Shape := ⟨3, ![256, 1, 29]⟩
abbrev S256x30 : Shape := ⟨2, ![256, 30]⟩
abbrev S256x1x30 : Shape := ⟨3, ![256, 1, 30]⟩
abbrev S256x31 : Shape := ⟨2, ![256, 31]⟩
abbrev S256x1x31 : Shape := ⟨3, ![256, 1, 31]⟩
abbrev S256x32 : Shape := ⟨2, ![256, 32]⟩
abbrev S256x1x32 : Shape := ⟨3, ![256, 1, 32]⟩
abbrev S256x33 : Shape := ⟨2, ![256, 33]⟩
abbrev S256x1x33 : Shape := ⟨3, ![256, 1, 33]⟩
abbrev S256x34 : Shape := ⟨2, ![256, 34]⟩
abbrev S256x1x34 : Shape := ⟨3, ![256, 1, 34]⟩
abbrev S256x35 : Shape := ⟨2, ![256, 35]⟩
abbrev S256x1x35 : Shape := ⟨3, ![256, 1, 35]⟩
abbrev S256x36 : Shape := ⟨2, ![256, 36]⟩
abbrev S256x1x36 : Shape := ⟨3, ![256, 1, 36]⟩
abbrev S256x37 : Shape := ⟨2, ![256, 37]⟩
abbrev S256x1x37 : Shape := ⟨3, ![256, 1, 37]⟩
abbrev S256x38 : Shape := ⟨2, ![256, 38]⟩
abbrev S256x1x38 : Shape := ⟨3, ![256, 1, 38]⟩
abbrev S256x39 : Shape := ⟨2, ![256, 39]⟩
abbrev S256x1x39 : Shape := ⟨3, ![256, 1, 39]⟩
abbrev S256x40 : Shape := ⟨2, ![256, 40]⟩
abbrev S256x1x40 : Shape := ⟨3, ![256, 1, 40]⟩
abbrev S256x41 : Shape := ⟨2, ![256, 41]⟩
abbrev S256x1x41 : Shape := ⟨3, ![256, 1, 41]⟩
abbrev S256x42 : Shape := ⟨2, ![256, 42]⟩
abbrev S256x1x42 : Shape := ⟨3, ![256, 1, 42]⟩
abbrev S256x43 : Shape := ⟨2, ![256, 43]⟩
abbrev S256x1x43 : Shape := ⟨3, ![256, 1, 43]⟩
abbrev S256x44 : Shape := ⟨2, ![256, 44]⟩
abbrev S256x1x44 : Shape := ⟨3, ![256, 1, 44]⟩
abbrev S256x45 : Shape := ⟨2, ![256, 45]⟩
abbrev S256x1x45 : Shape := ⟨3, ![256, 1, 45]⟩
abbrev S256x46 : Shape := ⟨2, ![256, 46]⟩
abbrev S256x1x46 : Shape := ⟨3, ![256, 1, 46]⟩
abbrev S256x47 : Shape := ⟨2, ![256, 47]⟩
abbrev S256x1x47 : Shape := ⟨3, ![256, 1, 47]⟩
abbrev S256x48 : Shape := ⟨2, ![256, 48]⟩
abbrev S256x1x48 : Shape := ⟨3, ![256, 1, 48]⟩
abbrev S256x49 : Shape := ⟨2, ![256, 49]⟩
abbrev S256x1x49 : Shape := ⟨3, ![256, 1, 49]⟩
abbrev S256x50 : Shape := ⟨2, ![256, 50]⟩
abbrev S256x1x50 : Shape := ⟨3, ![256, 1, 50]⟩
abbrev S256x51 : Shape := ⟨2, ![256, 51]⟩
abbrev S256x1x51 : Shape := ⟨3, ![256, 1, 51]⟩
abbrev S256x52 : Shape := ⟨2, ![256, 52]⟩
abbrev S256x1x52 : Shape := ⟨3, ![256, 1, 52]⟩
abbrev S256x53 : Shape := ⟨2, ![256, 53]⟩
abbrev S256x1x53 : Shape := ⟨3, ![256, 1, 53]⟩
abbrev S256x54 : Shape := ⟨2, ![256, 54]⟩
abbrev S256x1x54 : Shape := ⟨3, ![256, 1, 54]⟩
abbrev S256x55 : Shape := ⟨2, ![256, 55]⟩
abbrev S256x1x55 : Shape := ⟨3, ![256, 1, 55]⟩
abbrev S256x56 : Shape := ⟨2, ![256, 56]⟩
abbrev S256x1x56 : Shape := ⟨3, ![256, 1, 56]⟩
abbrev S256x57 : Shape := ⟨2, ![256, 57]⟩
abbrev S256x1x57 : Shape := ⟨3, ![256, 1, 57]⟩
abbrev S256x58 : Shape := ⟨2, ![256, 58]⟩
abbrev S256x1x58 : Shape := ⟨3, ![256, 1, 58]⟩
abbrev S256x59 : Shape := ⟨2, ![256, 59]⟩
abbrev S256x1x59 : Shape := ⟨3, ![256, 1, 59]⟩
abbrev S256x60 : Shape := ⟨2, ![256, 60]⟩
abbrev S256x1x60 : Shape := ⟨3, ![256, 1, 60]⟩
abbrev S256x61 : Shape := ⟨2, ![256, 61]⟩
abbrev S256x1x61 : Shape := ⟨3, ![256, 1, 61]⟩
abbrev S256x62 : Shape := ⟨2, ![256, 62]⟩
abbrev S256x1x62 : Shape := ⟨3, ![256, 1, 62]⟩
abbrev S256x63 : Shape := ⟨2, ![256, 63]⟩
abbrev S256x1x63 : Shape := ⟨3, ![256, 1, 63]⟩

abbrev nBuf : Space → Nat
  | .hbm => 2
  | .vmem => 5
  | .smem => 0
  | _ => 0

abbrev bufTy : (tb : Table) → Fin (tcTables nBuf tb) → BufTy
  | .hbm, ⟨0, _⟩ => ⟨S32768x2016, .f32⟩
  | .hbm, ⟨1, _⟩ => ⟨S32768x64x64, .f32⟩
  | .local _ .vmem, ⟨0, _⟩ => ⟨S256x2016, .f32⟩
  | .local _ .vmem, ⟨1, _⟩ => ⟨S256x2016, .f32⟩
  | .local _ .vmem, ⟨2, _⟩ => ⟨S256x64x64, .f32⟩
  | .local _ .vmem, ⟨3, _⟩ => ⟨S256x64x64, .f32⟩
  | .local _ .vmem, ⟨4, _⟩ => ⟨S256x64x64, .f32⟩
  | _, _ => ⟨S32768x2016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2016 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x64_S256x64x64_0_0_0 : ∀ a, (![0, 0, 0] : Fin 3 → Nat) a + S256x64x64.size a ≤ S256x64x64.size a
  h_S256x64x64 : 0 < S256x64x64.numel
  shapeCasts_S256x64x64_S256x64x64 : S256x64x64.ShapeCasts S256x64x64
  inb_S256x2016_S256x1_0_0 : ∀ a, (![0, 0] : Fin 2 → Nat) a + S256x1.size a ≤ S256x2016.size a
  h_S256x1 : 0 < S256x1.numel
  shapeCasts_S256x1_S256x1x1 : S256x1.ShapeCasts S256x1x1
  inb_S256x64x64_S256x1x1_0_1_0 : ∀ a, (![0, 1, 0] : Fin 3 → Nat) a + S256x1x1.size a ≤ S256x64x64.size a
  h_S256x1x1 : 0 < S256x1x1.numel
  shapeCasts_S256x1x1_S256x1x1 : S256x1x1.ShapeCasts S256x1x1
  inb_S256x2016_S256x2_0_1 : ∀ a, (![0, 1] : Fin 2 → Nat) a + S256x2.size a ≤ S256x2016.size a
  h_S256x2 : 0 < S256x2.numel
  shapeCasts_S256x2_S256x1x2 : S256x2.ShapeCasts S256x1x2
  inb_S256x64x64_S256x1x2_0_2_0 : ∀ a, (![0, 2, 0] : Fin 3 → Nat) a + S256x1x2.size a ≤ S256x64x64.size a
  h_S256x1x2 : 0 < S256x1x2.numel
  shapeCasts_S256x1x2_S256x1x2 : S256x1x2.ShapeCasts S256x1x2
  inb_S256x2016_S256x3_0_3 : ∀ a, (![0, 3] : Fin 2 → Nat) a + S256x3.size a ≤ S256x2016.size a
  h_S256x3 : 0 < S256x3.numel
  shapeCasts_S256x3_S256x1x3 : S256x3.ShapeCasts S256x1x3
  inb_S256x64x64_S256x1x3_0_3_0 : ∀ a, (![0, 3, 0] : Fin 3 → Nat) a + S256x1x3.size a ≤ S256x64x64.size a
  h_S256x1x3 : 0 < S256x1x3.numel
  shapeCasts_S256x1x3_S256x1x3 : S256x1x3.ShapeCasts S256x1x3
  inb_S256x2016_S256x4_0_6 : ∀ a, (![0, 6] : Fin 2 → Nat) a + S256x4.size a ≤ S256x2016.size a
  h_S256x4 : 0 < S256x4.numel
  shapeCasts_S256x4_S256x1x4 : S256x4.ShapeCasts S256x1x4
  inb_S256x64x64_S256x1x4_0_4_0 : ∀ a, (![0, 4, 0] : Fin 3 → Nat) a + S256x1x4.size a ≤ S256x64x64.size a
  h_S256x1x4 : 0 < S256x1x4.numel
  shapeCasts_S256x1x4_S256x1x4 : S256x1x4.ShapeCasts S256x1x4
  inb_S256x2016_S256x5_0_10 : ∀ a, (![0, 10] : Fin 2 → Nat) a + S256x5.size a ≤ S256x2016.size a
  h_S256x5 : 0 < S256x5.numel
  shapeCasts_S256x5_S256x1x5 : S256x5.ShapeCasts S256x1x5
  inb_S256x64x64_S256x1x5_0_5_0 : ∀ a, (![0, 5, 0] : Fin 3 → Nat) a + S256x1x5.size a ≤ S256x64x64.size a
  h_S256x1x5 : 0 < S256x1x5.numel
  shapeCasts_S256x1x5_S256x1x5 : S256x1x5.ShapeCasts S256x1x5
  inb_S256x2016_S256x6_0_15 : ∀ a, (![0, 15] : Fin 2 → Nat) a + S256x6.size a ≤ S256x2016.size a
  h_S256x6 : 0 < S256x6.numel
  shapeCasts_S256x6_S256x1x6 : S256x6.ShapeCasts S256x1x6
  inb_S256x64x64_S256x1x6_0_6_0 : ∀ a, (![0, 6, 0] : Fin 3 → Nat) a + S256x1x6.size a ≤ S256x64x64.size a
  h_S256x1x6 : 0 < S256x1x6.numel
  shapeCasts_S256x1x6_S256x1x6 : S256x1x6.ShapeCasts S256x1x6
  inb_S256x2016_S256x7_0_21 : ∀ a, (![0, 21] : Fin 2 → Nat) a + S256x7.size a ≤ S256x2016.size a
  h_S256x7 : 0 < S256x7.numel
  shapeCasts_S256x7_S256x1x7 : S256x7.ShapeCasts S256x1x7
  inb_S256x64x64_S256x1x7_0_7_0 : ∀ a, (![0, 7, 0] : Fin 3 → Nat) a + S256x1x7.size a ≤ S256x64x64.size a
  h_S256x1x7 : 0 < S256x1x7.numel
  shapeCasts_S256x1x7_S256x1x7 : S256x1x7.ShapeCasts S256x1x7
  inb_S256x2016_S256x8_0_28 : ∀ a, (![0, 28] : Fin 2 → Nat) a + S256x8.size a ≤ S256x2016.size a
  h_S256x8 : 0 < S256x8.numel
  shapeCasts_S256x8_S256x1x8 : S256x8.ShapeCasts S256x1x8
  inb_S256x64x64_S256x1x8_0_8_0 : ∀ a, (![0, 8, 0] : Fin 3 → Nat) a + S256x1x8.size a ≤ S256x64x64.size a
  h_S256x1x8 : 0 < S256x1x8.numel
  shapeCasts_S256x1x8_S256x1x8 : S256x1x8.ShapeCasts S256x1x8
  inb_S256x2016_S256x9_0_36 : ∀ a, (![0, 36] : Fin 2 → Nat) a + S256x9.size a ≤ S256x2016.size a
  h_S256x9 : 0 < S256x9.numel
  shapeCasts_S256x9_S256x1x9 : S256x9.ShapeCasts S256x1x9
  inb_S256x64x64_S256x1x9_0_9_0 : ∀ a, (![0, 9, 0] : Fin 3 → Nat) a + S256x1x9.size a ≤ S256x64x64.size a
  h_S256x1x9 : 0 < S256x1x9.numel
  shapeCasts_S256x1x9_S256x1x9 : S256x1x9.ShapeCasts S256x1x9
  inb_S256x2016_S256x10_0_45 : ∀ a, (![0, 45] : Fin 2 → Nat) a + S256x10.size a ≤ S256x2016.size a
  h_S256x10 : 0 < S256x10.numel
  shapeCasts_S256x10_S256x1x10 : S256x10.ShapeCasts S256x1x10
  inb_S256x64x64_S256x1x10_0_10_0 : ∀ a, (![0, 10, 0] : Fin 3 → Nat) a + S256x1x10.size a ≤ S256x64x64.size a
  h_S256x1x10 : 0 < S256x1x10.numel
  shapeCasts_S256x1x10_S256x1x10 : S256x1x10.ShapeCasts S256x1x10
  inb_S256x2016_S256x11_0_55 : ∀ a, (![0, 55] : Fin 2 → Nat) a + S256x11.size a ≤ S256x2016.size a
  h_S256x11 : 0 < S256x11.numel
  shapeCasts_S256x11_S256x1x11 : S256x11.ShapeCasts S256x1x11
  inb_S256x64x64_S256x1x11_0_11_0 : ∀ a, (![0, 11, 0] : Fin 3 → Nat) a + S256x1x11.size a ≤ S256x64x64.size a
  h_S256x1x11 : 0 < S256x1x11.numel
  shapeCasts_S256x1x11_S256x1x11 : S256x1x11.ShapeCasts S256x1x11
  inb_S256x2016_S256x12_0_66 : ∀ a, (![0, 66] : Fin 2 → Nat) a + S256x12.size a ≤ S256x2016.size a
  h_S256x12 : 0 < S256x12.numel
  shapeCasts_S256x12_S256x1x12 : S256x12.ShapeCasts S256x1x12
  inb_S256x64x64_S256x1x12_0_12_0 : ∀ a, (![0, 12, 0] : Fin 3 → Nat) a + S256x1x12.size a ≤ S256x64x64.size a
  h_S256x1x12 : 0 < S256x1x12.numel
  shapeCasts_S256x1x12_S256x1x12 : S256x1x12.ShapeCasts S256x1x12
  inb_S256x2016_S256x13_0_78 : ∀ a, (![0, 78] : Fin 2 → Nat) a + S256x13.size a ≤ S256x2016.size a
  h_S256x13 : 0 < S256x13.numel
  shapeCasts_S256x13_S256x1x13 : S256x13.ShapeCasts S256x1x13
  inb_S256x64x64_S256x1x13_0_13_0 : ∀ a, (![0, 13, 0] : Fin 3 → Nat) a + S256x1x13.size a ≤ S256x64x64.size a
  h_S256x1x13 : 0 < S256x1x13.numel
  shapeCasts_S256x1x13_S256x1x13 : S256x1x13.ShapeCasts S256x1x13
  inb_S256x2016_S256x14_0_91 : ∀ a, (![0, 91] : Fin 2 → Nat) a + S256x14.size a ≤ S256x2016.size a
  h_S256x14 : 0 < S256x14.numel
  shapeCasts_S256x14_S256x1x14 : S256x14.ShapeCasts S256x1x14
  inb_S256x64x64_S256x1x14_0_14_0 : ∀ a, (![0, 14, 0] : Fin 3 → Nat) a + S256x1x14.size a ≤ S256x64x64.size a
  h_S256x1x14 : 0 < S256x1x14.numel
  shapeCasts_S256x1x14_S256x1x14 : S256x1x14.ShapeCasts S256x1x14
  inb_S256x2016_S256x15_0_105 : ∀ a, (![0, 105] : Fin 2 → Nat) a + S256x15.size a ≤ S256x2016.size a
  h_S256x15 : 0 < S256x15.numel
  shapeCasts_S256x15_S256x1x15 : S256x15.ShapeCasts S256x1x15
  inb_S256x64x64_S256x1x15_0_15_0 : ∀ a, (![0, 15, 0] : Fin 3 → Nat) a + S256x1x15.size a ≤ S256x64x64.size a
  h_S256x1x15 : 0 < S256x1x15.numel
  shapeCasts_S256x1x15_S256x1x15 : S256x1x15.ShapeCasts S256x1x15
  inb_S256x2016_S256x16_0_120 : ∀ a, (![0, 120] : Fin 2 → Nat) a + S256x16.size a ≤ S256x2016.size a
  h_S256x16 : 0 < S256x16.numel
  shapeCasts_S256x16_S256x1x16 : S256x16.ShapeCasts S256x1x16
  inb_S256x64x64_S256x1x16_0_16_0 : ∀ a, (![0, 16, 0] : Fin 3 → Nat) a + S256x1x16.size a ≤ S256x64x64.size a
  h_S256x1x16 : 0 < S256x1x16.numel
  shapeCasts_S256x1x16_S256x1x16 : S256x1x16.ShapeCasts S256x1x16
  inb_S256x2016_S256x17_0_136 : ∀ a, (![0, 136] : Fin 2 → Nat) a + S256x17.size a ≤ S256x2016.size a
  h_S256x17 : 0 < S256x17.numel
  shapeCasts_S256x17_S256x1x17 : S256x17.ShapeCasts S256x1x17
  inb_S256x64x64_S256x1x17_0_17_0 : ∀ a, (![0, 17, 0] : Fin 3 → Nat) a + S256x1x17.size a ≤ S256x64x64.size a
  h_S256x1x17 : 0 < S256x1x17.numel
  shapeCasts_S256x1x17_S256x1x17 : S256x1x17.ShapeCasts S256x1x17
  inb_S256x2016_S256x18_0_153 : ∀ a, (![0, 153] : Fin 2 → Nat) a + S256x18.size a ≤ S256x2016.size a
  h_S256x18 : 0 < S256x18.numel
  shapeCasts_S256x18_S256x1x18 : S256x18.ShapeCasts S256x1x18
  inb_S256x64x64_S256x1x18_0_18_0 : ∀ a, (![0, 18, 0] : Fin 3 → Nat) a + S256x1x18.size a ≤ S256x64x64.size a
  h_S256x1x18 : 0 < S256x1x18.numel
  shapeCasts_S256x1x18_S256x1x18 : S256x1x18.ShapeCasts S256x1x18
  inb_S256x2016_S256x19_0_171 : ∀ a, (![0, 171] : Fin 2 → Nat) a + S256x19.size a ≤ S256x2016.size a
  h_S256x19 : 0 < S256x19.numel
  shapeCasts_S256x19_S256x1x19 : S256x19.ShapeCasts S256x1x19
  inb_S256x64x64_S256x1x19_0_19_0 : ∀ a, (![0, 19, 0] : Fin 3 → Nat) a + S256x1x19.size a ≤ S256x64x64.size a
  h_S256x1x19 : 0 < S256x1x19.numel
  shapeCasts_S256x1x19_S256x1x19 : S256x1x19.ShapeCasts S256x1x19
  inb_S256x2016_S256x20_0_190 : ∀ a, (![0, 190] : Fin 2 → Nat) a + S256x20.size a ≤ S256x2016.size a
  h_S256x20 : 0 < S256x20.numel
  shapeCasts_S256x20_S256x1x20 : S256x20.ShapeCasts S256x1x20
  inb_S256x64x64_S256x1x20_0_20_0 : ∀ a, (![0, 20, 0] : Fin 3 → Nat) a + S256x1x20.size a ≤ S256x64x64.size a
  h_S256x1x20 : 0 < S256x1x20.numel
  shapeCasts_S256x1x20_S256x1x20 : S256x1x20.ShapeCasts S256x1x20
  inb_S256x2016_S256x21_0_210 : ∀ a, (![0, 210] : Fin 2 → Nat) a + S256x21.size a ≤ S256x2016.size a
  h_S256x21 : 0 < S256x21.numel
  shapeCasts_S256x21_S256x1x21 : S256x21.ShapeCasts S256x1x21
  inb_S256x64x64_S256x1x21_0_21_0 : ∀ a, (![0, 21, 0] : Fin 3 → Nat) a + S256x1x21.size a ≤ S256x64x64.size a
  h_S256x1x21 : 0 < S256x1x21.numel
  shapeCasts_S256x1x21_S256x1x21 : S256x1x21.ShapeCasts S256x1x21
  inb_S256x2016_S256x22_0_231 : ∀ a, (![0, 231] : Fin 2 → Nat) a + S256x22.size a ≤ S256x2016.size a
  h_S256x22 : 0 < S256x22.numel
  shapeCasts_S256x22_S256x1x22 : S256x22.ShapeCasts S256x1x22
  inb_S256x64x64_S256x1x22_0_22_0 : ∀ a, (![0, 22, 0] : Fin 3 → Nat) a + S256x1x22.size a ≤ S256x64x64.size a
  h_S256x1x22 : 0 < S256x1x22.numel
  shapeCasts_S256x1x22_S256x1x22 : S256x1x22.ShapeCasts S256x1x22
  inb_S256x2016_S256x23_0_253 : ∀ a, (![0, 253] : Fin 2 → Nat) a + S256x23.size a ≤ S256x2016.size a
  h_S256x23 : 0 < S256x23.numel
  shapeCasts_S256x23_S256x1x23 : S256x23.ShapeCasts S256x1x23
  inb_S256x64x64_S256x1x23_0_23_0 : ∀ a, (![0, 23, 0] : Fin 3 → Nat) a + S256x1x23.size a ≤ S256x64x64.size a
  h_S256x1x23 : 0 < S256x1x23.numel
  shapeCasts_S256x1x23_S256x1x23 : S256x1x23.ShapeCasts S256x1x23
  inb_S256x2016_S256x24_0_276 : ∀ a, (![0, 276] : Fin 2 → Nat) a + S256x24.size a ≤ S256x2016.size a
  h_S256x24 : 0 < S256x24.numel
  shapeCasts_S256x24_S256x1x24 : S256x24.ShapeCasts S256x1x24
  inb_S256x64x64_S256x1x24_0_24_0 : ∀ a, (![0, 24, 0] : Fin 3 → Nat) a + S256x1x24.size a ≤ S256x64x64.size a
  h_S256x1x24 : 0 < S256x1x24.numel
  shapeCasts_S256x1x24_S256x1x24 : S256x1x24.ShapeCasts S256x1x24
  inb_S256x2016_S256x25_0_300 : ∀ a, (![0, 300] : Fin 2 → Nat) a + S256x25.size a ≤ S256x2016.size a
  h_S256x25 : 0 < S256x25.numel
  shapeCasts_S256x25_S256x1x25 : S256x25.ShapeCasts S256x1x25
  inb_S256x64x64_S256x1x25_0_25_0 : ∀ a, (![0, 25, 0] : Fin 3 → Nat) a + S256x1x25.size a ≤ S256x64x64.size a
  h_S256x1x25 : 0 < S256x1x25.numel
  shapeCasts_S256x1x25_S256x1x25 : S256x1x25.ShapeCasts S256x1x25
  inb_S256x2016_S256x26_0_325 : ∀ a, (![0, 325] : Fin 2 → Nat) a + S256x26.size a ≤ S256x2016.size a
  h_S256x26 : 0 < S256x26.numel
  shapeCasts_S256x26_S256x1x26 : S256x26.ShapeCasts S256x1x26
  inb_S256x64x64_S256x1x26_0_26_0 : ∀ a, (![0, 26, 0] : Fin 3 → Nat) a + S256x1x26.size a ≤ S256x64x64.size a
  h_S256x1x26 : 0 < S256x1x26.numel
  shapeCasts_S256x1x26_S256x1x26 : S256x1x26.ShapeCasts S256x1x26
  inb_S256x2016_S256x27_0_351 : ∀ a, (![0, 351] : Fin 2 → Nat) a + S256x27.size a ≤ S256x2016.size a
  h_S256x27 : 0 < S256x27.numel
  shapeCasts_S256x27_S256x1x27 : S256x27.ShapeCasts S256x1x27
  inb_S256x64x64_S256x1x27_0_27_0 : ∀ a, (![0, 27, 0] : Fin 3 → Nat) a + S256x1x27.size a ≤ S256x64x64.size a
  h_S256x1x27 : 0 < S256x1x27.numel
  shapeCasts_S256x1x27_S256x1x27 : S256x1x27.ShapeCasts S256x1x27
  inb_S256x2016_S256x28_0_378 : ∀ a, (![0, 378] : Fin 2 → Nat) a + S256x28.size a ≤ S256x2016.size a
  h_S256x28 : 0 < S256x28.numel
  shapeCasts_S256x28_S256x1x28 : S256x28.ShapeCasts S256x1x28
  inb_S256x64x64_S256x1x28_0_28_0 : ∀ a, (![0, 28, 0] : Fin 3 → Nat) a + S256x1x28.size a ≤ S256x64x64.size a
  h_S256x1x28 : 0 < S256x1x28.numel
  shapeCasts_S256x1x28_S256x1x28 : S256x1x28.ShapeCasts S256x1x28
  inb_S256x2016_S256x29_0_406 : ∀ a, (![0, 406] : Fin 2 → Nat) a + S256x29.size a ≤ S256x2016.size a
  h_S256x29 : 0 < S256x29.numel
  shapeCasts_S256x29_S256x1x29 : S256x29.ShapeCasts S256x1x29
  inb_S256x64x64_S256x1x29_0_29_0 : ∀ a, (![0, 29, 0] : Fin 3 → Nat) a + S256x1x29.size a ≤ S256x64x64.size a
  h_S256x1x29 : 0 < S256x1x29.numel
  shapeCasts_S256x1x29_S256x1x29 : S256x1x29.ShapeCasts S256x1x29
  inb_S256x2016_S256x30_0_435 : ∀ a, (![0, 435] : Fin 2 → Nat) a + S256x30.size a ≤ S256x2016.size a
  h_S256x30 : 0 < S256x30.numel
  shapeCasts_S256x30_S256x1x30 : S256x30.ShapeCasts S256x1x30
  inb_S256x64x64_S256x1x30_0_30_0 : ∀ a, (![0, 30, 0] : Fin 3 → Nat) a + S256x1x30.size a ≤ S256x64x64.size a
  h_S256x1x30 : 0 < S256x1x30.numel
  shapeCasts_S256x1x30_S256x1x30 : S256x1x30.ShapeCasts S256x1x30
  inb_S256x2016_S256x31_0_465 : ∀ a, (![0, 465] : Fin 2 → Nat) a + S256x31.size a ≤ S256x2016.size a
  h_S256x31 : 0 < S256x31.numel
  shapeCasts_S256x31_S256x1x31 : S256x31.ShapeCasts S256x1x31
  inb_S256x64x64_S256x1x31_0_31_0 : ∀ a, (![0, 31, 0] : Fin 3 → Nat) a + S256x1x31.size a ≤ S256x64x64.size a
  h_S256x1x31 : 0 < S256x1x31.numel
  shapeCasts_S256x1x31_S256x1x31 : S256x1x31.ShapeCasts S256x1x31
  inb_S256x2016_S256x32_0_496 : ∀ a, (![0, 496] : Fin 2 → Nat) a + S256x32.size a ≤ S256x2016.size a
  h_S256x32 : 0 < S256x32.numel
  shapeCasts_S256x32_S256x1x32 : S256x32.ShapeCasts S256x1x32
  inb_S256x64x64_S256x1x32_0_32_0 : ∀ a, (![0, 32, 0] : Fin 3 → Nat) a + S256x1x32.size a ≤ S256x64x64.size a
  h_S256x1x32 : 0 < S256x1x32.numel
  shapeCasts_S256x1x32_S256x1x32 : S256x1x32.ShapeCasts S256x1x32
  inb_S256x2016_S256x33_0_528 : ∀ a, (![0, 528] : Fin 2 → Nat) a + S256x33.size a ≤ S256x2016.size a
  h_S256x33 : 0 < S256x33.numel
  shapeCasts_S256x33_S256x1x33 : S256x33.ShapeCasts S256x1x33
  inb_S256x64x64_S256x1x33_0_33_0 : ∀ a, (![0, 33, 0] : Fin 3 → Nat) a + S256x1x33.size a ≤ S256x64x64.size a
  h_S256x1x33 : 0 < S256x1x33.numel
  shapeCasts_S256x1x33_S256x1x33 : S256x1x33.ShapeCasts S256x1x33
  inb_S256x2016_S256x34_0_561 : ∀ a, (![0, 561] : Fin 2 → Nat) a + S256x34.size a ≤ S256x2016.size a
  h_S256x34 : 0 < S256x34.numel
  shapeCasts_S256x34_S256x1x34 : S256x34.ShapeCasts S256x1x34
  inb_S256x64x64_S256x1x34_0_34_0 : ∀ a, (![0, 34, 0] : Fin 3 → Nat) a + S256x1x34.size a ≤ S256x64x64.size a
  h_S256x1x34 : 0 < S256x1x34.numel
  shapeCasts_S256x1x34_S256x1x34 : S256x1x34.ShapeCasts S256x1x34
  inb_S256x2016_S256x35_0_595 : ∀ a, (![0, 595] : Fin 2 → Nat) a + S256x35.size a ≤ S256x2016.size a
  h_S256x35 : 0 < S256x35.numel
  shapeCasts_S256x35_S256x1x35 : S256x35.ShapeCasts S256x1x35
  inb_S256x64x64_S256x1x35_0_35_0 : ∀ a, (![0, 35, 0] : Fin 3 → Nat) a + S256x1x35.size a ≤ S256x64x64.size a
  h_S256x1x35 : 0 < S256x1x35.numel
  shapeCasts_S256x1x35_S256x1x35 : S256x1x35.ShapeCasts S256x1x35
  inb_S256x2016_S256x36_0_630 : ∀ a, (![0, 630] : Fin 2 → Nat) a + S256x36.size a ≤ S256x2016.size a
  h_S256x36 : 0 < S256x36.numel
  shapeCasts_S256x36_S256x1x36 : S256x36.ShapeCasts S256x1x36
  inb_S256x64x64_S256x1x36_0_36_0 : ∀ a, (![0, 36, 0] : Fin 3 → Nat) a + S256x1x36.size a ≤ S256x64x64.size a
  h_S256x1x36 : 0 < S256x1x36.numel
  shapeCasts_S256x1x36_S256x1x36 : S256x1x36.ShapeCasts S256x1x36
  inb_S256x2016_S256x37_0_666 : ∀ a, (![0, 666] : Fin 2 → Nat) a + S256x37.size a ≤ S256x2016.size a
  h_S256x37 : 0 < S256x37.numel
  shapeCasts_S256x37_S256x1x37 : S256x37.ShapeCasts S256x1x37
  inb_S256x64x64_S256x1x37_0_37_0 : ∀ a, (![0, 37, 0] : Fin 3 → Nat) a + S256x1x37.size a ≤ S256x64x64.size a
  h_S256x1x37 : 0 < S256x1x37.numel
  shapeCasts_S256x1x37_S256x1x37 : S256x1x37.ShapeCasts S256x1x37
  inb_S256x2016_S256x38_0_703 : ∀ a, (![0, 703] : Fin 2 → Nat) a + S256x38.size a ≤ S256x2016.size a
  h_S256x38 : 0 < S256x38.numel
  shapeCasts_S256x38_S256x1x38 : S256x38.ShapeCasts S256x1x38
  inb_S256x64x64_S256x1x38_0_38_0 : ∀ a, (![0, 38, 0] : Fin 3 → Nat) a + S256x1x38.size a ≤ S256x64x64.size a
  h_S256x1x38 : 0 < S256x1x38.numel
  shapeCasts_S256x1x38_S256x1x38 : S256x1x38.ShapeCasts S256x1x38
  inb_S256x2016_S256x39_0_741 : ∀ a, (![0, 741] : Fin 2 → Nat) a + S256x39.size a ≤ S256x2016.size a
  h_S256x39 : 0 < S256x39.numel
  shapeCasts_S256x39_S256x1x39 : S256x39.ShapeCasts S256x1x39
  inb_S256x64x64_S256x1x39_0_39_0 : ∀ a, (![0, 39, 0] : Fin 3 → Nat) a + S256x1x39.size a ≤ S256x64x64.size a
  h_S256x1x39 : 0 < S256x1x39.numel
  shapeCasts_S256x1x39_S256x1x39 : S256x1x39.ShapeCasts S256x1x39
  inb_S256x2016_S256x40_0_780 : ∀ a, (![0, 780] : Fin 2 → Nat) a + S256x40.size a ≤ S256x2016.size a
  h_S256x40 : 0 < S256x40.numel
  shapeCasts_S256x40_S256x1x40 : S256x40.ShapeCasts S256x1x40
  inb_S256x64x64_S256x1x40_0_40_0 : ∀ a, (![0, 40, 0] : Fin 3 → Nat) a + S256x1x40.size a ≤ S256x64x64.size a
  h_S256x1x40 : 0 < S256x1x40.numel
  shapeCasts_S256x1x40_S256x1x40 : S256x1x40.ShapeCasts S256x1x40
  inb_S256x2016_S256x41_0_820 : ∀ a, (![0, 820] : Fin 2 → Nat) a + S256x41.size a ≤ S256x2016.size a
  h_S256x41 : 0 < S256x41.numel
  shapeCasts_S256x41_S256x1x41 : S256x41.ShapeCasts S256x1x41
  inb_S256x64x64_S256x1x41_0_41_0 : ∀ a, (![0, 41, 0] : Fin 3 → Nat) a + S256x1x41.size a ≤ S256x64x64.size a
  h_S256x1x41 : 0 < S256x1x41.numel
  shapeCasts_S256x1x41_S256x1x41 : S256x1x41.ShapeCasts S256x1x41
  inb_S256x2016_S256x42_0_861 : ∀ a, (![0, 861] : Fin 2 → Nat) a + S256x42.size a ≤ S256x2016.size a
  h_S256x42 : 0 < S256x42.numel
  shapeCasts_S256x42_S256x1x42 : S256x42.ShapeCasts S256x1x42
  inb_S256x64x64_S256x1x42_0_42_0 : ∀ a, (![0, 42, 0] : Fin 3 → Nat) a + S256x1x42.size a ≤ S256x64x64.size a
  h_S256x1x42 : 0 < S256x1x42.numel
  shapeCasts_S256x1x42_S256x1x42 : S256x1x42.ShapeCasts S256x1x42
  inb_S256x2016_S256x43_0_903 : ∀ a, (![0, 903] : Fin 2 → Nat) a + S256x43.size a ≤ S256x2016.size a
  h_S256x43 : 0 < S256x43.numel
  shapeCasts_S256x43_S256x1x43 : S256x43.ShapeCasts S256x1x43
  inb_S256x64x64_S256x1x43_0_43_0 : ∀ a, (![0, 43, 0] : Fin 3 → Nat) a + S256x1x43.size a ≤ S256x64x64.size a
  h_S256x1x43 : 0 < S256x1x43.numel
  shapeCasts_S256x1x43_S256x1x43 : S256x1x43.ShapeCasts S256x1x43
  inb_S256x2016_S256x44_0_946 : ∀ a, (![0, 946] : Fin 2 → Nat) a + S256x44.size a ≤ S256x2016.size a
  h_S256x44 : 0 < S256x44.numel
  shapeCasts_S256x44_S256x1x44 : S256x44.ShapeCasts S256x1x44
  inb_S256x64x64_S256x1x44_0_44_0 : ∀ a, (![0, 44, 0] : Fin 3 → Nat) a + S256x1x44.size a ≤ S256x64x64.size a
  h_S256x1x44 : 0 < S256x1x44.numel
  shapeCasts_S256x1x44_S256x1x44 : S256x1x44.ShapeCasts S256x1x44
  inb_S256x2016_S256x45_0_990 : ∀ a, (![0, 990] : Fin 2 → Nat) a + S256x45.size a ≤ S256x2016.size a
  h_S256x45 : 0 < S256x45.numel
  shapeCasts_S256x45_S256x1x45 : S256x45.ShapeCasts S256x1x45
  inb_S256x64x64_S256x1x45_0_45_0 : ∀ a, (![0, 45, 0] : Fin 3 → Nat) a + S256x1x45.size a ≤ S256x64x64.size a
  h_S256x1x45 : 0 < S256x1x45.numel
  shapeCasts_S256x1x45_S256x1x45 : S256x1x45.ShapeCasts S256x1x45
  inb_S256x2016_S256x46_0_1035 : ∀ a, (![0, 1035] : Fin 2 → Nat) a + S256x46.size a ≤ S256x2016.size a
  h_S256x46 : 0 < S256x46.numel
  shapeCasts_S256x46_S256x1x46 : S256x46.ShapeCasts S256x1x46
  inb_S256x64x64_S256x1x46_0_46_0 : ∀ a, (![0, 46, 0] : Fin 3 → Nat) a + S256x1x46.size a ≤ S256x64x64.size a
  h_S256x1x46 : 0 < S256x1x46.numel
  shapeCasts_S256x1x46_S256x1x46 : S256x1x46.ShapeCasts S256x1x46
  inb_S256x2016_S256x47_0_1081 : ∀ a, (![0, 1081] : Fin 2 → Nat) a + S256x47.size a ≤ S256x2016.size a
  h_S256x47 : 0 < S256x47.numel
  shapeCasts_S256x47_S256x1x47 : S256x47.ShapeCasts S256x1x47
  inb_S256x64x64_S256x1x47_0_47_0 : ∀ a, (![0, 47, 0] : Fin 3 → Nat) a + S256x1x47.size a ≤ S256x64x64.size a
  h_S256x1x47 : 0 < S256x1x47.numel
  shapeCasts_S256x1x47_S256x1x47 : S256x1x47.ShapeCasts S256x1x47
  inb_S256x2016_S256x48_0_1128 : ∀ a, (![0, 1128] : Fin 2 → Nat) a + S256x48.size a ≤ S256x2016.size a
  h_S256x48 : 0 < S256x48.numel
  shapeCasts_S256x48_S256x1x48 : S256x48.ShapeCasts S256x1x48
  inb_S256x64x64_S256x1x48_0_48_0 : ∀ a, (![0, 48, 0] : Fin 3 → Nat) a + S256x1x48.size a ≤ S256x64x64.size a
  h_S256x1x48 : 0 < S256x1x48.numel
  shapeCasts_S256x1x48_S256x1x48 : S256x1x48.ShapeCasts S256x1x48
  inb_S256x2016_S256x49_0_1176 : ∀ a, (![0, 1176] : Fin 2 → Nat) a + S256x49.size a ≤ S256x2016.size a
  h_S256x49 : 0 < S256x49.numel
  shapeCasts_S256x49_S256x1x49 : S256x49.ShapeCasts S256x1x49
  inb_S256x64x64_S256x1x49_0_49_0 : ∀ a, (![0, 49, 0] : Fin 3 → Nat) a + S256x1x49.size a ≤ S256x64x64.size a
  h_S256x1x49 : 0 < S256x1x49.numel
  shapeCasts_S256x1x49_S256x1x49 : S256x1x49.ShapeCasts S256x1x49
  inb_S256x2016_S256x50_0_1225 : ∀ a, (![0, 1225] : Fin 2 → Nat) a + S256x50.size a ≤ S256x2016.size a
  h_S256x50 : 0 < S256x50.numel
  shapeCasts_S256x50_S256x1x50 : S256x50.ShapeCasts S256x1x50
  inb_S256x64x64_S256x1x50_0_50_0 : ∀ a, (![0, 50, 0] : Fin 3 → Nat) a + S256x1x50.size a ≤ S256x64x64.size a
  h_S256x1x50 : 0 < S256x1x50.numel
  shapeCasts_S256x1x50_S256x1x50 : S256x1x50.ShapeCasts S256x1x50
  inb_S256x2016_S256x51_0_1275 : ∀ a, (![0, 1275] : Fin 2 → Nat) a + S256x51.size a ≤ S256x2016.size a
  h_S256x51 : 0 < S256x51.numel
  shapeCasts_S256x51_S256x1x51 : S256x51.ShapeCasts S256x1x51
  inb_S256x64x64_S256x1x51_0_51_0 : ∀ a, (![0, 51, 0] : Fin 3 → Nat) a + S256x1x51.size a ≤ S256x64x64.size a
  h_S256x1x51 : 0 < S256x1x51.numel
  shapeCasts_S256x1x51_S256x1x51 : S256x1x51.ShapeCasts S256x1x51
  inb_S256x2016_S256x52_0_1326 : ∀ a, (![0, 1326] : Fin 2 → Nat) a + S256x52.size a ≤ S256x2016.size a
  h_S256x52 : 0 < S256x52.numel
  shapeCasts_S256x52_S256x1x52 : S256x52.ShapeCasts S256x1x52
  inb_S256x64x64_S256x1x52_0_52_0 : ∀ a, (![0, 52, 0] : Fin 3 → Nat) a + S256x1x52.size a ≤ S256x64x64.size a
  h_S256x1x52 : 0 < S256x1x52.numel
  shapeCasts_S256x1x52_S256x1x52 : S256x1x52.ShapeCasts S256x1x52
  inb_S256x2016_S256x53_0_1378 : ∀ a, (![0, 1378] : Fin 2 → Nat) a + S256x53.size a ≤ S256x2016.size a
  h_S256x53 : 0 < S256x53.numel
  shapeCasts_S256x53_S256x1x53 : S256x53.ShapeCasts S256x1x53
  inb_S256x64x64_S256x1x53_0_53_0 : ∀ a, (![0, 53, 0] : Fin 3 → Nat) a + S256x1x53.size a ≤ S256x64x64.size a
  h_S256x1x53 : 0 < S256x1x53.numel
  shapeCasts_S256x1x53_S256x1x53 : S256x1x53.ShapeCasts S256x1x53
  inb_S256x2016_S256x54_0_1431 : ∀ a, (![0, 1431] : Fin 2 → Nat) a + S256x54.size a ≤ S256x2016.size a
  h_S256x54 : 0 < S256x54.numel
  shapeCasts_S256x54_S256x1x54 : S256x54.ShapeCasts S256x1x54
  inb_S256x64x64_S256x1x54_0_54_0 : ∀ a, (![0, 54, 0] : Fin 3 → Nat) a + S256x1x54.size a ≤ S256x64x64.size a
  h_S256x1x54 : 0 < S256x1x54.numel
  shapeCasts_S256x1x54_S256x1x54 : S256x1x54.ShapeCasts S256x1x54
  inb_S256x2016_S256x55_0_1485 : ∀ a, (![0, 1485] : Fin 2 → Nat) a + S256x55.size a ≤ S256x2016.size a
  h_S256x55 : 0 < S256x55.numel
  shapeCasts_S256x55_S256x1x55 : S256x55.ShapeCasts S256x1x55
  inb_S256x64x64_S256x1x55_0_55_0 : ∀ a, (![0, 55, 0] : Fin 3 → Nat) a + S256x1x55.size a ≤ S256x64x64.size a
  h_S256x1x55 : 0 < S256x1x55.numel
  shapeCasts_S256x1x55_S256x1x55 : S256x1x55.ShapeCasts S256x1x55
  inb_S256x2016_S256x56_0_1540 : ∀ a, (![0, 1540] : Fin 2 → Nat) a + S256x56.size a ≤ S256x2016.size a
  h_S256x56 : 0 < S256x56.numel
  shapeCasts_S256x56_S256x1x56 : S256x56.ShapeCasts S256x1x56
  inb_S256x64x64_S256x1x56_0_56_0 : ∀ a, (![0, 56, 0] : Fin 3 → Nat) a + S256x1x56.size a ≤ S256x64x64.size a
  h_S256x1x56 : 0 < S256x1x56.numel
  shapeCasts_S256x1x56_S256x1x56 : S256x1x56.ShapeCasts S256x1x56
  inb_S256x2016_S256x57_0_1596 : ∀ a, (![0, 1596] : Fin 2 → Nat) a + S256x57.size a ≤ S256x2016.size a
  h_S256x57 : 0 < S256x57.numel
  shapeCasts_S256x57_S256x1x57 : S256x57.ShapeCasts S256x1x57
  inb_S256x64x64_S256x1x57_0_57_0 : ∀ a, (![0, 57, 0] : Fin 3 → Nat) a + S256x1x57.size a ≤ S256x64x64.size a
  h_S256x1x57 : 0 < S256x1x57.numel
  shapeCasts_S256x1x57_S256x1x57 : S256x1x57.ShapeCasts S256x1x57
  inb_S256x2016_S256x58_0_1653 : ∀ a, (![0, 1653] : Fin 2 → Nat) a + S256x58.size a ≤ S256x2016.size a
  h_S256x58 : 0 < S256x58.numel
  shapeCasts_S256x58_S256x1x58 : S256x58.ShapeCasts S256x1x58
  inb_S256x64x64_S256x1x58_0_58_0 : ∀ a, (![0, 58, 0] : Fin 3 → Nat) a + S256x1x58.size a ≤ S256x64x64.size a
  h_S256x1x58 : 0 < S256x1x58.numel
  shapeCasts_S256x1x58_S256x1x58 : S256x1x58.ShapeCasts S256x1x58
  inb_S256x2016_S256x59_0_1711 : ∀ a, (![0, 1711] : Fin 2 → Nat) a + S256x59.size a ≤ S256x2016.size a
  h_S256x59 : 0 < S256x59.numel
  shapeCasts_S256x59_S256x1x59 : S256x59.ShapeCasts S256x1x59
  inb_S256x64x64_S256x1x59_0_59_0 : ∀ a, (![0, 59, 0] : Fin 3 → Nat) a + S256x1x59.size a ≤ S256x64x64.size a
  h_S256x1x59 : 0 < S256x1x59.numel
  shapeCasts_S256x1x59_S256x1x59 : S256x1x59.ShapeCasts S256x1x59
  inb_S256x2016_S256x60_0_1770 : ∀ a, (![0, 1770] : Fin 2 → Nat) a + S256x60.size a ≤ S256x2016.size a
  h_S256x60 : 0 < S256x60.numel
  shapeCasts_S256x60_S256x1x60 : S256x60.ShapeCasts S256x1x60
  inb_S256x64x64_S256x1x60_0_60_0 : ∀ a, (![0, 60, 0] : Fin 3 → Nat) a + S256x1x60.size a ≤ S256x64x64.size a
  h_S256x1x60 : 0 < S256x1x60.numel
  shapeCasts_S256x1x60_S256x1x60 : S256x1x60.ShapeCasts S256x1x60
  inb_S256x2016_S256x61_0_1830 : ∀ a, (![0, 1830] : Fin 2 → Nat) a + S256x61.size a ≤ S256x2016.size a
  h_S256x61 : 0 < S256x61.numel
  shapeCasts_S256x61_S256x1x61 : S256x61.ShapeCasts S256x1x61
  inb_S256x64x64_S256x1x61_0_61_0 : ∀ a, (![0, 61, 0] : Fin 3 → Nat) a + S256x1x61.size a ≤ S256x64x64.size a
  h_S256x1x61 : 0 < S256x1x61.numel
  shapeCasts_S256x1x61_S256x1x61 : S256x1x61.ShapeCasts S256x1x61
  inb_S256x2016_S256x62_0_1891 : ∀ a, (![0, 1891] : Fin 2 → Nat) a + S256x62.size a ≤ S256x2016.size a
  h_S256x62 : 0 < S256x62.numel
  shapeCasts_S256x62_S256x1x62 : S256x62.ShapeCasts S256x1x62
  inb_S256x64x64_S256x1x62_0_62_0 : ∀ a, (![0, 62, 0] : Fin 3 → Nat) a + S256x1x62.size a ≤ S256x64x64.size a
  h_S256x1x62 : 0 < S256x1x62.numel
  shapeCasts_S256x1x62_S256x1x62 : S256x1x62.ShapeCasts S256x1x62
  inb_S256x2016_S256x63_0_1953 : ∀ a, (![0, 1953] : Fin 2 → Nat) a + S256x63.size a ≤ S256x2016.size a
  h_S256x63 : 0 < S256x63.numel
  shapeCasts_S256x63_S256x1x63 : S256x63.ShapeCasts S256x1x63
  inb_S256x64x64_S256x1x63_0_63_0 : ∀ a, (![0, 63, 0] : Fin 3 → Nat) a + S256x1x63.size a ≤ S256x64x64.size a
  h_S256x1x63 : 0 < S256x1x63.numel
  shapeCasts_S256x1x63_S256x1x63 : S256x1x63.ShapeCasts S256x1x63
  transposes_S256x64x64_p0_2_1_S256x64x64 : S256x64x64.Transposes [0, 2, 1] S256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2016.size a ≤ S32768x2016.size a
  hwx0_0 : ∀ i : grid0.Coords, EltTy.bits .f32 = 32 ∨ (Rect.block (s := S32768x2016) S256x2016.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S32768x64x64.size a
  hwx0_1 : ∀ i : grid0.Coords, EltTy.bits .f32 = 32 ∨ (Rect.block (s := S32768x64x64) S256x64x64.size (cc0_transform_1 i) (hinb0_1 i)).WholeWords (EltTy.packing .f32)

variable [Facts₀]

abbrev win0_0 : Pipeline.Window sig grid0 :=
  Pipeline.Window.ofSpec (Memref.whole main_arg0) S256x2016.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x2016 : Shape := ⟨2, ![32768, 2016]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S32768x64x64 : Shape := ⟨3, ![32768, 64, 64]⟩
abbrev S2016x1 : Shape := ⟨2, ![2016, 1]⟩
abbrev S2016x2 : Shape := ⟨2, ![2016, 2]⟩

abbrev nBuf : Space → Nat
  | .hbm => 140
  | .vmem => 0
  | .smem => 0
  | _ => 0

abbrev hbmTy0_0 (i : Nat) : BufTy := match i % 128 with
  | 0 => ⟨S32768x2016, .f32⟩
  | 1 => ⟨S_, .f32⟩
  | 2 => ⟨S64x64, .f32⟩
  | 3 => ⟨S64x64, .i32⟩
  | 4 => ⟨S_, .i32⟩
  | 5 => ⟨S64x64, .i32⟩
  | 6 => ⟨S64x64, .i32⟩
  | 7 => ⟨S64x64, .i32⟩
  | 8 => ⟨S64x64, .i1⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .i1⟩
  | 15 => ⟨S4096, .i1⟩
  | 16 => ⟨S4096, .i32⟩
  | 17 => ⟨S_, .i32⟩
  | 18 => ⟨S_, .i32⟩
  | 19 => ⟨S4096, .i32⟩
  | 20 => ⟨S_, .i32⟩
  | 21 => ⟨S2016, .i32⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S_, .i32⟩
  | 35 => ⟨S4096, .i32⟩
  | 36 => ⟨S2016, .i32⟩
  | 37 => ⟨S_, .i32⟩
  | 38 => ⟨S_, .i32⟩
  | 39 => ⟨S2016, .i32⟩
  | 40 => ⟨S_, .i32⟩
  | 41 => ⟨S2016, .i32⟩
  | 42 => ⟨S2016, .i32⟩
  | 43 => ⟨S2016, .i32⟩
  | 44 => ⟨S_, .i32⟩
  | 45 => ⟨S2016, .i32⟩
  | 46 => ⟨S2016, .i1⟩
  | 47 => ⟨S2016, .i32⟩
  | 48 => ⟨S2016, .i32⟩
  | 49 => ⟨S_, .i32⟩
  | 50 => ⟨S2016, .i32⟩
  | 51 => ⟨S2016, .i1⟩
  | 52 => ⟨S2016, .i1⟩
  | 53 => ⟨S_, .i32⟩
  | 54 => ⟨S2016, .i32⟩
  | 55 => ⟨S2016, .i32⟩
  | 56 => ⟨S2016, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S2016, .i32⟩
  | 64 => ⟨S2016, .i32⟩
  | 65 => ⟨S_, .i32⟩
  | 66 => ⟨S2016, .i32⟩
  | 67 => ⟨S2016, .i1⟩
  | 68 => ⟨S_, .i32⟩
  | 69 => ⟨S2016, .i32⟩
  | 70 => ⟨S2016, .i1⟩
  | 71 => ⟨S_, .i32⟩
  | 72 => ⟨S_, .i1⟩
  | 73 => ⟨S2016, .i1⟩
  | 74 => ⟨S2016, .i1⟩
  | 75 => ⟨S2016, .i1⟩
  | 76 => ⟨S2016, .i32⟩
  | 77 => ⟨S2016, .i32⟩
  | 78 => ⟨S2016, .i32⟩
  | 79 => ⟨S_, .i32⟩
  | 80 => ⟨S2016, .i32⟩
  | 81 => ⟨S2016, .i32⟩
  | 82 => ⟨S2016, .i32⟩
  | 83 => ⟨S_, .i32⟩
  | 84 => ⟨S2016, .i32⟩
  | 85 => ⟨S2016, .i1⟩
  | 86 => ⟨S2016, .i32⟩
  | 87 => ⟨S2016, .i32⟩
  | 88 => ⟨S_, .i32⟩
  | 89 => ⟨S2016, .i32⟩
  | 90 => ⟨S2016, .i1⟩
  | 91 => ⟨S2016, .i1⟩
  | 92 => ⟨S_, .i32⟩
  | 93 => ⟨S2016, .i32⟩
  | 94 => ⟨S2016, .i32⟩
  | 95 => ⟨S2016, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S2016, .i32⟩
  | 103 => ⟨S2016, .i32⟩
  | 104 => ⟨S_, .i32⟩
  | 105 => ⟨S2016, .i32⟩
  | 106 => ⟨S2016, .i1⟩
  | 107 => ⟨S_, .i32⟩
  | 108 => ⟨S2016, .i32⟩
  | 109 => ⟨S2016, .i1⟩
  | 110 => ⟨S_, .i32⟩
  | 111 => ⟨S_, .i1⟩
  | 112 => ⟨S2016, .i1⟩
  | 113 => ⟨S2016, .i1⟩
  | 114 => ⟨S2016, .i1⟩
  | 115 => ⟨S2016, .i32⟩
  | 116 => ⟨S2016, .i32⟩
  | 117 => ⟨S2016, .i32⟩
  | 118 => ⟨S_, .f32⟩
  | 119 => ⟨S32768x64x64, .f32⟩
  | 120 => ⟨S_, .i32⟩
  | 121 => ⟨S2016, .i32⟩
  | 122 => ⟨S2016, .i1⟩
  | 123 => ⟨S_, .i32⟩
  | 124 => ⟨S2016, .i32⟩
  | 125 => ⟨S2016, .i32⟩
  | 126 => ⟨S2016, .i32⟩
  | 127 => ⟨S_, .i32⟩
  | _ => ⟨S32768x2016, .f32⟩

abbrev hbmTy0_1 (i : Nat) : BufTy := match i % 128 with
  | 0 => ⟨S2016, .i32⟩
  | 1 => ⟨S2016, .i1⟩
  | 2 => ⟨S_, .i32⟩
  | 3 => ⟨S2016, .i32⟩
  | 4 => ⟨S2016, .i32⟩
  | 5 => ⟨S2016, .i32⟩
  | 6 => ⟨S2016x1, .i32⟩
  | 7 => ⟨S2016x1, .i32⟩
  | 8 => ⟨S2016x2, .i32⟩
  | 9 => ⟨S32768x64x64, .f32⟩
  | 10 => ⟨S32768x64x64, .f32⟩
  | 11 => ⟨S32768x64x64, .f32⟩
  | _ => ⟨S32768x2016, .f32⟩

abbrev hbmTy (i : Nat) : BufTy := match i / 128 with
  | 0 => hbmTy0_0 i
  | 1 => hbmTy0_1 i
  | _ => ⟨S32768x2016, .f32⟩

abbrev bufTy : (tb : Table) → Fin (tcTables nBuf tb) → BufTy
  | .hbm, ⟨i, _⟩ => hbmTy i
  | _, _ => ⟨S32768x2016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_call3_call0_c : Ref sig .tc := ⟨.hbm, 37, rfl⟩
abbrev main_call3_call0_v0 : Ref sig .tc := ⟨.hbm, 38, rfl⟩
abbrev main_v15 : Ref sig .tc := ⟨.hbm, 39, rfl⟩
abbrev main_c_5 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v16 : Ref sig .tc := ⟨.hbm, 56, rfl⟩
abbrev main_c_6 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v17 : Ref sig .tc := ⟨.hbm, 78, rfl⟩
abbrev main_c_7 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v18 : Ref sig .tc := ⟨.hbm, 95, rfl⟩
abbrev main_c_8 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v19 : Ref sig .tc := ⟨.hbm, 117, rfl⟩
abbrev main_cst_9 : Ref sig .tc := ⟨.hbm, 118, rfl⟩
abbrev main_v20 : Ref sig .tc := ⟨.hbm, 119, rfl⟩
abbrev main_c_10 : Ref sig .tc := ⟨.hbm, 120, rfl⟩
abbrev main_v21 : Ref sig .tc := ⟨.hbm, 121, rfl⟩
abbrev main_v22 : Ref sig .tc := ⟨.hbm, 122, rfl⟩
abbrev main_c_11 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_c_12 : Ref sig .tc := ⟨.hbm, 127, rfl⟩
abbrev main_v26 : Ref sig .tc := ⟨.hbm, 128, rfl⟩
abbrev main_v27 : Ref sig .tc := ⟨.hbm, 129, rfl⟩
abbrev main_c_13 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S_S32768x64x64 : S_.BroadcastsInDim S32768x64x64 (![] : Fin 0 → Fin S32768x64x64.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  transposes_S32768x64x64_S32768x64x64_0_2_1 : S32768x64x64.Transposes [0, 2, 1] S32768x64x64
  scatter_S2016_S4096x1_S4096_n_0_0_1_wf : ScatterDims.WF S2016 S4096x1 S4096 [] [0] [0] 1
  scatter_S32768x64x64_S2016x2_S32768x2016_0_12_12_1_wf : ScatterDims.WF S32768x64x64 S2016x2 S32768x2016 [0] [1, 2] [1, 2] 1

variable [Facts₀]

def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def scatter_S32768x64x64_S2016x2_S32768x2016_0_12_12_1 : ScatterDims S32768x64x64 S2016x2 S32768x2016 where
  updateWindowDims := [0]
  insertedWindowDims := [1, 2]
  scatterDimsToOperandDims := [1, 2]
  indexVectorDim := 1
  wf := scatter_S32768x64x64_S2016x2_S32768x2016_0_12_12_1_wf

class Facts : Prop extends Facts₀ where

variable [Facts]
-- ==== Proof.TriDefs.lean ====
/-
  The arithmetic of the strict lower triangle of a 64 x 64 matrix read row by row, over the natural numbers.
  A flat position p < 4096 names row p / 64 and column p % 64; it lies strictly below the diagonal when its column is
  less than its row. `below p` is that test, `run p` the number of such positions among 0, ..., p (the running
  count), and `place k` the number of positions whose running count is at most k: the flat position of the k-th
  (from 0) entry below the diagonal. `tri r = r (r - 1) / 2` entries lie below the diagonal in rows before row r.
-/
import Mathlib.Data.Finset.Card

namespace Cert.Tri

/-- Position `p` of the flattened 64 x 64 matrix lies strictly below the diagonal. -/
def below (p : ℕ) : Prop := p % 64 < p / 64

instance : DecidablePred below := fun p => inferInstanceAs (Decidable (p % 64 < p / 64))

/-- How many of the positions `0, ..., p` lie strictly below the diagonal. -/
def run (p : ℕ) : ℕ := ((Finset.range (p + 1)).filter below).card

/-- How many positions `p < 4096` have running count at most `k`. -/
def place (k : ℕ) : ℕ := ((Finset.range 4096).filter fun p => run p ≤ k).card

/-- Entries strictly below the diagonal in the rows before row `r`. -/
def tri (r : ℕ) : ℕ := r * (r - 1) / 2

end Cert.Tri
-- ==== Proof.Spec.lean ====
/-
  The common value of the two programs, over the extended reals. Row B of the argument holds the 2016 entries of the
  strict lower triangle of a 64 x 64 matrix, row by row: entry (r, c) with c < r sits at flat position
  r (r - 1) / 2 + c. `lower a B r c` is that triangular matrix (zero on and above the diagonal) and `sym a` is it
  plus its transpose. The number of rows n of the argument is a parameter: the whole array has 32768, one tile 256.
-/
import Idealize.ShloMosaic.PureOps.Ideal
import Idealize.ShloMosaic.Lib.ValueIdx
import proofs.«139411_j39719857553609_2_alg».proof.Proof.TriDefs

noncomputable section

namespace Cert.Spec

open Idealize.ShloMosaic Idealize.ShloMosaic.ValueIdx

variable {n : ℕ}

/-- Entry `k` of row `B` of the argument; zero outside the array. -/
def rowAt (a : (⟨2, ![n, 2016]⟩ : Shape).Idx → EReal) (B k : ℕ) : EReal :=
  if h : B < n ∧ k < 2016 then a (ix2 ⟨B, h.1⟩ ⟨k, h.2⟩) else 0

/-- The strictly lower triangular matrix of row `B`: entry (r, c) is the argument's entry r (r - 1) / 2 + c when c < r. -/
def lower (a : (⟨2, ![n, 2016]⟩ : Shape).Idx → EReal) (B r c : ℕ) : EReal :=
  if c < r then rowAt a B (Cert.Tri.tri r + c) else 0

/-- The symmetric matrix: the triangular one plus its transpose. -/
def sym (a : (⟨2, ![n, 2016]⟩ : Shape).Idx → EReal) : (⟨3, ![n, 64, 64]⟩ : Shape).Idx → EReal :=
  fun i => lower a (i 0).val (i 1).val (i 2).val + lower a (i 0).val (i 2).val (i 1).val

end Cert.Spec

end
-- ==== Proof.LibCanonStores.lean ====
/-
  Two facts about the contents a list of stores leaves in a buffer (`View.canon`: at each index the payload of the
  first store of the list — the last one made — whose rectangle holds the index), for any shape, element type and
  payloads.

  `canon_append_of_not_mem`: stores none of which covers an index can be dropped from the front of the list when the
  buffer is read at that index.

  `canon_first_hit`: if the first k stores of the list miss an index and store k covers it, the buffer read at that
  index holds store k's payload at the index's place in its rectangle, whatever the later (earlier made) stores are.
  With it a buffer first filled whole (say with zeros) and then overwritten piece by piece reads back piece by piece,
  the whole-buffer fill showing through exactly where no piece lies.
-/
import Idealize.ShloMosaic.Lib.Pipeline.Value

noncomputable section

namespace Cert.LibCanonStores

open Idealize.ShloMosaic

/-- Stores none of which covers an index leave there what the earlier stores left. -/
theorem canon_append_of_not_mem {S : Shape} {e : EltTy} {Val : EltTy → Type} [∀ e, Nonempty (Val e)]
    (L' : List (View.Piece Val S e)) (y : S.Idx) :
    ∀ (L : List (View.Piece Val S e)), (∀ p ∈ L, y ∉ p.1.set) → View.canon (L ++ L') y = View.canon L' y
  | [], _ => rfl
  | p :: L, h => by
    rw [List.cons_append, View.canon_cons_of_not_mem _ _ (h p (by simp))]
    exact canon_append_of_not_mem L' y L fun q hq => h q (by simp [hq])

/-- A list of stores read at an index that the first `k` stores miss and store `k` covers: that store's payload. -/
theorem canon_first_hit {S : Shape} {e : EltTy} {Val : EltTy → Type} [∀ e, Nonempty (Val e)] :
    ∀ (L : List (View.Piece Val S e)) (y : S.Idx) (k : ℕ) (hk : k < L.length) (p : View.Piece Val S e), L[k] = p →
      (∀ j (hj : j < k), y ∉ (L[j]'(Nat.lt_trans hj hk)).1.set) → ∀ x, p.1.emb x = y → View.canon L y = p.2 x
  | [], _, _, hk, _, _, _, _, _ => absurd hk (Nat.not_lt_zero _)
  | q :: L, y, 0, _, p, hp, _, x, hx => by
    obtain rfl : q = p := hp
    obtain ⟨r, w⟩ := q
    rw [← hx]; exact View.canon_cons_emb r w L x
  | q :: L, y, k + 1, hk, p, hp, hnot, x, hx => by
    have h0 : y ∉ q.1.set := hnot 0 (Nat.succ_pos k)
    rw [View.canon_cons_of_not_mem _ _ h0]
    exact canon_first_hit L y k (Nat.lt_of_succ_lt_succ hk) p hp
      (fun j hj => hnot (j + 1) (Nat.succ_lt_succ hj)) x hx

end Cert.LibCanonStores

end
-- ==== Proof.KernelBlock.lean ====
/-
  One tile of the kernel. The body zeroes a 256 x 64 x 64 scratch, writes row r of it (r = 1, ..., 63), columns
  0, ..., r - 1, from the r entries of the input block that start at column r (r - 1) / 2, reads the scratch back and
  stores it plus its transpose. So the scratch holds the strictly lower triangular matrix of each row of the block and
  the stored block is the symmetric matrix `Cert.Spec.sym` of the input block.
-/
import proofs.«139411_j39719857553609_2_alg».proof.Proof.Gen.KernelIdeal.Value
import proofs.«139411_j39719857553609_2_alg».proof.Proof.Spec
import Idealize.ShloMosaic.Lib.Pipeline.Value
import proofs.«139411_j39719857553609_2_alg».proof.Proof.LibCanonStores
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.Tactic Cert.LibCanonStores

/-- The triangular matrix of each row of a tile, as a function of the scratch's index. -/
def lowerIdx (X : (⟨2, ![256, 2016]⟩ : Shape).Idx → EReal) : (⟨3, ![256, 64, 64]⟩ : Shape).Idx → EReal :=
  fun y => Cert.Spec.lower X (y 0).val (y 1).val (y 2).val

/-- The store of row `i`: the `i` input columns from `off = i (i - 1) / 2`, given a unit middle axis, are the
    triangular matrix on the rectangle row `i`, columns `0, ..., i - 1`. -/
theorem row_piece (i off : ℕ) (hoff : off = Cert.Tri.tri i)
    (X : (⟨2, ![256, 2016]⟩ : Shape).Idx → EReal)
    (inb1 : ∀ a, (![0, off] : Fin 2 → ℕ) a + (⟨2, ![256, i]⟩ : Shape).size a ≤ (⟨2, ![256, 2016]⟩ : Shape).size a)
    (inb3 : ∀ a, (![0, i, 0] : Fin 3 → ℕ) a + (⟨3, ![256, 1, i]⟩ : Shape).size a ≤ (⟨3, ![256, 64, 64]⟩ : Shape).size a)
    (hc1 : (⟨2, ![256, i]⟩ : Shape).ShapeCasts ⟨3, ![256, 1, i]⟩)
    (hc2 : (⟨3, ![256, 1, i]⟩ : Shape).ShapeCasts ⟨3, ![256, 1, i]⟩)
    (x : (⟨3, ![256, 1, i]⟩ : Shape).Idx) :
    shapeCast ⟨3, ![256, 1, i]⟩ (shapeCast ⟨3, ![256, 1, i]⟩
        (View.ld (Val := Elt Ideal) (e' := EltTy.f32) X (Rect.unit (s := ⟨2, ![256, 2016]⟩) ![0, off] (⟨2, ![256, i]⟩ : Shape).size inb1)) hc1) hc2 x
      = lowerIdx X ((Rect.unit (s := ⟨3, ![256, 64, 64]⟩) ![0, i, 0] (⟨3, ![256, 1, i]⟩ : Shape).size inb3).emb x) := by
  obtain ⟨b, u, c, rfl⟩ : ∃ (b : Fin 256) (u : Fin 1) (c : Fin i), x = ix3 b u c := ⟨x 0, x 1, x 2, eq_ix3 x⟩
  have hu : u.val = 0 := by omega
  have hb : b.val < 256 := b.isLt
  have hc : c.val < i := c.isLt
  have h1 : off + i ≤ 2016 := inb1 1
  rw [shapeCast_self]
  refine (shapeCast_apply _ hc1 (ix3 b u c) (ix2 b c) ?_).trans ?_
  · rw [Shape.rowMajor_val_two, Shape.rowMajor_val_three]
    show b.val * i + c.val = (b.val * 1 + u.val) * i + c.val
    rw [hu, Nat.mul_one, Nat.add_zero]
  · show X _ = Cert.Spec.lower X (0 + 1 * b.val) (i + 1 * u.val) (0 + 1 * c.val)
    have e1 : 0 + 1 * b.val = b.val := by omega
    have e2 : i + 1 * u.val = i := by omega
    have e3 : 0 + 1 * c.val = c.val := by omega
    rw [e1, e2, e3]
    unfold Cert.Spec.lower Cert.Spec.rowAt
    rw [if_pos hc, dif_pos ⟨hb, by omega⟩]
    refine congrArg X (funext fun a => Fin.ext ?_)
    match a with
    | ⟨0, _⟩ => show 0 + 1 * b.val = b.val; omega
    | ⟨1, _⟩ => show off + 1 * c.val = Cert.Tri.tri i + c.val; omega

/-- An index lies in the rectangle of row `i` exactly when its row is `i` and its column is below `i`. -/
theorem mem_row_iff (i : ℕ)
    (inb3 : ∀ a, (![0, i, 0] : Fin 3 → ℕ) a + (⟨3, ![256, 1, i]⟩ : Shape).size a ≤ (⟨3, ![256, 64, 64]⟩ : Shape).size a)
    (y : (⟨3, ![256, 64, 64]⟩ : Shape).Idx) :
    y ∈ (Rect.unit (s := ⟨3, ![256, 64, 64]⟩) ![0, i, 0] (⟨3, ![256, 1, i]⟩ : Shape).size inb3).set
      ↔ (y 1).val = i ∧ (y 2).val < i := by
  rw [Rect.mem_set_unit]
  have h0 : (y 0).val < 256 := (y 0).isLt
  constructor
  · intro h
    have h1 : i ≤ (y 1).val ∧ (y 1).val < i + 1 := h 1
    have h2 : 0 ≤ (y 2).val ∧ (y 2).val < 0 + i := h 2
    omega
  · rintro ⟨h1, h2⟩ a
    match a with
    | ⟨0, _⟩ => show 0 ≤ (y 0).val ∧ (y 0).val < 0 + 256; omega
    | ⟨1, _⟩ => show i ≤ (y 1).val ∧ (y 1).val < i + 1; omega
    | ⟨2, _⟩ => show 0 ≤ (y 2).val ∧ (y 2).val < 0 + i; omega

/-- Sixty-three row stores, row 63 first, over a zeroing store of the whole scratch leave the triangular matrix. -/
theorem canon_tri (X : (⟨2, ![256, 2016]⟩ : Shape).Idx → EReal)
    (L : List (View.Piece (Elt Ideal) (⟨3, ![256, 64, 64]⟩ : Shape) EltTy.f32)) (hlen : L.length = 64)
    (hrow : ∀ (k : ℕ) (hk : k < 63), ∃ (inb3 : ∀ a, (![0, 63 - k, 0] : Fin 3 → ℕ) a + (⟨3, ![256, 1, 63 - k]⟩ : Shape).size a ≤ (⟨3, ![256, 64, 64]⟩ : Shape).size a)
        (w : (⟨3, ![256, 1, 63 - k]⟩ : Shape).Idx → EReal),
        L[k]'(by omega) = ⟨Rect.unit (s := ⟨3, ![256, 64, 64]⟩) ![0, 63 - k, 0] (⟨3, ![256, 1, 63 - k]⟩ : Shape).size inb3, w⟩
          ∧ ∀ x, w x = lowerIdx X ((Rect.unit (s := ⟨3, ![256, 64, 64]⟩) ![0, 63 - k, 0] (⟨3, ![256, 1, 63 - k]⟩ : Shape).size inb3).emb x))
    (hzero : ∃ (inbz : ∀ a, (![0, 0, 0] : Fin 3 → ℕ) a + (⟨3, ![256, 64, 64]⟩ : Shape).size a ≤ (⟨3, ![256, 64, 64]⟩ : Shape).size a)
        (w : (⟨3, ![256, 64, 64]⟩ : Shape).Idx → EReal),
        L[63]'(by omega) = ⟨Rect.unit (s := ⟨3, ![256, 64, 64]⟩) ![0, 0, 0] (⟨3, ![256, 64, 64]⟩ : Shape).size inbz, w⟩ ∧ ∀ x, w x = 0)
    (y : (⟨3, ![256, 64, 64]⟩ : Shape).Idx) : View.canon L y = lowerIdx X y := by
  have hy1 : (y 1).val < 64 := (y 1).isLt
  have hy2 : (y 2).val < 64 := (y 2).isLt
  have hmiss : ∀ j (hj : j < 63), (y 1).val ≠ 63 - j ∨ ¬ (y 2).val < 63 - j → y ∉ (L[j]'(by omega)).1.set := by
    intro j hj hne
    obtain ⟨inb3, w, hLj, -⟩ := hrow j hj
    rw [hLj]
    intro hm
    have := (mem_row_iff (63 - j) inb3 y).1 hm
    omega
  by_cases hcr : (y 2).val < (y 1).val
  · obtain ⟨inb3, w, hLk, hw⟩ := hrow (63 - (y 1).val) (by omega)
    have hmem : y ∈ (Rect.unit (s := ⟨3, ![256, 64, 64]⟩) ![0, 63 - (63 - (y 1).val), 0] (⟨3, ![256, 1, 63 - (63 - (y 1).val)]⟩ : Shape).size inb3).set :=
      (mem_row_iff _ inb3 y).2 ⟨by omega, by omega⟩
    obtain ⟨x, hx⟩ := LoadRect.exists_idx_of_mem _ hmem
    rw [canon_first_hit L y (63 - (y 1).val) (by omega) _ hLk (fun j hj => hmiss j (by omega) (Or.inl (by omega))) x hx]
    show w x = _
    rw [hw x]
    exact congrArg (lowerIdx X) hx
  · obtain ⟨inbz, w, hLz, hw⟩ := hzero
    have hmem : y ∈ (Rect.unit (s := ⟨3, ![256, 64, 64]⟩) ![0, 0, 0] (⟨3, ![256, 64, 64]⟩ : Shape).size inbz).set :=
      View.mem_set_unit_zero (funext fun a => by fin_cases a <;> rfl) inbz y
    obtain ⟨x, hx⟩ := LoadRect.exists_idx_of_mem _ hmem
    rw [canon_first_hit L y 63 (by omega) _ hLz (fun j hj => hmiss j hj (by omega)) x hx]
    show w x = _
    rw [hw x]
    unfold lowerIdx Cert.Spec.lower
    rw [if_neg hcr]

theorem hz3 : (![0, 0, 0] : Fin 3 → ℕ) = fun _ => 0 := funext fun a => by fin_cases a <;> rfl

/-- The triangular scratch plus its transpose is the symmetric matrix of the tile. -/
theorem pay_sym (X : (⟨2, ![256, 2016]⟩ : Shape).Idx → EReal) :
    k0_pay71 (F := Ideal) (lowerIdx X) = Cert.Spec.sym X := by
  funext y
  obtain ⟨b, r, c, rfl⟩ : ∃ (b : Fin 256) (r c : Fin 64), y = ix3 b r c := ⟨y 0, y 1, y 2, eq_ix3 y⟩
  unfold k0_pay71
  rw [addf_apply, transpose_ix3_021_apply]
  rfl

/-- What the body leaves in the output block: the symmetric matrix of the input block. -/
theorem out_eq (c : Dev nD) (i : grid0.Coords) (arg1 : Memref sig .tc .vmem S256x2016 .f32) (harg1 : arg1.IsWhole)
    (arg2 : Memref sig .tc .vmem S256x64x64 .f32) (harg2 : arg2.IsWhole) (arg3 : Memref sig .tc .vmem S256x64x64 .f32) (harg3 : arg3.IsWhole)
    (x0 : Vec Ideal S256x2016 .f32) :
    out0_A_1 (F := Ideal) c i arg1 harg1 arg2 harg2 arg3 harg3 x0 = Cert.Spec.sym x0 := by
  unfold out0_A_1
  rw [View.read_writes_eq_canon _ _ _ (cover0_A_1 c i arg1 harg1 arg2 harg2 arg3 harg3 x0)]
  unfold kernelRun0_A
  dsimp only
  sl_unfold_run_names
  rw [View.canon_unit_zero hz3]
  simp only [View.readAt_eq_ld, harg1.read_unread]
  refine (congrArg (k0_pay71 (F := Ideal)) ?_).trans (pay_sym x0)
  rw [View.readCov_eq_canon']
  show View.ld (View.canon _) (Rect.unit ![0, 0, 0] S256x64x64.size inb_S256x64x64_S256x64x64_0_0_0) = _
  rw [View.ld_unit_zero (S := S256x64x64) hz3]
  funext y
  refine canon_tri x0 _ rfl ?_ ?_ y
  · intro k hk
    interval_cases k
    · exact ⟨_, _, rfl, row_piece 63 1953 (by decide) x0 _ _ _ _⟩
    · exact ⟨_, _, rfl, row_piece 62 1891 (by decide) x0 _ _ _ _⟩
    · exact ⟨_, _, rfl, row_piece 61 1830 (by decide) x0 _ _ _ _⟩
    · exact ⟨_, _, rfl, row_piece 60 1770 (by decide) x0 _ _ _ _⟩
    · exact ⟨_, _, rfl, row_piece 59 1711 (by decide) x0 _ _ _ _⟩
    · exact ⟨_, _, rfl, row_piece 58 1653 (by decide) x0 _ _ _ _⟩
    · exact ⟨_, _, rfl, row_piece 57 1596 (by decide) x0 _ _ _ _⟩
    · exact ⟨_, _, rfl, row_piece 56 1540 (by decide) x0 _ _ _ _⟩
    · exact ⟨_, _, rfl, row_piece 55 1485 (by decide) x0 _ _ _ _⟩
    · exact ⟨_, _, rfl, row_piece 54 1431 (by decide) x0 _ _ _ _⟩
    · exact ⟨_, _, rfl, row_piece 53 1378 (by decide) x0 _ _ _ _⟩
    · exact ⟨_, _, rfl, row_piece 52 1326 (by decide) x0 _ _ _ _⟩
    · exact ⟨_, _, rfl, row_piece 51 1275 (by decide) x0 _ _ _ _⟩
    · exact ⟨_, _, rfl, row_piece 50 1225 (by decide) x0 _ _ _ _⟩
    · exact ⟨_, _, rfl, row_piece 49 1176 (by decide) x0 _ _ _ _⟩
    · exact ⟨_, _, rfl, row_piece 48 1128 (by decide) x0 _ _ _ _⟩
    · exact ⟨_, _, rfl, row_piece 47 1081 (by decide) x0 _ _ _ _⟩
    · exact ⟨_, _, rfl, row_piece 46 1035 (by decide) x0 _ _ _ _⟩
    · exact ⟨_, _, rfl, row_piece 45 990 (by decide) x0 _ _ _ _⟩
    · exact ⟨_, _, rfl, row_piece 44 946 (by decide) x0 _ _ _ _⟩
    · exact ⟨_, _, rfl, row_piece 43 903 (by decide) x0 _ _ _ _⟩
    · exact ⟨_, _, rfl, row_piece 42 861 (by decide) x0 _ _ _ _⟩
    · exact ⟨_, _, rfl, row_piece 41 820 (by decide) x0 _ _ _ _⟩
    · exact ⟨_, _, rfl, row_piece 40 780 (by decide) x0 _ _ _ _⟩
    · exact ⟨_, _, rfl, row_piece 39 741 (by decide) x0 _ _ _ _⟩
    · exact ⟨_, _, rfl, row_piece 38 703 (by decide) x0 _ _ _ _⟩
    · exact ⟨_, _, rfl, row_piece 37 666 (by decide) x0 _ _ _ _⟩
    · exact ⟨_, _, rfl, row_piece 36 630 (by decide) x0 _ _ _ _⟩
    · exact ⟨_, _, rfl, row_piece 35 595 (by decide) x0 _ _ _ _⟩
    · exact ⟨_, _, rfl, row_piece 34 561 (by decide) x0 _ _ _ _⟩
    · exact ⟨_, _, rfl, row_piece 33 528 (by decide) x0 _ _ _ _⟩
    · exact ⟨_, _, rfl, row_piece 32 496 (by decide) x0 _ _ _ _⟩
    · exact ⟨_, _, rfl, row_piece 31 465 (by decide) x0 _ _ _ _⟩
    · exact ⟨_, _, rfl, row_piece 30 435 (by decide) x0 _ _ _ _⟩
    · exact ⟨_, _, rfl, row_piece 29 406 (by decide) x0 _ _ _ _⟩
    · exact ⟨_, _, rfl, row_piece 28 378 (by decide) x0 _ _ _ _⟩
    · exact ⟨_, _, rfl, row_piece 27 351 (by decide) x0 _ _ _ _⟩
    · exact ⟨_, _, rfl, row_piece 26 325 (by decide) x0 _ _ _ _⟩
    · exact ⟨_, _, rfl, row_piece 25 300 (by decide) x0 _ _ _ _⟩
    · exact ⟨_, _, rfl, row_piece 24 276 (by decide) x0 _ _ _ _⟩
    · exact ⟨_, _, rfl, row_piece 23 253 (by decide) x0 _ _ _ _⟩
    · exact ⟨_, _, rfl, row_piece 22 231 (by decide) x0 _ _ _ _⟩
    · exact ⟨_, _, rfl, row_piece 21 210 (by decide) x0 _ _ _ _⟩
    · exact ⟨_, _, rfl, row_piece 20 190 (by decide) x0 _ _ _ _⟩
    · exact ⟨_, _, rfl, row_piece 19 171 (by decide) x0 _ _ _ _⟩
    · exact ⟨_, _, rfl, row_piece 18 153 (by decide) x0 _ _ _ _⟩
    · exact ⟨_, _, rfl, row_piece 17 136 (by decide) x0 _ _ _ _⟩
    · exact ⟨_, _, rfl, row_piece 16 120 (by decide) x0 _ _ _ _⟩
    · exact ⟨_, _, rfl, row_piece 15 105 (by decide) x0 _ _ _ _⟩
    · exact ⟨_, _, rfl, row_piece 14 91 (by decide) x0 _ _ _ _⟩
    · exact ⟨_, _, rfl, row_piece 13 78 (by decide) x0 _ _ _ _⟩
    · exact ⟨_, _, rfl, row_piece 12 66 (by decide) x0 _ _ _ _⟩
    · exact ⟨_, _, rfl, row_piece 11 55 (by decide) x0 _ _ _ _⟩
    · exact ⟨_, _, rfl, row_piece 10 45 (by decide) x0 _ _ _ _⟩
    · exact ⟨_, _, rfl, row_piece 9 36 (by decide) x0 _ _ _ _⟩
    · exact ⟨_, _, rfl, row_piece 8 28 (by decide) x0 _ _ _ _⟩
    · exact ⟨_, _, rfl, row_piece 7 21 (by decide) x0 _ _ _ _⟩
    · exact ⟨_, _, rfl, row_piece 6 15 (by decide) x0 _ _ _ _⟩
    · exact ⟨_, _, rfl, row_piece 5 10 (by decide) x0 _ _ _ _⟩
    · exact ⟨_, _, rfl, row_piece 4 6 (by decide) x0 _ _ _ _⟩
    · exact ⟨_, _, rfl, row_piece 3 3 (by decide) x0 _ _ _ _⟩
    · exact ⟨_, _, rfl, row_piece 2 1 (by decide) x0 _ _ _ _⟩
    · exact ⟨_, _, rfl, row_piece 1 0 (by decide) x0 _ _ _ _⟩
  · refine ⟨_, _, rfl, fun x => ?_⟩
    unfold k0_pay1
    rw [shapeCast_self]
    exact Ideal.ofBits_zero_f32

end Cert.KernelIdeal.Block

end
-- ==== Proof.KernelValue.lean ====
/-
  From tiles to the whole array. Grid point t stages rows 256 t, ..., 256 t + 255 of the argument and writes back rows
  256 t, ..., 256 t + 255 of the result; the block it writes is the symmetric matrix of the staged block, which is
  those rows of the symmetric matrix of the whole argument (the matrix of a row depends on that row alone); the 128
  blocks cover the result. So the kernel ends with `Cert.Spec.sym` of its argument in the result and the argument
  unchanged.
-/
import proofs.«139411_j39719857553609_2_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: point `t` is block `t` along the batch axis, block 0 along the others. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0)

/-- The staged block at point `t` is rows `256 t, ..., 256 t + 255` of the argument. -/
theorem iblk_apply (c : Dev nD) (t : Fin cfg0.N) (b : Fin 256) (k : Fin 2016) (hB : t.val * 256 + b.val < 32768) :
    (iblk m c 0 t : Vec Ideal S256x2016 .f32) (ix2 b k)
      = (m ((c : Thread nD τ).loc main_arg0) : S32768x2016.Idx → Elt Ideal .f32) (ix2 ⟨t.val * 256 + b.val, hB⟩ k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 256 + 1 * b.val = t.val * 256 + b.val; rw [e0]; omega
  | ⟨1, _⟩ => show win0_0.index t 1 * 2016 + 1 * k.val = k.val; rw [e1]; omega

/-- The triangular matrix of row `B` of a tile is that of row `256 T + B` of the array the tile is cut from. -/
theorem lower_shift (X : (⟨2, ![256, 2016]⟩ : Shape).Idx → EReal) (A : (⟨2, ![32768, 2016]⟩ : Shape).Idx → EReal) (T : ℕ)
    (hT : T < 128)
    (h : ∀ (b : Fin 256) (k : Fin 2016) (hB : T * 256 + b.val < 32768), X (ix2 b k) = A (ix2 ⟨T * 256 + b.val, hB⟩ k))
    (B r c : ℕ) (hB : B < 256) : Cert.Spec.lower X B r c = Cert.Spec.lower A (T * 256 + B) r c := by
  unfold Cert.Spec.lower
  by_cases hc : c < r
  · rw [if_pos hc, if_pos hc]
    unfold Cert.Spec.rowAt
    by_cases hk : Cert.Tri.tri r + c < 2016
    · rw [dif_pos ⟨hB, hk⟩, dif_pos ⟨by omega, hk⟩]
      exact h ⟨B, hB⟩ ⟨_, hk⟩ (by omega)
    · rw [dif_neg (fun h' => hk h'.2), dif_neg (fun h' => hk h'.2)]
  · rw [if_neg hc, if_neg hc]

/-- What point `t` writes back is block `t` of the symmetric matrix of the whole argument. -/
theorem flushed_eq (c : Dev nD) (t : Fin cfg0.N) :
    (dats m 0 c).flushed 1 t
      = ((cfg0.win 1).blk t).view.read (Elt Ideal) (Cert.Spec.sym (n := 32768) (m ((c : Thread nD τ).loc main_arg0))) := by
  rw [Cert.KernelIdeal.Value.flushed1_A, Cert.KernelIdeal.Block.out_eq]
  have hN : cfg0.N = 128 := N_0
  have ht : t.val < 128 := by have := t.isLt; omega
  obtain ⟨-, -, e2, e3, e4⟩ := idx_facts t
  funext j
  have hj0 : (j 0).val < 256 := (j 0).isLt
  have h0 : ((((cfg0.win 1).blk t).view.emb j) 0).val = t.val * 256 + (j 0).val := by
    show win0_1.index t 0 * 256 + 1 * (j 0).val = _; rw [e2]; omega
  have h1 : ((((cfg0.win 1).blk t).view.emb j) 1).val = (j 1).val := by
    show win0_1.index t 1 * 64 + 1 * (j 1).val = _; rw [e3]; omega
  have h2 : ((((cfg0.win 1).blk t).view.emb j) 2).val = (j 2).val := by
    show win0_1.index t 2 * 64 + 1 * (j 2).val = _; rw [e4]; omega
  show Cert.Spec.lower (iblk m c 0 t) (j 0).val (j 1).val (j 2).val + Cert.Spec.lower (iblk m c 0 t) (j 0).val (j 2).val (j 1).val
    = Cert.Spec.lower (m (c.tc.loc main_arg0)) ((((cfg0.win 1).blk t).view.emb j) 0).val ((((cfg0.win 1).blk t).view.emb j) 1).val ((((cfg0.win 1).blk t).view.emb j) 2).val
      + Cert.Spec.lower (m (c.tc.loc main_arg0)) ((((cfg0.win 1).blk t).view.emb j) 0).val ((((cfg0.win 1).blk t).view.emb j) 2).val ((((cfg0.win 1).blk t).view.emb j) 1).val
  rw [h0, h1, h2,
    lower_shift (iblk m c 0 t) (m (c.tc.loc main_arg0)) t.val ht (fun b k hB => iblk_apply m c t b k hB) _ _ _ hj0,
    lower_shift (iblk m c 0 t) (m (c.tc.loc main_arg0)) t.val ht (fun b k hB => iblk_apply m c t b k hB) _ _ _ hj0]

/-- An index of the result is in point `t`'s block when each coordinate is in the block's range on its axis. -/
theorem mem_blk (t : Fin cfg0.N) (i : S32768x64x64.Idx) :
    i ∈ ((cfg0.win 1).blk t).view.set ↔ ∀ a : Fin 3, win0_1.index t a * S256x64x64.size a ≤ (i a).val
      ∧ (i a).val < win0_1.index t a * S256x64x64.size a + S256x64x64.size a := by
  show i ∈ ((View.whole main_v0).slice (win0_1.rect t)).set ↔ _
  rw [View.set_slice_whole, Rect.mem_set_unit]
  exact Iff.rfl

/-- The result array after the run is the symmetric matrix of the argument. -/
theorem final (c : Dev nD) :
    (dats m 0 c).arrAt 1 cfg0.N = Cert.Spec.sym (n := 32768) (m ((c : Thread nD τ).loc main_arg0)) :=
  (dats m 0 c).arrAt_eq_of_cover 1 _ (fun t _ => flushed_eq m c t) fun i => by
    have hN : cfg0.N = 128 := N_0
    have hi0 : (i 0).val < 32768 := (i 0).isLt
    have hi1 : (i 1).val < 64 := (i 1).isLt
    have hi2 : (i 2).val < 64 := (i 2).isLt
    refine ⟨⟨(i 0).val / 256, by omega⟩, flush0_1 _, ?_⟩
    obtain ⟨-, -, e2, e3, e4⟩ := idx_facts ⟨(i 0).val / 256, by omega⟩
    rw [mem_blk]
    intro a
    match a with
    | ⟨0, _⟩ => show win0_1.index _ 0 * 256 ≤ (i 0).val ∧ (i 0).val < win0_1.index _ 0 * 256 + 256; rw [e2]; show (i 0).val / 256 * 256 ≤ (i 0).val ∧ (i 0).val < (i 0).val / 256 * 256 + 256; omega
    | ⟨1, _⟩ => show win0_1.index _ 1 * 64 ≤ (i 1).val ∧ (i 1).val < win0_1.index _ 1 * 64 + 64; rw [e3]; omega
    | ⟨2, _⟩ => show win0_1.index _ 2 * 64 ≤ (i 2).val ∧ (i 2).val < win0_1.index _ 2 * 64 + 64; rw [e4]; omega

/-- The kernel's run: the result holds the symmetric matrix of the argument, the argument is unchanged. -/
theorem run : θ_run defs (onTc (τ := τ) (main (F := Ideal))) ⟨m, fun _ => 0, ρ⟩ fun r => ∀ c : Dev nD,
      r.2.mem ((c : Thread nD τ).loc main_v0) = Cert.Spec.sym (n := 32768) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole

end
-- ==== Proof.RefTerms.lean ====
/-
  The reference program's host operations as pure terms, one definition per tensor value, each the printed
  operation applied to the definitions of its operands: the strict-lower-triangle mask, its running count, the
  positions of its set entries (a count of the running counts, summed again), their row and column, the scatter of
  the argument's columns to those places, and the sum with the transpose. The functions jax outlined are written
  out at their call sites over the call's own buffers. Only the last three values depend on the argument array.
-/
import proofs.«139411_j39719857553609_2_alg».proof.ReferenceIdeal

noncomputable section

namespace Cert.ReferenceIdeal.Terms

open Idealize.ShloMosaic Idealize.SL.Sem Cert.ReferenceIdeal

variable {F : FTy → Type} [FloatOps F] [Facts]
open Facts₀ Facts

def val_main_cst : (⟨S_, .f32⟩ : BufTy).Contents (Elt F) :=
  (constant S_ .f32 0x3F800000#32)

def val_main_v0 : (⟨S64x64, .f32⟩ : BufTy).Contents (Elt F) :=
  (broadcastInDim S64x64 ![] bcast_S_S64x64 : (⟨S_, .f32⟩ : BufTy).Contents (Elt F) → (⟨S64x64, .f32⟩ : BufTy).Contents (Elt F)) (val_main_cst (F := F))

def val_main_call0_v0 : (⟨S64x64, .i32⟩ : BufTy).Contents (Elt F) :=
  (iotaInDim S64x64 32 0)

def val_main_call0_c : (⟨S_, .i32⟩ : BufTy).Contents (Elt F) :=
  (constantI S_ 32 4294967295#32)

def val_main_call0_v1 : (⟨S64x64, .i32⟩ : BufTy).Contents (Elt F) :=
  (broadcastInDim S64x64 ![] bcast_S_S64x64) (val_main_call0_c (F := F))

def val_main_call0_v2 : (⟨S64x64, .i32⟩ : BufTy).Contents (Elt F) :=
  (addi) (val_main_call0_v0 (F := F)) (val_main_call0_v1 (F := F))

def val_main_call0_v3 : (⟨S64x64, .i32⟩ : BufTy).Contents (Elt F) :=
  (iotaInDim S64x64 32 1)

def val_main_call0_v4 : (⟨S64x64, .i1⟩ : BufTy).Contents (Elt F) :=
  (cmpi .sge) (val_main_call0_v2 (F := F)) (val_main_call0_v3 (F := F))

def val_main_call0_cst : (⟨S_, .f32⟩ : BufTy).Contents (Elt F) :=
  (constant S_ .f32 0x00000000#32)

def val_main_call0_v5 : (⟨S64x64, .f32⟩ : BufTy).Contents (Elt F) :=
  (broadcastInDim S64x64 ![] bcast_S_S64x64) (val_main_call0_cst (F := F))

def val_main_v1 : (⟨S64x64, .f32⟩ : BufTy).Contents (Elt F) :=
  (select) (val_main_call0_v4 (F := F)) (val_main_v0 (F := F)) (val_main_call0_v5 (F := F))

def val_main_cst_0 : (⟨S_, .f32⟩ : BufTy).Contents (Elt F) :=
  (constant S_ .f32 0x00000000#32)

def val_main_v2 : (⟨S64x64, .f32⟩ : BufTy).Contents (Elt F) :=
  (broadcastInDim S64x64 ![] bcast_S_S64x64 : (⟨S_, .f32⟩ : BufTy).Contents (Elt F) → (⟨S64x64, .f32⟩ : BufTy).Contents (Elt F)) (val_main_cst_0 (F := F))

def val_main_v3 : (⟨S64x64, .i1⟩ : BufTy).Contents (Elt F) :=
  (cmpf .une : (⟨S64x64, .f32⟩ : BufTy).Contents (Elt F) → (⟨S64x64, .f32⟩ : BufTy).Contents (Elt F) → (⟨S64x64, .i1⟩ : BufTy).Contents (Elt F)) (val_main_v1 (F := F)) (val_main_v2 (F := F))

def val_main_call1_v0 : (⟨S4096, .i1⟩ : BufTy).Contents (Elt F) :=
  shapeCast S4096 (val_main_v3 (F := F)) shapeCasts_S64x64_S4096

def val_main_call1_v1 : (⟨S4096, .i32⟩ : BufTy).Contents (Elt F) :=
  (extui 32 · natLt_1_32) (val_main_call1_v0 (F := F))

def val_main_call1_call0_c : (⟨S_, .i32⟩ : BufTy).Contents (Elt F) :=
  (constantI S_ 32 0#32)

def val_main_call1_call0_v0 : (⟨S_, .i32⟩ : BufTy).Contents (Elt F) :=
  (broadcastInDim S_ ![] bcast_S_S_) (val_main_call1_call0_c (F := F))

def val_main_v4 : (⟨S4096, .i32⟩ : BufTy).Contents (Elt F) :=
  (fun x v => Host.reduceWindow IntOp.addi ![4096] ![1] ![4095] ![0] x v reduceWindows_S4096_S4096_w4096s1p4095_0 h_S_) (val_main_call1_v1 (F := F)) (val_main_call1_call0_v0 (F := F))

def val_main_c : (⟨S_, .i32⟩ : BufTy).Contents (Elt F) :=
  (constantI S_ 32 0#32)

def val_main_v5 : (⟨S2016, .i32⟩ : BufTy).Contents (Elt F) :=
  (broadcastInDim S2016 ![] bcast_S_S2016 : (⟨S_, .i32⟩ : BufTy).Contents (Elt F) → (⟨S2016, .i32⟩ : BufTy).Contents (Elt F)) (val_main_c (F := F))

def val_main_c_1 : (⟨S_, .i32⟩ : BufTy).Contents (Elt F) :=
  (constantI S_ 32 0#32)

def val_main_call2_v0 : (⟨S_, .i32⟩ : BufTy).Contents (Elt F) :=
  (id) (val_main_c_1 (F := F))

def val_main_call2_v1 : (⟨S4096, .i32⟩ : BufTy).Contents (Elt F) :=
  (broadcastInDim S4096 ![] bcast_S_S4096) (val_main_call2_v0 (F := F))

def val_main_v6 : (⟨S4096, .i32⟩ : BufTy).Contents (Elt F) :=
  (maxsi) (val_main_call2_v1 (F := F)) (val_main_v4 (F := F))

def val_main_c_2 : (⟨S_, .i32⟩ : BufTy).Contents (Elt F) :=
  (constantI S_ 32 0#32)

def val_main_v7 : (⟨S4096, .i32⟩ : BufTy).Contents (Elt F) :=
  (broadcastInDim S4096 ![] bcast_S_S4096 : (⟨S_, .i32⟩ : BufTy).Contents (Elt F) → (⟨S4096, .i32⟩ : BufTy).Contents (Elt F)) (val_main_c_2 (F := F))

def val_main_v8 : (⟨S4096, .i1⟩ : BufTy).Contents (Elt F) :=
  (cmpi .slt : (⟨S4096, .i32⟩ : BufTy).Contents (Elt F) → (⟨S4096, .i32⟩ : BufTy).Contents (Elt F) → (⟨S4096, .i1⟩ : BufTy).Contents (Elt F)) (val_main_v6 (F := F)) (val_main_v7 (F := F))

def val_main_c_3 : (⟨S_, .i32⟩ : BufTy).Contents (Elt F) :=
  (constantI S_ 32 2016#32)

def val_main_v9 : (⟨S4096, .i32⟩ : BufTy).Contents (Elt F) :=
  (broadcastInDim S4096 ![] bcast_S_S4096 : (⟨S_, .i32⟩ : BufTy).Contents (Elt F) → (⟨S4096, .i32⟩ : BufTy).Contents (Elt F)) (val_main_c_3 (F := F))

def val_main_v10 : (⟨S4096, .i32⟩ : BufTy).Contents (Elt F) :=
  (addi : (⟨S4096, .i32⟩ : BufTy).Contents (Elt F) → (⟨S4096, .i32⟩ : BufTy).Contents (Elt F) → (⟨S4096, .i32⟩ : BufTy).Contents (Elt F)) (val_main_v6 (F := F)) (val_main_v9 (F := F))

def val_main_v11 : (⟨S4096, .i32⟩ : BufTy).Contents (Elt F) :=
  (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (val_main_v8 (F := F)) (val_main_v10 (F := F)) (val_main_v6 (F := F))

def val_main_v12 : (⟨S4096x1, .i32⟩ : BufTy).Contents (Elt F) :=
  (broadcastInDim S4096x1 ![0] bcast_S4096_S4096x1_0 : (⟨S4096, .i32⟩ : BufTy).Contents (Elt F) → (⟨S4096x1, .i32⟩ : BufTy).Contents (Elt F)) (val_main_v11 (F := F))

def val_main_c_4 : (⟨S_, .i32⟩ : BufTy).Contents (Elt F) :=
  (constantI S_ 32 1#32)

def val_main_v13 : (⟨S4096, .i32⟩ : BufTy).Contents (Elt F) :=
  (broadcastInDim S4096 ![] bcast_S_S4096 : (⟨S_, .i32⟩ : BufTy).Contents (Elt F) → (⟨S4096, .i32⟩ : BufTy).Contents (Elt F)) (val_main_c_4 (F := F))

def val_main_v14 : (⟨S2016, .i32⟩ : BufTy).Contents (Elt F) :=
  ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)) (val_main_v5 (F := F)) (val_main_v12 (F := F)) (val_main_v13 (F := F))

def val_main_call3_call0_c : (⟨S_, .i32⟩ : BufTy).Contents (Elt F) :=
  (constantI S_ 32 0#32)

def val_main_call3_call0_v0 : (⟨S_, .i32⟩ : BufTy).Contents (Elt F) :=
  (broadcastInDim S_ ![] bcast_S_S_) (val_main_call3_call0_c (F := F))

def val_main_v15 : (⟨S2016, .i32⟩ : BufTy).Contents (Elt F) :=
  (fun x v => Host.reduceWindow IntOp.addi ![2016] ![1] ![2015] ![0] x v reduceWindows_S2016_S2016_w2016s1p2015_0 h_S_) (val_main_v14 (F := F)) (val_main_call3_call0_v0 (F := F))

def val_main_c_5 : (⟨S_, .i32⟩ : BufTy).Contents (Elt F) :=
  (constantI S_ 32 64#32)

def val_main_call4_v0 : (⟨S2016, .i32⟩ : BufTy).Contents (Elt F) :=
  (broadcastInDim S2016 ![] bcast_S_S2016) (val_main_c_5 (F := F))

def val_main_call4_v1 : (⟨S2016, .i32⟩ : BufTy).Contents (Elt F) :=
  (Host.divsi) (val_main_v15 (F := F)) (val_main_call4_v0 (F := F))

def val_main_call4_v2 : (⟨S2016, .i32⟩ : BufTy).Contents (Elt F) :=
  (signi) (val_main_v15 (F := F))

def val_main_call4_v3 : (⟨S_, .i32⟩ : BufTy).Contents (Elt F) :=
  (signi) (val_main_c_5 (F := F))

def val_main_call4_v4 : (⟨S2016, .i32⟩ : BufTy).Contents (Elt F) :=
  (broadcastInDim S2016 ![] bcast_S_S2016) (val_main_call4_v3 (F := F))

def val_main_call4_v5 : (⟨S2016, .i1⟩ : BufTy).Contents (Elt F) :=
  (cmpi .ne) (val_main_call4_v2 (F := F)) (val_main_call4_v4 (F := F))

def val_main_call4_v6 : (⟨S2016, .i32⟩ : BufTy).Contents (Elt F) :=
  (broadcastInDim S2016 ![] bcast_S_S2016) (val_main_c_5 (F := F))

def val_main_call4_v7 : (⟨S2016, .i32⟩ : BufTy).Contents (Elt F) :=
  (Host.remsi) (val_main_v15 (F := F)) (val_main_call4_v6 (F := F))

def val_main_call4_c : (⟨S_, .i32⟩ : BufTy).Contents (Elt F) :=
  (constantI S_ 32 0#32)

def val_main_call4_v8 : (⟨S2016, .i32⟩ : BufTy).Contents (Elt F) :=
  (broadcastInDim S2016 ![] bcast_S_S2016) (val_main_call4_c (F := F))

def val_main_call4_v9 : (⟨S2016, .i1⟩ : BufTy).Contents (Elt F) :=
  (cmpi .ne) (val_main_call4_v7 (F := F)) (val_main_call4_v8 (F := F))

def val_main_call4_v10 : (⟨S2016, .i1⟩ : BufTy).Contents (Elt F) :=
  (andi) (val_main_call4_v5 (F := F)) (val_main_call4_v9 (F := F))

def val_main_call4_c_0 : (⟨S_, .i32⟩ : BufTy).Contents (Elt F) :=
  (constantI S_ 32 1#32)

def val_main_call4_v11 : (⟨S2016, .i32⟩ : BufTy).Contents (Elt F) :=
  (broadcastInDim S2016 ![] bcast_S_S2016) (val_main_call4_c_0 (F := F))

def val_main_call4_v12 : (⟨S2016, .i32⟩ : BufTy).Contents (Elt F) :=
  (subi) (val_main_call4_v1 (F := F)) (val_main_call4_v11 (F := F))

def val_main_v16 : (⟨S2016, .i32⟩ : BufTy).Contents (Elt F) :=
  (select) (val_main_call4_v10 (F := F)) (val_main_call4_v12 (F := F)) (val_main_call4_v1 (F := F))

def val_main_c_6 : (⟨S_, .i32⟩ : BufTy).Contents (Elt F) :=
  (constantI S_ 32 64#32)

def val_main_call5_v0 : (⟨S_, .i32⟩ : BufTy).Contents (Elt F) :=
  (id) (val_main_c_6 (F := F))

def val_main_call5_c : (⟨S_, .i32⟩ : BufTy).Contents (Elt F) :=
  (constantI S_ 32 0#32)

def val_main_call5_v1 : (⟨S_, .i1⟩ : BufTy).Contents (Elt F) :=
  (cmpi .eq) (val_main_call5_v0 (F := F)) (val_main_call5_c (F := F))

def val_main_call5_c_0 : (⟨S_, .i32⟩ : BufTy).Contents (Elt F) :=
  (constantI S_ 32 1#32)

def val_main_call5_v2 : (⟨S_, .i32⟩ : BufTy).Contents (Elt F) :=
  (select) (val_main_call5_v1 (F := F)) (val_main_call5_c_0 (F := F)) (val_main_call5_v0 (F := F))

def val_main_call5_v3 : (⟨S2016, .i32⟩ : BufTy).Contents (Elt F) :=
  (broadcastInDim S2016 ![] bcast_S_S2016) (val_main_call5_v2 (F := F))

def val_main_call5_v4 : (⟨S2016, .i32⟩ : BufTy).Contents (Elt F) :=
  (Host.remsi) (val_main_v16 (F := F)) (val_main_call5_v3 (F := F))

def val_main_call5_c_1 : (⟨S_, .i32⟩ : BufTy).Contents (Elt F) :=
  (constantI S_ 32 0#32)

def val_main_call5_v5 : (⟨S2016, .i32⟩ : BufTy).Contents (Elt F) :=
  (broadcastInDim S2016 ![] bcast_S_S2016) (val_main_call5_c_1 (F := F))

def val_main_call5_v6 : (⟨S2016, .i1⟩ : BufTy).Contents (Elt F) :=
  (cmpi .ne) (val_main_call5_v4 (F := F)) (val_main_call5_v5 (F := F))

def val_main_call5_c_2 : (⟨S_, .i32⟩ : BufTy).Contents (Elt F) :=
  (constantI S_ 32 0#32)

def val_main_call5_v7 : (⟨S2016, .i32⟩ : BufTy).Contents (Elt F) :=
  (broadcastInDim S2016 ![] bcast_S_S2016) (val_main_call5_c_2 (F := F))

def val_main_call5_v8 : (⟨S2016, .i1⟩ : BufTy).Contents (Elt F) :=
  (cmpi .slt) (val_main_call5_v4 (F := F)) (val_main_call5_v7 (F := F))

def val_main_call5_c_3 : (⟨S_, .i32⟩ : BufTy).Contents (Elt F) :=
  (constantI S_ 32 0#32)

def val_main_call5_v9 : (⟨S_, .i1⟩ : BufTy).Contents (Elt F) :=
  (cmpi .slt) (val_main_call5_v2 (F := F)) (val_main_call5_c_3 (F := F))

def val_main_call5_v10 : (⟨S2016, .i1⟩ : BufTy).Contents (Elt F) :=
  (broadcastInDim S2016 ![] bcast_S_S2016) (val_main_call5_v9 (F := F))

def val_main_call5_v11 : (⟨S2016, .i1⟩ : BufTy).Contents (Elt F) :=
  (cmpi .ne) (val_main_call5_v8 (F := F)) (val_main_call5_v10 (F := F))

def val_main_call5_v12 : (⟨S2016, .i1⟩ : BufTy).Contents (Elt F) :=
  (andi) (val_main_call5_v11 (F := F)) (val_main_call5_v6 (F := F))

def val_main_call5_v13 : (⟨S2016, .i32⟩ : BufTy).Contents (Elt F) :=
  (broadcastInDim S2016 ![] bcast_S_S2016) (val_main_call5_v2 (F := F))

def val_main_call5_v14 : (⟨S2016, .i32⟩ : BufTy).Contents (Elt F) :=
  (addi) (val_main_call5_v4 (F := F)) (val_main_call5_v13 (F := F))

def val_main_v17 : (⟨S2016, .i32⟩ : BufTy).Contents (Elt F) :=
  (select) (val_main_call5_v12 (F := F)) (val_main_call5_v14 (F := F)) (val_main_call5_v4 (F := F))

def val_main_c_7 : (⟨S_, .i32⟩ : BufTy).Contents (Elt F) :=
  (constantI S_ 32 1#32)

def val_main_call6_v0 : (⟨S2016, .i32⟩ : BufTy).Contents (Elt F) :=
  (broadcastInDim S2016 ![] bcast_S_S2016) (val_main_c_7 (F := F))

def val_main_call6_v1 : (⟨S2016, .i32⟩ : BufTy).Contents (Elt F) :=
  (Host.divsi) (val_main_v15 (F := F)) (val_main_call6_v0 (F := F))

def val_main_call6_v2 : (⟨S2016, .i32⟩ : BufTy).Contents (Elt F) :=
  (signi) (val_main_v15 (F := F))

def val_main_call6_v3 : (⟨S_, .i32⟩ : BufTy).Contents (Elt F) :=
  (signi) (val_main_c_7 (F := F))

def val_main_call6_v4 : (⟨S2016, .i32⟩ : BufTy).Contents (Elt F) :=
  (broadcastInDim S2016 ![] bcast_S_S2016) (val_main_call6_v3 (F := F))

def val_main_call6_v5 : (⟨S2016, .i1⟩ : BufTy).Contents (Elt F) :=
  (cmpi .ne) (val_main_call6_v2 (F := F)) (val_main_call6_v4 (F := F))

def val_main_call6_v6 : (⟨S2016, .i32⟩ : BufTy).Contents (Elt F) :=
  (broadcastInDim S2016 ![] bcast_S_S2016) (val_main_c_7 (F := F))

def val_main_call6_v7 : (⟨S2016, .i32⟩ : BufTy).Contents (Elt F) :=
  (Host.remsi) (val_main_v15 (F := F)) (val_main_call6_v6 (F := F))

def val_main_call6_c : (⟨S_, .i32⟩ : BufTy).Contents (Elt F) :=
  (constantI S_ 32 0#32)

def val_main_call6_v8 : (⟨S2016, .i32⟩ : BufTy).Contents (Elt F) :=
  (broadcastInDim S2016 ![] bcast_S_S2016) (val_main_call6_c (F := F))

def val_main_call6_v9 : (⟨S2016, .i1⟩ : BufTy).Contents (Elt F) :=
  (cmpi .ne) (val_main_call6_v7 (F := F)) (val_main_call6_v8 (F := F))

def val_main_call6_v10 : (⟨S2016, .i1⟩ : BufTy).Contents (Elt F) :=
  (andi) (val_main_call6_v5 (F := F)) (val_main_call6_v9 (F := F))

def val_main_call6_c_0 : (⟨S_, .i32⟩ : BufTy).Contents (Elt F) :=
  (constantI S_ 32 1#32)

def val_main_call6_v11 : (⟨S2016, .i32⟩ : BufTy).Contents (Elt F) :=
  (broadcastInDim S2016 ![] bcast_S_S2016) (val_main_call6_c_0 (F := F))

def val_main_call6_v12 : (⟨S2016, .i32⟩ : BufTy).Contents (Elt F) :=
  (subi) (val_main_call6_v1 (F := F)) (val_main_call6_v11 (F := F))

def val_main_v18 : (⟨S2016, .i32⟩ : BufTy).Contents (Elt F) :=
  (select) (val_main_call6_v10 (F := F)) (val_main_call6_v12 (F := F)) (val_main_call6_v1 (F := F))

def val_main_c_8 : (⟨S_, .i32⟩ : BufTy).Contents (Elt F) :=
  (constantI S_ 32 64#32)

def val_main_call7_v0 : (⟨S_, .i32⟩ : BufTy).Contents (Elt F) :=
  (id) (val_main_c_8 (F := F))

def val_main_call7_c : (⟨S_, .i32⟩ : BufTy).Contents (Elt F) :=
  (constantI S_ 32 0#32)

def val_main_call7_v1 : (⟨S_, .i1⟩ : BufTy).Contents (Elt F) :=
  (cmpi .eq) (val_main_call7_v0 (F := F)) (val_main_call7_c (F := F))

def val_main_call7_c_0 : (⟨S_, .i32⟩ : BufTy).Contents (Elt F) :=
  (constantI S_ 32 1#32)

def val_main_call7_v2 : (⟨S_, .i32⟩ : BufTy).Contents (Elt F) :=
  (select) (val_main_call7_v1 (F := F)) (val_main_call7_c_0 (F := F)) (val_main_call7_v0 (F := F))

def val_main_call7_v3 : (⟨S2016, .i32⟩ : BufTy).Contents (Elt F) :=
  (broadcastInDim S2016 ![] bcast_S_S2016) (val_main_call7_v2 (F := F))

def val_main_call7_v4 : (⟨S2016, .i32⟩ : BufTy).Contents (Elt F) :=
  (Host.remsi) (val_main_v18 (F := F)) (val_main_call7_v3 (F := F))

def val_main_call7_c_1 : (⟨S_, .i32⟩ : BufTy).Contents (Elt F) :=
  (constantI S_ 32 0#32)

def val_main_call7_v5 : (⟨S2016, .i32⟩ : BufTy).Contents (Elt F) :=
  (broadcastInDim S2016 ![] bcast_S_S2016) (val_main_call7_c_1 (F := F))

def val_main_call7_v6 : (⟨S2016, .i1⟩ : BufTy).Contents (Elt F) :=
  (cmpi .ne) (val_main_call7_v4 (F := F)) (val_main_call7_v5 (F := F))

def val_main_call7_c_2 : (⟨S_, .i32⟩ : BufTy).Contents (Elt F) :=
  (constantI S_ 32 0#32)

def val_main_call7_v7 : (⟨S2016, .i32⟩ : BufTy).Contents (Elt F) :=
  (broadcastInDim S2016 ![] bcast_S_S2016) (val_main_call7_c_2 (F := F))

def val_main_call7_v8 : (⟨S2016, .i1⟩ : BufTy).Contents (Elt F) :=
  (cmpi .slt) (val_main_call7_v4 (F := F)) (val_main_call7_v7 (F := F))

def val_main_call7_c_3 : (⟨S_, .i32⟩ : BufTy).Contents (Elt F) :=
  (constantI S_ 32 0#32)

def val_main_call7_v9 : (⟨S_, .i1⟩ : BufTy).Contents (Elt F) :=
  (cmpi .slt) (val_main_call7_v2 (F := F)) (val_main_call7_c_3 (F := F))

def val_main_call7_v10 : (⟨S2016, .i1⟩ : BufTy).Contents (Elt F) :=
  (broadcastInDim S2016 ![] bcast_S_S2016) (val_main_call7_v9 (F := F))

def val_main_call7_v11 : (⟨S2016, .i1⟩ : BufTy).Contents (Elt F) :=
  (cmpi .ne) (val_main_call7_v8 (F := F)) (val_main_call7_v10 (F := F))

def val_main_call7_v12 : (⟨S2016, .i1⟩ : BufTy).Contents (Elt F) :=
  (andi) (val_main_call7_v11 (F := F)) (val_main_call7_v6 (F := F))

def val_main_call7_v13 : (⟨S2016, .i32⟩ : BufTy).Contents (Elt F) :=
  (broadcastInDim S2016 ![] bcast_S_S2016) (val_main_call7_v2 (F := F))

def val_main_call7_v14 : (⟨S2016, .i32⟩ : BufTy).Contents (Elt F) :=
  (addi) (val_main_call7_v4 (F := F)) (val_main_call7_v13 (F := F))

def val_main_v19 : (⟨S2016, .i32⟩ : BufTy).Contents (Elt F) :=
  (select) (val_main_call7_v12 (F := F)) (val_main_call7_v14 (F := F)) (val_main_call7_v4 (F := F))

def val_main_cst_9 : (⟨S_, .f32⟩ : BufTy).Contents (Elt F) :=
  (constant S_ .f32 0x00000000#32)

def val_main_v20 : (⟨S32768x64x64, .f32⟩ : BufTy).Contents (Elt F) :=
  (broadcastInDim S32768x64x64 ![] bcast_S_S32768x64x64 : (⟨S_, .f32⟩ : BufTy).Contents (Elt F) → (⟨S32768x64x64, .f32⟩ : BufTy).Contents (Elt F)) (val_main_cst_9 (F := F))

def val_main_c_10 : (⟨S_, .i32⟩ : BufTy).Contents (Elt F) :=
  (constantI S_ 32 0#32)

def val_main_v21 : (⟨S2016, .i32⟩ : BufTy).Contents (Elt F) :=
  (broadcastInDim S2016 ![] bcast_S_S2016 : (⟨S_, .i32⟩ : BufTy).Contents (Elt F) → (⟨S2016, .i32⟩ : BufTy).Contents (Elt F)) (val_main_c_10 (F := F))

def val_main_v22 : (⟨S2016, .i1⟩ : BufTy).Contents (Elt F) :=
  (cmpi .slt : (⟨S2016, .i32⟩ : BufTy).Contents (Elt F) → (⟨S2016, .i32⟩ : BufTy).Contents (Elt F) → (⟨S2016, .i1⟩ : BufTy).Contents (Elt F)) (val_main_v17 (F := F)) (val_main_v21 (F := F))

def val_main_c_11 : (⟨S_, .i32⟩ : BufTy).Contents (Elt F) :=
  (constantI S_ 32 64#32)

def val_main_v23 : (⟨S2016, .i32⟩ : BufTy).Contents (Elt F) :=
  (broadcastInDim S2016 ![] bcast_S_S2016 : (⟨S_, .i32⟩ : BufTy).Contents (Elt F) → (⟨S2016, .i32⟩ : BufTy).Contents (Elt F)) (val_main_c_11 (F := F))

def val_main_v24 : (⟨S2016, .i32⟩ : BufTy).Contents (Elt F) :=
  (addi : (⟨S2016, .i32⟩ : BufTy).Contents (Elt F) → (⟨S2016, .i32⟩ : BufTy).Contents (Elt F) → (⟨S2016, .i32⟩ : BufTy).Contents (Elt F)) (val_main_v17 (F := F)) (val_main_v23 (F := F))

def val_main_v25 : (⟨S2016, .i32⟩ : BufTy).Contents (Elt F) :=
  (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) (val_main_v22 (F := F)) (val_main_v24 (F := F)) (val_main_v17 (F := F))

def val_main_c_12 : (⟨S_, .i32⟩ : BufTy).Contents (Elt F) :=
  (constantI S_ 32 0#32)

def val_main_v26 : (⟨S2016, .i32⟩ : BufTy).Contents (Elt F) :=
  (broadcastInDim S2016 ![] bcast_S_S2016 : (⟨S_, .i32⟩ : BufTy).Contents (Elt F) → (⟨S2016, .i32⟩ : BufTy).Contents (Elt F)) (val_main_c_12 (F := F))

def val_main_v27 : (⟨S2016, .i1⟩ : BufTy).Contents (Elt F) :=
  (cmpi .slt : (⟨S2016, .i32⟩ : BufTy).Contents (Elt F) → (⟨S2016, .i32⟩ : BufTy).Contents (Elt F) → (⟨S2016, .i1⟩ : BufTy).Contents (Elt F)) (val_main_v19 (F := F)) (val_main_v26 (F := F))

def val_main_c_13 : (⟨S_, .i32⟩ : BufTy).Contents (Elt F) :=
  (constantI S_ 32 64#32)

def val_main_v28 : (⟨S2016, .i32⟩ : BufTy).Contents (Elt F) :=
  (broadcastInDim S2016 ![] bcast_S_S2016 : (⟨S_, .i32⟩ : BufTy).Contents (Elt F) → (⟨S2016, .i32⟩ : BufTy).Contents (Elt F)) (val_main_c_13 (F := F))

def val_main_v29 : (⟨S2016, .i32⟩ : BufTy).Contents (Elt F) :=
  (addi : (⟨S2016, .i32⟩ : BufTy).Contents (Elt F) → (⟨S2016, .i32⟩ : BufTy).Contents (Elt F) → (⟨S2016, .i32⟩ : BufTy).Contents (Elt F)) (val_main_v19 (F := F)) (val_main_v28 (F := F))

def val_main_v30 : (⟨S2016, .i32⟩ : BufTy).Contents (Elt F) :=
  (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) (val_main_v27 (F := F)) (val_main_v29 (F := F)) (val_main_v19 (F := F))

def val_main_v31 : (⟨S2016x1, .i32⟩ : BufTy).Contents (Elt F) :=
  (broadcastInDim S2016x1 ![0] bcast_S2016_S2016x1_0 : (⟨S2016, .i32⟩ : BufTy).Contents (Elt F) → (⟨S2016x1, .i32⟩ : BufTy).Contents (Elt F)) (val_main_v25 (F := F))

def val_main_v32 : (⟨S2016x1, .i32⟩ : BufTy).Contents (Elt F) :=
  (broadcastInDim S2016x1 ![0] bcast_S2016_S2016x1_0 : (⟨S2016, .i32⟩ : BufTy).Contents (Elt F) → (⟨S2016x1, .i32⟩ : BufTy).Contents (Elt F)) (val_main_v30 (F := F))

def val_main_v33 : (⟨S2016x2, .i32⟩ : BufTy).Contents (Elt F) :=
  ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)) (val_main_v31 (F := F)) (val_main_v32 (F := F))

def val_main_v34 (a : (⟨S32768x2016, .f32⟩ : BufTy).Contents (Elt F)) : (⟨S32768x64x64, .f32⟩ : BufTy).Contents (Elt F) :=
  ((fun x i u => Host.scatter scatter_S32768x64x64_S2016x2_S32768x2016_0_12_12_1 (fun _ b => b) x i u) : (⟨S32768x64x64, .f32⟩ : BufTy).Contents (Elt F) → (⟨S2016x2, .i32⟩ : BufTy).Contents (Elt F) → (⟨S32768x2016, .f32⟩ : BufTy).Contents (Elt F) → (⟨S32768x64x64, .f32⟩ : BufTy).Contents (Elt F)) (val_main_v20 (F := F)) (val_main_v33 (F := F)) a

def val_main_v35 (a : (⟨S32768x2016, .f32⟩ : BufTy).Contents (Elt F)) : (⟨S32768x64x64, .f32⟩ : BufTy).Contents (Elt F) :=
  ((transpose S32768x64x64 [0, 2, 1] · transposes_S32768x64x64_S32768x64x64_0_2_1) : (⟨S32768x64x64, .f32⟩ : BufTy).Contents (Elt F) → (⟨S32768x64x64, .f32⟩ : BufTy).Contents (Elt F)) (val_main_v34 (F := F) a)

def val_main_v36 (a : (⟨S32768x2016, .f32⟩ : BufTy).Contents (Elt F)) : (⟨S32768x64x64, .f32⟩ : BufTy).Contents (Elt F) :=
  (addf : (⟨S32768x64x64, .f32⟩ : BufTy).Contents (Elt F) → (⟨S32768x64x64, .f32⟩ : BufTy).Contents (Elt F) → (⟨S32768x64x64, .f32⟩ : BufTy).Contents (Elt F)) (val_main_v34 (F := F) a) (val_main_v35 (F := F) a)

end Cert.ReferenceIdeal.Terms

end
-- ==== Proof.RefRun.lean ====
/-
  The reference program run: its @main is a straight line of host operations once the functions jax outlined are
  written out at their calls, so every weakly fair execution terminates with each buffer holding the operations'
  composed value of the launch contents; the result buffer holds the scatter of the argument's columns to the places
  of the strict lower triangle plus its transpose (`Terms.val_main_v36`), and the argument is unchanged.
-/
import proofs.«139411_j39719857553609_2_alg».proof.Proof.RefTerms
import proofs.«139411_j39719857553609_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's operations in order, each outlined function's operations in place of its call, over that call's buffers. -/
abbrev ops : List (HloOp τ sig (Elt F)) :=
  [ StableHlo.nullary main_cst (constant S_ .f32 0x3F800000#32),
    StableHlo.unary main_cst main_v0 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 4294967295#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 (StableHlo.TRef.of main_v0 : StableHlo.TRef sig ⟨S64x64, .f32⟩) main_call0.v5 main_call0.v6 select,
    StableHlo.nullary main_cst_0 (constant S_ .f32 0x00000000#32),
    StableHlo.unary main_cst_0 main_v2 (broadcastInDim S64x64 ![] bcast_S_S64x64 : (⟨S_, .f32⟩ : BufTy).Contents (Elt F) → (⟨S64x64, .f32⟩ : BufTy).Contents (Elt F)),
    StableHlo.binary main_v1 main_v2 main_v3 (cmpf .une : (⟨S64x64, .f32⟩ : BufTy).Contents (Elt F) → (⟨S64x64, .f32⟩ : BufTy).Contents (Elt F) → (⟨S64x64, .i1⟩ : BufTy).Contents (Elt F)),
    StableHlo.TRef.reshape (StableHlo.TRef.of main_v3 : StableHlo.TRef sig ⟨S64x64, .i1⟩) main_call1.v0 rfl shapeCasts_S64x64_S4096,
    StableHlo.TRef.unary main_call1.v0 main_call1.v1 (extui 32 · natLt_1_32),
    StableHlo.TRef.nullary main_call1_call0.c (constantI S_ 32 0#32),
    StableHlo.TRef.unary main_call1_call0.c main_call1_call0.v0 (broadcastInDim S_ ![] bcast_S_S_),
    StableHlo.TRef.binary main_call1.v1 main_call1_call0.v0 main_call1_call0.v1 (fun x v => Host.reduceWindow IntOp.addi ![4096] ![1] ![4095] ![0] x v reduceWindows_S4096_S4096_w4096s1p4095_0 h_S_),
    StableHlo.nullary main_c (constantI S_ 32 0#32),
    StableHlo.unary main_c main_v5 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (StableHlo.TRef.of main_c_1 : StableHlo.TRef sig ⟨S_, .i32⟩) main_call2.v0 id,
    StableHlo.TRef.unary main_call2.v0 main_call2.v1 (broadcastInDim S4096 ![] bcast_S_S4096),
    StableHlo.TRef.binary main_call2.v1 (StableHlo.TRef.of main_v4 : StableHlo.TRef sig ⟨S4096, .i32⟩) main_call2.v2 maxsi,
    StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v6 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v9 (broadcastInDim S4096 ![] bcast_S_S4096 : (⟨S_, .i32⟩ : BufTy).Contents (Elt F) → (⟨S4096, .i32⟩ : BufTy).Contents (Elt F)),
    StableHlo.binary main_v6 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v5 main_v12 main_v13 main_v14 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3_call0.c (constantI S_ 32 0#32),
    StableHlo.TRef.unary main_call3_call0.c main_call3_call0.v0 (broadcastInDim S_ ![] bcast_S_S_),
    StableHlo.TRef.binary (StableHlo.TRef.of main_v14 : StableHlo.TRef sig ⟨S2016, .i32⟩) main_call3_call0.v0 main_call3_call0.v1 (fun x v => Host.reduceWindow IntOp.addi ![2016] ![1] ![2015] ![0] x v reduceWindows_S2016_S2016_w2016s1p2015_0 h_S_),
    StableHlo.nullary main_c_5 (constantI S_ 32 64#32),
    StableHlo.TRef.unary (StableHlo.TRef.of main_c_5 : StableHlo.TRef sig ⟨S_, .i32⟩) main_call4.v0 (broadcastInDim S2016 ![] bcast_S_S2016),
    StableHlo.TRef.binary (StableHlo.TRef.of main_v15 : StableHlo.TRef sig ⟨S2016, .i32⟩) main_call4.v0 main_call4.v1 Host.divsi,
    StableHlo.TRef.unary (StableHlo.TRef.of main_v15 : StableHlo.TRef sig ⟨S2016, .i32⟩) main_call4.v2 signi,
    StableHlo.TRef.unary (StableHlo.TRef.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (StableHlo.TRef.of main_c_5 : StableHlo.TRef sig ⟨S_, .i32⟩) main_call4.v6 (broadcastInDim S2016 ![] bcast_S_S2016),
    StableHlo.TRef.binary (StableHlo.TRef.of main_v15 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4_call0.v0 select,
    StableHlo.nullary main_c_6 (constantI S_ 32 64#32),
    StableHlo.TRef.unary (StableHlo.TRef.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5_call0.v0 select,
    StableHlo.TRef.unary main_call5.call0.v0 main_call5.v3 (broadcastInDim S2016 ![] bcast_S_S2016),
    StableHlo.TRef.binary (StableHlo.TRef.of main_v16 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (StableHlo.TRef.of main_c_7 : StableHlo.TRef sig ⟨S_, .i32⟩) main_call6.v0 (broadcastInDim S2016 ![] bcast_S_S2016),
    StableHlo.TRef.binary (StableHlo.TRef.of main_v15 : StableHlo.TRef sig ⟨S2016, .i32⟩) main_call6.v0 main_call6.v1 Host.divsi,
    StableHlo.TRef.unary (StableHlo.TRef.of main_v15 : StableHlo.TRef sig ⟨S2016, .i32⟩) main_call6.v2 signi,
    StableHlo.TRef.unary (StableHlo.TRef.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (StableHlo.TRef.of main_c_7 : StableHlo.TRef sig ⟨S_, .i32⟩) main_call6.v6 (broadcastInDim S2016 ![] bcast_S_S2016),
    StableHlo.TRef.binary (StableHlo.TRef.of main_v15 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6_call0.v0 select,
    StableHlo.nullary main_c_8 (constantI S_ 32 64#32),
    StableHlo.TRef.unary (StableHlo.TRef.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7_call0.v0 select,
    StableHlo.TRef.unary main_call7.call0.v0 main_call7.v3 (broadcastInDim S2016 ![] bcast_S_S2016),
    StableHlo.TRef.binary (StableHlo.TRef.of main_v18 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select,
    StableHlo.nullary main_cst_9 (constant S_ .f32 0x00000000#32),
    StableHlo.unary main_cst_9 main_v20 (broadcastInDim S32768x64x64 ![] bcast_S_S32768x64x64 : (⟨S_, .f32⟩ : BufTy).Contents (Elt F) → (⟨S32768x64x64, .f32⟩ : BufTy).Contents (Elt F)),
    StableHlo.nullary main_c_10 (constantI S_ 32 0#32),
    StableHlo.unary main_c_10 main_v21 (broadcastInDim S2016 ![] bcast_S_S2016 : (⟨S_, .i32⟩ : BufTy).Contents (Elt F) → (⟨S2016, .i32⟩ : BufTy).Contents (Elt F)),
    StableHlo.binary main_v17 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_11 (constantI S_ 32 64#32),
    StableHlo.unary main_c_11 main_v23 (broadcastInDim S2016 ![] bcast_S_S2016 : (⟨S_, .i32⟩ : BufTy).Contents (Elt F) → (⟨S2016, .i32⟩ : BufTy).Contents (Elt F)),
    StableHlo.binary main_v17 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v17 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_12 (constantI S_ 32 0#32),
    StableHlo.unary main_c_12 main_v26 (broadcastInDim S2016 ![] bcast_S_S2016 : (⟨S_, .i32⟩ : BufTy).Contents (Elt F) → (⟨S2016, .i32⟩ : BufTy).Contents (Elt F)),
    StableHlo.binary main_v19 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_13 (constantI S_ 32 64#32),
    StableHlo.unary main_c_13 main_v28 (broadcastInDim S2016 ![] bcast_S_S2016 : (⟨S_, .i32⟩ : BufTy).Contents (Elt F) → (⟨S2016, .i32⟩ : BufTy).Contents (Elt F)),
    StableHlo.binary main_v19 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v19 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)),
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.ternary main_v20 main_v33 main_arg0 main_v34 ((fun x i u => Host.scatter scatter_S32768x64x64_S2016x2_S32768x2016_0_12_12_1 (fun _ b => b) x i u) : (⟨S32768x64x64, .f32⟩ : BufTy).Contents (Elt F) → (⟨S2016x2, .i32⟩ : BufTy).Contents (Elt F) → (⟨S32768x2016, .f32⟩ : BufTy).Contents (Elt F) → (⟨S32768x64x64, .f32⟩ : BufTy).Contents (Elt F)),
    StableHlo.unary main_v34 main_v35 ((transpose S32768x64x64 [0, 2, 1] · transposes_S32768x64x64_S32768x64x64_0_2_1) : (⟨S32768x64x64, .f32⟩ : BufTy).Contents (Elt F) → (⟨S32768x64x64, .f32⟩ : BufTy).Contents (Elt F)),
    StableHlo.binary main_v34 main_v35 main_v36 (addf : (⟨S32768x64x64, .f32⟩ : BufTy).Contents (Elt F) → (⟨S32768x64x64, .f32⟩ : BufTy).Contents (Elt F) → (⟨S32768x64x64, .f32⟩ : BufTy).Contents (Elt F)) ]

abbrev seg1 : List (HloOp τ sig (Elt F)) :=
  [ StableHlo.nullary main_cst (constant S_ .f32 0x3F800000#32),
    StableHlo.unary main_cst main_v0 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 4294967295#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 (StableHlo.TRef.of main_v0 : StableHlo.TRef sig ⟨S64x64, .f32⟩) main_call0.v5 main_call0.v6 select,
    StableHlo.nullary main_cst_0 (constant S_ .f32 0x00000000#32),
    StableHlo.unary main_cst_0 main_v2 (broadcastInDim S64x64 ![] bcast_S_S64x64 : (⟨S_, .f32⟩ : BufTy).Contents (Elt F) → (⟨S64x64, .f32⟩ : BufTy).Contents (Elt F)),
    StableHlo.binary main_v1 main_v2 main_v3 (cmpf .une : (⟨S64x64, .f32⟩ : BufTy).Contents (Elt F) → (⟨S64x64, .f32⟩ : BufTy).Contents (Elt F) → (⟨S64x64, .i1⟩ : BufTy).Contents (Elt F)),
    StableHlo.TRef.reshape (StableHlo.TRef.of main_v3 : StableHlo.TRef sig ⟨S64x64, .i1⟩) main_call1.v0 rfl shapeCasts_S64x64_S4096,
    StableHlo.TRef.unary main_call1.v0 main_call1.v1 (extui 32 · natLt_1_32),
    StableHlo.TRef.nullary main_call1_call0.c (constantI S_ 32 0#32),
    StableHlo.TRef.unary main_call1_call0.c main_call1_call0.v0 (broadcastInDim S_ ![] bcast_S_S_),
    StableHlo.TRef.binary main_call1.v1 main_call1_call0.v0 main_call1_call0.v1 (fun x v => Host.reduceWindow IntOp.addi ![4096] ![1] ![4095] ![0] x v reduceWindows_S4096_S4096_w4096s1p4095_0 h_S_),
    StableHlo.nullary main_c (constantI S_ 32 0#32),
    StableHlo.unary main_c main_v5 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (StableHlo.TRef.of main_c_1 : StableHlo.TRef sig ⟨S_, .i32⟩) main_call2.v0 id,
    StableHlo.TRef.unary main_call2.v0 main_call2.v1 (broadcastInDim S4096 ![] bcast_S_S4096),
    StableHlo.TRef.binary main_call2.v1 (StableHlo.TRef.of main_v4 : StableHlo.TRef sig ⟨S4096, .i32⟩) main_call2.v2 maxsi ]

abbrev seg2 : List (HloOp τ sig (Elt F)) :=
  [ StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v6 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v9 (broadcastInDim S4096 ![] bcast_S_S4096 : (⟨S_, .i32⟩ : BufTy).Contents (Elt F) → (⟨S4096, .i32⟩ : BufTy).Contents (Elt F)),
    StableHlo.binary main_v6 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v5 main_v12 main_v13 main_v14 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3_call0.c (constantI S_ 32 0#32),
    StableHlo.TRef.unary main_call3_call0.c main_call3_call0.v0 (broadcastInDim S_ ![] bcast_S_S_),
    StableHlo.TRef.binary (StableHlo.TRef.of main_v14 : StableHlo.TRef sig ⟨S2016, .i32⟩) main_call3_call0.v0 main_call3_call0.v1 (fun x v => Host.reduceWindow IntOp.addi ![2016] ![1] ![2015] ![0] x v reduceWindows_S2016_S2016_w2016s1p2015_0 h_S_) ]

abbrev seg3 : List (HloOp τ sig (Elt F)) :=
  [ StableHlo.nullary main_c_5 (constantI S_ 32 64#32),
    StableHlo.TRef.unary (StableHlo.TRef.of main_c_5 : StableHlo.TRef sig ⟨S_, .i32⟩) main_call4.v0 (broadcastInDim S2016 ![] bcast_S_S2016),
    StableHlo.TRef.binary (StableHlo.TRef.of main_v15 : StableHlo.TRef sig ⟨S2016, .i32⟩) main_call4.v0 main_call4.v1 Host.divsi,
    StableHlo.TRef.unary (StableHlo.TRef.of main_v15 : StableHlo.TRef sig ⟨S2016, .i32⟩) main_call4.v2 signi,
    StableHlo.TRef.unary (StableHlo.TRef.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (StableHlo.TRef.of main_c_5 : StableHlo.TRef sig ⟨S_, .i32⟩) main_call4.v6 (broadcastInDim S2016 ![] bcast_S_S2016),
    StableHlo.TRef.binary (StableHlo.TRef.of main_v15 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4_call0.v0 select ]

abbrev seg4 : List (HloOp τ sig (Elt F)) :=
  [ StableHlo.nullary main_c_6 (constantI S_ 32 64#32),
    StableHlo.TRef.unary (StableHlo.TRef.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5_call0.v0 select,
    StableHlo.TRef.unary main_call5.call0.v0 main_call5.v3 (broadcastInDim S2016 ![] bcast_S_S2016),
    StableHlo.TRef.binary (StableHlo.TRef.of main_v16 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select ]

abbrev seg5 : List (HloOp τ sig (Elt F)) :=
  [ StableHlo.nullary main_c_7 (constantI S_ 32 1#32),
    StableHlo.TRef.unary (StableHlo.TRef.of main_c_7 : StableHlo.TRef sig ⟨S_, .i32⟩) main_call6.v0 (broadcastInDim S2016 ![] bcast_S_S2016),
    StableHlo.TRef.binary (StableHlo.TRef.of main_v15 : StableHlo.TRef sig ⟨S2016, .i32⟩) main_call6.v0 main_call6.v1 Host.divsi,
    StableHlo.TRef.unary (StableHlo.TRef.of main_v15 : StableHlo.TRef sig ⟨S2016, .i32⟩) main_call6.v2 signi,
    StableHlo.TRef.unary (StableHlo.TRef.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (StableHlo.TRef.of main_c_7 : StableHlo.TRef sig ⟨S_, .i32⟩) main_call6.v6 (broadcastInDim S2016 ![] bcast_S_S2016),
    StableHlo.TRef.binary (StableHlo.TRef.of main_v15 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6_call0.v0 select ]

abbrev seg6 : List (HloOp τ sig (Elt F)) :=
  [ StableHlo.nullary main_c_8 (constantI S_ 32 64#32),
    StableHlo.TRef.unary (StableHlo.TRef.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7_call0.v0 select,
    StableHlo.TRef.unary main_call7.call0.v0 main_call7.v3 (broadcastInDim S2016 ![] bcast_S_S2016),
    StableHlo.TRef.binary (StableHlo.TRef.of main_v18 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select ]

abbrev seg7 : List (HloOp τ sig (Elt F)) :=
  [ StableHlo.nullary main_cst_9 (constant S_ .f32 0x00000000#32),
    StableHlo.unary main_cst_9 main_v20 (broadcastInDim S32768x64x64 ![] bcast_S_S32768x64x64 : (⟨S_, .f32⟩ : BufTy).Contents (Elt F) → (⟨S32768x64x64, .f32⟩ : BufTy).Contents (Elt F)),
    StableHlo.nullary main_c_10 (constantI S_ 32 0#32),
    StableHlo.unary main_c_10 main_v21 (broadcastInDim S2016 ![] bcast_S_S2016 : (⟨S_, .i32⟩ : BufTy).Contents (Elt F) → (⟨S2016, .i32⟩ : BufTy).Contents (Elt F)),
    StableHlo.binary main_v17 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_11 (constantI S_ 32 64#32),
    StableHlo.unary main_c_11 main_v23 (broadcastInDim S2016 ![] bcast_S_S2016 : (⟨S_, .i32⟩ : BufTy).Contents (Elt F) → (⟨S2016, .i32⟩ : BufTy).Contents (Elt F)),
    StableHlo.binary main_v17 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v17 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_12 (constantI S_ 32 0#32),
    StableHlo.unary main_c_12 main_v26 (broadcastInDim S2016 ![] bcast_S_S2016 : (⟨S_, .i32⟩ : BufTy).Contents (Elt F) → (⟨S2016, .i32⟩ : BufTy).Contents (Elt F)),
    StableHlo.binary main_v19 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_13 (constantI S_ 32 64#32),
    StableHlo.unary main_c_13 main_v28 (broadcastInDim S2016 ![] bcast_S_S2016 : (⟨S_, .i32⟩ : BufTy).Contents (Elt F) → (⟨S2016, .i32⟩ : BufTy).Contents (Elt F)),
    StableHlo.binary main_v19 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v19 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)) ]

/-- The last four: the tables joined, the scatter, the transpose, the sum. -/
abbrev opsB : List (HloOp τ sig (Elt F)) :=
  [ StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.ternary main_v20 main_v33 main_arg0 main_v34 ((fun x i u => Host.scatter scatter_S32768x64x64_S2016x2_S32768x2016_0_12_12_1 (fun _ b => b) x i u) : (⟨S32768x64x64, .f32⟩ : BufTy).Contents (Elt F) → (⟨S2016x2, .i32⟩ : BufTy).Contents (Elt F) → (⟨S32768x2016, .f32⟩ : BufTy).Contents (Elt F) → (⟨S32768x64x64, .f32⟩ : BufTy).Contents (Elt F)),
    StableHlo.unary main_v34 main_v35 ((transpose S32768x64x64 [0, 2, 1] · transposes_S32768x64x64_S32768x64x64_0_2_1) : (⟨S32768x64x64, .f32⟩ : BufTy).Contents (Elt F) → (⟨S32768x64x64, .f32⟩ : BufTy).Contents (Elt F)),
    StableHlo.binary main_v34 main_v35 main_v36 (addf : (⟨S32768x64x64, .f32⟩ : BufTy).Contents (Elt F) → (⟨S32768x64x64, .f32⟩ : BufTy).Contents (Elt F) → (⟨S32768x64x64, .f32⟩ : BufTy).Contents (Elt F)) ]

set_option maxRecDepth 4096 in
/-- @main is that straight line: the functions unfolded at their calls, sequencing reassociated. -/
theorem main_eq (c : Dev nD) : main (F := F) c = seq ops := by
  simp only [main, fn_tril.body, fn_cumsum_0.body, fn_cumsum.body, fn_clip.body, fn_cumsum_2.body, fn_cumsum_1.body, fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub ..⟩

/-- Every buffer after the run holds the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The last four operations as one function of the zero array, the two tables and the argument. -/
def tail (z : (⟨S32768x64x64, .f32⟩ : BufTy).Contents (Elt F)) (i1 : (⟨S2016x1, .i32⟩ : BufTy).Contents (Elt F)) (i2 : (⟨S2016x1, .i32⟩ : BufTy).Contents (Elt F)) (a : (⟨S32768x2016, .f32⟩ : BufTy).Contents (Elt F)) : (⟨S32768x64x64, .f32⟩ : BufTy).Contents (Elt F) :=
  let s := ((fun x i u => Host.scatter scatter_S32768x64x64_S2016x2_S32768x2016_0_12_12_1 (fun _ b => b) x i u) : (⟨S32768x64x64, .f32⟩ : BufTy).Contents (Elt F) → (⟨S2016x2, .i32⟩ : BufTy).Contents (Elt F) → (⟨S32768x2016, .f32⟩ : BufTy).Contents (Elt F) → (⟨S32768x64x64, .f32⟩ : BufTy).Contents (Elt F)) z (((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)) i1 i2) a
  (addf : (⟨S32768x64x64, .f32⟩ : BufTy).Contents (Elt F) → (⟨S32768x64x64, .f32⟩ : BufTy).Contents (Elt F) → (⟨S32768x64x64, .f32⟩ : BufTy).Contents (Elt F)) s (((transpose S32768x64x64 [0, 2, 1] · transposes_S32768x64x64_S32768x64x64_0_2_1) : (⟨S32768x64x64, .f32⟩ : BufTy).Contents (Elt F) → (⟨S32768x64x64, .f32⟩ : BufTy).Contents (Elt F)) s)

theorem val_eq_tail (a : (⟨S32768x2016, .f32⟩ : BufTy).Contents (Elt F)) :
    Terms.val_main_v36 (F := F) a = tail (Terms.val_main_v20 (F := F)) (Terms.val_main_v31 (F := F)) (Terms.val_main_v32 (F := F)) a := rfl

attribute [local irreducible] Host.scatter in
theorem tail_eq (W : Valuation τ sig (Elt F)) :
    after opsB W (main_v36 : DevRef τ sig)
      = tail (W (main_v20 : DevRef τ sig)) (W (main_v31 : DevRef τ sig)) (W (main_v32 : DevRef τ sig)) (W (main_arg0 : DevRef τ sig)) := by
  after_results
  rfl

/-! ## One operation at a time

Each operation's result at its own buffer, as its function of the operands' contents (the contents variables): the
typed references' transports are the identity at these literal buffers. -/

attribute [local irreducible] Host.reduceWindow Host.scatter in
theorem step0 (V : Valuation τ sig (Elt F))   :
    HloOp.result (StableHlo.nullary main_cst (constant S_ .f32 0x3F800000#32)) V (main_cst : DevRef τ sig) = ((constant S_ .f32 0x3F800000#32) : (⟨S_, .f32⟩ : BufTy).Contents (Elt F)) := by
  rw [nullary_result]
  all_goals rfl

attribute [local irreducible] Host.reduceWindow Host.scatter in
theorem step1 (V : Valuation τ sig (Elt F)) (x0 : (⟨S_, .f32⟩ : BufTy).Contents (Elt F)) (h0 : V (main_cst : DevRef τ sig) = x0) :
    HloOp.result (StableHlo.unary main_cst main_v0 (broadcastInDim S64x64 ![] bcast_S_S64x64 : (⟨S_, .f32⟩ : BufTy).Contents (Elt F) → (⟨S64x64, .f32⟩ : BufTy).Contents (Elt F))) V (main_v0 : DevRef τ sig) = ((broadcastInDim S64x64 ![] bcast_S_S64x64 : (⟨S_, .f32⟩ : BufTy).Contents (Elt F) → (⟨S64x64, .f32⟩ : BufTy).Contents (Elt F)) x0 : (⟨S64x64, .f32⟩ : BufTy).Contents (Elt F)) := by
  rw [unary_result, h0]
  all_goals rfl

attribute [local irreducible] Host.reduceWindow Host.scatter in
theorem step2 (V : Valuation τ sig (Elt F))   :
    HloOp.result (StableHlo.TRef.nullary main_call0.v0 (iotaInDim S64x64 32 0)) V (main_call0_v0 : DevRef τ sig) = ((iotaInDim S64x64 32 0) : (⟨S64x64, .i32⟩ : BufTy).Contents (Elt F)) := by
  rw [nullary_result]
  all_goals rfl

attribute [local irreducible] Host.reduceWindow Host.scatter in
theorem step3 (V : Valuation τ sig (Elt F))   :
    HloOp.result (StableHlo.TRef.nullary main_call0.c (constantI S_ 32 4294967295#32)) V (main_call0_c : DevRef τ sig) = ((constantI S_ 32 4294967295#32) : (⟨S_, .i32⟩ : BufTy).Contents (Elt F)) := by
  rw [nullary_result]
  all_goals rfl

attribute [local irreducible] Host.reduceWindow Host.scatter in
theorem step4 (V : Valuation τ sig (Elt F)) (x0 : (⟨S_, .i32⟩ : BufTy).Contents (Elt F)) (h0 : V (main_call0_c : DevRef τ sig) = x0) :
    HloOp.result (StableHlo.TRef.unary main_call0.c main_call0.v1 (broadcastInDim S64x64 ![] bcast_S_S64x64)) V (main_call0_v1 : DevRef τ sig) = ((broadcastInDim S64x64 ![] bcast_S_S64x64) x0 : (⟨S64x64, .i32⟩ : BufTy).Contents (Elt F)) := by
  rw [unary_result, h0]
  all_goals rfl

attribute [local irreducible] Host.reduceWindow Host.scatter in
theorem step5 (V : Valuation τ sig (Elt F)) (x0 : (⟨S64x64, .i32⟩ : BufTy).Contents (Elt F)) (x1 : (⟨S64x64, .i32⟩ : BufTy).Contents (Elt F)) (h0 : V (main_call0_v0 : DevRef τ sig) = x0) (h1 : V (main_call0_v1 : DevRef τ sig) = x1) :
    HloOp.result (StableHlo.TRef.binary main_call0.v0 main_call0.v1 main_call0.v2 addi) V (main_call0_v2 : DevRef τ sig) = ((addi) x0 x1 : (⟨S64x64, .i32⟩ : BufTy).Contents (Elt F)) := by
  rw [binary_result, h0, h1]
  all_goals rfl

attribute [local irreducible] Host.reduceWindow Host.scatter in
theorem step6 (V : Valuation τ sig (Elt F))   :
    HloOp.result (StableHlo.TRef.nullary main_call0.v3 (iotaInDim S64x64 32 1)) V (main_call0_v3 : DevRef τ sig) = ((iotaInDim S64x64 32 1) : (⟨S64x64, .i32⟩ : BufTy).Contents (Elt F)) := by
  rw [nullary_result]
  all_goals rfl

attribute [local irreducible] Host.reduceWindow Host.scatter in
theorem step7 (V : Valuation τ sig (Elt F)) (x0 : (⟨S64x64, .i32⟩ : BufTy).Contents (Elt F)) (x1 : (⟨S64x64, .i32⟩ : BufTy).Contents (Elt F)) (h0 : V (main_call0_v2 : DevRef τ sig) = x0) (h1 : V (main_call0_v3 : DevRef τ sig) = x1) :
    HloOp.result (StableHlo.TRef.binary main_call0.v2 main_call0.v3 main_call0.v4 (cmpi .sge)) V (main_call0_v4 : DevRef τ sig) = ((cmpi .sge) x0 x1 : (⟨S64x64, .i1⟩ : BufTy).Contents (Elt F)) := by
  rw [binary_result, h0, h1]
  all_goals rfl

attribute [local irreducible] Host.reduceWindow Host.scatter in
theorem step8 (V : Valuation τ sig (Elt F))   :
    HloOp.result (StableHlo.TRef.nullary main_call0.cst (constant S_ .f32 0x00000000#32)) V (main_call0_cst : DevRef τ sig) = ((constant S_ .f32 0x00000000#32) : (⟨S_, .f32⟩ : BufTy).Contents (Elt F)) := by
  rw [nullary_result]
  all_goals rfl

attribute [local irreducible] Host.reduceWindow Host.scatter in
theorem step9 (V : Valuation τ sig (Elt F)) (x0 : (⟨S_, .f32⟩ : BufTy).Contents (Elt F)) (h0 : V (main_call0_cst : DevRef τ sig) = x0) :
    HloOp.result (StableHlo.TRef.unary main_call0.cst main_call0.v5 (broadcastInDim S64x64 ![] bcast_S_S64x64)) V (main_call0_v5 : DevRef τ sig) = ((broadcastInDim S64x64 ![] bcast_S_S64x64) x0 : (⟨S64x64, .f32⟩ : BufTy).Contents (Elt F)) := by
  rw [unary_result, h0]
  all_goals rfl

attribute [local irreducible] Host.reduceWindow Host.scatter in
theorem step10 (V : Valuation τ sig (Elt F)) (x0 : (⟨S64x64, .i1⟩ : BufTy).Contents (Elt F)) (x1 : (⟨S64x64, .f32⟩ : BufTy).Contents (Elt F)) (x2 : (⟨S64x64, .f32⟩ : BufTy).Contents (Elt F)) (h0 : V (main_call0_v4 : DevRef τ sig) = x0) (h1 : V (main_v0 : DevRef τ sig) = x1) (h2 : V (main_call0_v5 : DevRef τ sig) = x2) :
    HloOp.result (StableHlo.TRef.ternary main_call0.v4 (StableHlo.TRef.of main_v0 : StableHlo.TRef sig ⟨S64x64, .f32⟩) main_call0.v5 main_call0.v6 select) V (main_v1 : DevRef τ sig) = ((select) x0 x1 x2 : (⟨S64x64, .f32⟩ : BufTy).Contents (Elt F)) := by
  rw [ternary_result, h0, h1, h2]
  all_goals rfl

attribute [local irreducible] Host.reduceWindow Host.scatter in
theorem step11 (V : Valuation τ sig (Elt F))   :
    HloOp.result (StableHlo.nullary main_cst_0 (constant S_ .f32 0x00000000#32)) V (main_cst_0 : DevRef τ sig) = ((constant S_ .f32 0x00000000#32) : (⟨S_, .f32⟩ : BufTy).Contents (Elt F)) := by
  rw [nullary_result]
  all_goals rfl

attribute [local irreducible] Host.reduceWindow Host.scatter in
theorem step12 (V : Valuation τ sig (Elt F)) (x0 : (⟨S_, .f32⟩ : BufTy).Contents (Elt F)) (h0 : V (main_cst_0 : DevRef τ sig) = x0) :
    HloOp.result (StableHlo.unary main_cst_0 main_v2 (broadcastInDim S64x64 ![] bcast_S_S64x64 : (⟨S_, .f32⟩ : BufTy).Contents (Elt F) → (⟨S64x64, .f32⟩ : BufTy).Contents (Elt F))) V (main_v2 : DevRef τ sig) = ((broadcastInDim S64x64 ![] bcast_S_S64x64 : (⟨S_, .f32⟩ : BufTy).Contents (Elt F) → (⟨S64x64, .f32⟩ : BufTy).Contents (Elt F)) x0 : (⟨S64x64, .f32⟩ : BufTy).Contents (Elt F)) := by
  rw [unary_result, h0]
  all_goals rfl

attribute [local irreducible] Host.reduceWindow Host.scatter in
theorem step13 (V : Valuation τ sig (Elt F)) (x0 : (⟨S64x64, .f32⟩ : BufTy).Contents (Elt F)) (x1 : (⟨S64x64, .f32⟩ : BufTy).Contents (Elt F)) (h0 : V (main_v1 : DevRef τ sig) = x0) (h1 : V (main_v2 : DevRef τ sig) = x1) :
    HloOp.result (StableHlo.binary main_v1 main_v2 main_v3 (cmpf .une : (⟨S64x64, .f32⟩ : BufTy).Contents (Elt F) → (⟨S64x64, .f32⟩ : BufTy).Contents (Elt F) → (⟨S64x64, .i1⟩ : BufTy).Contents (Elt F))) V (main_v3 : DevRef τ sig) = ((cmpf .une : (⟨S64x64, .f32⟩ : BufTy).Contents (Elt F) → (⟨S64x64, .f32⟩ : BufTy).Contents (Elt F) → (⟨S64x64, .i1⟩ : BufTy).Contents (Elt F)) x0 x1 : (⟨S64x64, .i1⟩ : BufTy).Contents (Elt F)) := by
  rw [binary_result, h0, h1]
  all_goals rfl

attribute [local irreducible] Host.reduceWindow Host.scatter in
theorem step14 (V : Valuation τ sig (Elt F)) (x0 : (⟨S64x64, .i1⟩ : BufTy).Contents (Elt F)) (h0 : V (main_v3 : DevRef τ sig) = x0) :
    HloOp.result (StableHlo.TRef.reshape (StableHlo.TRef.of main_v3 : StableHlo.TRef sig ⟨S64x64, .i1⟩) main_call1.v0 rfl shapeCasts_S64x64_S4096) V (main_call1_v0 : DevRef τ sig) = (shapeCast S4096 x0 shapeCasts_S64x64_S4096 : (⟨S4096, .i1⟩ : BufTy).Contents (Elt F)) := by
  rw [reshape_result, h0]
  all_goals rfl

attribute [local irreducible] Host.reduceWindow Host.scatter in
theorem step15 (V : Valuation τ sig (Elt F)) (x0 : (⟨S4096, .i1⟩ : BufTy).Contents (Elt F)) (h0 : V (main_call1_v0 : DevRef τ sig) = x0) :
    HloOp.result (StableHlo.TRef.unary main_call1.v0 main_call1.v1 (extui 32 · natLt_1_32)) V (main_call1_v1 : DevRef τ sig) = ((extui 32 · natLt_1_32) x0 : (⟨S4096, .i32⟩ : BufTy).Contents (Elt F)) := by
  rw [unary_result, h0]
  all_goals rfl

attribute [local irreducible] Host.reduceWindow Host.scatter in
theorem step16 (V : Valuation τ sig (Elt F))   :
    HloOp.result (StableHlo.TRef.nullary main_call1_call0.c (constantI S_ 32 0#32)) V (main_call1_call0_c : DevRef τ sig) = ((constantI S_ 32 0#32) : (⟨S_, .i32⟩ : BufTy).Contents (Elt F)) := by
  rw [nullary_result]
  all_goals rfl

attribute [local irreducible] Host.reduceWindow Host.scatter in
theorem step17 (V : Valuation τ sig (Elt F)) (x0 : (⟨S_, .i32⟩ : BufTy).Contents (Elt F)) (h0 : V (main_call1_call0_c : DevRef τ sig) = x0) :
    HloOp.result (StableHlo.TRef.unary main_call1_call0.c main_call1_call0.v0 (broadcastInDim S_ ![] bcast_S_S_)) V (main_call1_call0_v0 : DevRef τ sig) = ((broadcastInDim S_ ![] bcast_S_S_) x0 : (⟨S_, .i32⟩ : BufTy).Contents (Elt F)) := by
  rw [unary_result, h0]
  all_goals rfl

attribute [local irreducible] Host.reduceWindow Host.scatter in
theorem step18 (V : Valuation τ sig (Elt F)) (x0 : (⟨S4096, .i32⟩ : BufTy).Contents (Elt F)) (x1 : (⟨S_, .i32⟩ : BufTy).Contents (Elt F)) (h0 : V (main_call1_v1 : DevRef τ sig) = x0) (h1 : V (main_call1_call0_v0 : DevRef τ sig) = x1) :
    HloOp.result (StableHlo.TRef.binary main_call1.v1 main_call1_call0.v0 main_call1_call0.v1 (fun x v => Host.reduceWindow IntOp.addi ![4096] ![1] ![4095] ![0] x v reduceWindows_S4096_S4096_w4096s1p4095_0 h_S_)) V (main_v4 : DevRef τ sig) = ((fun x v => Host.reduceWindow IntOp.addi ![4096] ![1] ![4095] ![0] x v reduceWindows_S4096_S4096_w4096s1p4095_0 h_S_) x0 x1 : (⟨S4096, .i32⟩ : BufTy).Contents (Elt F)) := by
  rw [binary_result, h0, h1]
  all_goals rfl

attribute [local irreducible] Host.reduceWindow Host.scatter in
theorem step19 (V : Valuation τ sig (Elt F))   :
    HloOp.result (StableHlo.nullary main_c (constantI S_ 32 0#32)) V (main_c : DevRef τ sig) = ((constantI S_ 32 0#32) : (⟨S_, .i32⟩ : BufTy).Contents (Elt F)) := by
  rw [nullary_result]
  all_goals rfl

attribute [local irreducible] Host.reduceWindow Host.scatter in
theorem step20 (V : Valuation τ sig (Elt F)) (x0 : (⟨S_, .i32⟩ : BufTy).Contents (Elt F)) (h0 : V (main_c : DevRef τ sig) = x0) :
    HloOp.result (StableHlo.unary main_c main_v5 (broadcastInDim S2016 ![] bcast_S_S2016 : (⟨S_, .i32⟩ : BufTy).Contents (Elt F) → (⟨S2016, .i32⟩ : BufTy).Contents (Elt F))) V (main_v5 : DevRef τ sig) = ((broadcastInDim S2016 ![] bcast_S_S2016 : (⟨S_, .i32⟩ : BufTy).Contents (Elt F) → (⟨S2016, .i32⟩ : BufTy).Contents (Elt F)) x0 : (⟨S2016, .i32⟩ : BufTy).Contents (Elt F)) := by
  rw [unary_result, h0]
  all_goals rfl

attribute [local irreducible] Host.reduceWindow Host.scatter in
theorem step21 (V : Valuation τ sig (Elt F))   :
    HloOp.result (StableHlo.nullary main_c_1 (constantI S_ 32 0#32)) V (main_c_1 : DevRef τ sig) = ((constantI S_ 32 0#32) : (⟨S_, .i32⟩ : BufTy).Contents (Elt F)) := by
  rw [nullary_result]
  all_goals rfl

attribute [local irreducible] Host.reduceWindow Host.scatter in
theorem step22 (V : Valuation τ sig (Elt F)) (x0 : (⟨S_, .i32⟩ : BufTy).Contents (Elt F)) (h0 : V (main_c_1 : DevRef τ sig) = x0) :
    HloOp.result (StableHlo.TRef.unary (StableHlo.TRef.of main_c_1 : StableHlo.TRef sig ⟨S_, .i32⟩) main_call2.v0 id) V (main_call2_v0 : DevRef τ sig) = ((id) x0 : (⟨S_, .i32⟩ : BufTy).Contents (Elt F)) := by
  rw [unary_result, h0]
  all_goals rfl

attribute [local irreducible] Host.reduceWindow Host.scatter in
theorem step23 (V : Valuation τ sig (Elt F)) (x0 : (⟨S_, .i32⟩ : BufTy).Contents (Elt F)) (h0 : V (main_call2_v0 : DevRef τ sig) = x0) :
    HloOp.result (StableHlo.TRef.unary main_call2.v0 main_call2.v1 (broadcastInDim S4096 ![] bcast_S_S4096)) V (main_call2_v1 : DevRef τ sig) = ((broadcastInDim S4096 ![] bcast_S_S4096) x0 : (⟨S4096, .i32⟩ : BufTy).Contents (Elt F)) := by
  rw [unary_result, h0]
  all_goals rfl

attribute [local irreducible] Host.reduceWindow Host.scatter in
theorem step24 (V : Valuation τ sig (Elt F)) (x0 : (⟨S4096, .i32⟩ : BufTy).Contents (Elt F)) (x1 : (⟨S4096, .i32⟩ : BufTy).Contents (Elt F)) (h0 : V (main_call2_v1 : DevRef τ sig) = x0) (h1 : V (main_v4 : DevRef τ sig) = x1) :
    HloOp.result (StableHlo.TRef.binary main_call2.v1 (StableHlo.TRef.of main_v4 : StableHlo.TRef sig ⟨S4096, .i32⟩) main_call2.v2 maxsi) V (main_v6 : DevRef τ sig) = ((maxsi) x0 x1 : (⟨S4096, .i32⟩ : BufTy).Contents (Elt F)) := by
  rw [binary_result, h0, h1]
  all_goals rfl

attribute [local irreducible] Host.reduceWindow Host.scatter in
theorem step25 (V : Valuation τ sig (Elt F))   :
    HloOp.result (StableHlo.nullary main_c_2 (constantI S_ 32 0#32)) V (main_c_2 : DevRef τ sig) = ((constantI S_ 32 0#32) : (⟨S_, .i32⟩ : BufTy).Contents (Elt F)) := by
  rw [nullary_result]
  all_goals rfl

attribute [local irreducible] Host.reduceWindow Host.scatter in
theorem step26 (V : Valuation τ sig (Elt F)) (x0 : (⟨S_, .i32⟩ : BufTy).Contents (Elt F)) (h0 : V (main_c_2 : DevRef τ sig) = x0) :
    HloOp.result (StableHlo.unary main_c_2 main_v7 (broadcastInDim S4096 ![] bcast_S_S4096 : (⟨S_, .i32⟩ : BufTy).Contents (Elt F) → (⟨S4096, .i32⟩ : BufTy).Contents (Elt F))) V (main_v7 : DevRef τ sig) = ((broadcastInDim S4096 ![] bcast_S_S4096 : (⟨S_, .i32⟩ : BufTy).Contents (Elt F) → (⟨S4096, .i32⟩ : BufTy).Contents (Elt F)) x0 : (⟨S4096, .i32⟩ : BufTy).Contents (Elt F)) := by
  rw [unary_result, h0]
  all_goals rfl

attribute [local irreducible] Host.reduceWindow Host.scatter in
theorem step27 (V : Valuation τ sig (Elt F)) (x0 : (⟨S4096, .i32⟩ : BufTy).Contents (Elt F)) (x1 : (⟨S4096, .i32⟩ : BufTy).Contents (Elt F)) (h0 : V (main_v6 : DevRef τ sig) = x0) (h1 : V (main_v7 : DevRef τ sig) = x1) :
    HloOp.result (StableHlo.binary main_v6 main_v7 main_v8 (cmpi .slt : (⟨S4096, .i32⟩ : BufTy).Contents (Elt F) → (⟨S4096, .i32⟩ : BufTy).Contents (Elt F) → (⟨S4096, .i1⟩ : BufTy).Contents (Elt F))) V (main_v8 : DevRef τ sig) = ((cmpi .slt : (⟨S4096, .i32⟩ : BufTy).Contents (Elt F) → (⟨S4096, .i32⟩ : BufTy).Contents (Elt F) → (⟨S4096, .i1⟩ : BufTy).Contents (Elt F)) x0 x1 : (⟨S4096, .i1⟩ : BufTy).Contents (Elt F)) := by
  rw [binary_result, h0, h1]
  all_goals rfl

attribute [local irreducible] Host.reduceWindow Host.scatter in
theorem step28 (V : Valuation τ sig (Elt F))   :
    HloOp.result (StableHlo.nullary main_c_3 (constantI S_ 32 2016#32)) V (main_c_3 : DevRef τ sig) = ((constantI S_ 32 2016#32) : (⟨S_, .i32⟩ : BufTy).Contents (Elt F)) := by
  rw [nullary_result]
  all_goals rfl

attribute [local irreducible] Host.reduceWindow Host.scatter in
theorem step29 (V : Valuation τ sig (Elt F)) (x0 : (⟨S_, .i32⟩ : BufTy).Contents (Elt F)) (h0 : V (main_c_3 : DevRef τ sig) = x0) :
    HloOp.result (StableHlo.unary main_c_3 main_v9 (broadcastInDim S4096 ![] bcast_S_S4096 : (⟨S_, .i32⟩ : BufTy).Contents (Elt F) → (⟨S4096, .i32⟩ : BufTy).Contents (Elt F))) V (main_v9 : DevRef τ sig) = ((broadcastInDim S4096 ![] bcast_S_S4096 : (⟨S_, .i32⟩ : BufTy).Contents (Elt F) → (⟨S4096, .i32⟩ : BufTy).Contents (Elt F)) x0 : (⟨S4096, .i32⟩ : BufTy).Contents (Elt F)) := by
  rw [unary_result, h0]
  all_goals rfl

attribute [local irreducible] Host.reduceWindow Host.scatter in
theorem step30 (V : Valuation τ sig (Elt F)) (x0 : (⟨S4096, .i32⟩ : BufTy).Contents (Elt F)) (x1 : (⟨S4096, .i32⟩ : BufTy).Contents (Elt F)) (h0 : V (main_v6 : DevRef τ sig) = x0) (h1 : V (main_v9 : DevRef τ sig) = x1) :
    HloOp.result (StableHlo.binary main_v6 main_v9 main_v10 (addi : (⟨S4096, .i32⟩ : BufTy).Contents (Elt F) → (⟨S4096, .i32⟩ : BufTy).Contents (Elt F) → (⟨S4096, .i32⟩ : BufTy).Contents (Elt F))) V (main_v10 : DevRef τ sig) = ((addi : (⟨S4096, .i32⟩ : BufTy).Contents (Elt F) → (⟨S4096, .i32⟩ : BufTy).Contents (Elt F) → (⟨S4096, .i32⟩ : BufTy).Contents (Elt F)) x0 x1 : (⟨S4096, .i32⟩ : BufTy).Contents (Elt F)) := by
  rw [binary_result, h0, h1]
  all_goals rfl

attribute [local irreducible] Host.reduceWindow Host.scatter in
theorem step31 (V : Valuation τ sig (Elt F)) (x0 : (⟨S4096, .i1⟩ : BufTy).Contents (Elt F)) (x1 : (⟨S4096, .i32⟩ : BufTy).Contents (Elt F)) (x2 : (⟨S4096, .i32⟩ : BufTy).Contents (Elt F)) (h0 : V (main_v8 : DevRef τ sig) = x0) (h1 : V (main_v10 : DevRef τ sig) = x1) (h2 : V (main_v6 : DevRef τ sig) = x2) :
    HloOp.result (StableHlo.ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) V (main_v11 : DevRef τ sig) = ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) x0 x1 x2 : (⟨S4096, .i32⟩ : BufTy).Contents (Elt F)) := by
  rw [ternary_result, h0, h1, h2]
  all_goals rfl

attribute [local irreducible] Host.reduceWindow Host.scatter in
theorem step32 (V : Valuation τ sig (Elt F)) (x0 : (⟨S4096, .i32⟩ : BufTy).Contents (Elt F)) (h0 : V (main_v11 : DevRef τ sig) = x0) :
    HloOp.result (StableHlo.unary main_v11 main_v12 (broadcastInDim S4096x1 ![0] bcast_S4096_S4096x1_0 : (⟨S4096, .i32⟩ : BufTy).Contents (Elt F) → (⟨S4096x1, .i32⟩ : BufTy).Contents (Elt F))) V (main_v12 : DevRef τ sig) = ((broadcastInDim S4096x1 ![0] bcast_S4096_S4096x1_0 : (⟨S4096, .i32⟩ : BufTy).Contents (Elt F) → (⟨S4096x1, .i32⟩ : BufTy).Contents (Elt F)) x0 : (⟨S4096x1, .i32⟩ : BufTy).Contents (Elt F)) := by
  rw [unary_result, h0]
  all_goals rfl

attribute [local irreducible] Host.reduceWindow Host.scatter in
theorem step33 (V : Valuation τ sig (Elt F))   :
    HloOp.result (StableHlo.nullary main_c_4 (constantI S_ 32 1#32)) V (main_c_4 : DevRef τ sig) = ((constantI S_ 32 1#32) : (⟨S_, .i32⟩ : BufTy).Contents (Elt F)) := by
  rw [nullary_result]
  all_goals rfl

attribute [local irreducible] Host.reduceWindow Host.scatter in
theorem step34 (V : Valuation τ sig (Elt F)) (x0 : (⟨S_, .i32⟩ : BufTy).Contents (Elt F)) (h0 : V (main_c_4 : DevRef τ sig) = x0) :
    HloOp.result (StableHlo.unary main_c_4 main_v13 (broadcastInDim S4096 ![] bcast_S_S4096 : (⟨S_, .i32⟩ : BufTy).Contents (Elt F) → (⟨S4096, .i32⟩ : BufTy).Contents (Elt F))) V (main_v13 : DevRef τ sig) = ((broadcastInDim S4096 ![] bcast_S_S4096 : (⟨S_, .i32⟩ : BufTy).Contents (Elt F) → (⟨S4096, .i32⟩ : BufTy).Contents (Elt F)) x0 : (⟨S4096, .i32⟩ : BufTy).Contents (Elt F)) := by
  rw [unary_result, h0]
  all_goals rfl

attribute [local irreducible] Host.reduceWindow Host.scatter in
theorem step35 (V : Valuation τ sig (Elt F)) (x0 : (⟨S2016, .i32⟩ : BufTy).Contents (Elt F)) (x1 : (⟨S4096x1, .i32⟩ : BufTy).Contents (Elt F)) (x2 : (⟨S4096, .i32⟩ : BufTy).Contents (Elt F)) (h0 : V (main_v5 : DevRef τ sig) = x0) (h1 : V (main_v12 : DevRef τ sig) = x1) (h2 : V (main_v13 : DevRef τ sig) = x2) :
    HloOp.result (StableHlo.ternary main_v5 main_v12 main_v13 main_v14 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F))) V (main_v14 : DevRef τ sig) = (((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)) x0 x1 x2 : (⟨S2016, .i32⟩ : BufTy).Contents (Elt F)) := by
  rw [ternary_result, h0, h1, h2]
  all_goals rfl

attribute [local irreducible] Host.reduceWindow Host.scatter in
theorem step36 (V : Valuation τ sig (Elt F))   :
    HloOp.result (StableHlo.TRef.nullary main_call3_call0.c (constantI S_ 32 0#32)) V (main_call3_call0_c : DevRef τ sig) = ((constantI S_ 32 0#32) : (⟨S_, .i32⟩ : BufTy).Contents (Elt F)) := by
  rw [nullary_result]
  all_goals rfl

attribute [local irreducible] Host.reduceWindow Host.scatter in
theorem step37 (V : Valuation τ sig (Elt F)) (x0 : (⟨S_, .i32⟩ : BufTy).Contents (Elt F)) (h0 : V (main_call3_call0_c : DevRef τ sig) = x0) :
    HloOp.result (StableHlo.TRef.unary main_call3_call0.c main_call3_call0.v0 (broadcastInDim S_ ![] bcast_S_S_)) V (main_call3_call0_v0 : DevRef τ sig) = ((broadcastInDim S_ ![] bcast_S_S_) x0 : (⟨S_, .i32⟩ : BufTy).Contents (Elt F)) := by
  rw [unary_result, h0]
  all_goals rfl

attribute [local irreducible] Host.reduceWindow Host.scatter in
theorem step38 (V : Valuation τ sig (Elt F)) (x0 : (⟨S2016, .i32⟩ : BufTy).Contents (Elt F)) (x1 : (⟨S_, .i32⟩ : BufTy).Contents (Elt F)) (h0 : V (main_v14 : DevRef τ sig) = x0) (h1 : V (main_call3_call0_v0 : DevRef τ sig) = x1) :
    HloOp.result (StableHlo.TRef.binary (StableHlo.TRef.of main_v14 : StableHlo.TRef sig ⟨S2016, .i32⟩) main_call3_call0.v0 main_call3_call0.v1 (fun x v => Host.reduceWindow IntOp.addi ![2016] ![1] ![2015] ![0] x v reduceWindows_S2016_S2016_w2016s1p2015_0 h_S_)) V (main_v15 : DevRef τ sig) = ((fun x v => Host.reduceWindow IntOp.addi ![2016] ![1] ![2015] ![0] x v reduceWindows_S2016_S2016_w2016s1p2015_0 h_S_) x0 x1 : (⟨S2016, .i32⟩ : BufTy).Contents (Elt F)) := by
  rw [binary_result, h0, h1]
  all_goals rfl

attribute [local irreducible] Host.reduceWindow Host.scatter in
theorem step39 (V : Valuation τ sig (Elt F))   :
    HloOp.result (StableHlo.nullary main_c_5 (constantI S_ 32 64#32)) V (main_c_5 : DevRef τ sig) = ((constantI S_ 32 64#32) : (⟨S_, .i32⟩ : BufTy).Contents (Elt F)) := by
  rw [nullary_result]
  all_goals rfl

attribute [local irreducible] Host.reduceWindow Host.scatter in
theorem step40 (V : Valuation τ sig (Elt F)) (x0 : (⟨S_, .i32⟩ : BufTy).Contents (Elt F)) (h0 : V (main_c_5 : DevRef τ sig) = x0) :
    HloOp.result (StableHlo.TRef.unary (StableHlo.TRef.of main_c_5 : StableHlo.TRef sig ⟨S_, .i32⟩) main_call4.v0 (broadcastInDim S2016 ![] bcast_S_S2016)) V (main_call4_v0 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step41 (V : Valuation τ sig (Elt F)) (x0 : (⟨S2016, .i32⟩ : BufTy).Contents (Elt F)) (x1 : (⟨S2016, .i32⟩ : BufTy).Contents (Elt F)) (h0 : V (main_v15 : DevRef τ sig) = x0) (h1 : V (main_call4_v0 : DevRef τ sig) = x1) :
    HloOp.result (StableHlo.TRef.binary (StableHlo.TRef.of main_v15 : StableHlo.TRef sig ⟨S2016, .i32⟩) main_call4.v0 main_call4.v1 Host.divsi) V (main_call4_v1 : DevRef τ sig) = ((Host.divsi) x0 x1 : (⟨S2016, .i32⟩ : BufTy).Contents (Elt F)) := by
  rw [binary_result, h0, h1]
  all_goals rfl

attribute [local irreducible] Host.reduceWindow Host.scatter in
theorem step42 (V : Valuation τ sig (Elt F)) (x0 : (⟨S2016, .i32⟩ : BufTy).Contents (Elt F)) (h0 : V (main_v15 : DevRef τ sig) = x0) :
    HloOp.result (StableHlo.TRef.unary (StableHlo.TRef.of main_v15 : StableHlo.TRef sig ⟨S2016, .i32⟩) main_call4.v2 signi) V (main_call4_v2 : DevRef τ sig) = ((signi) x0 : (⟨S2016, .i32⟩ : BufTy).Contents (Elt F)) := by
  rw [unary_result, h0]
  all_goals rfl

attribute [local irreducible] Host.reduceWindow Host.scatter in
theorem step43 (V : Valuation τ sig (Elt F)) (x0 : (⟨S_, .i32⟩ : BufTy).Contents (Elt F)) (h0 : V (main_c_5 : DevRef τ sig) = x0) :
    HloOp.result (StableHlo.TRef.unary (StableHlo.TRef.of main_c_5 : StableHlo.TRef sig ⟨S_, .i32⟩) main_call4.v3 signi) V (main_call4_v3 : DevRef τ sig) = ((signi) x0 : (⟨S_, .i32⟩ : BufTy).Contents (Elt F)) := by
  rw [unary_result, h0]
  all_goals rfl

attribute [local irreducible] Host.reduceWindow Host.scatter in
theorem step44 (V : Valuation τ sig (Elt F)) (x0 : (⟨S_, .i32⟩ : BufTy).Contents (Elt F)) (h0 : V (main_call4_v3 : DevRef τ sig) = x0) :
    HloOp.result (StableHlo.TRef.unary main_call4.v3 main_call4.v4 (broadcastInDim S2016 ![] bcast_S_S2016)) V (main_call4_v4 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step45 (V : Valuation τ sig (Elt F)) (x0 : (⟨S2016, .i32⟩ : BufTy).Contents (Elt F)) (x1 : (⟨S2016, .i32⟩ : BufTy).Contents (Elt F)) (h0 : V (main_call4_v2 : DevRef τ sig) = x0) (h1 : V (main_call4_v4 : DevRef τ sig) = x1) :
    HloOp.result (StableHlo.TRef.binary main_call4.v2 main_call4.v4 main_call4.v5 (cmpi .ne)) V (main_call4_v5 : DevRef τ sig) = ((cmpi .ne) x0 x1 : (⟨S2016, .i1⟩ : BufTy).Contents (Elt F)) := by
  rw [binary_result, h0, h1]
  all_goals rfl

attribute [local irreducible] Host.reduceWindow Host.scatter in
theorem step46 (V : Valuation τ sig (Elt F)) (x0 : (⟨S_, .i32⟩ : BufTy).Contents (Elt F)) (h0 : V (main_c_5 : DevRef τ sig) = x0) :
    HloOp.result (StableHlo.TRef.unary (StableHlo.TRef.of main_c_5 : StableHlo.TRef sig ⟨S_, .i32⟩) main_call4.v6 (broadcastInDim S2016 ![] bcast_S_S2016)) V (main_call4_v6 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step47 (V : Valuation τ sig (Elt F)) (x0 : (⟨S2016, .i32⟩ : BufTy).Contents (Elt F)) (x1 : (⟨S2016, .i32⟩ : BufTy).Contents (Elt F)) (h0 : V (main_v15 : DevRef τ sig) = x0) (h1 : V (main_call4_v6 : DevRef τ sig) = x1) :
    HloOp.result (StableHlo.TRef.binary (StableHlo.TRef.of main_v15 : StableHlo.TRef sig ⟨S2016, .i32⟩) main_call4.v6 main_call4.v7 Host.remsi) V (main_call4_v7 : DevRef τ sig) = ((Host.remsi) x0 x1 : (⟨S2016, .i32⟩ : BufTy).Contents (Elt F)) := by
  rw [binary_result, h0, h1]
  all_goals rfl

attribute [local irreducible] Host.reduceWindow Host.scatter in
theorem step48 (V : Valuation τ sig (Elt F))   :
    HloOp.result (StableHlo.TRef.nullary main_call4.c (constantI S_ 32 0#32)) V (main_call4_c : DevRef τ sig) = ((constantI S_ 32 0#32) : (⟨S_, .i32⟩ : BufTy).Contents (Elt F)) := by
  rw [nullary_result]
  all_goals rfl

attribute [local irreducible] Host.reduceWindow Host.scatter in
theorem step49 (V : Valuation τ sig (Elt F)) (x0 : (⟨S_, .i32⟩ : BufTy).Contents (Elt F)) (h0 : V (main_call4_c : DevRef τ sig) = x0) :
    HloOp.result (StableHlo.TRef.unary main_call4.c main_call4.v8 (broadcastInDim S2016 ![] bcast_S_S2016)) V (main_call4_v8 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step50 (V : Valuation τ sig (Elt F)) (x0 : (⟨S2016, .i32⟩ : BufTy).Contents (Elt F)) (x1 : (⟨S2016, .i32⟩ : BufTy).Contents (Elt F)) (h0 : V (main_call4_v7 : DevRef τ sig) = x0) (h1 : V (main_call4_v8 : DevRef τ sig) = x1) :
    HloOp.result (StableHlo.TRef.binary main_call4.v7 main_call4.v8 main_call4.v9 (cmpi .ne)) V (main_call4_v9 : DevRef τ sig) = ((cmpi .ne) x0 x1 : (⟨S2016, .i1⟩ : BufTy).Contents (Elt F)) := by
  rw [binary_result, h0, h1]
  all_goals rfl

attribute [local irreducible] Host.reduceWindow Host.scatter in
theorem step51 (V : Valuation τ sig (Elt F)) (x0 : (⟨S2016, .i1⟩ : BufTy).Contents (Elt F)) (x1 : (⟨S2016, .i1⟩ : BufTy).Contents (Elt F)) (h0 : V (main_call4_v5 : DevRef τ sig) = x0) (h1 : V (main_call4_v9 : DevRef τ sig) = x1) :
    HloOp.result (StableHlo.TRef.binary main_call4.v5 main_call4.v9 main_call4.v10 andi) V (main_call4_v10 : DevRef τ sig) = ((andi) x0 x1 : (⟨S2016, .i1⟩ : BufTy).Contents (Elt F)) := by
  rw [binary_result, h0, h1]
  all_goals rfl

attribute [local irreducible] Host.reduceWindow Host.scatter in
theorem step52 (V : Valuation τ sig (Elt F))   :
    HloOp.result (StableHlo.TRef.nullary main_call4.c_0 (constantI S_ 32 1#32)) V (main_call4_c_0 : DevRef τ sig) = ((constantI S_ 32 1#32) : (⟨S_, .i32⟩ : BufTy).Contents (Elt F)) := by
  rw [nullary_result]
  all_goals rfl

attribute [local irreducible] Host.reduceWindow Host.scatter in
theorem step53 (V : Valuation τ sig (Elt F)) (x0 : (⟨S_, .i32⟩ : BufTy).Contents (Elt F)) (h0 : V (main_call4_c_0 : DevRef τ sig) = x0) :
    HloOp.result (StableHlo.TRef.unary main_call4.c_0 main_call4.v11 (broadcastInDim S2016 ![] bcast_S_S2016)) V (main_call4_v11 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step54 (V : Valuation τ sig (Elt F)) (x0 : (⟨S2016, .i32⟩ : BufTy).Contents (Elt F)) (x1 : (⟨S2016, .i32⟩ : BufTy).Contents (Elt F)) (h0 : V (main_call4_v1 : DevRef τ sig) = x0) (h1 : V (main_call4_v11 : DevRef τ sig) = x1) :
    HloOp.result (StableHlo.TRef.binary main_call4.v1 main_call4.v11 main_call4.v12 subi) V (main_call4_v12 : DevRef τ sig) = ((subi) x0 x1 : (⟨S2016, .i32⟩ : BufTy).Contents (Elt F)) := by
  rw [binary_result, h0, h1]
  all_goals rfl

attribute [local irreducible] Host.reduceWindow Host.scatter in
theorem step55 (V : Valuation τ sig (Elt F)) (x0 : (⟨S2016, .i1⟩ : BufTy).Contents (Elt F)) (x1 : (⟨S2016, .i32⟩ : BufTy).Contents (Elt F)) (x2 : (⟨S2016, .i32⟩ : BufTy).Contents (Elt F)) (h0 : V (main_call4_v10 : DevRef τ sig) = x0) (h1 : V (main_call4_v12 : DevRef τ sig) = x1) (h2 : V (main_call4_v1 : DevRef τ sig) = x2) :
    HloOp.result (StableHlo.TRef.ternary main_call4.v10 main_call4.v12 main_call4.v1 main_call4_call0.v0 select) V (main_v16 : DevRef τ sig) = ((select) x0 x1 x2 : (⟨S2016, .i32⟩ : BufTy).Contents (Elt F)) := by
  rw [ternary_result, h0, h1, h2]
  all_goals rfl

attribute [local irreducible] Host.reduceWindow Host.scatter in
theorem step56 (V : Valuation τ sig (Elt F))   :
    HloOp.result (StableHlo.nullary main_c_6 (constantI S_ 32 64#32)) V (main_c_6 : DevRef τ sig) = ((constantI S_ 32 64#32) : (⟨S_, .i32⟩ : BufTy).Contents (Elt F)) := by
  rw [nullary_result]
  all_goals rfl

attribute [local irreducible] Host.reduceWindow Host.scatter in
theorem step57 (V : Valuation τ sig (Elt F)) (x0 : (⟨S_, .i32⟩ : BufTy).Contents (Elt F)) (h0 : V (main_c_6 : DevRef τ sig) = x0) :
    HloOp.result (StableHlo.TRef.unary (StableHlo.TRef.of main_c_6 : StableHlo.TRef sig ⟨S_, .i32⟩) main_call5.v0 id) V (main_call5_v0 : DevRef τ sig) = ((id) x0 : (⟨S_, .i32⟩ : BufTy).Contents (Elt F)) := by
  rw [unary_result, h0]
  all_goals rfl

attribute [local irreducible] Host.reduceWindow Host.scatter in
theorem step58 (V : Valuation τ sig (Elt F))   :
    HloOp.result (StableHlo.TRef.nullary main_call5.c (constantI S_ 32 0#32)) V (main_call5_c : DevRef τ sig) = ((constantI S_ 32 0#32) : (⟨S_, .i32⟩ : BufTy).Contents (Elt F)) := by
  rw [nullary_result]
  all_goals rfl

attribute [local irreducible] Host.reduceWindow Host.scatter in
theorem step59 (V : Valuation τ sig (Elt F)) (x0 : (⟨S_, .i32⟩ : BufTy).Contents (Elt F)) (x1 : (⟨S_, .i32⟩ : BufTy).Contents (Elt F)) (h0 : V (main_call5_v0 : DevRef τ sig) = x0) (h1 : V (main_call5_c : DevRef τ sig) = x1) :
    HloOp.result (StableHlo.TRef.binary main_call5.v0 main_call5.c main_call5.v1 (cmpi .eq)) V (main_call5_v1 : DevRef τ sig) = ((cmpi .eq) x0 x1 : (⟨S_, .i1⟩ : BufTy).Contents (Elt F)) := by
  rw [binary_result, h0, h1]
  all_goals rfl

attribute [local irreducible] Host.reduceWindow Host.scatter in
theorem step60 (V : Valuation τ sig (Elt F))   :
    HloOp.result (StableHlo.TRef.nullary main_call5.c_0 (constantI S_ 32 1#32)) V (main_call5_c_0 : DevRef τ sig) = ((constantI S_ 32 1#32) : (⟨S_, .i32⟩ : BufTy).Contents (Elt F)) := by
  rw [nullary_result]
  all_goals rfl

attribute [local irreducible] Host.reduceWindow Host.scatter in
theorem step61 (V : Valuation τ sig (Elt F)) (x0 : (⟨S_, .i1⟩ : BufTy).Contents (Elt F)) (x1 : (⟨S_, .i32⟩ : BufTy).Contents (Elt F)) (x2 : (⟨S_, .i32⟩ : BufTy).Contents (Elt F)) (h0 : V (main_call5_v1 : DevRef τ sig) = x0) (h1 : V (main_call5_c_0 : DevRef τ sig) = x1) (h2 : V (main_call5_v0 : DevRef τ sig) = x2) :
    HloOp.result (StableHlo.TRef.ternary main_call5.v1 main_call5.c_0 main_call5.v0 main_call5_call0.v0 select) V (main_call5_v2 : DevRef τ sig) = ((select) x0 x1 x2 : (⟨S_, .i32⟩ : BufTy).Contents (Elt F)) := by
  rw [ternary_result, h0, h1, h2]
  all_goals rfl

attribute [local irreducible] Host.reduceWindow Host.scatter in
theorem step62 (V : Valuation τ sig (Elt F)) (x0 : (⟨S_, .i32⟩ : BufTy).Contents (Elt F)) (h0 : V (main_call5_v2 : DevRef τ sig) = x0) :
    HloOp.result (StableHlo.TRef.unary main_call5.call0.v0 main_call5.v3 (broadcastInDim S2016 ![] bcast_S_S2016)) V (main_call5_v3 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step63 (V : Valuation τ sig (Elt F)) (x0 : (⟨S2016, .i32⟩ : BufTy).Contents (Elt F)) (x1 : (⟨S2016, .i32⟩ : BufTy).Contents (Elt F)) (h0 : V (main_v16 : DevRef τ sig) = x0) (h1 : V (main_call5_v3 : DevRef τ sig) = x1) :
    HloOp.result (StableHlo.TRef.binary (StableHlo.TRef.of main_v16 : StableHlo.TRef sig ⟨S2016, .i32⟩) main_call5.v3 main_call5.v4 Host.remsi) V (main_call5_v4 : DevRef τ sig) = ((Host.remsi) x0 x1 : (⟨S2016, .i32⟩ : BufTy).Contents (Elt F)) := by
  rw [binary_result, h0, h1]
  all_goals rfl

attribute [local irreducible] Host.reduceWindow Host.scatter in
theorem step64 (V : Valuation τ sig (Elt F))   :
    HloOp.result (StableHlo.TRef.nullary main_call5.c_1 (constantI S_ 32 0#32)) V (main_call5_c_1 : DevRef τ sig) = ((constantI S_ 32 0#32) : (⟨S_, .i32⟩ : BufTy).Contents (Elt F)) := by
  rw [nullary_result]
  all_goals rfl

attribute [local irreducible] Host.reduceWindow Host.scatter in
theorem step65 (V : Valuation τ sig (Elt F)) (x0 : (⟨S_, .i32⟩ : BufTy).Contents (Elt F)) (h0 : V (main_call5_c_1 : DevRef τ sig) = x0) :
    HloOp.result (StableHlo.TRef.unary main_call5.c_1 main_call5.v5 (broadcastInDim S2016 ![] bcast_S_S2016)) V (main_call5_v5 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step66 (V : Valuation τ sig (Elt F)) (x0 : (⟨S2016, .i32⟩ : BufTy).Contents (Elt F)) (x1 : (⟨S2016, .i32⟩ : BufTy).Contents (Elt F)) (h0 : V (main_call5_v4 : DevRef τ sig) = x0) (h1 : V (main_call5_v5 : DevRef τ sig) = x1) :
    HloOp.result (StableHlo.TRef.binary main_call5.v4 main_call5.v5 main_call5.v6 (cmpi .ne)) V (main_call5_v6 : DevRef τ sig) = ((cmpi .ne) x0 x1 : (⟨S2016, .i1⟩ : BufTy).Contents (Elt F)) := by
  rw [binary_result, h0, h1]
  all_goals rfl

attribute [local irreducible] Host.reduceWindow Host.scatter in
theorem step67 (V : Valuation τ sig (Elt F))   :
    HloOp.result (StableHlo.TRef.nullary main_call5.c_2 (constantI S_ 32 0#32)) V (main_call5_c_2 : DevRef τ sig) = ((constantI S_ 32 0#32) : (⟨S_, .i32⟩ : BufTy).Contents (Elt F)) := by
  rw [nullary_result]
  all_goals rfl

attribute [local irreducible] Host.reduceWindow Host.scatter in
theorem step68 (V : Valuation τ sig (Elt F)) (x0 : (⟨S_, .i32⟩ : BufTy).Contents (Elt F)) (h0 : V (main_call5_c_2 : DevRef τ sig) = x0) :
    HloOp.result (StableHlo.TRef.unary main_call5.c_2 main_call5.v7 (broadcastInDim S2016 ![] bcast_S_S2016)) V (main_call5_v7 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step69 (V : Valuation τ sig (Elt F)) (x0 : (⟨S2016, .i32⟩ : BufTy).Contents (Elt F)) (x1 : (⟨S2016, .i32⟩ : BufTy).Contents (Elt F)) (h0 : V (main_call5_v4 : DevRef τ sig) = x0) (h1 : V (main_call5_v7 : DevRef τ sig) = x1) :
    HloOp.result (StableHlo.TRef.binary main_call5.v4 main_call5.v7 main_call5.v8 (cmpi .slt)) V (main_call5_v8 : DevRef τ sig) = ((cmpi .slt) x0 x1 : (⟨S2016, .i1⟩ : BufTy).Contents (Elt F)) := by
  rw [binary_result, h0, h1]
  all_goals rfl

attribute [local irreducible] Host.reduceWindow Host.scatter in
theorem step70 (V : Valuation τ sig (Elt F))   :
    HloOp.result (StableHlo.TRef.nullary main_call5.c_3 (constantI S_ 32 0#32)) V (main_call5_c_3 : DevRef τ sig) = ((constantI S_ 32 0#32) : (⟨S_, .i32⟩ : BufTy).Contents (Elt F)) := by
  rw [nullary_result]
  all_goals rfl

attribute [local irreducible] Host.reduceWindow Host.scatter in
theorem step71 (V : Valuation τ sig (Elt F)) (x0 : (⟨S_, .i32⟩ : BufTy).Contents (Elt F)) (x1 : (⟨S_, .i32⟩ : BufTy).Contents (Elt F)) (h0 : V (main_call5_v2 : DevRef τ sig) = x0) (h1 : V (main_call5_c_3 : DevRef τ sig) = x1) :
    HloOp.result (StableHlo.TRef.binary main_call5.call0.v0 main_call5.c_3 main_call5.v9 (cmpi .slt)) V (main_call5_v9 : DevRef τ sig) = ((cmpi .slt) x0 x1 : (⟨S_, .i1⟩ : BufTy).Contents (Elt F)) := by
  rw [binary_result, h0, h1]
  all_goals rfl

attribute [local irreducible] Host.reduceWindow Host.scatter in
theorem step72 (V : Valuation τ sig (Elt F)) (x0 : (⟨S_, .i1⟩ : BufTy).Contents (Elt F)) (h0 : V (main_call5_v9 : DevRef τ sig) = x0) :
    HloOp.result (StableHlo.TRef.unary main_call5.v9 main_call5.v10 (broadcastInDim S2016 ![] bcast_S_S2016)) V (main_call5_v10 : DevRef τ sig) = ((broadcastInDim S2016 ![] bcast_S_S2016) x0 : (⟨S2016, .i1⟩ : BufTy).Contents (Elt F)) := by
  rw [unary_result, h0]
  all_goals rfl

attribute [local irreducible] Host.reduceWindow Host.scatter in
theorem step73 (V : Valuation τ sig (Elt F)) (x0 : (⟨S2016, .i1⟩ : BufTy).Contents (Elt F)) (x1 : (⟨S2016, .i1⟩ : BufTy).Contents (Elt F)) (h0 : V (main_call5_v8 : DevRef τ sig) = x0) (h1 : V (main_call5_v10 : DevRef τ sig) = x1) :
    HloOp.result (StableHlo.TRef.binary main_call5.v8 main_call5.v10 main_call5.v11 (cmpi .ne)) V (main_call5_v11 : DevRef τ sig) = ((cmpi .ne) x0 x1 : (⟨S2016, .i1⟩ : BufTy).Contents (Elt F)) := by
  rw [binary_result, h0, h1]
  all_goals rfl

attribute [local irreducible] Host.reduceWindow Host.scatter in
theorem step74 (V : Valuation τ sig (Elt F)) (x0 : (⟨S2016, .i1⟩ : BufTy).Contents (Elt F)) (x1 : (⟨S2016, .i1⟩ : BufTy).Contents (Elt F)) (h0 : V (main_call5_v11 : DevRef τ sig) = x0) (h1 : V (main_call5_v6 : DevRef τ sig) = x1) :
    HloOp.result (StableHlo.TRef.binary main_call5.v11 main_call5.v6 main_call5.v12 andi) V (main_call5_v12 : DevRef τ sig) = ((andi) x0 x1 : (⟨S2016, .i1⟩ : BufTy).Contents (Elt F)) := by
  rw [binary_result, h0, h1]
  all_goals rfl

attribute [local irreducible] Host.reduceWindow Host.scatter in
theorem step75 (V : Valuation τ sig (Elt F)) (x0 : (⟨S_, .i32⟩ : BufTy).Contents (Elt F)) (h0 : V (main_call5_v2 : DevRef τ sig) = x0) :
    HloOp.result (StableHlo.TRef.unary main_call5.call0.v0 main_call5.v13 (broadcastInDim S2016 ![] bcast_S_S2016)) V (main_call5_v13 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step76 (V : Valuation τ sig (Elt F)) (x0 : (⟨S2016, .i32⟩ : BufTy).Contents (Elt F)) (x1 : (⟨S2016, .i32⟩ : BufTy).Contents (Elt F)) (h0 : V (main_call5_v4 : DevRef τ sig) = x0) (h1 : V (main_call5_v13 : DevRef τ sig) = x1) :
    HloOp.result (StableHlo.TRef.binary main_call5.v4 main_call5.v13 main_call5.v14 addi) V (main_call5_v14 : DevRef τ sig) = ((addi) x0 x1 : (⟨S2016, .i32⟩ : BufTy).Contents (Elt F)) := by
  rw [binary_result, h0, h1]
  all_goals rfl

attribute [local irreducible] Host.reduceWindow Host.scatter in
theorem step77 (V : Valuation τ sig (Elt F)) (x0 : (⟨S2016, .i1⟩ : BufTy).Contents (Elt F)) (x1 : (⟨S2016, .i32⟩ : BufTy).Contents (Elt F)) (x2 : (⟨S2016, .i32⟩ : BufTy).Contents (Elt F)) (h0 : V (main_call5_v12 : DevRef τ sig) = x0) (h1 : V (main_call5_v14 : DevRef τ sig) = x1) (h2 : V (main_call5_v4 : DevRef τ sig) = x2) :
    HloOp.result (StableHlo.TRef.ternary main_call5.v12 main_call5.v14 main_call5.v4 main_call5.v15 select) V (main_v17 : DevRef τ sig) = ((select) x0 x1 x2 : (⟨S2016, .i32⟩ : BufTy).Contents (Elt F)) := by
  rw [ternary_result, h0, h1, h2]
  all_goals rfl

attribute [local irreducible] Host.reduceWindow Host.scatter in
theorem step78 (V : Valuation τ sig (Elt F))   :
    HloOp.result (StableHlo.nullary main_c_7 (constantI S_ 32 1#32)) V (main_c_7 : DevRef τ sig) = ((constantI S_ 32 1#32) : (⟨S_, .i32⟩ : BufTy).Contents (Elt F)) := by
  rw [nullary_result]
  all_goals rfl

attribute [local irreducible] Host.reduceWindow Host.scatter in
theorem step79 (V : Valuation τ sig (Elt F)) (x0 : (⟨S_, .i32⟩ : BufTy).Contents (Elt F)) (h0 : V (main_c_7 : DevRef τ sig) = x0) :
    HloOp.result (StableHlo.TRef.unary (StableHlo.TRef.of main_c_7 : StableHlo.TRef sig ⟨S_, .i32⟩) main_call6.v0 (broadcastInDim S2016 ![] bcast_S_S2016)) V (main_call6_v0 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step80 (V : Valuation τ sig (Elt F)) (x0 : (⟨S2016, .i32⟩ : BufTy).Contents (Elt F)) (x1 : (⟨S2016, .i32⟩ : BufTy).Contents (Elt F)) (h0 : V (main_v15 : DevRef τ sig) = x0) (h1 : V (main_call6_v0 : DevRef τ sig) = x1) :
    HloOp.result (StableHlo.TRef.binary (StableHlo.TRef.of main_v15 : StableHlo.TRef sig ⟨S2016, .i32⟩) main_call6.v0 main_call6.v1 Host.divsi) V (main_call6_v1 : DevRef τ sig) = ((Host.divsi) x0 x1 : (⟨S2016, .i32⟩ : BufTy).Contents (Elt F)) := by
  rw [binary_result, h0, h1]
  all_goals rfl

attribute [local irreducible] Host.reduceWindow Host.scatter in
theorem step81 (V : Valuation τ sig (Elt F)) (x0 : (⟨S2016, .i32⟩ : BufTy).Contents (Elt F)) (h0 : V (main_v15 : DevRef τ sig) = x0) :
    HloOp.result (StableHlo.TRef.unary (StableHlo.TRef.of main_v15 : StableHlo.TRef sig ⟨S2016, .i32⟩) main_call6.v2 signi) V (main_call6_v2 : DevRef τ sig) = ((signi) x0 : (⟨S2016, .i32⟩ : BufTy).Contents (Elt F)) := by
  rw [unary_result, h0]
  all_goals rfl

attribute [local irreducible] Host.reduceWindow Host.scatter in
theorem step82 (V : Valuation τ sig (Elt F)) (x0 : (⟨S_, .i32⟩ : BufTy).Contents (Elt F)) (h0 : V (main_c_7 : DevRef τ sig) = x0) :
    HloOp.result (StableHlo.TRef.unary (StableHlo.TRef.of main_c_7 : StableHlo.TRef sig ⟨S_, .i32⟩) main_call6.v3 signi) V (main_call6_v3 : DevRef τ sig) = ((signi) x0 : (⟨S_, .i32⟩ : BufTy).Contents (Elt F)) := by
  rw [unary_result, h0]
  all_goals rfl

attribute [local irreducible] Host.reduceWindow Host.scatter in
theorem step83 (V : Valuation τ sig (Elt F)) (x0 : (⟨S_, .i32⟩ : BufTy).Contents (Elt F)) (h0 : V (main_call6_v3 : DevRef τ sig) = x0) :
    HloOp.result (StableHlo.TRef.unary main_call6.v3 main_call6.v4 (broadcastInDim S2016 ![] bcast_S_S2016)) V (main_call6_v4 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step84 (V : Valuation τ sig (Elt F)) (x0 : (⟨S2016, .i32⟩ : BufTy).Contents (Elt F)) (x1 : (⟨S2016, .i32⟩ : BufTy).Contents (Elt F)) (h0 : V (main_call6_v2 : DevRef τ sig) = x0) (h1 : V (main_call6_v4 : DevRef τ sig) = x1) :
    HloOp.result (StableHlo.TRef.binary main_call6.v2 main_call6.v4 main_call6.v5 (cmpi .ne)) V (main_call6_v5 : DevRef τ sig) = ((cmpi .ne) x0 x1 : (⟨S2016, .i1⟩ : BufTy).Contents (Elt F)) := by
  rw [binary_result, h0, h1]
  all_goals rfl

attribute [local irreducible] Host.reduceWindow Host.scatter in
theorem step85 (V : Valuation τ sig (Elt F)) (x0 : (⟨S_, .i32⟩ : BufTy).Contents (Elt F)) (h0 : V (main_c_7 : DevRef τ sig) = x0) :
    HloOp.result (StableHlo.TRef.unary (StableHlo.TRef.of main_c_7 : StableHlo.TRef sig ⟨S_, .i32⟩) main_call6.v6 (broadcastInDim S2016 ![] bcast_S_S2016)) V (main_call6_v6 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step86 (V : Valuation τ sig (Elt F)) (x0 : (⟨S2016, .i32⟩ : BufTy).Contents (Elt F)) (x1 : (⟨S2016, .i32⟩ : BufTy).Contents (Elt F)) (h0 : V (main_v15 : DevRef τ sig) = x0) (h1 : V (main_call6_v6 : DevRef τ sig) = x1) :
    HloOp.result (StableHlo.TRef.binary (StableHlo.TRef.of main_v15 : StableHlo.TRef sig ⟨S2016, .i32⟩) main_call6.v6 main_call6.v7 Host.remsi) V (main_call6_v7 : DevRef τ sig) = ((Host.remsi) x0 x1 : (⟨S2016, .i32⟩ : BufTy).Contents (Elt F)) := by
  rw [binary_result, h0, h1]
  all_goals rfl

attribute [local irreducible] Host.reduceWindow Host.scatter in
theorem step87 (V : Valuation τ sig (Elt F))   :
    HloOp.result (StableHlo.TRef.nullary main_call6.c (constantI S_ 32 0#32)) V (main_call6_c : DevRef τ sig) = ((constantI S_ 32 0#32) : (⟨S_, .i32⟩ : BufTy).Contents (Elt F)) := by
  rw [nullary_result]
  all_goals rfl

attribute [local irreducible] Host.reduceWindow Host.scatter in
theorem step88 (V : Valuation τ sig (Elt F)) (x0 : (⟨S_, .i32⟩ : BufTy).Contents (Elt F)) (h0 : V (main_call6_c : DevRef τ sig) = x0) :
    HloOp.result (StableHlo.TRef.unary main_call6.c main_call6.v8 (broadcastInDim S2016 ![] bcast_S_S2016)) V (main_call6_v8 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step89 (V : Valuation τ sig (Elt F)) (x0 : (⟨S2016, .i32⟩ : BufTy).Contents (Elt F)) (x1 : (⟨S2016, .i32⟩ : BufTy).Contents (Elt F)) (h0 : V (main_call6_v7 : DevRef τ sig) = x0) (h1 : V (main_call6_v8 : DevRef τ sig) = x1) :
    HloOp.result (StableHlo.TRef.binary main_call6.v7 main_call6.v8 main_call6.v9 (cmpi .ne)) V (main_call6_v9 : DevRef τ sig) = ((cmpi .ne) x0 x1 : (⟨S2016, .i1⟩ : BufTy).Contents (Elt F)) := by
  rw [binary_result, h0, h1]
  all_goals rfl

attribute [local irreducible] Host.reduceWindow Host.scatter in
theorem step90 (V : Valuation τ sig (Elt F)) (x0 : (⟨S2016, .i1⟩ : BufTy).Contents (Elt F)) (x1 : (⟨S2016, .i1⟩ : BufTy).Contents (Elt F)) (h0 : V (main_call6_v5 : DevRef τ sig) = x0) (h1 : V (main_call6_v9 : DevRef τ sig) = x1) :
    HloOp.result (StableHlo.TRef.binary main_call6.v5 main_call6.v9 main_call6.v10 andi) V (main_call6_v10 : DevRef τ sig) = ((andi) x0 x1 : (⟨S2016, .i1⟩ : BufTy).Contents (Elt F)) := by
  rw [binary_result, h0, h1]
  all_goals rfl

attribute [local irreducible] Host.reduceWindow Host.scatter in
theorem step91 (V : Valuation τ sig (Elt F))   :
    HloOp.result (StableHlo.TRef.nullary main_call6.c_0 (constantI S_ 32 1#32)) V (main_call6_c_0 : DevRef τ sig) = ((constantI S_ 32 1#32) : (⟨S_, .i32⟩ : BufTy).Contents (Elt F)) := by
  rw [nullary_result]
  all_goals rfl

attribute [local irreducible] Host.reduceWindow Host.scatter in
theorem step92 (V : Valuation τ sig (Elt F)) (x0 : (⟨S_, .i32⟩ : BufTy).Contents (Elt F)) (h0 : V (main_call6_c_0 : DevRef τ sig) = x0) :
    HloOp.result (StableHlo.TRef.unary main_call6.c_0 main_call6.v11 (broadcastInDim S2016 ![] bcast_S_S2016)) V (main_call6_v11 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step93 (V : Valuation τ sig (Elt F)) (x0 : (⟨S2016, .i32⟩ : BufTy).Contents (Elt F)) (x1 : (⟨S2016, .i32⟩ : BufTy).Contents (Elt F)) (h0 : V (main_call6_v1 : DevRef τ sig) = x0) (h1 : V (main_call6_v11 : DevRef τ sig) = x1) :
    HloOp.result (StableHlo.TRef.binary main_call6.v1 main_call6.v11 main_call6.v12 subi) V (main_call6_v12 : DevRef τ sig) = ((subi) x0 x1 : (⟨S2016, .i32⟩ : BufTy).Contents (Elt F)) := by
  rw [binary_result, h0, h1]
  all_goals rfl

attribute [local irreducible] Host.reduceWindow Host.scatter in
theorem step94 (V : Valuation τ sig (Elt F)) (x0 : (⟨S2016, .i1⟩ : BufTy).Contents (Elt F)) (x1 : (⟨S2016, .i32⟩ : BufTy).Contents (Elt F)) (x2 : (⟨S2016, .i32⟩ : BufTy).Contents (Elt F)) (h0 : V (main_call6_v10 : DevRef τ sig) = x0) (h1 : V (main_call6_v12 : DevRef τ sig) = x1) (h2 : V (main_call6_v1 : DevRef τ sig) = x2) :
    HloOp.result (StableHlo.TRef.ternary main_call6.v10 main_call6.v12 main_call6.v1 main_call6_call0.v0 select) V (main_v18 : DevRef τ sig) = ((select) x0 x1 x2 : (⟨S2016, .i32⟩ : BufTy).Contents (Elt F)) := by
  rw [ternary_result, h0, h1, h2]
  all_goals rfl

attribute [local irreducible] Host.reduceWindow Host.scatter in
theorem step95 (V : Valuation τ sig (Elt F))   :
    HloOp.result (StableHlo.nullary main_c_8 (constantI S_ 32 64#32)) V (main_c_8 : DevRef τ sig) = ((constantI S_ 32 64#32) : (⟨S_, .i32⟩ : BufTy).Contents (Elt F)) := by
  rw [nullary_result]
  all_goals rfl

attribute [local irreducible] Host.reduceWindow Host.scatter in
theorem step96 (V : Valuation τ sig (Elt F)) (x0 : (⟨S_, .i32⟩ : BufTy).Contents (Elt F)) (h0 : V (main_c_8 : DevRef τ sig) = x0) :
    HloOp.result (StableHlo.TRef.unary (StableHlo.TRef.of main_c_8 : StableHlo.TRef sig ⟨S_, .i32⟩) main_call7.v0 id) V (main_call7_v0 : DevRef τ sig) = ((id) x0 : (⟨S_, .i32⟩ : BufTy).Contents (Elt F)) := by
  rw [unary_result, h0]
  all_goals rfl

attribute [local irreducible] Host.reduceWindow Host.scatter in
theorem step97 (V : Valuation τ sig (Elt F))   :
    HloOp.result (StableHlo.TRef.nullary main_call7.c (constantI S_ 32 0#32)) V (main_call7_c : DevRef τ sig) = ((constantI S_ 32 0#32) : (⟨S_, .i32⟩ : BufTy).Contents (Elt F)) := by
  rw [nullary_result]
  all_goals rfl

attribute [local irreducible] Host.reduceWindow Host.scatter in
theorem step98 (V : Valuation τ sig (Elt F)) (x0 : (⟨S_, .i32⟩ : BufTy).Contents (Elt F)) (x1 : (⟨S_, .i32⟩ : BufTy).Contents (Elt F)) (h0 : V (main_call7_v0 : DevRef τ sig) = x0) (h1 : V (main_call7_c : DevRef τ sig) = x1) :
    HloOp.result (StableHlo.TRef.binary main_call7.v0 main_call7.c main_call7.v1 (cmpi .eq)) V (main_call7_v1 : DevRef τ sig) = ((cmpi .eq) x0 x1 : (⟨S_, .i1⟩ : BufTy).Contents (Elt F)) := by
  rw [binary_result, h0, h1]
  all_goals rfl

attribute [local irreducible] Host.reduceWindow Host.scatter in
theorem step99 (V : Valuation τ sig (Elt F))   :
    HloOp.result (StableHlo.TRef.nullary main_call7.c_0 (constantI S_ 32 1#32)) V (main_call7_c_0 : DevRef τ sig) = ((constantI S_ 32 1#32) : (⟨S_, .i32⟩ : BufTy).Contents (Elt F)) := by
  rw [nullary_result]
  all_goals rfl

attribute [local irreducible] Host.reduceWindow Host.scatter in
theorem step100 (V : Valuation τ sig (Elt F)) (x0 : (⟨S_, .i1⟩ : BufTy).Contents (Elt F)) (x1 : (⟨S_, .i32⟩ : BufTy).Contents (Elt F)) (x2 : (⟨S_, .i32⟩ : BufTy).Contents (Elt F)) (h0 : V (main_call7_v1 : DevRef τ sig) = x0) (h1 : V (main_call7_c_0 : DevRef τ sig) = x1) (h2 : V (main_call7_v0 : DevRef τ sig) = x2) :
    HloOp.result (StableHlo.TRef.ternary main_call7.v1 main_call7.c_0 main_call7.v0 main_call7_call0.v0 select) V (main_call7_v2 : DevRef τ sig) = ((select) x0 x1 x2 : (⟨S_, .i32⟩ : BufTy).Contents (Elt F)) := by
  rw [ternary_result, h0, h1, h2]
  all_goals rfl

attribute [local irreducible] Host.reduceWindow Host.scatter in
theorem step101 (V : Valuation τ sig (Elt F)) (x0 : (⟨S_, .i32⟩ : BufTy).Contents (Elt F)) (h0 : V (main_call7_v2 : DevRef τ sig) = x0) :
    HloOp.result (StableHlo.TRef.unary main_call7.call0.v0 main_call7.v3 (broadcastInDim S2016 ![] bcast_S_S2016)) V (main_call7_v3 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step102 (V : Valuation τ sig (Elt F)) (x0 : (⟨S2016, .i32⟩ : BufTy).Contents (Elt F)) (x1 : (⟨S2016, .i32⟩ : BufTy).Contents (Elt F)) (h0 : V (main_v18 : DevRef τ sig) = x0) (h1 : V (main_call7_v3 : DevRef τ sig) = x1) :
    HloOp.result (StableHlo.TRef.binary (StableHlo.TRef.of main_v18 : StableHlo.TRef sig ⟨S2016, .i32⟩) main_call7.v3 main_call7.v4 Host.remsi) V (main_call7_v4 : DevRef τ sig) = ((Host.remsi) x0 x1 : (⟨S2016, .i32⟩ : BufTy).Contents (Elt F)) := by
  rw [binary_result, h0, h1]
  all_goals rfl

attribute [local irreducible] Host.reduceWindow Host.scatter in
theorem step103 (V : Valuation τ sig (Elt F))   :
    HloOp.result (StableHlo.TRef.nullary main_call7.c_1 (constantI S_ 32 0#32)) V (main_call7_c_1 : DevRef τ sig) = ((constantI S_ 32 0#32) : (⟨S_, .i32⟩ : BufTy).Contents (Elt F)) := by
  rw [nullary_result]
  all_goals rfl

attribute [local irreducible] Host.reduceWindow Host.scatter in
theorem step104 (V : Valuation τ sig (Elt F)) (x0 : (⟨S_, .i32⟩ : BufTy).Contents (Elt F)) (h0 : V (main_call7_c_1 : DevRef τ sig) = x0) :
    HloOp.result (StableHlo.TRef.unary main_call7.c_1 main_call7.v5 (broadcastInDim S2016 ![] bcast_S_S2016)) V (main_call7_v5 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step105 (V : Valuation τ sig (Elt F)) (x0 : (⟨S2016, .i32⟩ : BufTy).Contents (Elt F)) (x1 : (⟨S2016, .i32⟩ : BufTy).Contents (Elt F)) (h0 : V (main_call7_v4 : DevRef τ sig) = x0) (h1 : V (main_call7_v5 : DevRef τ sig) = x1) :
    HloOp.result (StableHlo.TRef.binary main_call7.v4 main_call7.v5 main_call7.v6 (cmpi .ne)) V (main_call7_v6 : DevRef τ sig) = ((cmpi .ne) x0 x1 : (⟨S2016, .i1⟩ : BufTy).Contents (Elt F)) := by
  rw [binary_result, h0, h1]
  all_goals rfl

attribute [local irreducible] Host.reduceWindow Host.scatter in
theorem step106 (V : Valuation τ sig (Elt F))   :
    HloOp.result (StableHlo.TRef.nullary main_call7.c_2 (constantI S_ 32 0#32)) V (main_call7_c_2 : DevRef τ sig) = ((constantI S_ 32 0#32) : (⟨S_, .i32⟩ : BufTy).Contents (Elt F)) := by
  rw [nullary_result]
  all_goals rfl

attribute [local irreducible] Host.reduceWindow Host.scatter in
theorem step107 (V : Valuation τ sig (Elt F)) (x0 : (⟨S_, .i32⟩ : BufTy).Contents (Elt F)) (h0 : V (main_call7_c_2 : DevRef τ sig) = x0) :
    HloOp.result (StableHlo.TRef.unary main_call7.c_2 main_call7.v7 (broadcastInDim S2016 ![] bcast_S_S2016)) V (main_call7_v7 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step108 (V : Valuation τ sig (Elt F)) (x0 : (⟨S2016, .i32⟩ : BufTy).Contents (Elt F)) (x1 : (⟨S2016, .i32⟩ : BufTy).Contents (Elt F)) (h0 : V (main_call7_v4 : DevRef τ sig) = x0) (h1 : V (main_call7_v7 : DevRef τ sig) = x1) :
    HloOp.result (StableHlo.TRef.binary main_call7.v4 main_call7.v7 main_call7.v8 (cmpi .slt)) V (main_call7_v8 : DevRef τ sig) = ((cmpi .slt) x0 x1 : (⟨S2016, .i1⟩ : BufTy).Contents (Elt F)) := by
  rw [binary_result, h0, h1]
  all_goals rfl

attribute [local irreducible] Host.reduceWindow Host.scatter in
theorem step109 (V : Valuation τ sig (Elt F))   :
    HloOp.result (StableHlo.TRef.nullary main_call7.c_3 (constantI S_ 32 0#32)) V (main_call7_c_3 : DevRef τ sig) = ((constantI S_ 32 0#32) : (⟨S_, .i32⟩ : BufTy).Contents (Elt F)) := by
  rw [nullary_result]
  all_goals rfl

attribute [local irreducible] Host.reduceWindow Host.scatter in
theorem step110 (V : Valuation τ sig (Elt F)) (x0 : (⟨S_, .i32⟩ : BufTy).Contents (Elt F)) (x1 : (⟨S_, .i32⟩ : BufTy).Contents (Elt F)) (h0 : V (main_call7_v2 : DevRef τ sig) = x0) (h1 : V (main_call7_c_3 : DevRef τ sig) = x1) :
    HloOp.result (StableHlo.TRef.binary main_call7.call0.v0 main_call7.c_3 main_call7.v9 (cmpi .slt)) V (main_call7_v9 : DevRef τ sig) = ((cmpi .slt) x0 x1 : (⟨S_, .i1⟩ : BufTy).Contents (Elt F)) := by
  rw [binary_result, h0, h1]
  all_goals rfl

attribute [local irreducible] Host.reduceWindow Host.scatter in
theorem step111 (V : Valuation τ sig (Elt F)) (x0 : (⟨S_, .i1⟩ : BufTy).Contents (Elt F)) (h0 : V (main_call7_v9 : DevRef τ sig) = x0) :
    HloOp.result (StableHlo.TRef.unary main_call7.v9 main_call7.v10 (broadcastInDim S2016 ![] bcast_S_S2016)) V (main_call7_v10 : DevRef τ sig) = ((broadcastInDim S2016 ![] bcast_S_S2016) x0 : (⟨S2016, .i1⟩ : BufTy).Contents (Elt F)) := by
  rw [unary_result, h0]
  all_goals rfl

attribute [local irreducible] Host.reduceWindow Host.scatter in
theorem step112 (V : Valuation τ sig (Elt F)) (x0 : (⟨S2016, .i1⟩ : BufTy).Contents (Elt F)) (x1 : (⟨S2016, .i1⟩ : BufTy).Contents (Elt F)) (h0 : V (main_call7_v8 : DevRef τ sig) = x0) (h1 : V (main_call7_v10 : DevRef τ sig) = x1) :
    HloOp.result (StableHlo.TRef.binary main_call7.v8 main_call7.v10 main_call7.v11 (cmpi .ne)) V (main_call7_v11 : DevRef τ sig) = ((cmpi .ne) x0 x1 : (⟨S2016, .i1⟩ : BufTy).Contents (Elt F)) := by
  rw [binary_result, h0, h1]
  all_goals rfl

attribute [local irreducible] Host.reduceWindow Host.scatter in
theorem step113 (V : Valuation τ sig (Elt F)) (x0 : (⟨S2016, .i1⟩ : BufTy).Contents (Elt F)) (x1 : (⟨S2016, .i1⟩ : BufTy).Contents (Elt F)) (h0 : V (main_call7_v11 : DevRef τ sig) = x0) (h1 : V (main_call7_v6 : DevRef τ sig) = x1) :
    HloOp.result (StableHlo.TRef.binary main_call7.v11 main_call7.v6 main_call7.v12 andi) V (main_call7_v12 : DevRef τ sig) = ((andi) x0 x1 : (⟨S2016, .i1⟩ : BufTy).Contents (Elt F)) := by
  rw [binary_result, h0, h1]
  all_goals rfl

attribute [local irreducible] Host.reduceWindow Host.scatter in
theorem step114 (V : Valuation τ sig (Elt F)) (x0 : (⟨S_, .i32⟩ : BufTy).Contents (Elt F)) (h0 : V (main_call7_v2 : DevRef τ sig) = x0) :
    HloOp.result (StableHlo.TRef.unary main_call7.call0.v0 main_call7.v13 (broadcastInDim S2016 ![] bcast_S_S2016)) V (main_call7_v13 : DevRef τ sig) = ((broadcastInDim S2016 ![] bcast_S_S2016) x0 : (⟨S2016, .i32⟩ : BufTy).Contents (Elt F)) := by
  rw [unary_result, h0]
  all_goals rfl

attribute [local irreducible] Host.reduceWindow Host.scatter in
theorem step115 (V : Valuation τ sig (Elt F)) (x0 : (⟨S2016, .i32⟩ : BufTy).Contents (Elt F)) (x1 : (⟨S2016, .i32⟩ : BufTy).Contents (Elt F)) (h0 : V (main_call7_v4 : DevRef τ sig) = x0) (h1 : V (main_call7_v13 : DevRef τ sig) = x1) :
    HloOp.result (StableHlo.TRef.binary main_call7.v4 main_call7.v13 main_call7.v14 addi) V (main_call7_v14 : DevRef τ sig) = ((addi) x0 x1 : (⟨S2016, .i32⟩ : BufTy).Contents (Elt F)) := by
  rw [binary_result, h0, h1]
  all_goals rfl

attribute [local irreducible] Host.reduceWindow Host.scatter in
theorem step116 (V : Valuation τ sig (Elt F)) (x0 : (⟨S2016, .i1⟩ : BufTy).Contents (Elt F)) (x1 : (⟨S2016, .i32⟩ : BufTy).Contents (Elt F)) (x2 : (⟨S2016, .i32⟩ : BufTy).Contents (Elt F)) (h0 : V (main_call7_v12 : DevRef τ sig) = x0) (h1 : V (main_call7_v14 : DevRef τ sig) = x1) (h2 : V (main_call7_v4 : DevRef τ sig) = x2) :
    HloOp.result (StableHlo.TRef.ternary main_call7.v12 main_call7.v14 main_call7.v4 main_call7.v15 select) V (main_v19 : DevRef τ sig) = ((select) x0 x1 x2 : (⟨S2016, .i32⟩ : BufTy).Contents (Elt F)) := by
  rw [ternary_result, h0, h1, h2]
  all_goals rfl

attribute [local irreducible] Host.reduceWindow Host.scatter in
theorem step117 (V : Valuation τ sig (Elt F))   :
    HloOp.result (StableHlo.nullary main_cst_9 (constant S_ .f32 0x00000000#32)) V (main_cst_9 : DevRef τ sig) = ((constant S_ .f32 0x00000000#32) : (⟨S_, .f32⟩ : BufTy).Contents (Elt F)) := by
  rw [nullary_result]
  all_goals rfl

attribute [local irreducible] Host.reduceWindow Host.scatter in
theorem step118 (V : Valuation τ sig (Elt F)) (x0 : (⟨S_, .f32⟩ : BufTy).Contents (Elt F)) (h0 : V (main_cst_9 : DevRef τ sig) = x0) :
    HloOp.result (StableHlo.unary main_cst_9 main_v20 (broadcastInDim S32768x64x64 ![] bcast_S_S32768x64x64 : (⟨S_, .f32⟩ : BufTy).Contents (Elt F) → (⟨S32768x64x64, .f32⟩ : BufTy).Contents (Elt F))) V (main_v20 : DevRef τ sig) = ((broadcastInDim S32768x64x64 ![] bcast_S_S32768x64x64 : (⟨S_, .f32⟩ : BufTy).Contents (Elt F) → (⟨S32768x64x64, .f32⟩ : BufTy).Contents (Elt F)) x0 : (⟨S32768x64x64, .f32⟩ : BufTy).Contents (Elt F)) := by
  rw [unary_result, h0]
  all_goals rfl

attribute [local irreducible] Host.reduceWindow Host.scatter in
theorem step119 (V : Valuation τ sig (Elt F))   :
    HloOp.result (StableHlo.nullary main_c_10 (constantI S_ 32 0#32)) V (main_c_10 : DevRef τ sig) = ((constantI S_ 32 0#32) : (⟨S_, .i32⟩ : BufTy).Contents (Elt F)) := by
  rw [nullary_result]
  all_goals rfl

attribute [local irreducible] Host.reduceWindow Host.scatter in
theorem step120 (V : Valuation τ sig (Elt F)) (x0 : (⟨S_, .i32⟩ : BufTy).Contents (Elt F)) (h0 : V (main_c_10 : DevRef τ sig) = x0) :
    HloOp.result (StableHlo.unary main_c_10 main_v21 (broadcastInDim S2016 ![] bcast_S_S2016 : (⟨S_, .i32⟩ : BufTy).Contents (Elt F) → (⟨S2016, .i32⟩ : BufTy).Contents (Elt F))) V (main_v21 : DevRef τ sig) = ((broadcastInDim S2016 ![] bcast_S_S2016 : (⟨S_, .i32⟩ : BufTy).Contents (Elt F) → (⟨S2016, .i32⟩ : BufTy).Contents (Elt F)) x0 : (⟨S2016, .i32⟩ : BufTy).Contents (Elt F)) := by
  rw [unary_result, h0]
  all_goals rfl

attribute [local irreducible] Host.reduceWindow Host.scatter in
theorem step121 (V : Valuation τ sig (Elt F)) (x0 : (⟨S2016, .i32⟩ : BufTy).Contents (Elt F)) (x1 : (⟨S2016, .i32⟩ : BufTy).Contents (Elt F)) (h0 : V (main_v17 : DevRef τ sig) = x0) (h1 : V (main_v21 : DevRef τ sig) = x1) :
    HloOp.result (StableHlo.binary main_v17 main_v21 main_v22 (cmpi .slt : (⟨S2016, .i32⟩ : BufTy).Contents (Elt F) → (⟨S2016, .i32⟩ : BufTy).Contents (Elt F) → (⟨S2016, .i1⟩ : BufTy).Contents (Elt F))) V (main_v22 : DevRef τ sig) = ((cmpi .slt : (⟨S2016, .i32⟩ : BufTy).Contents (Elt F) → (⟨S2016, .i32⟩ : BufTy).Contents (Elt F) → (⟨S2016, .i1⟩ : BufTy).Contents (Elt F)) x0 x1 : (⟨S2016, .i1⟩ : BufTy).Contents (Elt F)) := by
  rw [binary_result, h0, h1]
  all_goals rfl

attribute [local irreducible] Host.reduceWindow Host.scatter in
theorem step122 (V : Valuation τ sig (Elt F))   :
    HloOp.result (StableHlo.nullary main_c_11 (constantI S_ 32 64#32)) V (main_c_11 : DevRef τ sig) = ((constantI S_ 32 64#32) : (⟨S_, .i32⟩ : BufTy).Contents (Elt F)) := by
  rw [nullary_result]
  all_goals rfl

attribute [local irreducible] Host.reduceWindow Host.scatter in
theorem step123 (V : Valuation τ sig (Elt F)) (x0 : (⟨S_, .i32⟩ : BufTy).Contents (Elt F)) (h0 : V (main_c_11 : DevRef τ sig) = x0) :
    HloOp.result (StableHlo.unary main_c_11 main_v23 (broadcastInDim S2016 ![] bcast_S_S2016 : (⟨S_, .i32⟩ : BufTy).Contents (Elt F) → (⟨S2016, .i32⟩ : BufTy).Contents (Elt F))) V (main_v23 : DevRef τ sig) = ((broadcastInDim S2016 ![] bcast_S_S2016 : (⟨S_, .i32⟩ : BufTy).Contents (Elt F) → (⟨S2016, .i32⟩ : BufTy).Contents (Elt F)) x0 : (⟨S2016, .i32⟩ : BufTy).Contents (Elt F)) := by
  rw [unary_result, h0]
  all_goals rfl

attribute [local irreducible] Host.reduceWindow Host.scatter in
theorem step124 (V : Valuation τ sig (Elt F)) (x0 : (⟨S2016, .i32⟩ : BufTy).Contents (Elt F)) (x1 : (⟨S2016, .i32⟩ : BufTy).Contents (Elt F)) (h0 : V (main_v17 : DevRef τ sig) = x0) (h1 : V (main_v23 : DevRef τ sig) = x1) :
    HloOp.result (StableHlo.binary main_v17 main_v23 main_v24 (addi : (⟨S2016, .i32⟩ : BufTy).Contents (Elt F) → (⟨S2016, .i32⟩ : BufTy).Contents (Elt F) → (⟨S2016, .i32⟩ : BufTy).Contents (Elt F))) V (main_v24 : DevRef τ sig) = ((addi : (⟨S2016, .i32⟩ : BufTy).Contents (Elt F) → (⟨S2016, .i32⟩ : BufTy).Contents (Elt F) → (⟨S2016, .i32⟩ : BufTy).Contents (Elt F)) x0 x1 : (⟨S2016, .i32⟩ : BufTy).Contents (Elt F)) := by
  rw [binary_result, h0, h1]
  all_goals rfl

attribute [local irreducible] Host.reduceWindow Host.scatter in
theorem step125 (V : Valuation τ sig (Elt F)) (x0 : (⟨S2016, .i1⟩ : BufTy).Contents (Elt F)) (x1 : (⟨S2016, .i32⟩ : BufTy).Contents (Elt F)) (x2 : (⟨S2016, .i32⟩ : BufTy).Contents (Elt F)) (h0 : V (main_v22 : DevRef τ sig) = x0) (h1 : V (main_v24 : DevRef τ sig) = x1) (h2 : V (main_v17 : DevRef τ sig) = x2) :
    HloOp.result (StableHlo.ternary main_v22 main_v24 main_v17 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F))) V (main_v25 : DevRef τ sig) = ((select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) x0 x1 x2 : (⟨S2016, .i32⟩ : BufTy).Contents (Elt F)) := by
  rw [ternary_result, h0, h1, h2]
  all_goals rfl

attribute [local irreducible] Host.reduceWindow Host.scatter in
theorem step126 (V : Valuation τ sig (Elt F))   :
    HloOp.result (StableHlo.nullary main_c_12 (constantI S_ 32 0#32)) V (main_c_12 : DevRef τ sig) = ((constantI S_ 32 0#32) : (⟨S_, .i32⟩ : BufTy).Contents (Elt F)) := by
  rw [nullary_result]
  all_goals rfl

attribute [local irreducible] Host.reduceWindow Host.scatter in
theorem step127 (V : Valuation τ sig (Elt F)) (x0 : (⟨S_, .i32⟩ : BufTy).Contents (Elt F)) (h0 : V (main_c_12 : DevRef τ sig) = x0) :
    HloOp.result (StableHlo.unary main_c_12 main_v26 (broadcastInDim S2016 ![] bcast_S_S2016 : (⟨S_, .i32⟩ : BufTy).Contents (Elt F) → (⟨S2016, .i32⟩ : BufTy).Contents (Elt F))) V (main_v26 : DevRef τ sig) = ((broadcastInDim S2016 ![] bcast_S_S2016 : (⟨S_, .i32⟩ : BufTy).Contents (Elt F) → (⟨S2016, .i32⟩ : BufTy).Contents (Elt F)) x0 : (⟨S2016, .i32⟩ : BufTy).Contents (Elt F)) := by
  rw [unary_result, h0]
  all_goals rfl

attribute [local irreducible] Host.reduceWindow Host.scatter in
theorem step128 (V : Valuation τ sig (Elt F)) (x0 : (⟨S2016, .i32⟩ : BufTy).Contents (Elt F)) (x1 : (⟨S2016, .i32⟩ : BufTy).Contents (Elt F)) (h0 : V (main_v19 : DevRef τ sig) = x0) (h1 : V (main_v26 : DevRef τ sig) = x1) :
    HloOp.result (StableHlo.binary main_v19 main_v26 main_v27 (cmpi .slt : (⟨S2016, .i32⟩ : BufTy).Contents (Elt F) → (⟨S2016, .i32⟩ : BufTy).Contents (Elt F) → (⟨S2016, .i1⟩ : BufTy).Contents (Elt F))) V (main_v27 : DevRef τ sig) = ((cmpi .slt : (⟨S2016, .i32⟩ : BufTy).Contents (Elt F) → (⟨S2016, .i32⟩ : BufTy).Contents (Elt F) → (⟨S2016, .i1⟩ : BufTy).Contents (Elt F)) x0 x1 : (⟨S2016, .i1⟩ : BufTy).Contents (Elt F)) := by
  rw [binary_result, h0, h1]
  all_goals rfl

attribute [local irreducible] Host.reduceWindow Host.scatter in
theorem step129 (V : Valuation τ sig (Elt F))   :
    HloOp.result (StableHlo.nullary main_c_13 (constantI S_ 32 64#32)) V (main_c_13 : DevRef τ sig) = ((constantI S_ 32 64#32) : (⟨S_, .i32⟩ : BufTy).Contents (Elt F)) := by
  rw [nullary_result]
  all_goals rfl

attribute [local irreducible] Host.reduceWindow Host.scatter in
theorem step130 (V : Valuation τ sig (Elt F)) (x0 : (⟨S_, .i32⟩ : BufTy).Contents (Elt F)) (h0 : V (main_c_13 : DevRef τ sig) = x0) :
    HloOp.result (StableHlo.unary main_c_13 main_v28 (broadcastInDim S2016 ![] bcast_S_S2016 : (⟨S_, .i32⟩ : BufTy).Contents (Elt F) → (⟨S2016, .i32⟩ : BufTy).Contents (Elt F))) V (main_v28 : DevRef τ sig) = ((broadcastInDim S2016 ![] bcast_S_S2016 : (⟨S_, .i32⟩ : BufTy).Contents (Elt F) → (⟨S2016, .i32⟩ : BufTy).Contents (Elt F)) x0 : (⟨S2016, .i32⟩ : BufTy).Contents (Elt F)) := by
  rw [unary_result, h0]
  all_goals rfl

attribute [local irreducible] Host.reduceWindow Host.scatter in
theorem step131 (V : Valuation τ sig (Elt F)) (x0 : (⟨S2016, .i32⟩ : BufTy).Contents (Elt F)) (x1 : (⟨S2016, .i32⟩ : BufTy).Contents (Elt F)) (h0 : V (main_v19 : DevRef τ sig) = x0) (h1 : V (main_v28 : DevRef τ sig) = x1) :
    HloOp.result (StableHlo.binary main_v19 main_v28 main_v29 (addi : (⟨S2016, .i32⟩ : BufTy).Contents (Elt F) → (⟨S2016, .i32⟩ : BufTy).Contents (Elt F) → (⟨S2016, .i32⟩ : BufTy).Contents (Elt F))) V (main_v29 : DevRef τ sig) = ((addi : (⟨S2016, .i32⟩ : BufTy).Contents (Elt F) → (⟨S2016, .i32⟩ : BufTy).Contents (Elt F) → (⟨S2016, .i32⟩ : BufTy).Contents (Elt F)) x0 x1 : (⟨S2016, .i32⟩ : BufTy).Contents (Elt F)) := by
  rw [binary_result, h0, h1]
  all_goals rfl

attribute [local irreducible] Host.reduceWindow Host.scatter in
theorem step132 (V : Valuation τ sig (Elt F)) (x0 : (⟨S2016, .i1⟩ : BufTy).Contents (Elt F)) (x1 : (⟨S2016, .i32⟩ : BufTy).Contents (Elt F)) (x2 : (⟨S2016, .i32⟩ : BufTy).Contents (Elt F)) (h0 : V (main_v27 : DevRef τ sig) = x0) (h1 : V (main_v29 : DevRef τ sig) = x1) (h2 : V (main_v19 : DevRef τ sig) = x2) :
    HloOp.result (StableHlo.ternary main_v27 main_v29 main_v19 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F))) V (main_v30 : DevRef τ sig) = ((select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) x0 x1 x2 : (⟨S2016, .i32⟩ : BufTy).Contents (Elt F)) := by
  rw [ternary_result, h0, h1, h2]
  all_goals rfl

attribute [local irreducible] Host.reduceWindow Host.scatter in
theorem step133 (V : Valuation τ sig (Elt F)) (x0 : (⟨S2016, .i32⟩ : BufTy).Contents (Elt F)) (h0 : V (main_v25 : DevRef τ sig) = x0) :
    HloOp.result (StableHlo.unary main_v25 main_v31 (broadcastInDim S2016x1 ![0] bcast_S2016_S2016x1_0 : (⟨S2016, .i32⟩ : BufTy).Contents (Elt F) → (⟨S2016x1, .i32⟩ : BufTy).Contents (Elt F))) V (main_v31 : DevRef τ sig) = ((broadcastInDim S2016x1 ![0] bcast_S2016_S2016x1_0 : (⟨S2016, .i32⟩ : BufTy).Contents (Elt F) → (⟨S2016x1, .i32⟩ : BufTy).Contents (Elt F)) x0 : (⟨S2016x1, .i32⟩ : BufTy).Contents (Elt F)) := by
  rw [unary_result, h0]
  all_goals rfl

attribute [local irreducible] Host.reduceWindow Host.scatter in
theorem step134 (V : Valuation τ sig (Elt F)) (x0 : (⟨S2016, .i32⟩ : BufTy).Contents (Elt F)) (h0 : V (main_v30 : DevRef τ sig) = x0) :
    HloOp.result (StableHlo.unary main_v30 main_v32 (broadcastInDim S2016x1 ![0] bcast_S2016_S2016x1_0 : (⟨S2016, .i32⟩ : BufTy).Contents (Elt F) → (⟨S2016x1, .i32⟩ : BufTy).Contents (Elt F))) V (main_v32 : DevRef τ sig) = ((broadcastInDim S2016x1 ![0] bcast_S2016_S2016x1_0 : (⟨S2016, .i32⟩ : BufTy).Contents (Elt F) → (⟨S2016x1, .i32⟩ : BufTy).Contents (Elt F)) x0 : (⟨S2016x1, .i32⟩ : BufTy).Contents (Elt F)) := by
  rw [unary_result, h0]
  all_goals rfl

/-! ## Segment by segment

The line is cut where a value with several readers has just been computed; within a segment the contents after each
operation are named, with what is known of the buffers still to be read. -/

set_option maxRecDepth 16384 in
set_option maxHeartbeats 1000000 in
theorem seg1_main_v5 (W : Valuation τ sig (Elt F))  :
    after seg1 W (main_v5 : DevRef τ sig) = Terms.val_main_v5 (F := F) := by
  rw [after_cons]
  generalize hV : HloOp.result _ W = V1
  clear hV
  rw [after_cons]
  generalize hV : HloOp.result _ V1 = V2
  clear hV
  rw [after_cons]
  generalize hV : HloOp.result _ V2 = V3
  clear hV
  rw [after_cons]
  generalize hV : HloOp.result _ V3 = V4
  clear hV
  rw [after_cons]
  generalize hV : HloOp.result _ V4 = V5
  clear hV
  rw [after_cons]
  generalize hV : HloOp.result _ V5 = V6
  clear hV
  rw [after_cons]
  generalize hV : HloOp.result _ V6 = V7
  clear hV
  rw [after_cons]
  generalize hV : HloOp.result _ V7 = V8
  clear hV
  rw [after_cons]
  generalize hV : HloOp.result _ V8 = V9
  clear hV
  rw [after_cons]
  generalize hV : HloOp.result _ V9 = V10
  clear hV
  rw [after_cons]
  generalize hV : HloOp.result _ V10 = V11
  clear hV
  rw [after_cons]
  generalize hV : HloOp.result _ V11 = V12
  clear hV
  rw [after_cons]
  generalize hV : HloOp.result _ V12 = V13
  clear hV
  rw [after_cons]
  generalize hV : HloOp.result _ V13 = V14
  clear hV
  rw [after_cons]
  generalize hV : HloOp.result _ V14 = V15
  clear hV
  rw [after_cons]
  generalize hV : HloOp.result _ V15 = V16
  clear hV
  rw [after_cons]
  generalize hV : HloOp.result _ V16 = V17
  clear hV
  rw [after_cons]
  generalize hV : HloOp.result _ V17 = V18
  clear hV
  rw [after_cons]
  generalize hV : HloOp.result _ V18 = V19
  clear hV
  rw [after_cons]
  generalize hV : HloOp.result _ V19 = V20
  have n_main_c : V20 (main_c : DevRef τ sig) = Terms.val_main_c (F := F) := by
    rw [← hV, Terms.val_main_c]
    exact step19 V19
  clear hV
  rw [after_cons]
  generalize hV : HloOp.result _ V20 = V21
  have n_main_v5 : V21 (main_v5 : DevRef τ sig) = Terms.val_main_v5 (F := F) := by
    rw [← hV, Terms.val_main_v5]
    exact step20 V20 _ n_main_c
  clear hV
  rw [after_cons]
  generalize hV : HloOp.result _ V21 = V22
  have c21_main_v5 : V22 (main_v5 : DevRef τ sig) = Terms.val_main_v5 (F := F) := by
    rw [← hV, nullary_result_ne]; rotate_left; decide; exact n_main_v5
  clear hV
  rw [after_cons]
  generalize hV : HloOp.result _ V22 = V23
  have c22_main_v5 : V23 (main_v5 : DevRef τ sig) = Terms.val_main_v5 (F := F) := by
    rw [← hV, unary_result_ne]; rotate_left; decide; exact c21_main_v5
  clear hV
  rw [after_cons]
  generalize hV : HloOp.result _ V23 = V24
  have c23_main_v5 : V24 (main_v5 : DevRef τ sig) = Terms.val_main_v5 (F := F) := by
    rw [← hV, unary_result_ne]; rotate_left; decide; exact c22_main_v5
  clear hV
  rw [after_cons]
  generalize hV : HloOp.result _ V24 = V25
  have c24_main_v5 : V25 (main_v5 : DevRef τ sig) = Terms.val_main_v5 (F := F) := by
    rw [← hV, binary_result_ne]; rotate_left; decide; exact c23_main_v5
  clear hV
  exact c24_main_v5

set_option maxRecDepth 16384 in
set_option maxHeartbeats 1000000 in
theorem seg1_main_v6 (W : Valuation τ sig (Elt F))  :
    after seg1 W (main_v6 : DevRef τ sig) = Terms.val_main_v6 (F := F) := by
  rw [after_cons]
  generalize hV : HloOp.result _ W = V1
  have n_main_cst : V1 (main_cst : DevRef τ sig) = Terms.val_main_cst (F := F) := by
    rw [← hV, Terms.val_main_cst]
    exact step0 W
  clear hV
  rw [after_cons]
  generalize hV : HloOp.result _ V1 = V2
  have n_main_v0 : V2 (main_v0 : DevRef τ sig) = Terms.val_main_v0 (F := F) := by
    rw [← hV, Terms.val_main_v0]
    exact step1 V1 _ n_main_cst
  clear hV
  rw [after_cons]
  generalize hV : HloOp.result _ V2 = V3
  have n_main_call0_v0 : V3 (main_call0_v0 : DevRef τ sig) = Terms.val_main_call0_v0 (F := F) := by
    rw [← hV, Terms.val_main_call0_v0]
    exact step2 V2
  have c2_main_v0 : V3 (main_v0 : DevRef τ sig) = Terms.val_main_v0 (F := F) := by
    rw [← hV, nullary_result_ne]; rotate_left; decide; exact n_main_v0
  clear hV
  rw [after_cons]
  generalize hV : HloOp.result _ V3 = V4
  have n_main_call0_c : V4 (main_call0_c : DevRef τ sig) = Terms.val_main_call0_c (F := F) := by
    rw [← hV, Terms.val_main_call0_c]
    exact step3 V3
  have c3_main_call0_v0 : V4 (main_call0_v0 : DevRef τ sig) = Terms.val_main_call0_v0 (F := F) := by
    rw [← hV, nullary_result_ne]; rotate_left; decide; exact n_main_call0_v0
  have c3_main_v0 : V4 (main_v0 : DevRef τ sig) = Terms.val_main_v0 (F := F) := by
    rw [← hV, nullary_result_ne]; rotate_left; decide; exact c2_main_v0
  clear hV
  rw [after_cons]
  generalize hV : HloOp.result _ V4 = V5
  have n_main_call0_v1 : V5 (main_call0_v1 : DevRef τ sig) = Terms.val_main_call0_v1 (F := F) := by
    rw [← hV, Terms.val_main_call0_v1]
    exact step4 V4 _ n_main_call0_c
  have c4_main_call0_v0 : V5 (main_call0_v0 : DevRef τ sig) = Terms.val_main_call0_v0 (F := F) := by
    rw [← hV, unary_result_ne]; rotate_left; decide; exact c3_main_call0_v0
  have c4_main_v0 : V5 (main_v0 : DevRef τ sig) = Terms.val_main_v0 (F := F) := by
    rw [← hV, unary_result_ne]; rotate_left; decide; exact c3_main_v0
  clear hV
  rw [after_cons]
  generalize hV : HloOp.result _ V5 = V6
  have n_main_call0_v2 : V6 (main_call0_v2 : DevRef τ sig) = Terms.val_main_call0_v2 (F := F) := by
    rw [← hV, Terms.val_main_call0_v2]
    exact step5 V5 _ _ c4_main_call0_v0 n_main_call0_v1
  have c5_main_v0 : V6 (main_v0 : DevRef τ sig) = Terms.val_main_v0 (F := F) := by
    rw [← hV, binary_result_ne]; rotate_left; decide; exact c4_main_v0
  clear hV
  rw [after_cons]
  generalize hV : HloOp.result _ V6 = V7
  have n_main_call0_v3 : V7 (main_call0_v3 : DevRef τ sig) = Terms.val_main_call0_v3 (F := F) := by
    rw [← hV, Terms.val_main_call0_v3]
    exact step6 V6
  have c6_main_call0_v2 : V7 (main_call0_v2 : DevRef τ sig) = Terms.val_main_call0_v2 (F := F) := by
    rw [← hV, nullary_result_ne]; rotate_left; decide; exact n_main_call0_v2
  have c6_main_v0 : V7 (main_v0 : DevRef τ sig) = Terms.val_main_v0 (F := F) := by
    rw [← hV, nullary_result_ne]; rotate_left; decide; exact c5_main_v0
  clear hV
  rw [after_cons]
  generalize hV : HloOp.result _ V7 = V8
  have n_main_call0_v4 : V8 (main_call0_v4 : DevRef τ sig) = Terms.val_main_call0_v4 (F := F) := by
    rw [← hV, Terms.val_main_call0_v4]
    exact step7 V7 _ _ c6_main_call0_v2 n_main_call0_v3
  have c7_main_v0 : V8 (main_v0 : DevRef τ sig) = Terms.val_main_v0 (F := F) := by
    rw [← hV, binary_result_ne]; rotate_left; decide; exact c6_main_v0
  clear hV
  rw [after_cons]
  generalize hV : HloOp.result _ V8 = V9
  have n_main_call0_cst : V9 (main_call0_cst : DevRef τ sig) = Terms.val_main_call0_cst (F := F) := by
    rw [← hV, Terms.val_main_call0_cst]
    exact step8 V8
  have c8_main_call0_v4 : V9 (main_call0_v4 : DevRef τ sig) = Terms.val_main_call0_v4 (F := F) := by
    rw [← hV, nullary_result_ne]; rotate_left; decide; exact n_main_call0_v4
  have c8_main_v0 : V9 (main_v0 : DevRef τ sig) = Terms.val_main_v0 (F := F) := by
    rw [← hV, nullary_result_ne]; rotate_left; decide; exact c7_main_v0
  clear hV
  rw [after_cons]
  generalize hV : HloOp.result _ V9 = V10
  have n_main_call0_v5 : V10 (main_call0_v5 : DevRef τ sig) = Terms.val_main_call0_v5 (F := F) := by
    rw [← hV, Terms.val_main_call0_v5]
    exact step9 V9 _ n_main_call0_cst
  have c9_main_call0_v4 : V10 (main_call0_v4 : DevRef τ sig) = Terms.val_main_call0_v4 (F := F) := by
    rw [← hV, unary_result_ne]; rotate_left; decide; exact c8_main_call0_v4
  have c9_main_v0 : V10 (main_v0 : DevRef τ sig) = Terms.val_main_v0 (F := F) := by
    rw [← hV, unary_result_ne]; rotate_left; decide; exact c8_main_v0
  clear hV
  rw [after_cons]
  generalize hV : HloOp.result _ V10 = V11
  have n_main_v1 : V11 (main_v1 : DevRef τ sig) = Terms.val_main_v1 (F := F) := by
    rw [← hV, Terms.val_main_v1]
    exact step10 V10 _ _ _ c9_main_call0_v4 c9_main_v0 n_main_call0_v5
  clear hV
  rw [after_cons]
  generalize hV : HloOp.result _ V11 = V12
  have n_main_cst_0 : V12 (main_cst_0 : DevRef τ sig) = Terms.val_main_cst_0 (F := F) := by
    rw [← hV, Terms.val_main_cst_0]
    exact step11 V11
  have c11_main_v1 : V12 (main_v1 : DevRef τ sig) = Terms.val_main_v1 (F := F) := by
    rw [← hV, nullary_result_ne]; rotate_left; decide; exact n_main_v1
  clear hV
  rw [after_cons]
  generalize hV : HloOp.result _ V12 = V13
  have n_main_v2 : V13 (main_v2 : DevRef τ sig) = Terms.val_main_v2 (F := F) := by
    rw [← hV, Terms.val_main_v2]
    exact step12 V12 _ n_main_cst_0
  have c12_main_v1 : V13 (main_v1 : DevRef τ sig) = Terms.val_main_v1 (F := F) := by
    rw [← hV, unary_result_ne]; rotate_left; decide; exact c11_main_v1
  clear hV
  rw [after_cons]
  generalize hV : HloOp.result _ V13 = V14
  have n_main_v3 : V14 (main_v3 : DevRef τ sig) = Terms.val_main_v3 (F := F) := by
    rw [← hV, Terms.val_main_v3]
    exact step13 V13 _ _ c12_main_v1 n_main_v2
  clear hV
  rw [after_cons]
  generalize hV : HloOp.result _ V14 = V15
  have n_main_call1_v0 : V15 (main_call1_v0 : DevRef τ sig) = Terms.val_main_call1_v0 (F := F) := by
    rw [← hV, Terms.val_main_call1_v0]
    exact step14 V14 _ n_main_v3
  clear hV
  rw [after_cons]
  generalize hV : HloOp.result _ V15 = V16
  have n_main_call1_v1 : V16 (main_call1_v1 : DevRef τ sig) = Terms.val_main_call1_v1 (F := F) := by
    rw [← hV, Terms.val_main_call1_v1]
    exact step15 V15 _ n_main_call1_v0
  clear hV
  rw [after_cons]
  generalize hV : HloOp.result _ V16 = V17
  have n_main_call1_call0_c : V17 (main_call1_call0_c : DevRef τ sig) = Terms.val_main_call1_call0_c (F := F) := by
    rw [← hV, Terms.val_main_call1_call0_c]
    exact step16 V16
  have c16_main_call1_v1 : V17 (main_call1_v1 : DevRef τ sig) = Terms.val_main_call1_v1 (F := F) := by
    rw [← hV, nullary_result_ne]; rotate_left; decide; exact n_main_call1_v1
  clear hV
  rw [after_cons]
  generalize hV : HloOp.result _ V17 = V18
  have n_main_call1_call0_v0 : V18 (main_call1_call0_v0 : DevRef τ sig) = Terms.val_main_call1_call0_v0 (F := F) := by
    rw [← hV, Terms.val_main_call1_call0_v0]
    exact step17 V17 _ n_main_call1_call0_c
  have c17_main_call1_v1 : V18 (main_call1_v1 : DevRef τ sig) = Terms.val_main_call1_v1 (F := F) := by
    rw [← hV, unary_result_ne]; rotate_left; decide; exact c16_main_call1_v1
  clear hV
  rw [after_cons]
  generalize hV : HloOp.result _ V18 = V19
  have n_main_v4 : V19 (main_v4 : DevRef τ sig) = Terms.val_main_v4 (F := F) := by
    rw [← hV, Terms.val_main_v4]
    exact step18 V18 _ _ c17_main_call1_v1 n_main_call1_call0_v0
  clear hV
  rw [after_cons]
  generalize hV : HloOp.result _ V19 = V20
  have c19_main_v4 : V20 (main_v4 : DevRef τ sig) = Terms.val_main_v4 (F := F) := by
    rw [← hV, nullary_result_ne]; rotate_left; decide; exact n_main_v4
  clear hV
  rw [after_cons]
  generalize hV : HloOp.result _ V20 = V21
  have c20_main_v4 : V21 (main_v4 : DevRef τ sig) = Terms.val_main_v4 (F := F) := by
    rw [← hV, unary_result_ne]; rotate_left; decide; exact c19_main_v4
  clear hV
  rw [after_cons]
  generalize hV : HloOp.result _ V21 = V22
  have n_main_c_1 : V22 (main_c_1 : DevRef τ sig) = Terms.val_main_c_1 (F := F) := by
    rw [← hV, Terms.val_main_c_1]
    exact step21 V21
  have c21_main_v4 : V22 (main_v4 : DevRef τ sig) = Terms.val_main_v4 (F := F) := by
    rw [← hV, nullary_result_ne]; rotate_left; decide; exact c20_main_v4
  clear hV
  rw [after_cons]
  generalize hV : HloOp.result _ V22 = V23
  have n_main_call2_v0 : V23 (main_call2_v0 : DevRef τ sig) = Terms.val_main_call2_v0 (F := F) := by
    rw [← hV, Terms.val_main_call2_v0]
    exact step22 V22 _ n_main_c_1
  have c22_main_v4 : V23 (main_v4 : DevRef τ sig) = Terms.val_main_v4 (F := F) := by
    rw [← hV, unary_result_ne]; rotate_left; decide; exact c21_main_v4
  clear hV
  rw [after_cons]
  generalize hV : HloOp.result _ V23 = V24
  have n_main_call2_v1 : V24 (main_call2_v1 : DevRef τ sig) = Terms.val_main_call2_v1 (F := F) := by
    rw [← hV, Terms.val_main_call2_v1]
    exact step23 V23 _ n_main_call2_v0
  have c23_main_v4 : V24 (main_v4 : DevRef τ sig) = Terms.val_main_v4 (F := F) := by
    rw [← hV, unary_result_ne]; rotate_left; decide; exact c22_main_v4
  clear hV
  rw [after_cons]
  generalize hV : HloOp.result _ V24 = V25
  have n_main_v6 : V25 (main_v6 : DevRef τ sig) = Terms.val_main_v6 (F := F) := by
    rw [← hV, Terms.val_main_v6]
    exact step24 V24 _ _ n_main_call2_v1 c23_main_v4
  clear hV
  exact n_main_v6

set_option maxRecDepth 16384 in
set_option maxHeartbeats 1000000 in
theorem seg2_main_v15 (W : Valuation τ sig (Elt F)) (h_main_v5 : W (main_v5 : DevRef τ sig) = Terms.val_main_v5 (F := F)) (h_main_v6 : W (main_v6 : DevRef τ sig) = Terms.val_main_v6 (F := F)) :
    after seg2 W (main_v15 : DevRef τ sig) = Terms.val_main_v15 (F := F) := by
  rw [after_cons]
  generalize hV : HloOp.result _ W = V1
  have n_main_c_2 : V1 (main_c_2 : DevRef τ sig) = Terms.val_main_c_2 (F := F) := by
    rw [← hV, Terms.val_main_c_2]
    exact step25 W
  have c0_main_v5 : V1 (main_v5 : DevRef τ sig) = Terms.val_main_v5 (F := F) := by
    rw [← hV, nullary_result_ne]; rotate_left; decide; exact h_main_v5
  have c0_main_v6 : V1 (main_v6 : DevRef τ sig) = Terms.val_main_v6 (F := F) := by
    rw [← hV, nullary_result_ne]; rotate_left; decide; exact h_main_v6
  clear hV
  rw [after_cons]
  generalize hV : HloOp.result _ V1 = V2
  have n_main_v7 : V2 (main_v7 : DevRef τ sig) = Terms.val_main_v7 (F := F) := by
    rw [← hV, Terms.val_main_v7]
    exact step26 V1 _ n_main_c_2
  have c1_main_v5 : V2 (main_v5 : DevRef τ sig) = Terms.val_main_v5 (F := F) := by
    rw [← hV, unary_result_ne]; rotate_left; decide; exact c0_main_v5
  have c1_main_v6 : V2 (main_v6 : DevRef τ sig) = Terms.val_main_v6 (F := F) := by
    rw [← hV, unary_result_ne]; rotate_left; decide; exact c0_main_v6
  clear hV
  rw [after_cons]
  generalize hV : HloOp.result _ V2 = V3
  have n_main_v8 : V3 (main_v8 : DevRef τ sig) = Terms.val_main_v8 (F := F) := by
    rw [← hV, Terms.val_main_v8]
    exact step27 V2 _ _ c1_main_v6 n_main_v7
  have c2_main_v5 : V3 (main_v5 : DevRef τ sig) = Terms.val_main_v5 (F := F) := by
    rw [← hV, binary_result_ne]; rotate_left; decide; exact c1_main_v5
  have c2_main_v6 : V3 (main_v6 : DevRef τ sig) = Terms.val_main_v6 (F := F) := by
    rw [← hV, binary_result_ne]; rotate_left; decide; exact c1_main_v6
  clear hV
  rw [after_cons]
  generalize hV : HloOp.result _ V3 = V4
  have n_main_c_3 : V4 (main_c_3 : DevRef τ sig) = Terms.val_main_c_3 (F := F) := by
    rw [← hV, Terms.val_main_c_3]
    exact step28 V3
  have c3_main_v8 : V4 (main_v8 : DevRef τ sig) = Terms.val_main_v8 (F := F) := by
    rw [← hV, nullary_result_ne]; rotate_left; decide; exact n_main_v8
  have c3_main_v5 : V4 (main_v5 : DevRef τ sig) = Terms.val_main_v5 (F := F) := by
    rw [← hV, nullary_result_ne]; rotate_left; decide; exact c2_main_v5
  have c3_main_v6 : V4 (main_v6 : DevRef τ sig) = Terms.val_main_v6 (F := F) := by
    rw [← hV, nullary_result_ne]; rotate_left; decide; exact c2_main_v6
  clear hV
  rw [after_cons]
  generalize hV : HloOp.result _ V4 = V5
  have n_main_v9 : V5 (main_v9 : DevRef τ sig) = Terms.val_main_v9 (F := F) := by
    rw [← hV, Terms.val_main_v9]
    exact step29 V4 _ n_main_c_3
  have c4_main_v8 : V5 (main_v8 : DevRef τ sig) = Terms.val_main_v8 (F := F) := by
    rw [← hV, unary_result_ne]; rotate_left; decide; exact c3_main_v8
  have c4_main_v5 : V5 (main_v5 : DevRef τ sig) = Terms.val_main_v5 (F := F) := by
    rw [← hV, unary_result_ne]; rotate_left; decide; exact c3_main_v5
  have c4_main_v6 : V5 (main_v6 : DevRef τ sig) = Terms.val_main_v6 (F := F) := by
    rw [← hV, unary_result_ne]; rotate_left; decide; exact c3_main_v6
  clear hV
  rw [after_cons]
  generalize hV : HloOp.result _ V5 = V6
  have n_main_v10 : V6 (main_v10 : DevRef τ sig) = Terms.val_main_v10 (F := F) := by
    rw [← hV, Terms.val_main_v10]
    exact step30 V5 _ _ c4_main_v6 n_main_v9
  have c5_main_v8 : V6 (main_v8 : DevRef τ sig) = Terms.val_main_v8 (F := F) := by
    rw [← hV, binary_result_ne]; rotate_left; decide; exact c4_main_v8
  have c5_main_v5 : V6 (main_v5 : DevRef τ sig) = Terms.val_main_v5 (F := F) := by
    rw [← hV, binary_result_ne]; rotate_left; decide; exact c4_main_v5
  have c5_main_v6 : V6 (main_v6 : DevRef τ sig) = Terms.val_main_v6 (F := F) := by
    rw [← hV, binary_result_ne]; rotate_left; decide; exact c4_main_v6
  clear hV
  rw [after_cons]
  generalize hV : HloOp.result _ V6 = V7
  have n_main_v11 : V7 (main_v11 : DevRef τ sig) = Terms.val_main_v11 (F := F) := by
    rw [← hV, Terms.val_main_v11]
    exact step31 V6 _ _ _ c5_main_v8 n_main_v10 c5_main_v6
  have c6_main_v5 : V7 (main_v5 : DevRef τ sig) = Terms.val_main_v5 (F := F) := by
    rw [← hV, ternary_result_ne]; rotate_left; decide; exact c5_main_v5
  clear hV
  rw [after_cons]
  generalize hV : HloOp.result _ V7 = V8
  have n_main_v12 : V8 (main_v12 : DevRef τ sig) = Terms.val_main_v12 (F := F) := by
    rw [← hV, Terms.val_main_v12]
    exact step32 V7 _ n_main_v11
  have c7_main_v5 : V8 (main_v5 : DevRef τ sig) = Terms.val_main_v5 (F := F) := by
    rw [← hV, unary_result_ne]; rotate_left; decide; exact c6_main_v5
  clear hV
  rw [after_cons]
  generalize hV : HloOp.result _ V8 = V9
  have n_main_c_4 : V9 (main_c_4 : DevRef τ sig) = Terms.val_main_c_4 (F := F) := by
    rw [← hV, Terms.val_main_c_4]
    exact step33 V8
  have c8_main_v12 : V9 (main_v12 : DevRef τ sig) = Terms.val_main_v12 (F := F) := by
    rw [← hV, nullary_result_ne]; rotate_left; decide; exact n_main_v12
  have c8_main_v5 : V9 (main_v5 : DevRef τ sig) = Terms.val_main_v5 (F := F) := by
    rw [← hV, nullary_result_ne]; rotate_left; decide; exact c7_main_v5
  clear hV
  rw [after_cons]
  generalize hV : HloOp.result _ V9 = V10
  have n_main_v13 : V10 (main_v13 : DevRef τ sig) = Terms.val_main_v13 (F := F) := by
    rw [← hV, Terms.val_main_v13]
    exact step34 V9 _ n_main_c_4
  have c9_main_v12 : V10 (main_v12 : DevRef τ sig) = Terms.val_main_v12 (F := F) := by
    rw [← hV, unary_result_ne]; rotate_left; decide; exact c8_main_v12
  have c9_main_v5 : V10 (main_v5 : DevRef τ sig) = Terms.val_main_v5 (F := F) := by
    rw [← hV, unary_result_ne]; rotate_left; decide; exact c8_main_v5
  clear hV
  rw [after_cons]
  generalize hV : HloOp.result _ V10 = V11
  have n_main_v14 : V11 (main_v14 : DevRef τ sig) = Terms.val_main_v14 (F := F) := by
    rw [← hV, Terms.val_main_v14]
    exact step35 V10 _ _ _ c9_main_v5 c9_main_v12 n_main_v13
  clear hV
  rw [after_cons]
  generalize hV : HloOp.result _ V11 = V12
  have n_main_call3_call0_c : V12 (main_call3_call0_c : DevRef τ sig) = Terms.val_main_call3_call0_c (F := F) := by
    rw [← hV, Terms.val_main_call3_call0_c]
    exact step36 V11
  have c11_main_v14 : V12 (main_v14 : DevRef τ sig) = Terms.val_main_v14 (F := F) := by
    rw [← hV, nullary_result_ne]; rotate_left; decide; exact n_main_v14
  clear hV
  rw [after_cons]
  generalize hV : HloOp.result _ V12 = V13
  have n_main_call3_call0_v0 : V13 (main_call3_call0_v0 : DevRef τ sig) = Terms.val_main_call3_call0_v0 (F := F) := by
    rw [← hV, Terms.val_main_call3_call0_v0]
    exact step37 V12 _ n_main_call3_call0_c
  have c12_main_v14 : V13 (main_v14 : DevRef τ sig) = Terms.val_main_v14 (F := F) := by
    rw [← hV, unary_result_ne]; rotate_left; decide; exact c11_main_v14
  clear hV
  rw [after_cons]
  generalize hV : HloOp.result _ V13 = V14
  have n_main_v15 : V14 (main_v15 : DevRef τ sig) = Terms.val_main_v15 (F := F) := by
    rw [← hV, Terms.val_main_v15]
    exact step38 V13 _ _ c12_main_v14 n_main_call3_call0_v0
  clear hV
  exact n_main_v15

set_option maxRecDepth 16384 in
set_option maxHeartbeats 1000000 in
theorem seg3_main_v16 (W : Valuation τ sig (Elt F)) (h_main_v15 : W (main_v15 : DevRef τ sig) = Terms.val_main_v15 (F := F)) :
    after seg3 W (main_v16 : DevRef τ sig) = Terms.val_main_v16 (F := F) := by
  rw [after_cons]
  generalize hV : HloOp.result _ W = V1
  have n_main_c_5 : V1 (main_c_5 : DevRef τ sig) = Terms.val_main_c_5 (F := F) := by
    rw [← hV, Terms.val_main_c_5]
    exact step39 W
  have c0_main_v15 : V1 (main_v15 : DevRef τ sig) = Terms.val_main_v15 (F := F) := by
    rw [← hV, nullary_result_ne]; rotate_left; decide; exact h_main_v15
  clear hV
  rw [after_cons]
  generalize hV : HloOp.result _ V1 = V2
  have n_main_call4_v0 : V2 (main_call4_v0 : DevRef τ sig) = Terms.val_main_call4_v0 (F := F) := by
    rw [← hV, Terms.val_main_call4_v0]
    exact step40 V1 _ n_main_c_5
  have c1_main_c_5 : V2 (main_c_5 : DevRef τ sig) = Terms.val_main_c_5 (F := F) := by
    rw [← hV, unary_result_ne]; rotate_left; decide; exact n_main_c_5
  have c1_main_v15 : V2 (main_v15 : DevRef τ sig) = Terms.val_main_v15 (F := F) := by
    rw [← hV, unary_result_ne]; rotate_left; decide; exact c0_main_v15
  clear hV
  rw [after_cons]
  generalize hV : HloOp.result _ V2 = V3
  have n_main_call4_v1 : V3 (main_call4_v1 : DevRef τ sig) = Terms.val_main_call4_v1 (F := F) := by
    rw [← hV, Terms.val_main_call4_v1]
    exact step41 V2 _ _ c1_main_v15 n_main_call4_v0
  have c2_main_c_5 : V3 (main_c_5 : DevRef τ sig) = Terms.val_main_c_5 (F := F) := by
    rw [← hV, binary_result_ne]; rotate_left; decide; exact c1_main_c_5
  have c2_main_v15 : V3 (main_v15 : DevRef τ sig) = Terms.val_main_v15 (F := F) := by
    rw [← hV, binary_result_ne]; rotate_left; decide; exact c1_main_v15
  clear hV
  rw [after_cons]
  generalize hV : HloOp.result _ V3 = V4
  have n_main_call4_v2 : V4 (main_call4_v2 : DevRef τ sig) = Terms.val_main_call4_v2 (F := F) := by
    rw [← hV, Terms.val_main_call4_v2]
    exact step42 V3 _ c2_main_v15
  have c3_main_call4_v1 : V4 (main_call4_v1 : DevRef τ sig) = Terms.val_main_call4_v1 (F := F) := by
    rw [← hV, unary_result_ne]; rotate_left; decide; exact n_main_call4_v1
  have c3_main_c_5 : V4 (main_c_5 : DevRef τ sig) = Terms.val_main_c_5 (F := F) := by
    rw [← hV, unary_result_ne]; rotate_left; decide; exact c2_main_c_5
  have c3_main_v15 : V4 (main_v15 : DevRef τ sig) = Terms.val_main_v15 (F := F) := by
    rw [← hV, unary_result_ne]; rotate_left; decide; exact c2_main_v15
  clear hV
  rw [after_cons]
  generalize hV : HloOp.result _ V4 = V5
  have n_main_call4_v3 : V5 (main_call4_v3 : DevRef τ sig) = Terms.val_main_call4_v3 (F := F) := by
    rw [← hV, Terms.val_main_call4_v3]
    exact step43 V4 _ c3_main_c_5
  have c4_main_call4_v2 : V5 (main_call4_v2 : DevRef τ sig) = Terms.val_main_call4_v2 (F := F) := by
    rw [← hV, unary_result_ne]; rotate_left; decide; exact n_main_call4_v2
  have c4_main_call4_v1 : V5 (main_call4_v1 : DevRef τ sig) = Terms.val_main_call4_v1 (F := F) := by
    rw [← hV, unary_result_ne]; rotate_left; decide; exact c3_main_call4_v1
  have c4_main_c_5 : V5 (main_c_5 : DevRef τ sig) = Terms.val_main_c_5 (F := F) := by
    rw [← hV, unary_result_ne]; rotate_left; decide; exact c3_main_c_5
  have c4_main_v15 : V5 (main_v15 : DevRef τ sig) = Terms.val_main_v15 (F := F) := by
    rw [← hV, unary_result_ne]; rotate_left; decide; exact c3_main_v15
  clear hV
  rw [after_cons]
  generalize hV : HloOp.result _ V5 = V6
  have n_main_call4_v4 : V6 (main_call4_v4 : DevRef τ sig) = Terms.val_main_call4_v4 (F := F) := by
    rw [← hV, Terms.val_main_call4_v4]
    exact step44 V5 _ n_main_call4_v3
  have c5_main_call4_v2 : V6 (main_call4_v2 : DevRef τ sig) = Terms.val_main_call4_v2 (F := F) := by
    rw [← hV, unary_result_ne]; rotate_left; decide; exact c4_main_call4_v2
  have c5_main_call4_v1 : V6 (main_call4_v1 : DevRef τ sig) = Terms.val_main_call4_v1 (F := F) := by
    rw [← hV, unary_result_ne]; rotate_left; decide; exact c4_main_call4_v1
  have c5_main_c_5 : V6 (main_c_5 : DevRef τ sig) = Terms.val_main_c_5 (F := F) := by
    rw [← hV, unary_result_ne]; rotate_left; decide; exact c4_main_c_5
  have c5_main_v15 : V6 (main_v15 : DevRef τ sig) = Terms.val_main_v15 (F := F) := by
    rw [← hV, unary_result_ne]; rotate_left; decide; exact c4_main_v15
  clear hV
  rw [after_cons]
  generalize hV : HloOp.result _ V6 = V7
  have n_main_call4_v5 : V7 (main_call4_v5 : DevRef τ sig) = Terms.val_main_call4_v5 (F := F) := by
    rw [← hV, Terms.val_main_call4_v5]
    exact step45 V6 _ _ c5_main_call4_v2 n_main_call4_v4
  have c6_main_call4_v1 : V7 (main_call4_v1 : DevRef τ sig) = Terms.val_main_call4_v1 (F := F) := by
    rw [← hV, binary_result_ne]; rotate_left; decide; exact c5_main_call4_v1
  have c6_main_c_5 : V7 (main_c_5 : DevRef τ sig) = Terms.val_main_c_5 (F := F) := by
    rw [← hV, binary_result_ne]; rotate_left; decide; exact c5_main_c_5
  have c6_main_v15 : V7 (main_v15 : DevRef τ sig) = Terms.val_main_v15 (F := F) := by
    rw [← hV, binary_result_ne]; rotate_left; decide; exact c5_main_v15
  clear hV
  rw [after_cons]
  generalize hV : HloOp.result _ V7 = V8
  have n_main_call4_v6 : V8 (main_call4_v6 : DevRef τ sig) = Terms.val_main_call4_v6 (F := F) := by
    rw [← hV, Terms.val_main_call4_v6]
    exact step46 V7 _ c6_main_c_5
  have c7_main_call4_v5 : V8 (main_call4_v5 : DevRef τ sig) = Terms.val_main_call4_v5 (F := F) := by
    rw [← hV, unary_result_ne]; rotate_left; decide; exact n_main_call4_v5
  have c7_main_call4_v1 : V8 (main_call4_v1 : DevRef τ sig) = Terms.val_main_call4_v1 (F := F) := by
    rw [← hV, unary_result_ne]; rotate_left; decide; exact c6_main_call4_v1
  have c7_main_v15 : V8 (main_v15 : DevRef τ sig) = Terms.val_main_v15 (F := F) := by
    rw [← hV, unary_result_ne]; rotate_left; decide; exact c6_main_v15
  clear hV
  rw [after_cons]
  generalize hV : HloOp.result _ V8 = V9
  have n_main_call4_v7 : V9 (main_call4_v7 : DevRef τ sig) = Terms.val_main_call4_v7 (F := F) := by
    rw [← hV, Terms.val_main_call4_v7]
    exact step47 V8 _ _ c7_main_v15 n_main_call4_v6
  have c8_main_call4_v5 : V9 (main_call4_v5 : DevRef τ sig) = Terms.val_main_call4_v5 (F := F) := by
    rw [← hV, binary_result_ne]; rotate_left; decide; exact c7_main_call4_v5
  have c8_main_call4_v1 : V9 (main_call4_v1 : DevRef τ sig) = Terms.val_main_call4_v1 (F := F) := by
    rw [← hV, binary_result_ne]; rotate_left; decide; exact c7_main_call4_v1
  clear hV
  rw [after_cons]
  generalize hV : HloOp.result _ V9 = V10
  have n_main_call4_c : V10 (main_call4_c : DevRef τ sig) = Terms.val_main_call4_c (F := F) := by
    rw [← hV, Terms.val_main_call4_c]
    exact step48 V9
  have c9_main_call4_v7 : V10 (main_call4_v7 : DevRef τ sig) = Terms.val_main_call4_v7 (F := F) := by
    rw [← hV, nullary_result_ne]; rotate_left; decide; exact n_main_call4_v7
  have c9_main_call4_v5 : V10 (main_call4_v5 : DevRef τ sig) = Terms.val_main_call4_v5 (F := F) := by
    rw [← hV, nullary_result_ne]; rotate_left; decide; exact c8_main_call4_v5
  have c9_main_call4_v1 : V10 (main_call4_v1 : DevRef τ sig) = Terms.val_main_call4_v1 (F := F) := by
    rw [← hV, nullary_result_ne]; rotate_left; decide; exact c8_main_call4_v1
  clear hV
  rw [after_cons]
  generalize hV : HloOp.result _ V10 = V11
  have n_main_call4_v8 : V11 (main_call4_v8 : DevRef τ sig) = Terms.val_main_call4_v8 (F := F) := by
    rw [← hV, Terms.val_main_call4_v8]
    exact step49 V10 _ n_main_call4_c
  have c10_main_call4_v7 : V11 (main_call4_v7 : DevRef τ sig) = Terms.val_main_call4_v7 (F := F) := by
    rw [← hV, unary_result_ne]; rotate_left; decide; exact c9_main_call4_v7
  have c10_main_call4_v5 : V11 (main_call4_v5 : DevRef τ sig) = Terms.val_main_call4_v5 (F := F) := by
    rw [← hV, unary_result_ne]; rotate_left; decide; exact c9_main_call4_v5
  have c10_main_call4_v1 : V11 (main_call4_v1 : DevRef τ sig) = Terms.val_main_call4_v1 (F := F) := by
    rw [← hV, unary_result_ne]; rotate_left; decide; exact c9_main_call4_v1
  clear hV
  rw [after_cons]
  generalize hV : HloOp.result _ V11 = V12
  have n_main_call4_v9 : V12 (main_call4_v9 : DevRef τ sig) = Terms.val_main_call4_v9 (F := F) := by
    rw [← hV, Terms.val_main_call4_v9]
    exact step50 V11 _ _ c10_main_call4_v7 n_main_call4_v8
  have c11_main_call4_v5 : V12 (main_call4_v5 : DevRef τ sig) = Terms.val_main_call4_v5 (F := F) := by
    rw [← hV, binary_result_ne]; rotate_left; decide; exact c10_main_call4_v5
  have c11_main_call4_v1 : V12 (main_call4_v1 : DevRef τ sig) = Terms.val_main_call4_v1 (F := F) := by
    rw [← hV, binary_result_ne]; rotate_left; decide; exact c10_main_call4_v1
  clear hV
  rw [after_cons]
  generalize hV : HloOp.result _ V12 = V13
  have n_main_call4_v10 : V13 (main_call4_v10 : DevRef τ sig) = Terms.val_main_call4_v10 (F := F) := by
    rw [← hV, Terms.val_main_call4_v10]
    exact step51 V12 _ _ c11_main_call4_v5 n_main_call4_v9
  have c12_main_call4_v1 : V13 (main_call4_v1 : DevRef τ sig) = Terms.val_main_call4_v1 (F := F) := by
    rw [← hV, binary_result_ne]; rotate_left; decide; exact c11_main_call4_v1
  clear hV
  rw [after_cons]
  generalize hV : HloOp.result _ V13 = V14
  have n_main_call4_c_0 : V14 (main_call4_c_0 : DevRef τ sig) = Terms.val_main_call4_c_0 (F := F) := by
    rw [← hV, Terms.val_main_call4_c_0]
    exact step52 V13
  have c13_main_call4_v10 : V14 (main_call4_v10 : DevRef τ sig) = Terms.val_main_call4_v10 (F := F) := by
    rw [← hV, nullary_result_ne]; rotate_left; decide; exact n_main_call4_v10
  have c13_main_call4_v1 : V14 (main_call4_v1 : DevRef τ sig) = Terms.val_main_call4_v1 (F := F) := by
    rw [← hV, nullary_result_ne]; rotate_left; decide; exact c12_main_call4_v1
  clear hV
  rw [after_cons]
  generalize hV : HloOp.result _ V14 = V15
  have n_main_call4_v11 : V15 (main_call4_v11 : DevRef τ sig) = Terms.val_main_call4_v11 (F := F) := by
    rw [← hV, Terms.val_main_call4_v11]
    exact step53 V14 _ n_main_call4_c_0
  have c14_main_call4_v10 : V15 (main_call4_v10 : DevRef τ sig) = Terms.val_main_call4_v10 (F := F) := by
    rw [← hV, unary_result_ne]; rotate_left; decide; exact c13_main_call4_v10
  have c14_main_call4_v1 : V15 (main_call4_v1 : DevRef τ sig) = Terms.val_main_call4_v1 (F := F) := by
    rw [← hV, unary_result_ne]; rotate_left; decide; exact c13_main_call4_v1
  clear hV
  rw [after_cons]
  generalize hV : HloOp.result _ V15 = V16
  have n_main_call4_v12 : V16 (main_call4_v12 : DevRef τ sig) = Terms.val_main_call4_v12 (F := F) := by
    rw [← hV, Terms.val_main_call4_v12]
    exact step54 V15 _ _ c14_main_call4_v1 n_main_call4_v11
  have c15_main_call4_v10 : V16 (main_call4_v10 : DevRef τ sig) = Terms.val_main_call4_v10 (F := F) := by
    rw [← hV, binary_result_ne]; rotate_left; decide; exact c14_main_call4_v10
  have c15_main_call4_v1 : V16 (main_call4_v1 : DevRef τ sig) = Terms.val_main_call4_v1 (F := F) := by
    rw [← hV, binary_result_ne]; rotate_left; decide; exact c14_main_call4_v1
  clear hV
  rw [after_cons]
  generalize hV : HloOp.result _ V16 = V17
  have n_main_v16 : V17 (main_v16 : DevRef τ sig) = Terms.val_main_v16 (F := F) := by
    rw [← hV, Terms.val_main_v16]
    exact step55 V16 _ _ _ c15_main_call4_v10 n_main_call4_v12 c15_main_call4_v1
  clear hV
  exact n_main_v16

set_option maxRecDepth 16384 in
set_option maxHeartbeats 1000000 in
theorem seg4_main_v17 (W : Valuation τ sig (Elt F)) (h_main_v16 : W (main_v16 : DevRef τ sig) = Terms.val_main_v16 (F := F)) :
    after seg4 W (main_v17 : DevRef τ sig) = Terms.val_main_v17 (F := F) := by
  rw [after_cons]
  generalize hV : HloOp.result _ W = V1
  have n_main_c_6 : V1 (main_c_6 : DevRef τ sig) = Terms.val_main_c_6 (F := F) := by
    rw [← hV, Terms.val_main_c_6]
    exact step56 W
  have c0_main_v16 : V1 (main_v16 : DevRef τ sig) = Terms.val_main_v16 (F := F) := by
    rw [← hV, nullary_result_ne]; rotate_left; decide; exact h_main_v16
  clear hV
  rw [after_cons]
  generalize hV : HloOp.result _ V1 = V2
  have n_main_call5_v0 : V2 (main_call5_v0 : DevRef τ sig) = Terms.val_main_call5_v0 (F := F) := by
    rw [← hV, Terms.val_main_call5_v0]
    exact step57 V1 _ n_main_c_6
  have c1_main_v16 : V2 (main_v16 : DevRef τ sig) = Terms.val_main_v16 (F := F) := by
    rw [← hV, unary_result_ne]; rotate_left; decide; exact c0_main_v16
  clear hV
  rw [after_cons]
  generalize hV : HloOp.result _ V2 = V3
  have n_main_call5_c : V3 (main_call5_c : DevRef τ sig) = Terms.val_main_call5_c (F := F) := by
    rw [← hV, Terms.val_main_call5_c]
    exact step58 V2
  have c2_main_call5_v0 : V3 (main_call5_v0 : DevRef τ sig) = Terms.val_main_call5_v0 (F := F) := by
    rw [← hV, nullary_result_ne]; rotate_left; decide; exact n_main_call5_v0
  have c2_main_v16 : V3 (main_v16 : DevRef τ sig) = Terms.val_main_v16 (F := F) := by
    rw [← hV, nullary_result_ne]; rotate_left; decide; exact c1_main_v16
  clear hV
  rw [after_cons]
  generalize hV : HloOp.result _ V3 = V4
  have n_main_call5_v1 : V4 (main_call5_v1 : DevRef τ sig) = Terms.val_main_call5_v1 (F := F) := by
    rw [← hV, Terms.val_main_call5_v1]
    exact step59 V3 _ _ c2_main_call5_v0 n_main_call5_c
  have c3_main_call5_v0 : V4 (main_call5_v0 : DevRef τ sig) = Terms.val_main_call5_v0 (F := F) := by
    rw [← hV, binary_result_ne]; rotate_left; decide; exact c2_main_call5_v0
  have c3_main_v16 : V4 (main_v16 : DevRef τ sig) = Terms.val_main_v16 (F := F) := by
    rw [← hV, binary_result_ne]; rotate_left; decide; exact c2_main_v16
  clear hV
  rw [after_cons]
  generalize hV : HloOp.result _ V4 = V5
  have n_main_call5_c_0 : V5 (main_call5_c_0 : DevRef τ sig) = Terms.val_main_call5_c_0 (F := F) := by
    rw [← hV, Terms.val_main_call5_c_0]
    exact step60 V4
  have c4_main_call5_v1 : V5 (main_call5_v1 : DevRef τ sig) = Terms.val_main_call5_v1 (F := F) := by
    rw [← hV, nullary_result_ne]; rotate_left; decide; exact n_main_call5_v1
  have c4_main_call5_v0 : V5 (main_call5_v0 : DevRef τ sig) = Terms.val_main_call5_v0 (F := F) := by
    rw [← hV, nullary_result_ne]; rotate_left; decide; exact c3_main_call5_v0
  have c4_main_v16 : V5 (main_v16 : DevRef τ sig) = Terms.val_main_v16 (F := F) := by
    rw [← hV, nullary_result_ne]; rotate_left; decide; exact c3_main_v16
  clear hV
  rw [after_cons]
  generalize hV : HloOp.result _ V5 = V6
  have n_main_call5_v2 : V6 (main_call5_v2 : DevRef τ sig) = Terms.val_main_call5_v2 (F := F) := by
    rw [← hV, Terms.val_main_call5_v2]
    exact step61 V5 _ _ _ c4_main_call5_v1 n_main_call5_c_0 c4_main_call5_v0
  have c5_main_v16 : V6 (main_v16 : DevRef τ sig) = Terms.val_main_v16 (F := F) := by
    rw [← hV, ternary_result_ne]; rotate_left; decide; exact c4_main_v16
  clear hV
  rw [after_cons]
  generalize hV : HloOp.result _ V6 = V7
  have n_main_call5_v3 : V7 (main_call5_v3 : DevRef τ sig) = Terms.val_main_call5_v3 (F := F) := by
    rw [← hV, Terms.val_main_call5_v3]
    exact step62 V6 _ n_main_call5_v2
  have c6_main_call5_v2 : V7 (main_call5_v2 : DevRef τ sig) = Terms.val_main_call5_v2 (F := F) := by
    rw [← hV, unary_result_ne]; rotate_left; decide; exact n_main_call5_v2
  have c6_main_v16 : V7 (main_v16 : DevRef τ sig) = Terms.val_main_v16 (F := F) := by
    rw [← hV, unary_result_ne]; rotate_left; decide; exact c5_main_v16
  clear hV
  rw [after_cons]
  generalize hV : HloOp.result _ V7 = V8
  have n_main_call5_v4 : V8 (main_call5_v4 : DevRef τ sig) = Terms.val_main_call5_v4 (F := F) := by
    rw [← hV, Terms.val_main_call5_v4]
    exact step63 V7 _ _ c6_main_v16 n_main_call5_v3
  have c7_main_call5_v2 : V8 (main_call5_v2 : DevRef τ sig) = Terms.val_main_call5_v2 (F := F) := by
    rw [← hV, binary_result_ne]; rotate_left; decide; exact c6_main_call5_v2
  clear hV
  rw [after_cons]
  generalize hV : HloOp.result _ V8 = V9
  have n_main_call5_c_1 : V9 (main_call5_c_1 : DevRef τ sig) = Terms.val_main_call5_c_1 (F := F) := by
    rw [← hV, Terms.val_main_call5_c_1]
    exact step64 V8
  have c8_main_call5_v4 : V9 (main_call5_v4 : DevRef τ sig) = Terms.val_main_call5_v4 (F := F) := by
    rw [← hV, nullary_result_ne]; rotate_left; decide; exact n_main_call5_v4
  have c8_main_call5_v2 : V9 (main_call5_v2 : DevRef τ sig) = Terms.val_main_call5_v2 (F := F) := by
    rw [← hV, nullary_result_ne]; rotate_left; decide; exact c7_main_call5_v2
  clear hV
  rw [after_cons]
  generalize hV : HloOp.result _ V9 = V10
  have n_main_call5_v5 : V10 (main_call5_v5 : DevRef τ sig) = Terms.val_main_call5_v5 (F := F) := by
    rw [← hV, Terms.val_main_call5_v5]
    exact step65 V9 _ n_main_call5_c_1
  have c9_main_call5_v4 : V10 (main_call5_v4 : DevRef τ sig) = Terms.val_main_call5_v4 (F := F) := by
    rw [← hV, unary_result_ne]; rotate_left; decide; exact c8_main_call5_v4
  have c9_main_call5_v2 : V10 (main_call5_v2 : DevRef τ sig) = Terms.val_main_call5_v2 (F := F) := by
    rw [← hV, unary_result_ne]; rotate_left; decide; exact c8_main_call5_v2
  clear hV
  rw [after_cons]
  generalize hV : HloOp.result _ V10 = V11
  have n_main_call5_v6 : V11 (main_call5_v6 : DevRef τ sig) = Terms.val_main_call5_v6 (F := F) := by
    rw [← hV, Terms.val_main_call5_v6]
    exact step66 V10 _ _ c9_main_call5_v4 n_main_call5_v5
  have c10_main_call5_v4 : V11 (main_call5_v4 : DevRef τ sig) = Terms.val_main_call5_v4 (F := F) := by
    rw [← hV, binary_result_ne]; rotate_left; decide; exact c9_main_call5_v4
  have c10_main_call5_v2 : V11 (main_call5_v2 : DevRef τ sig) = Terms.val_main_call5_v2 (F := F) := by
    rw [← hV, binary_result_ne]; rotate_left; decide; exact c9_main_call5_v2
  clear hV
  rw [after_cons]
  generalize hV : HloOp.result _ V11 = V12
  have n_main_call5_c_2 : V12 (main_call5_c_2 : DevRef τ sig) = Terms.val_main_call5_c_2 (F := F) := by
    rw [← hV, Terms.val_main_call5_c_2]
    exact step67 V11
  have c11_main_call5_v6 : V12 (main_call5_v6 : DevRef τ sig) = Terms.val_main_call5_v6 (F := F) := by
    rw [← hV, nullary_result_ne]; rotate_left; decide; exact n_main_call5_v6
  have c11_main_call5_v4 : V12 (main_call5_v4 : DevRef τ sig) = Terms.val_main_call5_v4 (F := F) := by
    rw [← hV, nullary_result_ne]; rotate_left; decide; exact c10_main_call5_v4
  have c11_main_call5_v2 : V12 (main_call5_v2 : DevRef τ sig) = Terms.val_main_call5_v2 (F := F) := by
    rw [← hV, nullary_result_ne]; rotate_left; decide; exact c10_main_call5_v2
  clear hV
  rw [after_cons]
  generalize hV : HloOp.result _ V12 = V13
  have n_main_call5_v7 : V13 (main_call5_v7 : DevRef τ sig) = Terms.val_main_call5_v7 (F := F) := by
    rw [← hV, Terms.val_main_call5_v7]
    exact step68 V12 _ n_main_call5_c_2
  have c12_main_call5_v6 : V13 (main_call5_v6 : DevRef τ sig) = Terms.val_main_call5_v6 (F := F) := by
    rw [← hV, unary_result_ne]; rotate_left; decide; exact c11_main_call5_v6
  have c12_main_call5_v4 : V13 (main_call5_v4 : DevRef τ sig) = Terms.val_main_call5_v4 (F := F) := by
    rw [← hV, unary_result_ne]; rotate_left; decide; exact c11_main_call5_v4
  have c12_main_call5_v2 : V13 (main_call5_v2 : DevRef τ sig) = Terms.val_main_call5_v2 (F := F) := by
    rw [← hV, unary_result_ne]; rotate_left; decide; exact c11_main_call5_v2
  clear hV
  rw [after_cons]
  generalize hV : HloOp.result _ V13 = V14
  have n_main_call5_v8 : V14 (main_call5_v8 : DevRef τ sig) = Terms.val_main_call5_v8 (F := F) := by
    rw [← hV, Terms.val_main_call5_v8]
    exact step69 V13 _ _ c12_main_call5_v4 n_main_call5_v7
  have c13_main_call5_v6 : V14 (main_call5_v6 : DevRef τ sig) = Terms.val_main_call5_v6 (F := F) := by
    rw [← hV, binary_result_ne]; rotate_left; decide; exact c12_main_call5_v6
  have c13_main_call5_v4 : V14 (main_call5_v4 : DevRef τ sig) = Terms.val_main_call5_v4 (F := F) := by
    rw [← hV, binary_result_ne]; rotate_left; decide; exact c12_main_call5_v4
  have c13_main_call5_v2 : V14 (main_call5_v2 : DevRef τ sig) = Terms.val_main_call5_v2 (F := F) := by
    rw [← hV, binary_result_ne]; rotate_left; decide; exact c12_main_call5_v2
  clear hV
  rw [after_cons]
  generalize hV : HloOp.result _ V14 = V15
  have n_main_call5_c_3 : V15 (main_call5_c_3 : DevRef τ sig) = Terms.val_main_call5_c_3 (F := F) := by
    rw [← hV, Terms.val_main_call5_c_3]
    exact step70 V14
  have c14_main_call5_v8 : V15 (main_call5_v8 : DevRef τ sig) = Terms.val_main_call5_v8 (F := F) := by
    rw [← hV, nullary_result_ne]; rotate_left; decide; exact n_main_call5_v8
  have c14_main_call5_v6 : V15 (main_call5_v6 : DevRef τ sig) = Terms.val_main_call5_v6 (F := F) := by
    rw [← hV, nullary_result_ne]; rotate_left; decide; exact c13_main_call5_v6
  have c14_main_call5_v4 : V15 (main_call5_v4 : DevRef τ sig) = Terms.val_main_call5_v4 (F := F) := by
    rw [← hV, nullary_result_ne]; rotate_left; decide; exact c13_main_call5_v4
  have c14_main_call5_v2 : V15 (main_call5_v2 : DevRef τ sig) = Terms.val_main_call5_v2 (F := F) := by
    rw [← hV, nullary_result_ne]; rotate_left; decide; exact c13_main_call5_v2
  clear hV
  rw [after_cons]
  generalize hV : HloOp.result _ V15 = V16
  have n_main_call5_v9 : V16 (main_call5_v9 : DevRef τ sig) = Terms.val_main_call5_v9 (F := F) := by
    rw [← hV, Terms.val_main_call5_v9]
    exact step71 V15 _ _ c14_main_call5_v2 n_main_call5_c_3
  have c15_main_call5_v8 : V16 (main_call5_v8 : DevRef τ sig) = Terms.val_main_call5_v8 (F := F) := by
    rw [← hV, binary_result_ne]; rotate_left; decide; exact c14_main_call5_v8
  have c15_main_call5_v6 : V16 (main_call5_v6 : DevRef τ sig) = Terms.val_main_call5_v6 (F := F) := by
    rw [← hV, binary_result_ne]; rotate_left; decide; exact c14_main_call5_v6
  have c15_main_call5_v4 : V16 (main_call5_v4 : DevRef τ sig) = Terms.val_main_call5_v4 (F := F) := by
    rw [← hV, binary_result_ne]; rotate_left; decide; exact c14_main_call5_v4
  have c15_main_call5_v2 : V16 (main_call5_v2 : DevRef τ sig) = Terms.val_main_call5_v2 (F := F) := by
    rw [← hV, binary_result_ne]; rotate_left; decide; exact c14_main_call5_v2
  clear hV
  rw [after_cons]
  generalize hV : HloOp.result _ V16 = V17
  have n_main_call5_v10 : V17 (main_call5_v10 : DevRef τ sig) = Terms.val_main_call5_v10 (F := F) := by
    rw [← hV, Terms.val_main_call5_v10]
    exact step72 V16 _ n_main_call5_v9
  have c16_main_call5_v8 : V17 (main_call5_v8 : DevRef τ sig) = Terms.val_main_call5_v8 (F := F) := by
    rw [← hV, unary_result_ne]; rotate_left; decide; exact c15_main_call5_v8
  have c16_main_call5_v6 : V17 (main_call5_v6 : DevRef τ sig) = Terms.val_main_call5_v6 (F := F) := by
    rw [← hV, unary_result_ne]; rotate_left; decide; exact c15_main_call5_v6
  have c16_main_call5_v4 : V17 (main_call5_v4 : DevRef τ sig) = Terms.val_main_call5_v4 (F := F) := by
    rw [← hV, unary_result_ne]; rotate_left; decide; exact c15_main_call5_v4
  have c16_main_call5_v2 : V17 (main_call5_v2 : DevRef τ sig) = Terms.val_main_call5_v2 (F := F) := by
    rw [← hV, unary_result_ne]; rotate_left; decide; exact c15_main_call5_v2
  clear hV
  rw [after_cons]
  generalize hV : HloOp.result _ V17 = V18
  have n_main_call5_v11 : V18 (main_call5_v11 : DevRef τ sig) = Terms.val_main_call5_v11 (F := F) := by
    rw [← hV, Terms.val_main_call5_v11]
    exact step73 V17 _ _ c16_main_call5_v8 n_main_call5_v10
  have c17_main_call5_v6 : V18 (main_call5_v6 : DevRef τ sig) = Terms.val_main_call5_v6 (F := F) := by
    rw [← hV, binary_result_ne]; rotate_left; decide; exact c16_main_call5_v6
  have c17_main_call5_v4 : V18 (main_call5_v4 : DevRef τ sig) = Terms.val_main_call5_v4 (F := F) := by
    rw [← hV, binary_result_ne]; rotate_left; decide; exact c16_main_call5_v4
  have c17_main_call5_v2 : V18 (main_call5_v2 : DevRef τ sig) = Terms.val_main_call5_v2 (F := F) := by
    rw [← hV, binary_result_ne]; rotate_left; decide; exact c16_main_call5_v2
  clear hV
  rw [after_cons]
  generalize hV : HloOp.result _ V18 = V19
  have n_main_call5_v12 : V19 (main_call5_v12 : DevRef τ sig) = Terms.val_main_call5_v12 (F := F) := by
    rw [← hV, Terms.val_main_call5_v12]
    exact step74 V18 _ _ n_main_call5_v11 c17_main_call5_v6
  have c18_main_call5_v4 : V19 (main_call5_v4 : DevRef τ sig) = Terms.val_main_call5_v4 (F := F) := by
    rw [← hV, binary_result_ne]; rotate_left; decide; exact c17_main_call5_v4
  have c18_main_call5_v2 : V19 (main_call5_v2 : DevRef τ sig) = Terms.val_main_call5_v2 (F := F) := by
    rw [← hV, binary_result_ne]; rotate_left; decide; exact c17_main_call5_v2
  clear hV
  rw [after_cons]
  generalize hV : HloOp.result _ V19 = V20
  have n_main_call5_v13 : V20 (main_call5_v13 : DevRef τ sig) = Terms.val_main_call5_v13 (F := F) := by
    rw [← hV, Terms.val_main_call5_v13]
    exact step75 V19 _ c18_main_call5_v2
  have c19_main_call5_v12 : V20 (main_call5_v12 : DevRef τ sig) = Terms.val_main_call5_v12 (F := F) := by
    rw [← hV, unary_result_ne]; rotate_left; decide; exact n_main_call5_v12
  have c19_main_call5_v4 : V20 (main_call5_v4 : DevRef τ sig) = Terms.val_main_call5_v4 (F := F) := by
    rw [← hV, unary_result_ne]; rotate_left; decide; exact c18_main_call5_v4
  clear hV
  rw [after_cons]
  generalize hV : HloOp.result _ V20 = V21
  have n_main_call5_v14 : V21 (main_call5_v14 : DevRef τ sig) = Terms.val_main_call5_v14 (F := F) := by
    rw [← hV, Terms.val_main_call5_v14]
    exact step76 V20 _ _ c19_main_call5_v4 n_main_call5_v13
  have c20_main_call5_v12 : V21 (main_call5_v12 : DevRef τ sig) = Terms.val_main_call5_v12 (F := F) := by
    rw [← hV, binary_result_ne]; rotate_left; decide; exact c19_main_call5_v12
  have c20_main_call5_v4 : V21 (main_call5_v4 : DevRef τ sig) = Terms.val_main_call5_v4 (F := F) := by
    rw [← hV, binary_result_ne]; rotate_left; decide; exact c19_main_call5_v4
  clear hV
  rw [after_cons]
  generalize hV : HloOp.result _ V21 = V22
  have n_main_v17 : V22 (main_v17 : DevRef τ sig) = Terms.val_main_v17 (F := F) := by
    rw [← hV, Terms.val_main_v17]
    exact step77 V21 _ _ _ c20_main_call5_v12 n_main_call5_v14 c20_main_call5_v4
  clear hV
  exact n_main_v17

set_option maxRecDepth 16384 in
set_option maxHeartbeats 1000000 in
theorem seg5_main_v18 (W : Valuation τ sig (Elt F)) (h_main_v15 : W (main_v15 : DevRef τ sig) = Terms.val_main_v15 (F := F)) :
    after seg5 W (main_v18 : DevRef τ sig) = Terms.val_main_v18 (F := F) := by
  rw [after_cons]
  generalize hV : HloOp.result _ W = V1
  have n_main_c_7 : V1 (main_c_7 : DevRef τ sig) = Terms.val_main_c_7 (F := F) := by
    rw [← hV, Terms.val_main_c_7]
    exact step78 W
  have c0_main_v15 : V1 (main_v15 : DevRef τ sig) = Terms.val_main_v15 (F := F) := by
    rw [← hV, nullary_result_ne]; rotate_left; decide; exact h_main_v15
  clear hV
  rw [after_cons]
  generalize hV : HloOp.result _ V1 = V2
  have n_main_call6_v0 : V2 (main_call6_v0 : DevRef τ sig) = Terms.val_main_call6_v0 (F := F) := by
    rw [← hV, Terms.val_main_call6_v0]
    exact step79 V1 _ n_main_c_7
  have c1_main_c_7 : V2 (main_c_7 : DevRef τ sig) = Terms.val_main_c_7 (F := F) := by
    rw [← hV, unary_result_ne]; rotate_left; decide; exact n_main_c_7
  have c1_main_v15 : V2 (main_v15 : DevRef τ sig) = Terms.val_main_v15 (F := F) := by
    rw [← hV, unary_result_ne]; rotate_left; decide; exact c0_main_v15
  clear hV
  rw [after_cons]
  generalize hV : HloOp.result _ V2 = V3
  have n_main_call6_v1 : V3 (main_call6_v1 : DevRef τ sig) = Terms.val_main_call6_v1 (F := F) := by
    rw [← hV, Terms.val_main_call6_v1]
    exact step80 V2 _ _ c1_main_v15 n_main_call6_v0
  have c2_main_c_7 : V3 (main_c_7 : DevRef τ sig) = Terms.val_main_c_7 (F := F) := by
    rw [← hV, binary_result_ne]; rotate_left; decide; exact c1_main_c_7
  have c2_main_v15 : V3 (main_v15 : DevRef τ sig) = Terms.val_main_v15 (F := F) := by
    rw [← hV, binary_result_ne]; rotate_left; decide; exact c1_main_v15
  clear hV
  rw [after_cons]
  generalize hV : HloOp.result _ V3 = V4
  have n_main_call6_v2 : V4 (main_call6_v2 : DevRef τ sig) = Terms.val_main_call6_v2 (F := F) := by
    rw [← hV, Terms.val_main_call6_v2]
    exact step81 V3 _ c2_main_v15
  have c3_main_call6_v1 : V4 (main_call6_v1 : DevRef τ sig) = Terms.val_main_call6_v1 (F := F) := by
    rw [← hV, unary_result_ne]; rotate_left; decide; exact n_main_call6_v1
  have c3_main_c_7 : V4 (main_c_7 : DevRef τ sig) = Terms.val_main_c_7 (F := F) := by
    rw [← hV, unary_result_ne]; rotate_left; decide; exact c2_main_c_7
  have c3_main_v15 : V4 (main_v15 : DevRef τ sig) = Terms.val_main_v15 (F := F) := by
    rw [← hV, unary_result_ne]; rotate_left; decide; exact c2_main_v15
  clear hV
  rw [after_cons]
  generalize hV : HloOp.result _ V4 = V5
  have n_main_call6_v3 : V5 (main_call6_v3 : DevRef τ sig) = Terms.val_main_call6_v3 (F := F) := by
    rw [← hV, Terms.val_main_call6_v3]
    exact step82 V4 _ c3_main_c_7
  have c4_main_call6_v2 : V5 (main_call6_v2 : DevRef τ sig) = Terms.val_main_call6_v2 (F := F) := by
    rw [← hV, unary_result_ne]; rotate_left; decide; exact n_main_call6_v2
  have c4_main_call6_v1 : V5 (main_call6_v1 : DevRef τ sig) = Terms.val_main_call6_v1 (F := F) := by
    rw [← hV, unary_result_ne]; rotate_left; decide; exact c3_main_call6_v1
  have c4_main_c_7 : V5 (main_c_7 : DevRef τ sig) = Terms.val_main_c_7 (F := F) := by
    rw [← hV, unary_result_ne]; rotate_left; decide; exact c3_main_c_7
  have c4_main_v15 : V5 (main_v15 : DevRef τ sig) = Terms.val_main_v15 (F := F) := by
    rw [← hV, unary_result_ne]; rotate_left; decide; exact c3_main_v15
  clear hV
  rw [after_cons]
  generalize hV : HloOp.result _ V5 = V6
  have n_main_call6_v4 : V6 (main_call6_v4 : DevRef τ sig) = Terms.val_main_call6_v4 (F := F) := by
    rw [← hV, Terms.val_main_call6_v4]
    exact step83 V5 _ n_main_call6_v3
  have c5_main_call6_v2 : V6 (main_call6_v2 : DevRef τ sig) = Terms.val_main_call6_v2 (F := F) := by
    rw [← hV, unary_result_ne]; rotate_left; decide; exact c4_main_call6_v2
  have c5_main_call6_v1 : V6 (main_call6_v1 : DevRef τ sig) = Terms.val_main_call6_v1 (F := F) := by
    rw [← hV, unary_result_ne]; rotate_left; decide; exact c4_main_call6_v1
  have c5_main_c_7 : V6 (main_c_7 : DevRef τ sig) = Terms.val_main_c_7 (F := F) := by
    rw [← hV, unary_result_ne]; rotate_left; decide; exact c4_main_c_7
  have c5_main_v15 : V6 (main_v15 : DevRef τ sig) = Terms.val_main_v15 (F := F) := by
    rw [← hV, unary_result_ne]; rotate_left; decide; exact c4_main_v15
  clear hV
  rw [after_cons]
  generalize hV : HloOp.result _ V6 = V7
  have n_main_call6_v5 : V7 (main_call6_v5 : DevRef τ sig) = Terms.val_main_call6_v5 (F := F) := by
    rw [← hV, Terms.val_main_call6_v5]
    exact step84 V6 _ _ c5_main_call6_v2 n_main_call6_v4
  have c6_main_call6_v1 : V7 (main_call6_v1 : DevRef τ sig) = Terms.val_main_call6_v1 (F := F) := by
    rw [← hV, binary_result_ne]; rotate_left; decide; exact c5_main_call6_v1
  have c6_main_c_7 : V7 (main_c_7 : DevRef τ sig) = Terms.val_main_c_7 (F := F) := by
    rw [← hV, binary_result_ne]; rotate_left; decide; exact c5_main_c_7
  have c6_main_v15 : V7 (main_v15 : DevRef τ sig) = Terms.val_main_v15 (F := F) := by
    rw [← hV, binary_result_ne]; rotate_left; decide; exact c5_main_v15
  clear hV
  rw [after_cons]
  generalize hV : HloOp.result _ V7 = V8
  have n_main_call6_v6 : V8 (main_call6_v6 : DevRef τ sig) = Terms.val_main_call6_v6 (F := F) := by
    rw [← hV, Terms.val_main_call6_v6]
    exact step85 V7 _ c6_main_c_7
  have c7_main_call6_v5 : V8 (main_call6_v5 : DevRef τ sig) = Terms.val_main_call6_v5 (F := F) := by
    rw [← hV, unary_result_ne]; rotate_left; decide; exact n_main_call6_v5
  have c7_main_call6_v1 : V8 (main_call6_v1 : DevRef τ sig) = Terms.val_main_call6_v1 (F := F) := by
    rw [← hV, unary_result_ne]; rotate_left; decide; exact c6_main_call6_v1
  have c7_main_v15 : V8 (main_v15 : DevRef τ sig) = Terms.val_main_v15 (F := F) := by
    rw [← hV, unary_result_ne]; rotate_left; decide; exact c6_main_v15
  clear hV
  rw [after_cons]
  generalize hV : HloOp.result _ V8 = V9
  have n_main_call6_v7 : V9 (main_call6_v7 : DevRef τ sig) = Terms.val_main_call6_v7 (F := F) := by
    rw [← hV, Terms.val_main_call6_v7]
    exact step86 V8 _ _ c7_main_v15 n_main_call6_v6
  have c8_main_call6_v5 : V9 (main_call6_v5 : DevRef τ sig) = Terms.val_main_call6_v5 (F := F) := by
    rw [← hV, binary_result_ne]; rotate_left; decide; exact c7_main_call6_v5
  have c8_main_call6_v1 : V9 (main_call6_v1 : DevRef τ sig) = Terms.val_main_call6_v1 (F := F) := by
    rw [← hV, binary_result_ne]; rotate_left; decide; exact c7_main_call6_v1
  clear hV
  rw [after_cons]
  generalize hV : HloOp.result _ V9 = V10
  have n_main_call6_c : V10 (main_call6_c : DevRef τ sig) = Terms.val_main_call6_c (F := F) := by
    rw [← hV, Terms.val_main_call6_c]
    exact step87 V9
  have c9_main_call6_v7 : V10 (main_call6_v7 : DevRef τ sig) = Terms.val_main_call6_v7 (F := F) := by
    rw [← hV, nullary_result_ne]; rotate_left; decide; exact n_main_call6_v7
  have c9_main_call6_v5 : V10 (main_call6_v5 : DevRef τ sig) = Terms.val_main_call6_v5 (F := F) := by
    rw [← hV, nullary_result_ne]; rotate_left; decide; exact c8_main_call6_v5
  have c9_main_call6_v1 : V10 (main_call6_v1 : DevRef τ sig) = Terms.val_main_call6_v1 (F := F) := by
    rw [← hV, nullary_result_ne]; rotate_left; decide; exact c8_main_call6_v1
  clear hV
  rw [after_cons]
  generalize hV : HloOp.result _ V10 = V11
  have n_main_call6_v8 : V11 (main_call6_v8 : DevRef τ sig) = Terms.val_main_call6_v8 (F := F) := by
    rw [← hV, Terms.val_main_call6_v8]
    exact step88 V10 _ n_main_call6_c
  have c10_main_call6_v7 : V11 (main_call6_v7 : DevRef τ sig) = Terms.val_main_call6_v7 (F := F) := by
    rw [← hV, unary_result_ne]; rotate_left; decide; exact c9_main_call6_v7
  have c10_main_call6_v5 : V11 (main_call6_v5 : DevRef τ sig) = Terms.val_main_call6_v5 (F := F) := by
    rw [← hV, unary_result_ne]; rotate_left; decide; exact c9_main_call6_v5
  have c10_main_call6_v1 : V11 (main_call6_v1 : DevRef τ sig) = Terms.val_main_call6_v1 (F := F) := by
    rw [← hV, unary_result_ne]; rotate_left; decide; exact c9_main_call6_v1
  clear hV
  rw [after_cons]
  generalize hV : HloOp.result _ V11 = V12
  have n_main_call6_v9 : V12 (main_call6_v9 : DevRef τ sig) = Terms.val_main_call6_v9 (F := F) := by
    rw [← hV, Terms.val_main_call6_v9]
    exact step89 V11 _ _ c10_main_call6_v7 n_main_call6_v8
  have c11_main_call6_v5 : V12 (main_call6_v5 : DevRef τ sig) = Terms.val_main_call6_v5 (F := F) := by
    rw [← hV, binary_result_ne]; rotate_left; decide; exact c10_main_call6_v5
  have c11_main_call6_v1 : V12 (main_call6_v1 : DevRef τ sig) = Terms.val_main_call6_v1 (F := F) := by
    rw [← hV, binary_result_ne]; rotate_left; decide; exact c10_main_call6_v1
  clear hV
  rw [after_cons]
  generalize hV : HloOp.result _ V12 = V13
  have n_main_call6_v10 : V13 (main_call6_v10 : DevRef τ sig) = Terms.val_main_call6_v10 (F := F) := by
    rw [← hV, Terms.val_main_call6_v10]
    exact step90 V12 _ _ c11_main_call6_v5 n_main_call6_v9
  have c12_main_call6_v1 : V13 (main_call6_v1 : DevRef τ sig) = Terms.val_main_call6_v1 (F := F) := by
    rw [← hV, binary_result_ne]; rotate_left; decide; exact c11_main_call6_v1
  clear hV
  rw [after_cons]
  generalize hV : HloOp.result _ V13 = V14
  have n_main_call6_c_0 : V14 (main_call6_c_0 : DevRef τ sig) = Terms.val_main_call6_c_0 (F := F) := by
    rw [← hV, Terms.val_main_call6_c_0]
    exact step91 V13
  have c13_main_call6_v10 : V14 (main_call6_v10 : DevRef τ sig) = Terms.val_main_call6_v10 (F := F) := by
    rw [← hV, nullary_result_ne]; rotate_left; decide; exact n_main_call6_v10
  have c13_main_call6_v1 : V14 (main_call6_v1 : DevRef τ sig) = Terms.val_main_call6_v1 (F := F) := by
    rw [← hV, nullary_result_ne]; rotate_left; decide; exact c12_main_call6_v1
  clear hV
  rw [after_cons]
  generalize hV : HloOp.result _ V14 = V15
  have n_main_call6_v11 : V15 (main_call6_v11 : DevRef τ sig) = Terms.val_main_call6_v11 (F := F) := by
    rw [← hV, Terms.val_main_call6_v11]
    exact step92 V14 _ n_main_call6_c_0
  have c14_main_call6_v10 : V15 (main_call6_v10 : DevRef τ sig) = Terms.val_main_call6_v10 (F := F) := by
    rw [← hV, unary_result_ne]; rotate_left; decide; exact c13_main_call6_v10
  have c14_main_call6_v1 : V15 (main_call6_v1 : DevRef τ sig) = Terms.val_main_call6_v1 (F := F) := by
    rw [← hV, unary_result_ne]; rotate_left; decide; exact c13_main_call6_v1
  clear hV
  rw [after_cons]
  generalize hV : HloOp.result _ V15 = V16
  have n_main_call6_v12 : V16 (main_call6_v12 : DevRef τ sig) = Terms.val_main_call6_v12 (F := F) := by
    rw [← hV, Terms.val_main_call6_v12]
    exact step93 V15 _ _ c14_main_call6_v1 n_main_call6_v11
  have c15_main_call6_v10 : V16 (main_call6_v10 : DevRef τ sig) = Terms.val_main_call6_v10 (F := F) := by
    rw [← hV, binary_result_ne]; rotate_left; decide; exact c14_main_call6_v10
  have c15_main_call6_v1 : V16 (main_call6_v1 : DevRef τ sig) = Terms.val_main_call6_v1 (F := F) := by
    rw [← hV, binary_result_ne]; rotate_left; decide; exact c14_main_call6_v1
  clear hV
  rw [after_cons]
  generalize hV : HloOp.result _ V16 = V17
  have n_main_v18 : V17 (main_v18 : DevRef τ sig) = Terms.val_main_v18 (F := F) := by
    rw [← hV, Terms.val_main_v18]
    exact step94 V16 _ _ _ c15_main_call6_v10 n_main_call6_v12 c15_main_call6_v1
  clear hV
  exact n_main_v18

set_option maxRecDepth 16384 in
set_option maxHeartbeats 1000000 in
theorem seg6_main_v19 (W : Valuation τ sig (Elt F)) (h_main_v18 : W (main_v18 : DevRef τ sig) = Terms.val_main_v18 (F := F)) :
    after seg6 W (main_v19 : DevRef τ sig) = Terms.val_main_v19 (F := F) := by
  rw [after_cons]
  generalize hV : HloOp.result _ W = V1
  have n_main_c_8 : V1 (main_c_8 : DevRef τ sig) = Terms.val_main_c_8 (F := F) := by
    rw [← hV, Terms.val_main_c_8]
    exact step95 W
  have c0_main_v18 : V1 (main_v18 : DevRef τ sig) = Terms.val_main_v18 (F := F) := by
    rw [← hV, nullary_result_ne]; rotate_left; decide; exact h_main_v18
  clear hV
  rw [after_cons]
  generalize hV : HloOp.result _ V1 = V2
  have n_main_call7_v0 : V2 (main_call7_v0 : DevRef τ sig) = Terms.val_main_call7_v0 (F := F) := by
    rw [← hV, Terms.val_main_call7_v0]
    exact step96 V1 _ n_main_c_8
  have c1_main_v18 : V2 (main_v18 : DevRef τ sig) = Terms.val_main_v18 (F := F) := by
    rw [← hV, unary_result_ne]; rotate_left; decide; exact c0_main_v18
  clear hV
  rw [after_cons]
  generalize hV : HloOp.result _ V2 = V3
  have n_main_call7_c : V3 (main_call7_c : DevRef τ sig) = Terms.val_main_call7_c (F := F) := by
    rw [← hV, Terms.val_main_call7_c]
    exact step97 V2
  have c2_main_call7_v0 : V3 (main_call7_v0 : DevRef τ sig) = Terms.val_main_call7_v0 (F := F) := by
    rw [← hV, nullary_result_ne]; rotate_left; decide; exact n_main_call7_v0
  have c2_main_v18 : V3 (main_v18 : DevRef τ sig) = Terms.val_main_v18 (F := F) := by
    rw [← hV, nullary_result_ne]; rotate_left; decide; exact c1_main_v18
  clear hV
  rw [after_cons]
  generalize hV : HloOp.result _ V3 = V4
  have n_main_call7_v1 : V4 (main_call7_v1 : DevRef τ sig) = Terms.val_main_call7_v1 (F := F) := by
    rw [← hV, Terms.val_main_call7_v1]
    exact step98 V3 _ _ c2_main_call7_v0 n_main_call7_c
  have c3_main_call7_v0 : V4 (main_call7_v0 : DevRef τ sig) = Terms.val_main_call7_v0 (F := F) := by
    rw [← hV, binary_result_ne]; rotate_left; decide; exact c2_main_call7_v0
  have c3_main_v18 : V4 (main_v18 : DevRef τ sig) = Terms.val_main_v18 (F := F) := by
    rw [← hV, binary_result_ne]; rotate_left; decide; exact c2_main_v18
  clear hV
  rw [after_cons]
  generalize hV : HloOp.result _ V4 = V5
  have n_main_call7_c_0 : V5 (main_call7_c_0 : DevRef τ sig) = Terms.val_main_call7_c_0 (F := F) := by
    rw [← hV, Terms.val_main_call7_c_0]
    exact step99 V4
  have c4_main_call7_v1 : V5 (main_call7_v1 : DevRef τ sig) = Terms.val_main_call7_v1 (F := F) := by
    rw [← hV, nullary_result_ne]; rotate_left; decide; exact n_main_call7_v1
  have c4_main_call7_v0 : V5 (main_call7_v0 : DevRef τ sig) = Terms.val_main_call7_v0 (F := F) := by
    rw [← hV, nullary_result_ne]; rotate_left; decide; exact c3_main_call7_v0
  have c4_main_v18 : V5 (main_v18 : DevRef τ sig) = Terms.val_main_v18 (F := F) := by
    rw [← hV, nullary_result_ne]; rotate_left; decide; exact c3_main_v18
  clear hV
  rw [after_cons]
  generalize hV : HloOp.result _ V5 = V6
  have n_main_call7_v2 : V6 (main_call7_v2 : DevRef τ sig) = Terms.val_main_call7_v2 (F := F) := by
    rw [← hV, Terms.val_main_call7_v2]
    exact step100 V5 _ _ _ c4_main_call7_v1 n_main_call7_c_0 c4_main_call7_v0
  have c5_main_v18 : V6 (main_v18 : DevRef τ sig) = Terms.val_main_v18 (F := F) := by
    rw [← hV, ternary_result_ne]; rotate_left; decide; exact c4_main_v18
  clear hV
  rw [after_cons]
  generalize hV : HloOp.result _ V6 = V7
  have n_main_call7_v3 : V7 (main_call7_v3 : DevRef τ sig) = Terms.val_main_call7_v3 (F := F) := by
    rw [← hV, Terms.val_main_call7_v3]
    exact step101 V6 _ n_main_call7_v2
  have c6_main_call7_v2 : V7 (main_call7_v2 : DevRef τ sig) = Terms.val_main_call7_v2 (F := F) := by
    rw [← hV, unary_result_ne]; rotate_left; decide; exact n_main_call7_v2
  have c6_main_v18 : V7 (main_v18 : DevRef τ sig) = Terms.val_main_v18 (F := F) := by
    rw [← hV, unary_result_ne]; rotate_left; decide; exact c5_main_v18
  clear hV
  rw [after_cons]
  generalize hV : HloOp.result _ V7 = V8
  have n_main_call7_v4 : V8 (main_call7_v4 : DevRef τ sig) = Terms.val_main_call7_v4 (F := F) := by
    rw [← hV, Terms.val_main_call7_v4]
    exact step102 V7 _ _ c6_main_v18 n_main_call7_v3
  have c7_main_call7_v2 : V8 (main_call7_v2 : DevRef τ sig) = Terms.val_main_call7_v2 (F := F) := by
    rw [← hV, binary_result_ne]; rotate_left; decide; exact c6_main_call7_v2
  clear hV
  rw [after_cons]
  generalize hV : HloOp.result _ V8 = V9
  have n_main_call7_c_1 : V9 (main_call7_c_1 : DevRef τ sig) = Terms.val_main_call7_c_1 (F := F) := by
    rw [← hV, Terms.val_main_call7_c_1]
    exact step103 V8
  have c8_main_call7_v4 : V9 (main_call7_v4 : DevRef τ sig) = Terms.val_main_call7_v4 (F := F) := by
    rw [← hV, nullary_result_ne]; rotate_left; decide; exact n_main_call7_v4
  have c8_main_call7_v2 : V9 (main_call7_v2 : DevRef τ sig) = Terms.val_main_call7_v2 (F := F) := by
    rw [← hV, nullary_result_ne]; rotate_left; decide; exact c7_main_call7_v2
  clear hV
  rw [after_cons]
  generalize hV : HloOp.result _ V9 = V10
  have n_main_call7_v5 : V10 (main_call7_v5 : DevRef τ sig) = Terms.val_main_call7_v5 (F := F) := by
    rw [← hV, Terms.val_main_call7_v5]
    exact step104 V9 _ n_main_call7_c_1
  have c9_main_call7_v4 : V10 (main_call7_v4 : DevRef τ sig) = Terms.val_main_call7_v4 (F := F) := by
    rw [← hV, unary_result_ne]; rotate_left; decide; exact c8_main_call7_v4
  have c9_main_call7_v2 : V10 (main_call7_v2 : DevRef τ sig) = Terms.val_main_call7_v2 (F := F) := by
    rw [← hV, unary_result_ne]; rotate_left; decide; exact c8_main_call7_v2
  clear hV
  rw [after_cons]
  generalize hV : HloOp.result _ V10 = V11
  have n_main_call7_v6 : V11 (main_call7_v6 : DevRef τ sig) = Terms.val_main_call7_v6 (F := F) := by
    rw [← hV, Terms.val_main_call7_v6]
    exact step105 V10 _ _ c9_main_call7_v4 n_main_call7_v5
  have c10_main_call7_v4 : V11 (main_call7_v4 : DevRef τ sig) = Terms.val_main_call7_v4 (F := F) := by
    rw [← hV, binary_result_ne]; rotate_left; decide; exact c9_main_call7_v4
  have c10_main_call7_v2 : V11 (main_call7_v2 : DevRef τ sig) = Terms.val_main_call7_v2 (F := F) := by
    rw [← hV, binary_result_ne]; rotate_left; decide; exact c9_main_call7_v2
  clear hV
  rw [after_cons]
  generalize hV : HloOp.result _ V11 = V12
  have n_main_call7_c_2 : V12 (main_call7_c_2 : DevRef τ sig) = Terms.val_main_call7_c_2 (F := F) := by
    rw [← hV, Terms.val_main_call7_c_2]
    exact step106 V11
  have c11_main_call7_v6 : V12 (main_call7_v6 : DevRef τ sig) = Terms.val_main_call7_v6 (F := F) := by
    rw [← hV, nullary_result_ne]; rotate_left; decide; exact n_main_call7_v6
  have c11_main_call7_v4 : V12 (main_call7_v4 : DevRef τ sig) = Terms.val_main_call7_v4 (F := F) := by
    rw [← hV, nullary_result_ne]; rotate_left; decide; exact c10_main_call7_v4
  have c11_main_call7_v2 : V12 (main_call7_v2 : DevRef τ sig) = Terms.val_main_call7_v2 (F := F) := by
    rw [← hV, nullary_result_ne]; rotate_left; decide; exact c10_main_call7_v2
  clear hV
  rw [after_cons]
  generalize hV : HloOp.result _ V12 = V13
  have n_main_call7_v7 : V13 (main_call7_v7 : DevRef τ sig) = Terms.val_main_call7_v7 (F := F) := by
    rw [← hV, Terms.val_main_call7_v7]
    exact step107 V12 _ n_main_call7_c_2
  have c12_main_call7_v6 : V13 (main_call7_v6 : DevRef τ sig) = Terms.val_main_call7_v6 (F := F) := by
    rw [← hV, unary_result_ne]; rotate_left; decide; exact c11_main_call7_v6
  have c12_main_call7_v4 : V13 (main_call7_v4 : DevRef τ sig) = Terms.val_main_call7_v4 (F := F) := by
    rw [← hV, unary_result_ne]; rotate_left; decide; exact c11_main_call7_v4
  have c12_main_call7_v2 : V13 (main_call7_v2 : DevRef τ sig) = Terms.val_main_call7_v2 (F := F) := by
    rw [← hV, unary_result_ne]; rotate_left; decide; exact c11_main_call7_v2
  clear hV
  rw [after_cons]
  generalize hV : HloOp.result _ V13 = V14
  have n_main_call7_v8 : V14 (main_call7_v8 : DevRef τ sig) = Terms.val_main_call7_v8 (F := F) := by
    rw [← hV, Terms.val_main_call7_v8]
    exact step108 V13 _ _ c12_main_call7_v4 n_main_call7_v7
  have c13_main_call7_v6 : V14 (main_call7_v6 : DevRef τ sig) = Terms.val_main_call7_v6 (F := F) := by
    rw [← hV, binary_result_ne]; rotate_left; decide; exact c12_main_call7_v6
  have c13_main_call7_v4 : V14 (main_call7_v4 : DevRef τ sig) = Terms.val_main_call7_v4 (F := F) := by
    rw [← hV, binary_result_ne]; rotate_left; decide; exact c12_main_call7_v4
  have c13_main_call7_v2 : V14 (main_call7_v2 : DevRef τ sig) = Terms.val_main_call7_v2 (F := F) := by
    rw [← hV, binary_result_ne]; rotate_left; decide; exact c12_main_call7_v2
  clear hV
  rw [after_cons]
  generalize hV : HloOp.result _ V14 = V15
  have n_main_call7_c_3 : V15 (main_call7_c_3 : DevRef τ sig) = Terms.val_main_call7_c_3 (F := F) := by
    rw [← hV, Terms.val_main_call7_c_3]
    exact step109 V14
  have c14_main_call7_v8 : V15 (main_call7_v8 : DevRef τ sig) = Terms.val_main_call7_v8 (F := F) := by
    rw [← hV, nullary_result_ne]; rotate_left; decide; exact n_main_call7_v8
  have c14_main_call7_v6 : V15 (main_call7_v6 : DevRef τ sig) = Terms.val_main_call7_v6 (F := F) := by
    rw [← hV, nullary_result_ne]; rotate_left; decide; exact c13_main_call7_v6
  have c14_main_call7_v4 : V15 (main_call7_v4 : DevRef τ sig) = Terms.val_main_call7_v4 (F := F) := by
    rw [← hV, nullary_result_ne]; rotate_left; decide; exact c13_main_call7_v4
  have c14_main_call7_v2 : V15 (main_call7_v2 : DevRef τ sig) = Terms.val_main_call7_v2 (F := F) := by
    rw [← hV, nullary_result_ne]; rotate_left; decide; exact c13_main_call7_v2
  clear hV
  rw [after_cons]
  generalize hV : HloOp.result _ V15 = V16
  have n_main_call7_v9 : V16 (main_call7_v9 : DevRef τ sig) = Terms.val_main_call7_v9 (F := F) := by
    rw [← hV, Terms.val_main_call7_v9]
    exact step110 V15 _ _ c14_main_call7_v2 n_main_call7_c_3
  have c15_main_call7_v8 : V16 (main_call7_v8 : DevRef τ sig) = Terms.val_main_call7_v8 (F := F) := by
    rw [← hV, binary_result_ne]; rotate_left; decide; exact c14_main_call7_v8
  have c15_main_call7_v6 : V16 (main_call7_v6 : DevRef τ sig) = Terms.val_main_call7_v6 (F := F) := by
    rw [← hV, binary_result_ne]; rotate_left; decide; exact c14_main_call7_v6
  have c15_main_call7_v4 : V16 (main_call7_v4 : DevRef τ sig) = Terms.val_main_call7_v4 (F := F) := by
    rw [← hV, binary_result_ne]; rotate_left; decide; exact c14_main_call7_v4
  have c15_main_call7_v2 : V16 (main_call7_v2 : DevRef τ sig) = Terms.val_main_call7_v2 (F := F) := by
    rw [← hV, binary_result_ne]; rotate_left; decide; exact c14_main_call7_v2
  clear hV
  rw [after_cons]
  generalize hV : HloOp.result _ V16 = V17
  have n_main_call7_v10 : V17 (main_call7_v10 : DevRef τ sig) = Terms.val_main_call7_v10 (F := F) := by
    rw [← hV, Terms.val_main_call7_v10]
    exact step111 V16 _ n_main_call7_v9
  have c16_main_call7_v8 : V17 (main_call7_v8 : DevRef τ sig) = Terms.val_main_call7_v8 (F := F) := by
    rw [← hV, unary_result_ne]; rotate_left; decide; exact c15_main_call7_v8
  have c16_main_call7_v6 : V17 (main_call7_v6 : DevRef τ sig) = Terms.val_main_call7_v6 (F := F) := by
    rw [← hV, unary_result_ne]; rotate_left; decide; exact c15_main_call7_v6
  have c16_main_call7_v4 : V17 (main_call7_v4 : DevRef τ sig) = Terms.val_main_call7_v4 (F := F) := by
    rw [← hV, unary_result_ne]; rotate_left; decide; exact c15_main_call7_v4
  have c16_main_call7_v2 : V17 (main_call7_v2 : DevRef τ sig) = Terms.val_main_call7_v2 (F := F) := by
    rw [← hV, unary_result_ne]; rotate_left; decide; exact c15_main_call7_v2
  clear hV
  rw [after_cons]
  generalize hV : HloOp.result _ V17 = V18
  have n_main_call7_v11 : V18 (main_call7_v11 : DevRef τ sig) = Terms.val_main_call7_v11 (F := F) := by
    rw [← hV, Terms.val_main_call7_v11]
    exact step112 V17 _ _ c16_main_call7_v8 n_main_call7_v10
  have c17_main_call7_v6 : V18 (main_call7_v6 : DevRef τ sig) = Terms.val_main_call7_v6 (F := F) := by
    rw [← hV, binary_result_ne]; rotate_left; decide; exact c16_main_call7_v6
  have c17_main_call7_v4 : V18 (main_call7_v4 : DevRef τ sig) = Terms.val_main_call7_v4 (F := F) := by
    rw [← hV, binary_result_ne]; rotate_left; decide; exact c16_main_call7_v4
  have c17_main_call7_v2 : V18 (main_call7_v2 : DevRef τ sig) = Terms.val_main_call7_v2 (F := F) := by
    rw [← hV, binary_result_ne]; rotate_left; decide; exact c16_main_call7_v2
  clear hV
  rw [after_cons]
  generalize hV : HloOp.result _ V18 = V19
  have n_main_call7_v12 : V19 (main_call7_v12 : DevRef τ sig) = Terms.val_main_call7_v12 (F := F) := by
    rw [← hV, Terms.val_main_call7_v12]
    exact step113 V18 _ _ n_main_call7_v11 c17_main_call7_v6
  have c18_main_call7_v4 : V19 (main_call7_v4 : DevRef τ sig) = Terms.val_main_call7_v4 (F := F) := by
    rw [← hV, binary_result_ne]; rotate_left; decide; exact c17_main_call7_v4
  have c18_main_call7_v2 : V19 (main_call7_v2 : DevRef τ sig) = Terms.val_main_call7_v2 (F := F) := by
    rw [← hV, binary_result_ne]; rotate_left; decide; exact c17_main_call7_v2
  clear hV
  rw [after_cons]
  generalize hV : HloOp.result _ V19 = V20
  have n_main_call7_v13 : V20 (main_call7_v13 : DevRef τ sig) = Terms.val_main_call7_v13 (F := F) := by
    rw [← hV, Terms.val_main_call7_v13]
    exact step114 V19 _ c18_main_call7_v2
  have c19_main_call7_v12 : V20 (main_call7_v12 : DevRef τ sig) = Terms.val_main_call7_v12 (F := F) := by
    rw [← hV, unary_result_ne]; rotate_left; decide; exact n_main_call7_v12
  have c19_main_call7_v4 : V20 (main_call7_v4 : DevRef τ sig) = Terms.val_main_call7_v4 (F := F) := by
    rw [← hV, unary_result_ne]; rotate_left; decide; exact c18_main_call7_v4
  clear hV
  rw [after_cons]
  generalize hV : HloOp.result _ V20 = V21
  have n_main_call7_v14 : V21 (main_call7_v14 : DevRef τ sig) = Terms.val_main_call7_v14 (F := F) := by
    rw [← hV, Terms.val_main_call7_v14]
    exact step115 V20 _ _ c19_main_call7_v4 n_main_call7_v13
  have c20_main_call7_v12 : V21 (main_call7_v12 : DevRef τ sig) = Terms.val_main_call7_v12 (F := F) := by
    rw [← hV, binary_result_ne]; rotate_left; decide; exact c19_main_call7_v12
  have c20_main_call7_v4 : V21 (main_call7_v4 : DevRef τ sig) = Terms.val_main_call7_v4 (F := F) := by
    rw [← hV, binary_result_ne]; rotate_left; decide; exact c19_main_call7_v4
  clear hV
  rw [after_cons]
  generalize hV : HloOp.result _ V21 = V22
  have n_main_v19 : V22 (main_v19 : DevRef τ sig) = Terms.val_main_v19 (F := F) := by
    rw [← hV, Terms.val_main_v19]
    exact step116 V21 _ _ _ c20_main_call7_v12 n_main_call7_v14 c20_main_call7_v4
  clear hV
  exact n_main_v19

set_option maxRecDepth 16384 in
set_option maxHeartbeats 1000000 in
theorem seg7_main_v31 (W : Valuation τ sig (Elt F)) (h_main_v17 : W (main_v17 : DevRef τ sig) = Terms.val_main_v17 (F := F)) :
    after seg7 W (main_v31 : DevRef τ sig) = Terms.val_main_v31 (F := F) := by
  rw [after_cons]
  generalize hV : HloOp.result _ W = V1
  have c0_main_v17 : V1 (main_v17 : DevRef τ sig) = Terms.val_main_v17 (F := F) := by
    rw [← hV, nullary_result_ne]; rotate_left; decide; exact h_main_v17
  clear hV
  rw [after_cons]
  generalize hV : HloOp.result _ V1 = V2
  have c1_main_v17 : V2 (main_v17 : DevRef τ sig) = Terms.val_main_v17 (F := F) := by
    rw [← hV, unary_result_ne]; rotate_left; decide; exact c0_main_v17
  clear hV
  rw [after_cons]
  generalize hV : HloOp.result _ V2 = V3
  have n_main_c_10 : V3 (main_c_10 : DevRef τ sig) = Terms.val_main_c_10 (F := F) := by
    rw [← hV, Terms.val_main_c_10]
    exact step119 V2
  have c2_main_v17 : V3 (main_v17 : DevRef τ sig) = Terms.val_main_v17 (F := F) := by
    rw [← hV, nullary_result_ne]; rotate_left; decide; exact c1_main_v17
  clear hV
  rw [after_cons]
  generalize hV : HloOp.result _ V3 = V4
  have n_main_v21 : V4 (main_v21 : DevRef τ sig) = Terms.val_main_v21 (F := F) := by
    rw [← hV, Terms.val_main_v21]
    exact step120 V3 _ n_main_c_10
  have c3_main_v17 : V4 (main_v17 : DevRef τ sig) = Terms.val_main_v17 (F := F) := by
    rw [← hV, unary_result_ne]; rotate_left; decide; exact c2_main_v17
  clear hV
  rw [after_cons]
  generalize hV : HloOp.result _ V4 = V5
  have n_main_v22 : V5 (main_v22 : DevRef τ sig) = Terms.val_main_v22 (F := F) := by
    rw [← hV, Terms.val_main_v22]
    exact step121 V4 _ _ c3_main_v17 n_main_v21
  have c4_main_v17 : V5 (main_v17 : DevRef τ sig) = Terms.val_main_v17 (F := F) := by
    rw [← hV, binary_result_ne]; rotate_left; decide; exact c3_main_v17
  clear hV
  rw [after_cons]
  generalize hV : HloOp.result _ V5 = V6
  have n_main_c_11 : V6 (main_c_11 : DevRef τ sig) = Terms.val_main_c_11 (F := F) := by
    rw [← hV, Terms.val_main_c_11]
    exact step122 V5
  have c5_main_v22 : V6 (main_v22 : DevRef τ sig) = Terms.val_main_v22 (F := F) := by
    rw [← hV, nullary_result_ne]; rotate_left; decide; exact n_main_v22
  have c5_main_v17 : V6 (main_v17 : DevRef τ sig) = Terms.val_main_v17 (F := F) := by
    rw [← hV, nullary_result_ne]; rotate_left; decide; exact c4_main_v17
  clear hV
  rw [after_cons]
  generalize hV : HloOp.result _ V6 = V7
  have n_main_v23 : V7 (main_v23 : DevRef τ sig) = Terms.val_main_v23 (F := F) := by
    rw [← hV, Terms.val_main_v23]
    exact step123 V6 _ n_main_c_11
  have c6_main_v22 : V7 (main_v22 : DevRef τ sig) = Terms.val_main_v22 (F := F) := by
    rw [← hV, unary_result_ne]; rotate_left; decide; exact c5_main_v22
  have c6_main_v17 : V7 (main_v17 : DevRef τ sig) = Terms.val_main_v17 (F := F) := by
    rw [← hV, unary_result_ne]; rotate_left; decide; exact c5_main_v17
  clear hV
  rw [after_cons]
  generalize hV : HloOp.result _ V7 = V8
  have n_main_v24 : V8 (main_v24 : DevRef τ sig) = Terms.val_main_v24 (F := F) := by
    rw [← hV, Terms.val_main_v24]
    exact step124 V7 _ _ c6_main_v17 n_main_v23
  have c7_main_v22 : V8 (main_v22 : DevRef τ sig) = Terms.val_main_v22 (F := F) := by
    rw [← hV, binary_result_ne]; rotate_left; decide; exact c6_main_v22
  have c7_main_v17 : V8 (main_v17 : DevRef τ sig) = Terms.val_main_v17 (F := F) := by
    rw [← hV, binary_result_ne]; rotate_left; decide; exact c6_main_v17
  clear hV
  rw [after_cons]
  generalize hV : HloOp.result _ V8 = V9
  have n_main_v25 : V9 (main_v25 : DevRef τ sig) = Terms.val_main_v25 (F := F) := by
    rw [← hV, Terms.val_main_v25]
    exact step125 V8 _ _ _ c7_main_v22 n_main_v24 c7_main_v17
  clear hV
  rw [after_cons]
  generalize hV : HloOp.result _ V9 = V10
  have c9_main_v25 : V10 (main_v25 : DevRef τ sig) = Terms.val_main_v25 (F := F) := by
    rw [← hV, nullary_result_ne]; rotate_left; decide; exact n_main_v25
  clear hV
  rw [after_cons]
  generalize hV : HloOp.result _ V10 = V11
  have c10_main_v25 : V11 (main_v25 : DevRef τ sig) = Terms.val_main_v25 (F := F) := by
    rw [← hV, unary_result_ne]; rotate_left; decide; exact c9_main_v25
  clear hV
  rw [after_cons]
  generalize hV : HloOp.result _ V11 = V12
  have c11_main_v25 : V12 (main_v25 : DevRef τ sig) = Terms.val_main_v25 (F := F) := by
    rw [← hV, binary_result_ne]; rotate_left; decide; exact c10_main_v25
  clear hV
  rw [after_cons]
  generalize hV : HloOp.result _ V12 = V13
  have c12_main_v25 : V13 (main_v25 : DevRef τ sig) = Terms.val_main_v25 (F := F) := by
    rw [← hV, nullary_result_ne]; rotate_left; decide; exact c11_main_v25
  clear hV
  rw [after_cons]
  generalize hV : HloOp.result _ V13 = V14
  have c13_main_v25 : V14 (main_v25 : DevRef τ sig) = Terms.val_main_v25 (F := F) := by
    rw [← hV, unary_result_ne]; rotate_left; decide; exact c12_main_v25
  clear hV
  rw [after_cons]
  generalize hV : HloOp.result _ V14 = V15
  have c14_main_v25 : V15 (main_v25 : DevRef τ sig) = Terms.val_main_v25 (F := F) := by
    rw [← hV, binary_result_ne]; rotate_left; decide; exact c13_main_v25
  clear hV
  rw [after_cons]
  generalize hV : HloOp.result _ V15 = V16
  have c15_main_v25 : V16 (main_v25 : DevRef τ sig) = Terms.val_main_v25 (F := F) := by
    rw [← hV, ternary_result_ne]; rotate_left; decide; exact c14_main_v25
  clear hV
  rw [after_cons]
  generalize hV : HloOp.result _ V16 = V17
  have n_main_v31 : V17 (main_v31 : DevRef τ sig) = Terms.val_main_v31 (F := F) := by
    rw [← hV, Terms.val_main_v31]
    exact step133 V16 _ c15_main_v25
  clear hV
  rw [after_cons]
  generalize hV : HloOp.result _ V17 = V18
  have c17_main_v31 : V18 (main_v31 : DevRef τ sig) = Terms.val_main_v31 (F := F) := by
    rw [← hV, unary_result_ne]; rotate_left; decide; exact n_main_v31
  clear hV
  exact c17_main_v31

set_option maxRecDepth 16384 in
set_option maxHeartbeats 1000000 in
theorem seg7_main_v32 (W : Valuation τ sig (Elt F)) (h_main_v19 : W (main_v19 : DevRef τ sig) = Terms.val_main_v19 (F := F)) :
    after seg7 W (main_v32 : DevRef τ sig) = Terms.val_main_v32 (F := F) := by
  rw [after_cons]
  generalize hV : HloOp.result _ W = V1
  have c0_main_v19 : V1 (main_v19 : DevRef τ sig) = Terms.val_main_v19 (F := F) := by
    rw [← hV, nullary_result_ne]; rotate_left; decide; exact h_main_v19
  clear hV
  rw [after_cons]
  generalize hV : HloOp.result _ V1 = V2
  have c1_main_v19 : V2 (main_v19 : DevRef τ sig) = Terms.val_main_v19 (F := F) := by
    rw [← hV, unary_result_ne]; rotate_left; decide; exact c0_main_v19
  clear hV
  rw [after_cons]
  generalize hV : HloOp.result _ V2 = V3
  have c2_main_v19 : V3 (main_v19 : DevRef τ sig) = Terms.val_main_v19 (F := F) := by
    rw [← hV, nullary_result_ne]; rotate_left; decide; exact c1_main_v19
  clear hV
  rw [after_cons]
  generalize hV : HloOp.result _ V3 = V4
  have c3_main_v19 : V4 (main_v19 : DevRef τ sig) = Terms.val_main_v19 (F := F) := by
    rw [← hV, unary_result_ne]; rotate_left; decide; exact c2_main_v19
  clear hV
  rw [after_cons]
  generalize hV : HloOp.result _ V4 = V5
  have c4_main_v19 : V5 (main_v19 : DevRef τ sig) = Terms.val_main_v19 (F := F) := by
    rw [← hV, binary_result_ne]; rotate_left; decide; exact c3_main_v19
  clear hV
  rw [after_cons]
  generalize hV : HloOp.result _ V5 = V6
  have c5_main_v19 : V6 (main_v19 : DevRef τ sig) = Terms.val_main_v19 (F := F) := by
    rw [← hV, nullary_result_ne]; rotate_left; decide; exact c4_main_v19
  clear hV
  rw [after_cons]
  generalize hV : HloOp.result _ V6 = V7
  have c6_main_v19 : V7 (main_v19 : DevRef τ sig) = Terms.val_main_v19 (F := F) := by
    rw [← hV, unary_result_ne]; rotate_left; decide; exact c5_main_v19
  clear hV
  rw [after_cons]
  generalize hV : HloOp.result _ V7 = V8
  have c7_main_v19 : V8 (main_v19 : DevRef τ sig) = Terms.val_main_v19 (F := F) := by
    rw [← hV, binary_result_ne]; rotate_left; decide; exact c6_main_v19
  clear hV
  rw [after_cons]
  generalize hV : HloOp.result _ V8 = V9
  have c8_main_v19 : V9 (main_v19 : DevRef τ sig) = Terms.val_main_v19 (F := F) := by
    rw [← hV, ternary_result_ne]; rotate_left; decide; exact c7_main_v19
  clear hV
  rw [after_cons]
  generalize hV : HloOp.result _ V9 = V10
  have n_main_c_12 : V10 (main_c_12 : DevRef τ sig) = Terms.val_main_c_12 (F := F) := by
    rw [← hV, Terms.val_main_c_12]
    exact step126 V9
  have c9_main_v19 : V10 (main_v19 : DevRef τ sig) = Terms.val_main_v19 (F := F) := by
    rw [← hV, nullary_result_ne]; rotate_left; decide; exact c8_main_v19
  clear hV
  rw [after_cons]
  generalize hV : HloOp.result _ V10 = V11
  have n_main_v26 : V11 (main_v26 : DevRef τ sig) = Terms.val_main_v26 (F := F) := by
    rw [← hV, Terms.val_main_v26]
    exact step127 V10 _ n_main_c_12
  have c10_main_v19 : V11 (main_v19 : DevRef τ sig) = Terms.val_main_v19 (F := F) := by
    rw [← hV, unary_result_ne]; rotate_left; decide; exact c9_main_v19
  clear hV
  rw [after_cons]
  generalize hV : HloOp.result _ V11 = V12
  have n_main_v27 : V12 (main_v27 : DevRef τ sig) = Terms.val_main_v27 (F := F) := by
    rw [← hV, Terms.val_main_v27]
    exact step128 V11 _ _ c10_main_v19 n_main_v26
  have c11_main_v19 : V12 (main_v19 : DevRef τ sig) = Terms.val_main_v19 (F := F) := by
    rw [← hV, binary_result_ne]; rotate_left; decide; exact c10_main_v19
  clear hV
  rw [after_cons]
  generalize hV : HloOp.result _ V12 = V13
  have n_main_c_13 : V13 (main_c_13 : DevRef τ sig) = Terms.val_main_c_13 (F := F) := by
    rw [← hV, Terms.val_main_c_13]
    exact step129 V12
  have c12_main_v27 : V13 (main_v27 : DevRef τ sig) = Terms.val_main_v27 (F := F) := by
    rw [← hV, nullary_result_ne]; rotate_left; decide; exact n_main_v27
  have c12_main_v19 : V13 (main_v19 : DevRef τ sig) = Terms.val_main_v19 (F := F) := by
    rw [← hV, nullary_result_ne]; rotate_left; decide; exact c11_main_v19
  clear hV
  rw [after_cons]
  generalize hV : HloOp.result _ V13 = V14
  have n_main_v28 : V14 (main_v28 : DevRef τ sig) = Terms.val_main_v28 (F := F) := by
    rw [← hV, Terms.val_main_v28]
    exact step130 V13 _ n_main_c_13
  have c13_main_v27 : V14 (main_v27 : DevRef τ sig) = Terms.val_main_v27 (F := F) := by
    rw [← hV, unary_result_ne]; rotate_left; decide; exact c12_main_v27
  have c13_main_v19 : V14 (main_v19 : DevRef τ sig) = Terms.val_main_v19 (F := F) := by
    rw [← hV, unary_result_ne]; rotate_left; decide; exact c12_main_v19
  clear hV
  rw [after_cons]
  generalize hV : HloOp.result _ V14 = V15
  have n_main_v29 : V15 (main_v29 : DevRef τ sig) = Terms.val_main_v29 (F := F) := by
    rw [← hV, Terms.val_main_v29]
    exact step131 V14 _ _ c13_main_v19 n_main_v28
  have c14_main_v27 : V15 (main_v27 : DevRef τ sig) = Terms.val_main_v27 (F := F) := by
    rw [← hV, binary_result_ne]; rotate_left; decide; exact c13_main_v27
  have c14_main_v19 : V15 (main_v19 : DevRef τ sig) = Terms.val_main_v19 (F := F) := by
    rw [← hV, binary_result_ne]; rotate_left; decide; exact c13_main_v19
  clear hV
  rw [after_cons]
  generalize hV : HloOp.result _ V15 = V16
  have n_main_v30 : V16 (main_v30 : DevRef τ sig) = Terms.val_main_v30 (F := F) := by
    rw [← hV, Terms.val_main_v30]
    exact step132 V15 _ _ _ c14_main_v27 n_main_v29 c14_main_v19
  clear hV
  rw [after_cons]
  generalize hV : HloOp.result _ V16 = V17
  have c16_main_v30 : V17 (main_v30 : DevRef τ sig) = Terms.val_main_v30 (F := F) := by
    rw [← hV, unary_result_ne]; rotate_left; decide; exact n_main_v30
  clear hV
  rw [after_cons]
  generalize hV : HloOp.result _ V17 = V18
  have n_main_v32 : V18 (main_v32 : DevRef τ sig) = Terms.val_main_v32 (F := F) := by
    rw [← hV, Terms.val_main_v32]
    exact step134 V17 _ c16_main_v30
  clear hV
  exact n_main_v32

set_option maxRecDepth 16384 in
set_option maxHeartbeats 1000000 in
theorem seg7_main_v20 (W : Valuation τ sig (Elt F))  :
    after seg7 W (main_v20 : DevRef τ sig) = Terms.val_main_v20 (F := F) := by
  rw [after_cons]
  generalize hV : HloOp.result _ W = V1
  have n_main_cst_9 : V1 (main_cst_9 : DevRef τ sig) = Terms.val_main_cst_9 (F := F) := by
    rw [← hV, Terms.val_main_cst_9]
    exact step117 W
  clear hV
  rw [after_cons]
  generalize hV : HloOp.result _ V1 = V2
  have n_main_v20 : V2 (main_v20 : DevRef τ sig) = Terms.val_main_v20 (F := F) := by
    rw [← hV, Terms.val_main_v20]
    exact step118 V1 _ n_main_cst_9
  clear hV
  rw [after_cons]
  generalize hV : HloOp.result _ V2 = V3
  have c2_main_v20 : V3 (main_v20 : DevRef τ sig) = Terms.val_main_v20 (F := F) := by
    rw [← hV, nullary_result_ne]; rotate_left; decide; exact n_main_v20
  clear hV
  rw [after_cons]
  generalize hV : HloOp.result _ V3 = V4
  have c3_main_v20 : V4 (main_v20 : DevRef τ sig) = Terms.val_main_v20 (F := F) := by
    rw [← hV, unary_result_ne]; rotate_left; decide; exact c2_main_v20
  clear hV
  rw [after_cons]
  generalize hV : HloOp.result _ V4 = V5
  have c4_main_v20 : V5 (main_v20 : DevRef τ sig) = Terms.val_main_v20 (F := F) := by
    rw [← hV, binary_result_ne]; rotate_left; decide; exact c3_main_v20
  clear hV
  rw [after_cons]
  generalize hV : HloOp.result _ V5 = V6
  have c5_main_v20 : V6 (main_v20 : DevRef τ sig) = Terms.val_main_v20 (F := F) := by
    rw [← hV, nullary_result_ne]; rotate_left; decide; exact c4_main_v20
  clear hV
  rw [after_cons]
  generalize hV : HloOp.result _ V6 = V7
  have c6_main_v20 : V7 (main_v20 : DevRef τ sig) = Terms.val_main_v20 (F := F) := by
    rw [← hV, unary_result_ne]; rotate_left; decide; exact c5_main_v20
  clear hV
  rw [after_cons]
  generalize hV : HloOp.result _ V7 = V8
  have c7_main_v20 : V8 (main_v20 : DevRef τ sig) = Terms.val_main_v20 (F := F) := by
    rw [← hV, binary_result_ne]; rotate_left; decide; exact c6_main_v20
  clear hV
  rw [after_cons]
  generalize hV : HloOp.result _ V8 = V9
  have c8_main_v20 : V9 (main_v20 : DevRef τ sig) = Terms.val_main_v20 (F := F) := by
    rw [← hV, ternary_result_ne]; rotate_left; decide; exact c7_main_v20
  clear hV
  rw [after_cons]
  generalize hV : HloOp.result _ V9 = V10
  have c9_main_v20 : V10 (main_v20 : DevRef τ sig) = Terms.val_main_v20 (F := F) := by
    rw [← hV, nullary_result_ne]; rotate_left; decide; exact c8_main_v20
  clear hV
  rw [after_cons]
  generalize hV : HloOp.result _ V10 = V11
  have c10_main_v20 : V11 (main_v20 : DevRef τ sig) = Terms.val_main_v20 (F := F) := by
    rw [← hV, unary_result_ne]; rotate_left; decide; exact c9_main_v20
  clear hV
  rw [after_cons]
  generalize hV : HloOp.result _ V11 = V12
  have c11_main_v20 : V12 (main_v20 : DevRef τ sig) = Terms.val_main_v20 (F := F) := by
    rw [← hV, binary_result_ne]; rotate_left; decide; exact c10_main_v20
  clear hV
  rw [after_cons]
  generalize hV : HloOp.result _ V12 = V13
  have c12_main_v20 : V13 (main_v20 : DevRef τ sig) = Terms.val_main_v20 (F := F) := by
    rw [← hV, nullary_result_ne]; rotate_left; decide; exact c11_main_v20
  clear hV
  rw [after_cons]
  generalize hV : HloOp.result _ V13 = V14
  have c13_main_v20 : V14 (main_v20 : DevRef τ sig) = Terms.val_main_v20 (F := F) := by
    rw [← hV, unary_result_ne]; rotate_left; decide; exact c12_main_v20
  clear hV
  rw [after_cons]
  generalize hV : HloOp.result _ V14 = V15
  have c14_main_v20 : V15 (main_v20 : DevRef τ sig) = Terms.val_main_v20 (F := F) := by
    rw [← hV, binary_result_ne]; rotate_left; decide; exact c13_main_v20
  clear hV
  rw [after_cons]
  generalize hV : HloOp.result _ V15 = V16
  have c15_main_v20 : V16 (main_v20 : DevRef τ sig) = Terms.val_main_v20 (F := F) := by
    rw [← hV, ternary_result_ne]; rotate_left; decide; exact c14_main_v20
  clear hV
  rw [after_cons]
  generalize hV : HloOp.result _ V16 = V17
  have c16_main_v20 : V17 (main_v20 : DevRef τ sig) = Terms.val_main_v20 (F := F) := by
    rw [← hV, unary_result_ne]; rotate_left; decide; exact c15_main_v20
  clear hV
  rw [after_cons]
  generalize hV : HloOp.result _ V17 = V18
  have c17_main_v20 : V18 (main_v20 : DevRef τ sig) = Terms.val_main_v20 (F := F) := by
    rw [← hV, unary_result_ne]; rotate_left; decide; exact c16_main_v20
  clear hV
  exact c17_main_v20

set_option maxRecDepth 65536 in
set_option maxHeartbeats 4000000 in
theorem seg6_keeps_main_v17 (W : Valuation τ sig (Elt F)) : after seg6 W (main_v17 : DevRef τ sig) = W (main_v17 : DevRef τ sig) := by
  after_results_simp

set_option maxRecDepth 65536 in
set_option maxHeartbeats 4000000 in
theorem seg5_keeps_main_v17 (W : Valuation τ sig (Elt F)) : after seg5 W (main_v17 : DevRef τ sig) = W (main_v17 : DevRef τ sig) := by
  after_results_simp

set_option maxRecDepth 65536 in
set_option maxHeartbeats 4000000 in
theorem seg4_keeps_main_v15 (W : Valuation τ sig (Elt F)) : after seg4 W (main_v15 : DevRef τ sig) = W (main_v15 : DevRef τ sig) := by
  after_results_simp

set_option maxRecDepth 65536 in
set_option maxHeartbeats 4000000 in
theorem seg3_keeps_main_v15 (W : Valuation τ sig (Elt F)) : after seg3 W (main_v15 : DevRef τ sig) = W (main_v15 : DevRef τ sig) := by
  after_results_simp

set_option maxRecDepth 65536 in
set_option maxHeartbeats 4000000 in
theorem seg1_keeps_main_arg0 (W : Valuation τ sig (Elt F)) : after seg1 W (main_arg0 : DevRef τ sig) = W (main_arg0 : DevRef τ sig) := by
  after_results_simp

set_option maxRecDepth 65536 in
set_option maxHeartbeats 4000000 in
theorem seg2_keeps_main_arg0 (W : Valuation τ sig (Elt F)) : after seg2 W (main_arg0 : DevRef τ sig) = W (main_arg0 : DevRef τ sig) := by
  after_results_simp

set_option maxRecDepth 65536 in
set_option maxHeartbeats 4000000 in
theorem seg3_keeps_main_arg0 (W : Valuation τ sig (Elt F)) : after seg3 W (main_arg0 : DevRef τ sig) = W (main_arg0 : DevRef τ sig) := by
  after_results_simp

set_option maxRecDepth 65536 in
set_option maxHeartbeats 4000000 in
theorem seg4_keeps_main_arg0 (W : Valuation τ sig (Elt F)) : after seg4 W (main_arg0 : DevRef τ sig) = W (main_arg0 : DevRef τ sig) := by
  after_results_simp

set_option maxRecDepth 65536 in
set_option maxHeartbeats 4000000 in
theorem seg5_keeps_main_arg0 (W : Valuation τ sig (Elt F)) : after seg5 W (main_arg0 : DevRef τ sig) = W (main_arg0 : DevRef τ sig) := by
  after_results_simp

set_option maxRecDepth 65536 in
set_option maxHeartbeats 4000000 in
theorem seg6_keeps_main_arg0 (W : Valuation τ sig (Elt F)) : after seg6 W (main_arg0 : DevRef τ sig) = W (main_arg0 : DevRef τ sig) := by
  after_results_simp

set_option maxRecDepth 65536 in
set_option maxHeartbeats 4000000 in
theorem seg7_keeps_main_arg0 (W : Valuation τ sig (Elt F)) : after seg7 W (main_arg0 : DevRef τ sig) = W (main_arg0 : DevRef τ sig) := by
  after_results_simp

theorem ops_split : (ops : List (HloOp τ sig (Elt F))) = seg1 ++ (seg2 ++ (seg3 ++ (seg4 ++ (seg5 ++ (seg6 ++ (seg7 ++ opsB)))))) := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold at the result buffer is the composed value of the argument's contents. -/
theorem result_eq (V : Valuation τ sig (Elt F)) :
    after ops V (main_v36 : DevRef τ sig) = Terms.val_main_v36 (F := F) (V (main_arg0 : DevRef τ sig)) := by
  have f1_main_v5 := seg1_main_v5 (F := F) V
  have f1_main_v6 := seg1_main_v6 (F := F) V
  have f2_main_v15 := seg2_main_v15 (F := F) (after seg1 V) f1_main_v5 f1_main_v6
  have f3_main_v16 := seg3_main_v16 (F := F) (after seg2 (after seg1 V)) f2_main_v15
  have f3_main_v15 : after seg3 (after seg2 (after seg1 V)) (main_v15 : DevRef τ sig) = Terms.val_main_v15 (F := F) := by
    rw [seg3_keeps_main_v15]; exact f2_main_v15
  have f4_main_v17 := seg4_main_v17 (F := F) (after seg3 (after seg2 (after seg1 V))) f3_main_v16
  have f4_main_v15 : after seg4 (after seg3 (after seg2 (after seg1 V))) (main_v15 : DevRef τ sig) = Terms.val_main_v15 (F := F) := by
    rw [seg4_keeps_main_v15]; exact f3_main_v15
  have f5_main_v17 : after seg5 (after seg4 (after seg3 (after seg2 (after seg1 V)))) (main_v17 : DevRef τ sig) = Terms.val_main_v17 (F := F) := by
    rw [seg5_keeps_main_v17]; exact f4_main_v17
  have f5_main_v18 := seg5_main_v18 (F := F) (after seg4 (after seg3 (after seg2 (after seg1 V)))) f4_main_v15
  have f6_main_v17 : after seg6 (after seg5 (after seg4 (after seg3 (after seg2 (after seg1 V))))) (main_v17 : DevRef τ sig) = Terms.val_main_v17 (F := F) := by
    rw [seg6_keeps_main_v17]; exact f5_main_v17
  have f6_main_v19 := seg6_main_v19 (F := F) (after seg5 (after seg4 (after seg3 (after seg2 (after seg1 V))))) f5_main_v18
  have f7_main_v31 := seg7_main_v31 (F := F) (after seg6 (after seg5 (after seg4 (after seg3 (after seg2 (after seg1 V)))))) f6_main_v17
  have f7_main_v32 := seg7_main_v32 (F := F) (after seg6 (after seg5 (after seg4 (after seg3 (after seg2 (after seg1 V)))))) f6_main_v19
  have f7_main_v20 := seg7_main_v20 (F := F) (after seg6 (after seg5 (after seg4 (after seg3 (after seg2 (after seg1 V))))))
  rw [ops_split, after_append, after_append, after_append, after_append, after_append, after_append, after_append, tail_eq,
    f7_main_v31, f7_main_v32, f7_main_v20, seg7_keeps_main_arg0, seg6_keeps_main_arg0, seg5_keeps_main_arg0, seg4_keeps_main_arg0,
    seg3_keeps_main_arg0, seg2_keeps_main_arg0, seg1_keeps_main_arg0, val_eq_tail]

set_option maxRecDepth 16384 in
set_option maxHeartbeats 14000000 in
/-- No operation writes the argument's buffer. -/
theorem arg0_eq (V : Valuation τ sig (Elt F)) :
    after ops V (main_arg0 : DevRef τ sig) = V (main_arg0 : DevRef τ sig) := by
  after_results_simp

/-- Every weakly fair execution of the reference terminates with the result buffer at the composed value of the
    argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Terms.val_main_v36 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v36).trans (result_eq _), (h c main_arg0).trans (arg0_eq _)⟩)
    (run_all m ρ)

end Cert.ReferenceIdeal.RefRun

end
-- ==== Proof.LibHostFolds.lean ====
/-
  Host array operations that are left folds over every position of an array, read at ONE index of the result. The
  arrays are variables throughout: nothing here is evaluated at a size.

  `foldl_addi_list`, `foldl_addi_finRange`: a left fold of wrapping 32-bit additions over a list (over all of
  `Fin n`) is the starting word plus the sum of the terms.
  `filter_foldl_addi`: folding additions over the members of a list that satisfy a condition is folding over the
  whole list with zero in place of the others.
  `rowMajor_symm_one_val`, `numel_one`: in a shape of rank one the row-major position of an index is its
  coordinate, and the number of elements is the extent.
  `cumsum_apply`: the running sum. A window reduction over an array of length `N` with window `N`, stride one,
  `N - 1` padding positions on the low side and none on the high side, under wrapping addition from zero: when the
  array holds the natural numbers `b 0, b 1, …` as 32-bit words, position `j` of the result holds
  `b 0 + … + b j` as a word.
  `scatter_apply`: a scatter with ANY body `f`, read at one index `i0` of the result, is the left fold of `f`,
  from the operand's element at `i0`, over those update positions, in row-major order, whose result index is
  `i0`; an update that lands elsewhere, or outside the operand, does not matter.
  `scatter_addi_apply`: for the body wrapping addition that is the operand's element at `i0` plus the sum, over
  ALL update positions, of the update where it lands on `i0` and of zero where it does not.
-/
import Idealize.ShloMosaic.PureOps
import Idealize.ShloMosaic.Lib.ValueIdx
import Mathlib.Data.BitVec
import Mathlib.Algebra.BigOperators.Fin
import Mathlib.Algebra.BigOperators.Intervals

noncomputable section

namespace Cert.LibHostFolds

open Idealize.ShloMosaic Idealize.ShloMosaic.ValueIdx
open scoped BigOperators

/-- A left fold of additions over a list is the starting value plus the sum of the terms. -/
theorem foldl_addi_list {β : Type} (g : β → BitVec 32) (l : List β) (v : BitVec 32) :
    l.foldl (fun r k => IntOp.addi r (g k)) v = v + (l.map g).sum := by
  induction l generalizing v with
  | nil => simp
  | cons a l ih =>
    rw [List.foldl_cons, ih, List.map_cons, List.sum_cons]
    unfold IntOp.addi
    rw [add_assoc]

/-- The same over all of `Fin n`, as a finite sum. -/
theorem foldl_addi_finRange (n : ℕ) (g : Fin n → BitVec 32) (v : BitVec 32) :
    (List.finRange n).foldl (fun r k => IntOp.addi r (g k)) v = v + ∑ k, g k := by
  rw [foldl_addi_list, Fin.sum_univ_def]

/-- In a shape of rank one the row-major position is the coordinate. -/
theorem rowMajor_symm_one_val {N : ℕ} (n : Fin (⟨1, ![N]⟩ : Shape).numel) :
    ((⟨1, ![N]⟩ : Shape).rowMajor.symm n 0).val = n.val := by
  have h := Shape.rowMajor_val_one ((⟨1, ![N]⟩ : Shape).rowMajor.symm n)
  rw [Equiv.apply_symm_apply] at h
  exact h.symm

theorem numel_one (N : ℕ) : (⟨1, ![N]⟩ : Shape).numel = N := by
  simp [Shape.numel]

/-- The running sum: a window as long as the array, padded on the low side by one less, under wrapping addition from
    zero. When the array holds natural numbers as words, position `j` of the result holds the sum of those at
    positions `0, …, j`. -/
theorem cumsum_apply (N L : ℕ) (hL : L + 1 = N) (x : (⟨1, ![N]⟩ : Shape).Idx → BitVec 32) {u : Shape} (init : u.Idx → BitVec 32)
    (h : (⟨1, ![N]⟩ : Shape).ReduceWindows ![N] ![1] ![L] ![0] ⟨1, ![N]⟩) (hu : 0 < u.numel)
    (hv : init (Shape.Idx.first hu) = 0#32) (b : ℕ → ℕ) (hx : ∀ q : Fin N, x (ix1 q) = BitVec.ofNat 32 (b q.val))
    (j : Fin N) :
    Host.reduceWindow IntOp.addi ![N] ![1] ![L] ![0] x init h hu (ix1 j)
      = BitVec.ofNat 32 (∑ q ∈ Finset.range (j.val + 1), b q) := by
  have hj := j.isLt
  unfold Host.reduceWindow
  dsimp only
  rw [hv, foldl_addi_finRange, BitVec.zero_add]
  trans (∑ k : Fin (⟨1, ![N]⟩ : Shape).numel,
      if L ≤ j.val + k.val ∧ j.val + k.val - L < N then BitVec.ofNat 32 (b (j.val + k.val - L)) else (0 : BitVec 32))
  · refine Finset.sum_congr rfl fun k _ => ?_
    -- the window position: the result's coordinate plus the offset in the window
    have e : ∀ a : Fin 1, (ix1 j (Fin.cast rfl a)).val * ![1] a + ((⟨1, ![N]⟩ : Shape).rowMajor.symm k a).val
        = j.val + k.val := by
      intro a
      match a with
      | ⟨0, _⟩ =>
        show j.val * 1 + ((⟨1, ![N]⟩ : Shape).rowMajor.symm k 0).val = _
        rw [rowMajor_symm_one_val, Nat.mul_one]
    by_cases hc : L ≤ j.val + k.val ∧ j.val + k.val - L < N
    · rw [if_pos hc]
      split_ifs with hin
      · refine (congrArg x (funext fun a => ?_)).trans (hx ⟨j.val + k.val - L, hc.2⟩)
        match a with
        | ⟨0, _⟩ => exact Fin.ext (by show _ - L = j.val + k.val - L; rw [e ⟨0, _⟩])
      · exact absurd (fun a => by rw [e a]; match a with | ⟨0, _⟩ => exact hc) hin
    · rw [if_neg hc]
      split_ifs with hin
      · have h0 := hin 0
        rw [e 0] at h0
        exact absurd h0 hc
      · rfl
  · rw [Fin.sum_univ_eq_sum_range
      (fun m => if L ≤ j.val + m ∧ j.val + m - L < N then BitVec.ofNat 32 (b (j.val + m - L)) else (0 : BitVec 32)), numel_one,
      ← Finset.sum_filter]
    have hfil : (Finset.range N).filter (fun m => L ≤ j.val + m ∧ j.val + m - L < N) = Finset.Ico (L - j.val) N := by
      ext m
      simp only [Finset.mem_filter, Finset.mem_range, Finset.mem_Ico]
      omega
    have hlen : N - (L - j.val) = j.val + 1 := by omega
    rw [hfil, Finset.sum_Ico_eq_sum_range, hlen, ← BitVec.natCast_eq_ofNat, Nat.cast_sum]
    refine Finset.sum_congr rfl fun q hq => ?_
    rw [BitVec.natCast_eq_ofNat]
    have hq' := Finset.mem_range.1 hq
    have : j.val + (L - j.val + q) - L = q := by omega
    rw [this]

/-- A scatter read at one index: the left fold of the body, from the operand's element there, over the update
    positions that land on that index, in row-major order. -/
theorem scatter_apply {s si u : Shape} {w : ℕ} {α : Type} (d : ScatterDims s si u) (f : α → α → α)
    (x : s.Idx → α) (idx : IVec si w) (upd : u.Idx → α) (i0 : s.Idx) :
    Host.scatter d f x idx upd i0
      = ((List.finRange u.numel).filter fun n => d.resultIdx? (u.rowMajor.symm n) idx = some i0).foldl
          (fun acc n => f acc (upd (u.rowMajor.symm n))) (x i0) := by
  unfold Host.scatter
  generalize List.finRange u.numel = l
  induction l generalizing x with
  | nil => rfl
  | cons n l ih =>
    rw [List.foldl_cons, ih, List.filter_cons]
    cases hn : d.resultIdx? (u.rowMajor.symm n) idx with
    | none => simp
    | some i =>
      by_cases hi : i = i0
      · subst hi; simp
      · have hi' : ¬ i0 = i := fun h => hi h.symm
        simp [hi, hi']

/-- Folding additions over the members of a list that satisfy a condition adds nothing for the others. -/
theorem filter_foldl_addi {β : Type} (P : β → Prop) [DecidablePred P] (g : β → BitVec 32) (l : List β) (v : BitVec 32) :
    (l.filter fun n => P n).foldl (fun acc n => IntOp.addi acc (g n)) v
      = l.foldl (fun acc n => IntOp.addi acc (if P n then g n else 0)) v := by
  induction l generalizing v with
  | nil => rfl
  | cons n l ih =>
    rw [List.filter_cons, List.foldl_cons]
    by_cases hP : P n
    · rw [if_pos (by simpa using hP), List.foldl_cons, if_pos hP]
      exact ih _
    · rw [if_neg (by simpa using hP), if_neg hP, ih]
      congr 1
      unfold IntOp.addi
      rw [add_zero]

/-- An additive scatter read at one index: the operand's element there plus the updates that land on it. -/
theorem scatter_addi_apply {s si u : Shape} {w : ℕ} (d : ScatterDims s si u)
    (x : s.Idx → BitVec 32) (idx : IVec si w) (upd : u.Idx → BitVec 32) (i0 : s.Idx) :
    Host.scatter d IntOp.addi x idx upd i0
      = x i0 + ∑ n : Fin u.numel,
          if d.resultIdx? (u.rowMajor.symm n) idx = some i0 then upd (u.rowMajor.symm n) else 0 := by
  rw [scatter_apply, filter_foldl_addi (fun n => d.resultIdx? (u.rowMajor.symm n) idx = some i0), foldl_addi_finRange]

end Cert.LibHostFolds

end
-- ==== Proof.RefPlaces.lean ====
/-
  The integer pipeline of the reference read as arithmetic: the strict-lower-triangle mask, flattened, its running
  count, the count of positions at each running count, and the running sum of those counts, which is the position
  of the k-th entry below the diagonal.
-/
import proofs.«139411_j39719857553609_2_alg».proof.Proof.RefTerms
import proofs.«139411_j39719857553609_2_alg».proof.Proof.TriDefs
import proofs.«139411_j39719857553609_2_alg».proof.Proof.Gen.ReferenceIdeal
import proofs.«139411_j39719857553609_2_alg».proof.Proof.LibHostFolds
import Idealize.ShloMosaic.PureOps.Ideal
import Idealize.ShloMosaic.Lib.ValueIdx
import Idealize.ShloMosaic.Lib.IdealHost
import Idealize.ShloMosaic.Lib.Pipeline.Value
import Mathlib.Data.BitVec
import Mathlib.Algebra.BigOperators.Fin
import Mathlib.Algebra.BigOperators.Intervals

noncomputable section

namespace Cert.ReferenceIdeal.Places

open Idealize.ShloMosaic Idealize.ShloMosaic.ValueIdx Cert.ReferenceIdeal Cert.ReferenceIdeal.Terms Cert.ReferenceIdeal.Gen
open Cert.LibHostFolds
open scoped BigOperators

/-- Signed comparison of two numbers below 64, the first lowered by one. -/
theorem sle_pred (a b : Fin 64) :
    (BitVec.ofNat 32 b.val).sle (BitVec.ofNat 32 a.val + 4294967295#32) = decide (b.val < a.val) := by
  revert a b; decide

/-- The constant one, broadcast, reads the real one. -/
theorem ones_apply (i : S64x64.Idx) : val_main_v0 (F := Ideal) i = (1 : EReal) := by
  unfold val_main_v0 val_main_cst
  rw [broadcastInDim_scalar_apply, constant_apply, Ideal.ofBits_one_f32]

/-- The constant zero, broadcast, reads the real zero. -/
theorem zeros_apply (i : S64x64.Idx) : val_main_v2 (F := Ideal) i = (0 : EReal) := by
  unfold val_main_v2 val_main_cst_0
  rw [broadcastInDim_scalar_apply, constant_apply, Ideal.ofBits_zero_f32]

theorem zeros'_apply (i : S64x64.Idx) : val_main_call0_v5 (F := Ideal) i = (0 : EReal) := by
  unfold val_main_call0_v5 val_main_call0_cst
  rw [broadcastInDim_scalar_apply, constant_apply, Ideal.ofBits_zero_f32]

/-- The comparison of the shifted row number with the column number. -/
theorem tri_cond_apply (a b : Fin 64) :
    val_main_call0_v4 (F := Ideal) (ix2 a b) = if b.val < a.val then 1#1 else 0#1 := by
  unfold val_main_call0_v4 val_main_call0_v2 val_main_call0_v0 val_main_call0_v1 val_main_call0_c val_main_call0_v3
  show IntOp.cmpi .sge (IntOp.addi (BitVec.ofNat 32 a.val) (broadcastInDim S64x64 ![] _ (constantI S_ 32 4294967295#32) (ix2 a b)))
      (BitVec.ofNat 32 b.val) = _
  rw [broadcastInDim_scalar_apply]
  show BitVec.ofBool ((BitVec.ofNat 32 b.val).sle (BitVec.ofNat 32 a.val + 4294967295#32)) = _
  rw [sle_pred]
  by_cases h : b.val < a.val <;> simp [h]

/-- The mask of the strict lower triangle: the float comparison with zero of a select of one and zero. -/
theorem mask_apply (a b : Fin 64) :
    val_main_v3 (F := Ideal) (ix2 a b) = if b.val < a.val then 1#1 else 0#1 := by
  unfold val_main_v3
  rw [cmpf_apply, zeros_apply]
  unfold val_main_v1
  rw [select_apply, tri_cond_apply, ones_apply, zeros'_apply]
  show Ideal.cmp .une _ _ = _
  by_cases h : b.val < a.val
  · simp only [if_pos h, select_one]
    simp [Ideal.cmp]
  · simp only [if_neg h, select_zero]
    simp [Ideal.cmp]

/-- The mask flattened row by row and widened to a 32-bit word. -/
theorem flat_apply (p : Fin 4096) :
    val_main_call1_v1 (F := Ideal) (ix1 p) = if Cert.Tri.below p.val then 1#32 else 0#32 := by
  unfold val_main_call1_v1
  show (val_main_call1_v0 (F := Ideal) (ix1 p)).setWidth 32 = _
  unfold val_main_call1_v0
  have hp := p.isLt
  rw [shapeCast_apply (val_main_v3 (F := Ideal)) _ (ix1 p)
    (ix2 (⟨p.val / 64, by omega⟩ : Fin 64) (⟨p.val % 64, Nat.mod_lt _ (by norm_num)⟩ : Fin 64))
    (by rw [Shape.rowMajor_val_two, Shape.rowMajor_val_one]; show p.val / 64 * 64 + p.val % 64 = p.val; omega)]
  rw [mask_apply]
  by_cases h : Cert.Tri.below p.val
  · have h' : p.val % 64 < p.val / 64 := h
    rw [if_pos h]
    show BitVec.setWidth 32 (if p.val % 64 < p.val / 64 then 1#1 else 0#1) = _
    rw [if_pos h']; rfl
  · have h' : ¬ p.val % 64 < p.val / 64 := h
    rw [if_neg h]
    show BitVec.setWidth 32 (if p.val % 64 < p.val / 64 then 1#1 else 0#1) = _
    rw [if_neg h']; rfl

/-- The running count of positions below the diagonal. -/
theorem run_apply (p : Fin 4096) :
    val_main_v4 (F := Ideal) (ix1 p) = BitVec.ofNat 32 (Cert.Tri.run p.val) := by
  unfold val_main_v4
  refine (cumsum_apply 4096 4095 rfl (val_main_call1_v1 (F := Ideal)) (val_main_call1_call0_v0 (F := Ideal)) _ _ rfl
    (fun q => if Cert.Tri.below q then 1 else 0) (fun q => ?_) p).trans ?_
  · rw [flat_apply]
    by_cases hq : Cert.Tri.below q.val
    · rw [if_pos hq, if_pos hq]
    · rw [if_neg hq, if_neg hq]
  · unfold Cert.Tri.run
    rw [Finset.card_filter]

/-- The running count never exceeds the number of positions counted. -/
theorem run_le (p : ℕ) : Cert.Tri.run p ≤ p + 1 := by
  unfold Cert.Tri.run
  exact (Finset.card_filter_le _ _).trans (by simp)

/-- A word holding a number up to 4096 is not negative when read signed. -/
theorem slt_zero_small (r : ℕ) (hr : r ≤ 4096) : (BitVec.ofNat 32 r).slt 0#32 = false := by
  rw [BitVec.slt_zero_eq_msb, BitVec.msb_eq_decide, BitVec.toNat_ofNat]
  simp
  omega

/-- Clipping at zero and normalising a negative index leave the running count as it is. -/
theorem norm_apply (p : Fin 4096) :
    val_main_v11 (F := Ideal) (ix1 p) = BitVec.ofNat 32 (Cert.Tri.run p.val) := by
  have hr : Cert.Tri.run p.val ≤ 4096 := (run_le p.val).trans (by have := p.isLt; omega)
  have h6 : val_main_v6 (F := Ideal) (ix1 p) = BitVec.ofNat 32 (Cert.Tri.run p.val) := by
    unfold val_main_v6
    show IntOp.maxsi (0#32) (val_main_v4 (F := Ideal) (ix1 p)) = _
    rw [run_apply]
    unfold IntOp.maxsi
    rw [slt_zero_small _ hr]
    rfl
  unfold val_main_v11
  rw [select_apply]
  have h8 : val_main_v8 (F := Ideal) (ix1 p) = 0#1 := by
    unfold val_main_v8
    show IntOp.cmpi .slt (val_main_v6 (F := Ideal) (ix1 p)) (0#32) = _
    rw [h6]
    unfold IntOp.cmpi
    show BitVec.ofBool ((BitVec.ofNat 32 (Cert.Tri.run p.val)).slt 0#32) = _
    rw [slt_zero_small _ hr]
    rfl
  rw [h8, select_zero, h6]

/-- The scatter's index array: one column holding the running counts. -/
theorem idx_apply (p : Fin 4096) (c : Fin 1) :
    val_main_v12 (F := Ideal) (ix2 p c) = BitVec.ofNat 32 (Cert.Tri.run p.val) := by
  unfold val_main_v12
  rw [broadcastInDim_apply _ _ _ _ (ix1 p) (fun a => by match a with | ⟨0, _⟩ => rfl)]
  exact norm_apply p

/-- The dimension numbers of the scatter of ones: no window axes, the operand's axis inserted. -/
abbrev dS : ScatterDims S2016 S4096x1 S4096 := scatter_S2016_S4096x1_S4096_n_0_0_1

/-- The start of the window of update position `p`: the index array's entry in row `p`, read signed. -/
theorem start_eq (idx : IVec S4096x1 32) (p : Fin 4096) (a : Fin 1) :
    dS.start (ix1 p) idx a = (idx (ix2 p 0)).toInt := by
  obtain rfl : a = 0 := Subsingleton.elim _ _
  unfold ScatterDims.start
  rw [dif_pos (by decide)]
  refine congrArg (fun j => (idx j).toInt) (funext fun b => ?_)
  match b with
  | ⟨0, _⟩ => rfl
  | ⟨1, _⟩ => rfl

/-- The operand's one axis is inserted: the window coordinate is zero. -/
theorem window_eq (p : Fin 4096) (a : Fin 1) : dS.window (ix1 p) a = 0 := by
  obtain rfl : a = 0 := Subsingleton.elim _ _
  unfold ScatterDims.window
  rw [dif_neg (by decide)]

/-- Update position `p` lands on index `k` exactly when the index array's entry in row `p`, read signed, is `k`
    (an entry outside the operand lands nowhere). -/
theorem lands_iff (idx : IVec S4096x1 32) (p : Fin 4096) (k : Fin 2016) :
    dS.resultIdx? (ix1 p) idx = some (ix1 k) ↔ (idx (ix2 p 0)).toInt = (k.val : ℤ) := by
  have hk := k.isLt
  have hcoord : ∀ a : Fin 1, dS.start (ix1 p) idx a + (dS.window (ix1 p) a : ℤ) = (idx (ix2 p 0)).toInt := by
    intro a; rw [start_eq, window_eq]; simp
  unfold ScatterDims.resultIdx?
  split_ifs with hin
  · have hin0 : 0 ≤ dS.start (ix1 p) idx 0 + (dS.window (ix1 p) 0 : ℤ)
        ∧ dS.start (ix1 p) idx 0 + (dS.window (ix1 p) 0 : ℤ) < 2016 := hin 0
    rw [hcoord] at hin0
    rw [Option.some.injEq]
    constructor
    · intro he
      have h0 : (dS.start (ix1 p) idx 0 + (dS.window (ix1 p) 0 : ℤ)).toNat = k.val :=
        congrArg Fin.val (congrFun he 0)
      rw [hcoord] at h0
      omega
    · intro he
      funext a
      obtain rfl : a = 0 := Subsingleton.elim _ _
      refine Fin.ext ?_
      show (dS.start (ix1 p) idx 0 + (dS.window (ix1 p) 0 : ℤ)).toNat = k.val
      rw [hcoord]
      omega
  · constructor
    · intro he
      exact absurd he (by simp)
    · intro he
      refine absurd (fun a => ?_) hin
      obtain rfl : a = 0 := Subsingleton.elim _ _
      show 0 ≤ dS.start (ix1 p) idx 0 + (dS.window (ix1 p) 0 : ℤ)
        ∧ dS.start (ix1 p) idx 0 + (dS.window (ix1 p) 0 : ℤ) < 2016
      rw [hcoord]
      omega

/-- A word holding a number up to 4096 reads signed as that number. -/
theorem toInt_small (r : ℕ) (hr : r ≤ 4096) : (BitVec.ofNat 32 r).toInt = (r : ℤ) := by
  have hmod : r % 2 ^ 32 = r := Nat.mod_eq_of_lt (by omega)
  rw [BitVec.toInt_eq_toNat_of_lt (by rw [BitVec.toNat_ofNat, hmod]; omega), BitVec.toNat_ofNat, hmod]

/-- The scatter of ones at the running counts: entry `k` counts the positions whose running count is `k`. -/
theorem counts_apply (k : Fin 2016) :
    val_main_v14 (F := Ideal) (ix1 k)
      = BitVec.ofNat 32 ((Finset.range 4096).filter fun p => Cert.Tri.run p = k.val).card := by
  unfold val_main_v14
  show Host.scatter dS IntOp.addi (val_main_v5 (F := Ideal)) (val_main_v12 (F := Ideal)) (val_main_v13 (F := Ideal))
    (ix1 k) = _
  rw [scatter_addi_apply]
  have h5 : val_main_v5 (F := Ideal) (ix1 k) = 0#32 := rfl
  rw [h5, BitVec.zero_add]
  trans (∑ n : Fin S4096.numel, if Cert.Tri.run n.val = k.val then (1 : BitVec 32) else 0)
  · refine Finset.sum_congr rfl fun n _ => ?_
    have hn : n.val < 4096 := lt_of_lt_of_eq n.isLt (numel_one 4096)
    have hsym : S4096.rowMajor.symm n = ix1 ⟨n.val, hn⟩ := by
      rw [eq_ix1 (S4096.rowMajor.symm n)]
      exact congrArg ix1 (Fin.ext (rowMajor_symm_one_val n))
    rw [hsym]
    have hiff := lands_iff (val_main_v12 (F := Ideal)) ⟨n.val, hn⟩ k
    have hr : Cert.Tri.run n.val ≤ 4096 := (run_le n.val).trans (by omega)
    rw [idx_apply, toInt_small _ hr, Nat.cast_inj] at hiff
    have h13 : val_main_v13 (F := Ideal) (ix1 ⟨n.val, hn⟩) = 1#32 := rfl
    by_cases hc : Cert.Tri.run n.val = k.val
    · rw [if_pos (hiff.2 hc), if_pos hc, h13]
      rfl
    · rw [if_neg (fun h => hc (hiff.1 h)), if_neg hc]
  · rw [Fin.sum_univ_eq_sum_range (fun m => if Cert.Tri.run m = k.val then (1 : BitVec 32) else 0), numel_one,
      Finset.card_filter, ← BitVec.natCast_eq_ofNat, Nat.cast_sum]
    refine Finset.sum_congr rfl fun m _ => ?_
    split_ifs <;> simp

/-- The positions whose running count is at most `k`, sorted by their running count `0, …, k`. -/
theorem place_eq_sum (k : ℕ) :
    ∑ q ∈ Finset.range (k + 1), ((Finset.range 4096).filter fun p => Cert.Tri.run p = q).card
      = Cert.Tri.place k := by
  unfold Cert.Tri.place
  rw [Finset.card_eq_sum_card_fiberwise (f := Cert.Tri.run) (t := Finset.range (k + 1))
    (s := (Finset.range 4096).filter fun p => Cert.Tri.run p ≤ k)
    (fun p hp => by
      have hp' := (Finset.mem_filter.1 (Finset.mem_coe.1 hp)).2
      exact Finset.mem_coe.2 (Finset.mem_range.2 (by omega)))]
  refine Finset.sum_congr rfl fun q hq => ?_
  have hq' := Finset.mem_range.1 hq
  rw [Finset.filter_filter]
  congr 1
  ext p
  simp only [Finset.mem_filter, Finset.mem_range]
  constructor
  · rintro ⟨hp, he⟩
    exact ⟨hp, by omega, he⟩
  · rintro ⟨hp, -, he⟩
    exact ⟨hp, he⟩

/-- The running sum of the counts: entry `k` is the number of positions whose running count is at most `k`. -/
theorem place_apply (k : Fin 2016) :
    val_main_v15 (F := Ideal) (ix1 k) = BitVec.ofNat 32 (Cert.Tri.place k.val) := by
  unfold val_main_v15
  refine (cumsum_apply 2016 2015 rfl (val_main_v14 (F := Ideal)) (val_main_call3_call0_v0 (F := Ideal)) _ _ rfl
    (fun q => ((Finset.range 4096).filter fun p => Cert.Tri.run p = q).card) (fun q => counts_apply q) k).trans ?_
  rw [place_eq_sum]

/-- The flat position of the `k`-th entry strictly below the diagonal, as the reference computes it. -/
theorem places_eq :
    (val_main_v15 (F := Ideal)) = fun k : S2016.Idx => BitVec.ofNat 32 (Cert.Tri.place (k 0).val) := by
  funext k
  obtain ⟨q, rfl⟩ : ∃ q : Fin 2016, k = ix1 q := ⟨k 0, eq_ix1 k⟩
  exact place_apply q

end Cert.ReferenceIdeal.Places

end
-- ==== Proof.RefRowCol.lean ====
/-
  The row and the column of the k-th entry strictly below the diagonal of a 64 x 64 matrix read row by row.

  Part 1 is arithmetic over the natural numbers. With `tri r = r (r - 1) / 2` the number of such entries in the rows
  before row `r`, every `k < 2016` is `tri i + j` for exactly one pair `j < i < 64`, and the flat position of the
  k-th entry is `64 i + j`: the running count at position `p` in row `r`, column `c` is `tri r + min (c + 1) r`, so the
  positions whose running count is at most `tri i + j` are exactly those before `64 i + j`.

  Part 2 reads the tail of the reference program's integer pipeline one element at a time: from the word of a
  position `n ≤ 4096`, the floor division by 64 (resp. by 1), the remainder modulo 64 with the divisor's sign and the
  wrap of a negative index are all pointwise on 32-bit words, and on such a word they give the words of
  `n / 64 % 64` and of `n % 64`.
-/
import proofs.«139411_j39719857553609_2_alg».proof.Proof.RefTerms
import proofs.«139411_j39719857553609_2_alg».proof.Proof.TriDefs
import proofs.«139411_j39719857553609_2_alg».proof.Proof.Gen.ReferenceIdeal
import Idealize.ShloMosaic.PureOps.Ideal
import Idealize.ShloMosaic.Lib.Decide
import Mathlib.Tactic

namespace Cert.ReferenceIdeal.RowCol

section Arithmetic

open Cert.Tri

/-! ## The triangle numbers -/

theorem tri_zero : tri 0 = 0 := rfl

theorem tri_succ (r : ℕ) : tri (r + 1) = tri r + r := by
  unfold tri
  cases r with
  | zero => rfl
  | succ n =>
    have h : (n + 1 + 1) * (n + 1 + 1 - 1) = (n + 1) * (n + 1 - 1) + 2 * (n + 1) := by
      simp only [Nat.add_sub_cancel]; ring
    rw [h, Nat.add_mul_div_left _ _ (by norm_num : 0 < 2)]

theorem tri_mono {r s : ℕ} (h : r ≤ s) : tri r ≤ tri s := by
  induction s, h using Nat.le_induction with
  | base => exact le_rfl
  | succ n _ ih => rw [tri_succ]; omega

theorem tri_64 : tri 64 = 2016 := by decide

/-! ## The running count in closed form -/

theorem run_zero : run 0 = 0 := by decide

theorem run_succ (p : ℕ) : run (p + 1) = run p + (if below (p + 1) then 1 else 0) := by
  unfold run
  rw [Finset.range_add_one (n := p + 1), Finset.filter_insert]
  split_ifs with h
  · rw [Finset.card_insert_of_notMem]
    simp
  · rfl

theorem run_eq (p : ℕ) (hp : p < 4096) : run p = tri (p / 64) + min (p % 64 + 1) (p / 64) := by
  induction p with
  | zero => rw [run_zero]; decide
  | succ p ih =>
    have ih := ih (by omega)
    rw [run_succ, ih]
    have hb : below (p + 1) ↔ (p + 1) % 64 < (p + 1) / 64 := Iff.rfl
    by_cases hc : p % 64 = 63
    · have h1 : (p + 1) / 64 = p / 64 + 1 := by omega
      have h2 : (p + 1) % 64 = 0 := by omega
      have h3 : p / 64 < 64 := by omega
      rw [h1, h2] at hb
      rw [h1, h2, tri_succ, if_pos (hb.2 (by omega))]
      omega
    · have h1 : (p + 1) / 64 = p / 64 := by omega
      have h2 : (p + 1) % 64 = p % 64 + 1 := by omega
      rw [h1, h2] at hb
      rw [h1, h2]
      by_cases hlt : p % 64 + 1 < p / 64
      · rw [if_pos (hb.2 hlt)]; omega
      · rw [if_neg (fun h => hlt (hb.1 h))]; omega

/-- The positions whose running count is at most `tri i + j` are exactly those before row `i`, column `j`. -/
theorem run_le_iff (i j p : ℕ) (hj : j < i) (hi : i < 64) (hp : p < 4096) :
    run p ≤ tri i + j ↔ p < 64 * i + j := by
  rw [run_eq p hp]
  rcases Nat.lt_trichotomy (p / 64) i with h | h | h
  · have h1 : tri (p / 64 + 1) ≤ tri i := tri_mono h
    rw [tri_succ] at h1
    constructor
    · intro _; omega
    · intro _; omega
  · rw [h]
    have : p = 64 * i + p % 64 := by omega
    constructor
    · intro h'; omega
    · intro h'; omega
  · have h1 : tri (i + 1) ≤ tri (p / 64) := tri_mono h
    rw [tri_succ] at h1
    constructor
    · intro h'; omega
    · intro h'; omega

theorem place_tri (i j : ℕ) (hj : j < i) (hi : i < 64) : Cert.Tri.place (Cert.Tri.tri i + j) = 64 * i + j := by
  unfold place
  have hset : (Finset.range 4096).filter (fun p => run p ≤ tri i + j) = Finset.range (64 * i + j) := by
    ext p
    simp only [Finset.mem_filter, Finset.mem_range]
    constructor
    · rintro ⟨hp, h⟩
      exact (run_le_iff i j p hj hi hp).1 h
    · intro h
      have hp : p < 4096 := by omega
      exact ⟨hp, (run_le_iff i j p hj hi hp).2 h⟩
  rw [hset, Finset.card_range]

theorem tri_add_lt (i j : ℕ) (hj : j < i) (hi : i < 64) : Cert.Tri.tri i + j < 2016 := by
  have h1 : tri (i + 1) ≤ tri 64 := tri_mono (by omega)
  rw [tri_succ, tri_64] at h1
  omega

theorem exists_tri_lt (n k : ℕ) (hk : k < tri n) : ∃ i j, j < i ∧ i < n ∧ k = tri i + j := by
  induction n with
  | zero => rw [tri_zero] at hk; omega
  | succ n ih =>
    rw [tri_succ] at hk
    by_cases h : k < tri n
    · obtain ⟨i, j, h1, h2, h3⟩ := ih h
      exact ⟨i, j, h1, by omega, h3⟩
    · exact ⟨n, k - tri n, by omega, by omega, by omega⟩

theorem exists_tri (k : ℕ) (hk : k < 2016) : ∃ i j, j < i ∧ i < 64 ∧ k = Cert.Tri.tri i + j :=
  exists_tri_lt 64 k (by rw [tri_64]; exact hk)

theorem tri_inj (i j i' j' : ℕ) (hj : j < i) (hj' : j' < i')
    (h : Cert.Tri.tri i + j = Cert.Tri.tri i' + j') : i = i' ∧ j = j' := by
  rcases Nat.lt_trichotomy i i' with hlt | heq | hgt
  · have h1 : tri (i + 1) ≤ tri i' := tri_mono hlt
    rw [tri_succ] at h1
    omega
  · subst heq
    exact ⟨rfl, by omega⟩
  · have h1 : tri (i' + 1) ≤ tri i := tri_mono hgt
    rw [tri_succ] at h1
    omega

end Arithmetic

section Words

open Idealize.ShloMosaic Idealize.SL.Sem Cert.ReferenceIdeal Cert.ReferenceIdeal.Terms Cert.Tri

/-! ## The tail of the integer pipeline, one element at a time -/

/-- The sign of a word as a two's-complement integer: `-1`, `0` or `1`. -/
def sgn (x : BitVec 32) : BitVec 32 := if x = 0 then 0 else if x.msb then -1 else 1

/-- The quotient rounded toward minus infinity, from the quotient rounded toward zero: one less when the signs differ
    and the division is not exact. -/
def floorDiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32) (IntOp.divsi .host x d)

/-- The remainder with the divisor's sign (a zero divisor read as one), from the remainder with the dividend's sign. -/
def floorRem (x d0 : BitVec 32) : BitVec 32 :=
  let d : BitVec 32 := Scalar.select (IntOp.cmpi .eq d0 0#32) 1#32 d0
  let r : BitVec 32 := IntOp.remsi .host x d
  Scalar.select
    (IntOp.andi (IntOp.cmpi .ne (IntOp.cmpi .slt r 0#32) (IntOp.cmpi .slt d 0#32)) (IntOp.cmpi .ne r 0#32))
    (IntOp.addi r d) r

/-- A negative index counted from the end of an axis of 64. -/
def wrap (x : BitVec 32) : BitVec 32 := Scalar.select (IntOp.cmpi .slt x 0#32) (IntOp.addi x 64#32) x

def rowChain (x : BitVec 32) : BitVec 32 := wrap (floorRem (floorDiv x 64#32) 64#32)
def colChain (x : BitVec 32) : BitVec 32 := wrap (floorRem (floorDiv x 1#32) 64#32)

theorem rowChain_ofNat : ∀ n : Fin 4097, rowChain (BitVec.ofNat 32 n.val) = BitVec.ofNat 32 (n.val / 64 % 64) := by
  decide +kernel

theorem colChain_ofNat : ∀ n : Fin 4097, colChain (BitVec.ofNat 32 n.val) = BitVec.ofNat 32 (n.val % 64) := by
  decide +kernel

attribute [local irreducible] val_main_v15 in
theorem v25_chain : (val_main_v25 (F := Ideal)) = fun k => rowChain (val_main_v15 (F := Ideal) k) := by
  funext k
  rfl

attribute [local irreducible] val_main_v15 in
theorem v30_chain : (val_main_v30 (F := Ideal)) = fun k => colChain (val_main_v15 (F := Ideal) k) := by
  funext k
  rfl

theorem place_le (k : ℕ) : place k ≤ 4096 := by
  unfold place
  exact (Finset.card_filter_le _ _).trans (by simp)

theorem rows_eq
    (h15 : (Cert.ReferenceIdeal.Terms.val_main_v15 (F := Ideal)) = fun k => BitVec.ofNat 32 (Cert.Tri.place (k 0).val)) :
    (Cert.ReferenceIdeal.Terms.val_main_v25 (F := Ideal)) = fun k => BitVec.ofNat 32 (Cert.Tri.place (k 0).val / 64 % 64) := by
  rw [v25_chain, h15]
  funext k
  exact rowChain_ofNat ⟨place (k 0).val, Nat.lt_succ_of_le (place_le _)⟩

theorem cols_eq
    (h15 : (Cert.ReferenceIdeal.Terms.val_main_v15 (F := Ideal)) = fun k => BitVec.ofNat 32 (Cert.Tri.place (k 0).val)) :
    (Cert.ReferenceIdeal.Terms.val_main_v30 (F := Ideal)) = fun k => BitVec.ofNat 32 (Cert.Tri.place (k 0).val % 64) := by
  rw [v30_chain, h15]
  funext k
  exact colChain_ofNat ⟨place (k 0).val, Nat.lt_succ_of_le (place_le _)⟩

end Words

end Cert.ReferenceIdeal.RowCol
-- ==== Proof.LibScatterSet.lean ====
/-
  A scatter read at one index, for any shapes and any dimension record.

  A scatter folds over the update positions in row-major order; each update position has a landing index in the operand
  (its start index, read signed off the index array, plus its window coordinate, on every axis), or none when that falls
  outside the operand, and the step replaces the element at the landing index by the body applied to it and to the
  update.

  `resultIdx?_eq_some_iff`: update position `j` lands on the operand index `i` exactly when, on every operand axis, the start
  plus the window coordinate of `j` is the coordinate of `i`.

  `scatter_set_fold`: for a scatter whose body keeps the update and forgets the old element, folded over ANY list of update
  positions from ANY starting array: if every update position of the list that lands on `i` carries one and the same
  value `c`, and either some position of the list lands on `i` or the starting array already holds `c` at `i`, then the
  folded array holds `c` at `i`. (When several positions land on `i` the last one wins; the hypothesis that they all carry
  `c` makes the order irrelevant.) By induction on the list, the array being a variable.

  `scatter_set_apply`: the same for the whole scatter, with the list of all update positions: if every update position
  landing on `i` carries `c`, and one does or the operand holds `c` at `i`, the result holds `c` at `i`. With `c` the
  operand's own element it says an index no update lands on keeps the operand's element; with pairwise distinct landing
  indices it says the result at a landing index is that position's update.
-/
import Idealize.ShloMosaic.PureOps.ShapeOps
import Mathlib.Tactic

namespace Cert.LibScatterSet

open Idealize.ShloMosaic

variable {α : Type} {s si u : Shape} {w : ℕ}

/-- An update lands on `i` exactly when start plus window coordinate is `i`'s coordinate on every axis. -/
theorem resultIdx?_eq_some_iff (d : ScatterDims s si u) (j : u.Idx) (idx : IVec si w) (i : s.Idx) :
    d.resultIdx? j idx = some i ↔ ∀ a, d.start j idx a + d.window j a = ((i a).val : ℤ) := by
  unfold ScatterDims.resultIdx?
  constructor
  · intro h
    split at h
    · rename_i hin
      intro a
      have := congrFun (Option.some.inj h) a
      have h2 := congrArg Fin.val this
      simp only at h2
      have := (hin a).1
      omega
    · exact absurd h (by simp)
  · intro h
    have hin : ∀ a, 0 ≤ d.start j idx a + d.window j a ∧ d.start j idx a + d.window j a < s.size a := by
      intro a
      rw [h a]
      exact ⟨Int.natCast_nonneg _, by exact_mod_cast (i a).isLt⟩
    rw [dif_pos hin]
    congr 1
    funext a
    apply Fin.ext
    simp only
    rw [h a]
    simp

/-- The fold of a scatter whose body keeps the update, read at `i`: when every update position of the list that lands on
    `i` carries the value `c`, and either one does or the operand holds `c` at `i`, the result holds `c` at `i`. -/
theorem scatter_set_fold (d : ScatterDims s si u) (idx : IVec si w) (upd : u.Idx → α) (c : α) (i : s.Idx)
    (L : List (Fin u.numel)) (x : s.Idx → α)
    (hval : ∀ n ∈ L, d.resultIdx? (u.rowMajor.symm n) idx = some i → upd (u.rowMajor.symm n) = c)
    (h : (∃ n ∈ L, d.resultIdx? (u.rowMajor.symm n) idx = some i) ∨ x i = c) :
    (L.foldl (fun r n =>
        match d.resultIdx? (u.rowMajor.symm n) idx with
        | some i0 => fun i' => if i' = i0 then (fun _ b => b) (r i0) (upd (u.rowMajor.symm n)) else r i'
        | none => r) x) i = c := by
  induction L generalizing x with
  | nil =>
    rcases h with ⟨n, hn, _⟩ | h
    · exact absurd hn (List.not_mem_nil)
    · exact h
  | cons n L ih =>
    rw [List.foldl_cons]
    apply ih
    · intro m hm; exact hval m (List.mem_cons_of_mem _ hm)
    · by_cases hL : ∃ m ∈ L, d.resultIdx? (u.rowMajor.symm m) idx = some i
      · exact Or.inl hL
      · right
        cases hres : d.resultIdx? (u.rowMajor.symm n) idx with
        | none =>
          simp only
          rcases h with ⟨m, hm, hmi⟩ | h
          · rcases List.mem_cons.1 hm with rfl | hm'
            · rw [hres] at hmi; exact absurd hmi (by simp)
            · exact absurd ⟨m, hm', hmi⟩ hL
          · exact h
        | some i0 =>
          simp only
          by_cases hi : i = i0
          · subst hi
            rw [if_pos rfl]
            exact hval n (List.mem_cons_self) hres
          · rw [if_neg hi]
            rcases h with ⟨m, hm, hmi⟩ | h
            · rcases List.mem_cons.1 hm with rfl | hm'
              · rw [hres] at hmi; exact absurd (Option.some.inj hmi).symm hi
              · exact absurd ⟨m, hm', hmi⟩ hL
            · exact h

/-- A scatter whose body keeps the update, read at `i`. -/
theorem scatter_set_apply (d : ScatterDims s si u) (x : s.Idx → α) (idx : IVec si w) (upd : u.Idx → α) (c : α) (i : s.Idx)
    (hval : ∀ j : u.Idx, d.resultIdx? j idx = some i → upd j = c)
    (h : (∃ j : u.Idx, d.resultIdx? j idx = some i) ∨ x i = c) :
    Host.scatter d (fun _ b => b) x idx upd i = c := by
  unfold Host.scatter
  apply scatter_set_fold
  · intro n _ hn; exact hval _ hn
  · rcases h with ⟨j, hj⟩ | h
    · left
      exact ⟨u.rowMajor j, List.mem_finRange _, by rw [Equiv.symm_apply_apply]; exact hj⟩
    · exact Or.inr h

end Cert.LibScatterSet
-- ==== Proof.RefValue.lean ====
/-
  The value of the reference program: the symmetric matrix built from each row of the argument.

  The program scatters the argument's columns into an array of zeros. Update position (B, k) of the argument is written
  at (B, row k, column k), where row k and column k are the coordinates of the k-th entry strictly below the diagonal
  of a 64 x 64 matrix read row by row; these pairs are pairwise distinct, so each element of the result meets at most
  one update and the order of the updates does not matter. Entry (B, r, c) of the scattered array is therefore the
  argument's entry (B, r (r - 1) / 2 + c) when c < r and zero otherwise: the strictly lower triangular matrix of row B.
  The program then adds the transpose of each matrix.

  Two general facts about a scatter read at one index are imported: an update lands there exactly when its start plus
  its window coordinate is that index on every axis, and, for a scatter whose body keeps the update, if every update
  landing there carries one value c, and one does or the operand holds c there, the result holds c there. Here the
  dimension record of this program's scatter is computed once with the index array a variable, the index array is read
  entry by entry, and the two facts are put together with the arithmetic of the triangle.
-/
import proofs.«139411_j39719857553609_2_alg».proof.Proof.RefTerms
import proofs.«139411_j39719857553609_2_alg».proof.Proof.Spec
import proofs.«139411_j39719857553609_2_alg».proof.Proof.RefRowCol
import proofs.«139411_j39719857553609_2_alg».proof.Proof.LibScatterSet
import proofs.«139411_j39719857553609_2_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Tactic

namespace Cert.ReferenceIdeal.RefValue

open Idealize.ShloMosaic Idealize.ShloMosaic.ValueIdx Idealize.SL.Sem Cert.ReferenceIdeal Cert.ReferenceIdeal.Terms
open Cert.LibScatterSet

section Specific

/-- The scatter's dimension record: update axis 0 is the window axis, on operand axis 0; operand axes 1 and 2 are the
    scattered ones, read off the two components of the index vector. -/
abbrev dS := scatter_S32768x64x64_S2016x2_S32768x2016_0_12_12_1

/-- Update position `j` reads the two components of its start index at row `j 1` of the index array. -/
theorem siIdx0 (j : S32768x2016.Idx) : dS.siIdx j ⟨0, by decide⟩ = ix2 (j 1) (0 : Fin 2) := by
  funext b
  match b with
  | ⟨0, _⟩ => rfl
  | ⟨1, _⟩ => rfl

theorem siIdx1 (j : S32768x2016.Idx) : dS.siIdx j ⟨1, by decide⟩ = ix2 (j 1) (1 : Fin 2) := by
  funext b
  match b with
  | ⟨0, _⟩ => rfl
  | ⟨1, _⟩ => rfl

/-- Start plus window coordinate on the three operand axes: the update's own row on axis 0, the two components of the
    index vector, read signed, on axes 1 and 2. -/
theorem sw0 (j : S32768x2016.Idx) (idx : IVec S2016x2 32) : dS.start j idx 0 + dS.window j 0 = ((j 0).val : ℤ) := by
  have h1 : dS.start j idx 0 = 0 := rfl
  have h2 : dS.window j 0 = (j 0).val := rfl
  rw [h1, h2]; simp

theorem sw1 (j : S32768x2016.Idx) (idx : IVec S2016x2 32) : dS.start j idx 1 + dS.window j 1 = (idx (ix2 (j 1) (0 : Fin 2))).toInt := by
  have h1 : dS.start j idx 1 = (idx (dS.siIdx j ⟨0, by decide⟩)).toInt := rfl
  have h2 : dS.window j 1 = 0 := rfl
  rw [h1, h2, siIdx0]; simp

theorem sw2 (j : S32768x2016.Idx) (idx : IVec S2016x2 32) : dS.start j idx 2 + dS.window j 2 = (idx (ix2 (j 1) (1 : Fin 2))).toInt := by
  have h1 : dS.start j idx 2 = (idx (dS.siIdx j ⟨1, by decide⟩)).toInt := rfl
  have h2 : dS.window j 2 = 0 := rfl
  rw [h1, h2, siIdx1]; simp

/-- A number below 64 is its word read signed. -/
theorem toInt_ofNat_lt (n : ℕ) (h : n < 64) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The index array, entry by entry: its two columns are the row table and the column table. -/
theorem v31_apply (k : Fin 2016) : val_main_v31 (F := Ideal) (ix2 k (0 : Fin 1)) = val_main_v25 (F := Ideal) (ix1 k) := by
  unfold val_main_v31
  exact broadcastInDim_apply _ _ _ _ (ix1 k) (fun a => match a with | ⟨0, _⟩ => rfl)

theorem v32_apply (k : Fin 2016) : val_main_v32 (F := Ideal) (ix2 k (0 : Fin 1)) = val_main_v30 (F := Ideal) (ix1 k) := by
  unfold val_main_v32
  exact broadcastInDim_apply _ _ _ _ (ix1 k) (fun a => match a with | ⟨0, _⟩ => rfl)

theorem v33_apply0 (k : Fin 2016) : val_main_v33 (F := Ideal) (ix2 k (0 : Fin 2)) = val_main_v25 (F := Ideal) (ix1 k) := by
  unfold val_main_v33
  refine (concatenate_pair_apply_left (t := S2016x2) (s₁ := S2016x1) (s₂ := S2016x1) (1 : Fin 2) _ _ _ (ix2 k (0 : Fin 2)) rfl (ix2 k (0 : Fin 1))
    (fun b => match b with | ⟨0, _⟩ => rfl | ⟨1, _⟩ => rfl)).trans ?_
  exact v31_apply k

theorem v33_apply1 (k : Fin 2016) : val_main_v33 (F := Ideal) (ix2 k (1 : Fin 2)) = val_main_v30 (F := Ideal) (ix1 k) := by
  unfold val_main_v33
  refine (concatenate_pair_apply_right (t := S2016x2) (s₁ := S2016x1) (s₂ := S2016x1) (1 : Fin 2) _ _ _ (ix2 k (1 : Fin 2)) rfl rfl (ix2 k (0 : Fin 1))
    (fun b => match b with | ⟨0, _⟩ => fun _ => rfl | ⟨1, _⟩ => fun h => absurd rfl h) rfl).trans ?_
  exact v32_apply k

end Specific

section Main

open Cert.ReferenceIdeal.RowCol

variable (h15 : (Cert.ReferenceIdeal.Terms.val_main_v15 (F := Ideal)) = fun k => BitVec.ofNat 32 (Cert.Tri.place (k 0).val))
include h15

/-- The first component of the k-th index vector, read signed, is the row of the k-th entry below the diagonal. -/
theorem idx0 (k : Fin 2016) :
    (val_main_v33 (F := Ideal) (ix2 k (0 : Fin 2))).toInt = ((Cert.Tri.place k.val / 64 % 64 : ℕ) : ℤ) := by
  rw [v33_apply0, rows_eq h15]
  exact toInt_ofNat_lt _ (Nat.mod_lt _ (by norm_num))

/-- The second component is its column. -/
theorem idx1 (k : Fin 2016) :
    (val_main_v33 (F := Ideal) (ix2 k (1 : Fin 2))).toInt = ((Cert.Tri.place k.val % 64 : ℕ) : ℤ) := by
  rw [v33_apply1, cols_eq h15]
  exact toInt_ofNat_lt _ (Nat.mod_lt _ (by norm_num))

/-- Update position (B, k) lands on (B, row of k, column of k). -/
theorem hit_iff (B : Fin 32768) (k : Fin 2016) (i : S32768x64x64.Idx) :
    dS.resultIdx? (ix2 B k) (val_main_v33 (F := Ideal)) = some i ↔
      (i 0).val = B.val ∧ (i 1).val = Cert.Tri.place k.val / 64 % 64 ∧ (i 2).val = Cert.Tri.place k.val % 64 := by
  rw [resultIdx?_eq_some_iff]
  have e0 := sw0 (ix2 B k) (val_main_v33 (F := Ideal))
  have e1 := sw1 (ix2 B k) (val_main_v33 (F := Ideal))
  have e2 := sw2 (ix2 B k) (val_main_v33 (F := Ideal))
  change _ = (B.val : ℤ) at e0
  change _ = (val_main_v33 (F := Ideal) (ix2 k (0 : Fin 2))).toInt at e1
  change _ = (val_main_v33 (F := Ideal) (ix2 k (1 : Fin 2))).toInt at e2
  rw [idx0 h15] at e1
  rw [idx1 h15] at e2
  constructor
  · intro h
    have h0 := (h 0).symm.trans e0
    have h1 := (h 1).symm.trans e1
    have h2 := (h 2).symm.trans e2
    exact ⟨by exact_mod_cast h0, by exact_mod_cast h1, by exact_mod_cast h2⟩
  · rintro ⟨h0, h1, h2⟩ a
    match a with
    | ⟨0, _⟩ => exact e0.trans (by exact_mod_cast h0.symm)
    | ⟨1, _⟩ => exact e1.trans (by exact_mod_cast h1.symm)
    | ⟨2, _⟩ => exact e2.trans (by exact_mod_cast h2.symm)

/-- The scattered array is the strictly lower triangular matrix of each row of the argument. -/
theorem v34_apply (a : (⟨S32768x2016, .f32⟩ : BufTy).Contents (Elt Ideal)) (B : Fin 32768) (r c : Fin 64) :
    val_main_v34 (F := Ideal) a (ix3 B r c) = Cert.Spec.lower (n := 32768) a B.val r.val c.val := by
  show Host.scatter dS (fun _ b => b) (val_main_v20 (F := Ideal)) (val_main_v33 (F := Ideal)) a (ix3 B r c) = _
  unfold Cert.Spec.lower
  -- what landing on (B, r, c) says of an update position (B', k) with k = tri r' + c'
  have key : ∀ (B' : Fin 32768) (k : Fin 2016) (r' c' : ℕ), c' < r' → r' < 64 → k.val = Cert.Tri.tri r' + c' →
      dS.resultIdx? (ix2 B' k) (val_main_v33 (F := Ideal)) = some (ix3 B r c) → B.val = B'.val ∧ r.val = r' ∧ c.val = c' := by
    intro B' k r' c' hc' hr' hk hj
    obtain ⟨h0, h1, h2⟩ := (hit_iff h15 B' k _).1 hj
    rw [hk, place_tri r' c' hc' hr'] at h1 h2
    change B.val = _ at h0
    change r.val = _ at h1
    change c.val = _ at h2
    exact ⟨h0, by omega, by omega⟩
  by_cases hcr : c.val < r.val
  · rw [if_pos hcr]
    have hk : Cert.Tri.tri r.val + c.val < 2016 := tri_add_lt _ _ hcr r.isLt
    unfold Cert.Spec.rowAt
    rw [dif_pos ⟨B.isLt, hk⟩]
    apply scatter_set_apply
    · intro j hj
      obtain ⟨B', k, rfl⟩ : ∃ (B' : Fin 32768) (k : Fin 2016), j = ix2 B' k := ⟨j 0, j 1, eq_ix2 j⟩
      obtain ⟨r', c', hc', hr', hkk⟩ := exists_tri k.val k.isLt
      obtain ⟨h0, h1, h2⟩ := key B' k r' c' hc' hr' hkk hj
      have eB : B' = ⟨B.val, B.isLt⟩ := Fin.ext h0.symm
      have ek : k = ⟨Cert.Tri.tri r.val + c.val, hk⟩ := Fin.ext (by show k.val = Cert.Tri.tri r.val + c.val; rw [hkk, h1, h2])
      rw [eB, ek]
    · left
      refine ⟨ix2 B ⟨Cert.Tri.tri r.val + c.val, hk⟩, (hit_iff h15 B ⟨_, hk⟩ _).2 ⟨rfl, ?_, ?_⟩⟩
      · show r.val = _
        rw [place_tri r.val c.val hcr r.isLt]
        have := r.isLt; omega
      · show c.val = _
        rw [place_tri r.val c.val hcr r.isLt]
        have := r.isLt; omega
  · rw [if_neg hcr]
    apply scatter_set_apply
    · intro j hj
      exfalso
      obtain ⟨B', k, rfl⟩ : ∃ (B' : Fin 32768) (k : Fin 2016), j = ix2 B' k := ⟨j 0, j 1, eq_ix2 j⟩
      obtain ⟨r', c', hc', hr', hkk⟩ := exists_tri k.val k.isLt
      obtain ⟨h0, h1, h2⟩ := key B' k r' c' hc' hr' hkk hj
      omega
    · right
      show Ideal.ofBits .f32 0x00000000#32 = 0
      exact Ideal.ofBits_zero_f32

omit h15 in
/-- The transposed array at (B, r, c) is the scattered array at (B, c, r). -/
theorem v35_apply (a : (⟨S32768x2016, .f32⟩ : BufTy).Contents (Elt Ideal)) (B : Fin 32768) (r c : Fin 64) :
    val_main_v35 (F := Ideal) a (ix3 B r c) = val_main_v34 (F := Ideal) a (ix3 B c r) := by
  unfold val_main_v35
  exact transpose_ix3_021_apply (m := 32768) (a := 64) (b := 64) (val_main_v34 (F := Ideal) a) _ B r c

omit h15 in
/-- The sum of the scattered array and its transpose, read at an index. -/
theorem v36_apply (a : (⟨S32768x2016, .f32⟩ : BufTy).Contents (Elt Ideal)) (i : S32768x64x64.Idx) :
    val_main_v36 (F := Ideal) a i = val_main_v34 (F := Ideal) a i + val_main_v35 (F := Ideal) a i := by
  unfold val_main_v36
  exact addf_apply (val_main_v34 (F := Ideal) a) (val_main_v35 (F := Ideal) a) i

/-- The reference's value is the symmetric matrix of each row of the argument. -/
theorem ref_value (a : (⟨Cert.ReferenceIdeal.S32768x2016, .f32⟩ : BufTy).Contents (Elt Ideal)) :
    Cert.ReferenceIdeal.Terms.val_main_v36 (F := Ideal) a = Cert.Spec.sym (n := 32768) a := by
  funext i
  obtain ⟨B, r, c, rfl⟩ : ∃ (B : Fin 32768) (r c : Fin 64), i = ix3 B r c := ⟨i 0, i 1, i 2, eq_ix3 i⟩
  rw [v36_apply, v35_apply, v34_apply h15, v34_apply h15]
  unfold Cert.Spec.sym
  rfl

end Main

end Cert.ReferenceIdeal.RefValue
-- ==== Proof.lean ====
/-
  The kernel against its reference, over the extended reals.

  Each row of the argument holds the 2016 entries strictly below the diagonal of a 64 x 64 matrix, row by row:
  entry (r, c) with c < r sits at flat position r (r - 1) / 2 + c. Both programs build from every row the symmetric
  matrix with zero diagonal: the strictly lower triangular matrix plus its transpose (`Cert.Spec.sym`).

  The kernel does it tile by tile, 256 rows at a time: it zeroes a scratch, copies the r entries of row r of the
  triangle from column r (r - 1) / 2 of the input block into row r of the scratch, and stores the scratch plus its
  transpose (`Cert.KernelIdeal.Block`, `Cert.KernelIdeal.Whole`).

  The reference computes the positions of the triangle's entries on the device — the mask of the strict lower triangle,
  its running count, a count of the running counts summed again, which is the flat position of the k-th entry, then
  that position's row and column — and scatters the argument's columns there, then adds the transpose
  (`Cert.ReferenceIdeal.Places`, `…RowCol`, `…RefValue`, over the run `…RefRun`). That the k-th entry, k = r (r - 1) / 2 + c,
  has row r and column c is the arithmetic that joins the two sides; no law of the extended reals is needed beyond the
  two sums being written in the same order, so the precondition is not used.

  The three frames are the programs' runs with the results dropped; the idealization rewrote nothing.
-/
import proofs.«139411_j39719857553609_2_alg».proof.Defs
import proofs.«139411_j39719857553609_2_alg».proof.Proof.Gen.Kernel
import proofs.«139411_j39719857553609_2_alg».proof.Proof.Gen.Kernel.Frame
import proofs.«139411_j39719857553609_2_alg».proof.Proof.Gen.KernelIdeal
import proofs.«139411_j39719857553609_2_alg».proof.Proof.Gen.KernelIdeal.Frame
import proofs.«139411_j39719857553609_2_alg».proof.Proof.Gen.ReferenceIdeal
import proofs.«139411_j39719857553609_2_alg».proof.Proof.Gen.Pre_finite_inputs
import proofs.«139411_j39719857553609_2_alg».proof.Proof.KernelValue
import proofs.«139411_j39719857553609_2_alg».proof.Proof.RefRun
import proofs.«139411_j39719857553609_2_alg».proof.Proof.RefPlaces
import proofs.«139411_j39719857553609_2_alg».proof.Proof.RefValue

noncomputable section

namespace Cert.Proof

open Idealize.ShloMosaic Idealize.SL.Sem

/-- The kernel as printed runs and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- Both idealized programs end with the symmetric matrices of the argument's rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.sym (n := 32768) (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.ref_value Cert.ReferenceIdeal.Places.places_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
